-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S64x128x1x1 : Shape := ⟨4, ![64, 128, 1, 1]⟩
abbrev S128 : Shape := ⟨1, ![128]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S64x128x1x1 : S_.BroadcastsInDim S64x128x1x1 (![] : Fin 0 → Fin S64x128x1x1.rank)
  reducesTo_S64x128x1x1_S_d0_1_2_3 : S64x128x1x1.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x128x32x32 .f32) (main_arg1 : FVec F S64x128x1x1 .f32) (main_arg2 : FVec F S64x128x1x1 .f32) (main_arg3 : FVec F S128 .f32) (main_arg4 : FVec F S128 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S64x128x1x1 .f32 := Host.absf main_arg1
  let main_cst_0 : FVec F S_ .f32 := constant S_ .f32 0x7F800000#32
  let main_v5 : FVec F S64x128x1x1 .f32 := broadcastInDim S64x128x1x1 ![] bcast_S_S64x128x1x1 main_cst_0
  let main_v6 : IVec S64x128x1x1 1 := cmpf .olt main_v4 main_v5
  let main_c_1 : IVec S_ 1 := constantI S_ 1 1#1
  let main_v7 : IVec S_ 1 := (fun x v => Host.reduce IntOp.andi x v reducesTo_S64x128x1x1_S_d0_1_2_3 h_S_) main_v6 main_c_1
  let main_v8 : IVec S_ 1 := andi main_v3 main_v7
  let main_v9 : FVec F S64x128x1x1 .f32 := Host.absf main_arg2
  let main_cst_2 : FVec F S_ .f32 := constant S_ .f32 0x7F800000#32
  let main_v10 : FVec F S64x128x1x1 .f32 := broadcastInDim S64x128x1x1 ![] bcast_S_S64x128x1x1 main_cst_2
  let main_v11 : IVec S64x128x1x1 1 := cmpf .olt main_v9 main_v10
  let main_c_3 : IVec S_ 1 := constantI S_ 1 1#1
  let main_v12 : IVec S_ 1 := (fun x v => Host.reduce IntOp.andi x v reducesTo_S64x128x1x1_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S64x128x32x32 : Shape := ⟨4, ![64, 128, 32, 32]⟩
abbrev S64x128x1x1 : Shape := ⟨4, ![64, 128, 1, 1]⟩
abbrev S128 : Shape := ⟨1, ![128]⟩
abbrev S64x128x1024 : Shape := ⟨3, ![64, 128, 1024]⟩
abbrev S64x128 : Shape := ⟨2, ![64, 128]⟩
abbrev S128x1 : Shape := ⟨2, ![128, 1]⟩
abbrev S1024 : Shape := ⟨1, ![1024]⟩
abbrev S1024x1 : Shape := ⟨2, ![1024, 1]⟩
abbrev S256 : Shape := ⟨1, ![256]⟩
abbrev S1x256 : Shape := ⟨2, ![1, 256]⟩
abbrev S_ : Shape := ⟨0, ![]⟩
abbrev S1024x256 : Shape := ⟨2, ![1024, 256]⟩
abbrev S64x128x256 : Shape := ⟨3, ![64, 128, 256]⟩
abbrev S64x128x16x16 : Shape := ⟨4, ![64, 128, 16, 16]⟩
abbrev S16x128x1024 : Shape := ⟨3, ![16, 128, 1024]⟩
abbrev S16x128x256 : Shape := ⟨3, ![16, 128, 256]⟩
abbrev S128x2 : Shape := ⟨2, ![128, 2]⟩
abbrev S128x128 : Shape := ⟨2, ![128, 128]⟩
abbrev S1x128x1024 : Shape := ⟨3, ![1, 128, 1024]⟩
abbrev S128x1024 : Shape := ⟨2, ![128, 1024]⟩
abbrev S64x1024 : Shape := ⟨2, ![64, 1024]⟩
abbrev S64x256 : Shape := ⟨2, ![64, 256]⟩
abbrev S1x64x256 : Shape := ⟨3, ![1, 64, 256]⟩
abbrev S8x128x256 : Shape := ⟨3, ![8, 128, 256]⟩
abbrev S128x256 : Shape := ⟨2, ![128, 256]⟩
abbrev S1x128x1 : Shape := ⟨3, ![1, 128, 1]⟩

abbrev nBuf : Space → Nat
  | .hbm => 80
  | .vmem => 12
  | .smem => 0
  | _ => 0

abbrev bufTy : (tb : Table) → Fin (tcTables nBuf tb) → BufTy
  | .hbm, ⟨0, _⟩ => ⟨S64x128x32x32, .f32⟩
  | .hbm, ⟨1, _⟩ => ⟨S64x128x1x1, .f32⟩
  | .hbm, ⟨2, _⟩ => ⟨S64x128x1x1, .f32⟩
  | .hbm, ⟨3, _⟩ => ⟨S128, .f32⟩
  | .hbm, ⟨4, _⟩ => ⟨S128, .f32⟩
  | .hbm, ⟨5, _⟩ => ⟨S64x128x1024, .f32⟩
  | .hbm, ⟨6, _⟩ => ⟨S64x128, .f32⟩
  | .hbm, ⟨7, _⟩ => ⟨S64x128, .f32⟩
  | .hbm, ⟨8, _⟩ => ⟨S128x1, .f32⟩
  | .hbm, ⟨9, _⟩ => ⟨S128x1, .f32⟩
  | .hbm, ⟨10, _⟩ => ⟨S1024, .i32⟩
  | .hbm, ⟨11, _⟩ => ⟨S1024x1, .i32⟩
  | .hbm, ⟨12, _⟩ => ⟨S256, .i32⟩
  | .hbm, ⟨13, _⟩ => ⟨S1x256, .i32⟩
  | .hbm, ⟨14, _⟩ => ⟨S_, .i32⟩
  | .hbm, ⟨15, _⟩ => ⟨S_, .i32⟩
  | .hbm, ⟨16, _⟩ => ⟨S1x256, .i32⟩
  | .hbm, ⟨17, _⟩ => ⟨S1x256, .i32⟩
  | .hbm, ⟨18, _⟩ => ⟨S1x256, .i32⟩
  | .hbm, ⟨19, _⟩ => ⟨S_, .i32⟩
  | .hbm, ⟨20, _⟩ => ⟨S1x256, .i32⟩
  | .hbm, ⟨21, _⟩ => ⟨S1x256, .i1⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i1⟩
  | .hbm, ⟨27, _⟩ => ⟨S1x256, .i1⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S1x256, .i32⟩
  | .hbm, ⟨32, _⟩ => ⟨S_, .i32⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1x256, .i32⟩
  | .hbm, ⟨45, _⟩ => ⟨S1x256, .i32⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S_, .i32⟩
  | .hbm, ⟨53, _⟩ => ⟨S_, .i1⟩
  | .hbm, ⟨54, _⟩ => ⟨S1x256, .i1⟩
  | .hbm, ⟨55, _⟩ => ⟨S1x256, .i1⟩
  | .hbm, ⟨56, _⟩ => ⟨S1x256, .i1⟩
  | .hbm, ⟨57, _⟩ => ⟨S1x256, .i32⟩
  | .hbm, ⟨58, _⟩ => ⟨S1x256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i32⟩
  | .hbm, ⟨63, _⟩ => ⟨S1x256, .i32⟩
  | .hbm, ⟨64, _⟩ => ⟨S1024x256, .i32⟩
  | .hbm, ⟨65, _⟩ => ⟨S1024x256, .i32⟩
  | .hbm, ⟨66, _⟩ => ⟨S1024x256, .i1⟩
  | .hbm, ⟨67, _⟩ => ⟨S1024x256, .f32⟩
  | .hbm, ⟨68, _⟩ => ⟨S_, .i32⟩
  | .hbm, ⟨69, _⟩ => ⟨S1x256, .i32⟩
  | .hbm, ⟨70, _⟩ => ⟨S1x256, .i32⟩
  | .hbm, ⟨71, _⟩ => ⟨S_, .i32⟩
  | .hbm, ⟨72, _⟩ => ⟨S1x256, .i32⟩
  | .hbm, ⟨73, _⟩ => ⟨S1x256, .i32⟩
  | .hbm, ⟨74, _⟩ => ⟨S1024x256, .i32⟩
  | .hbm, ⟨75, _⟩ => ⟨S1024x256, .i32⟩
  | .hbm, ⟨76, _⟩ => ⟨S1024x256, .i1⟩
  | .hbm, ⟨77, _⟩ => ⟨S1024x256, .f32⟩
  | .hbm, ⟨78, _⟩ => ⟨S64x128x256, .f32⟩
  | .hbm, ⟨79, _⟩ => ⟨S64x128x16x16, .f32⟩
  | .local _ .vmem, ⟨0, _⟩ => ⟨S16x128x1024, .f32⟩
  | .local _ .vmem, ⟨1, _⟩ => ⟨S16x128x1024, .f32⟩
  | .local _ .vmem, ⟨2, _⟩ => ⟨S64x128, .f32⟩
  | .local _ .vmem, ⟨3, _⟩ => ⟨S64x128, .f32⟩
  | .local _ .vmem, ⟨4, _⟩ => ⟨S1024x256, .f32⟩
  | .local _ .vmem, ⟨5, _⟩ => ⟨S1024x256, .f32⟩
  | .local _ .vmem, ⟨6, _⟩ => ⟨S128x1, .f32⟩
  | .local _ .vmem, ⟨7, _⟩ => ⟨S128x1, .f32⟩
  | .local _ .vmem, ⟨8, _⟩ => ⟨S16x128x256, .f32⟩
  | .local _ .vmem, ⟨9, _⟩ => ⟨S16x128x256, .f32⟩
  | .local _ .vmem, ⟨10, _⟩ => ⟨S64x128x256, .f32⟩
  | .local _ .vmem, ⟨11, _⟩ => ⟨S128x2, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_v9 : Ref sig .tc := ⟨.hbm, 31, rfl⟩
abbrev main_call0_c_0 : Ref sig .tc := ⟨.hbm, 32, rfl⟩
abbrev main_call0_v10 : Ref sig .tc := ⟨.hbm, 33, rfl⟩
abbrev main_call0_v11 : Ref sig .tc := ⟨.hbm, 34, rfl⟩
abbrev main_call0_c_1 : Ref sig .tc := ⟨.hbm, 35, rfl⟩
abbrev main_call0_v12 : Ref sig .tc := ⟨.hbm, 36, rfl⟩
abbrev main_call0_v13 : Ref sig .tc := ⟨.hbm, 37, rfl⟩
abbrev main_call0_c_2 : Ref sig .tc := ⟨.hbm, 38, rfl⟩
abbrev main_call0_call1_v0 : Ref sig .tc := ⟨.hbm, 39, rfl⟩
abbrev main_call0_call1_c : Ref sig .tc := ⟨.hbm, 40, rfl⟩
abbrev main_call0_call1_v1 : Ref sig .tc := ⟨.hbm, 41, rfl⟩
abbrev main_call0_call1_c_0 : Ref sig .tc := ⟨.hbm, 42, rfl⟩
abbrev main_call0_call1_v2 : Ref sig .tc := ⟨.hbm, 43, rfl⟩
abbrev main_call0_call1_v3 : Ref sig .tc := ⟨.hbm, 44, rfl⟩
abbrev main_call0_call1_v4 : Ref sig .tc := ⟨.hbm, 45, rfl⟩
abbrev main_call0_call1_c_1 : Ref sig .tc := ⟨.hbm, 46, rfl⟩
abbrev main_call0_call1_v5 : Ref sig .tc := ⟨.hbm, 47, rfl⟩
abbrev main_call0_call1_v6 : Ref sig .tc := ⟨.hbm, 48, rfl⟩
abbrev main_call0_call1_c_2 : Ref sig .tc := ⟨.hbm, 49, rfl⟩
abbrev main_call0_call1_v7 : Ref sig .tc := ⟨.hbm, 50, rfl⟩
abbrev main_call0_call1_v8 : Ref sig .tc := ⟨.hbm, 51, rfl⟩
abbrev main_call0_call1_c_3 : Ref sig .tc := ⟨.hbm, 52, rfl⟩
abbrev main_call0_call1_v9 : Ref sig .tc := ⟨.hbm, 53, rfl⟩
abbrev main_call0_call1_v10 : Ref sig .tc := ⟨.hbm, 54, rfl⟩
abbrev main_call0_call1_v11 : Ref sig .tc := ⟨.hbm, 55, rfl⟩
abbrev main_call0_call1_v12 : Ref sig .tc := ⟨.hbm, 56, rfl⟩
abbrev main_call0_call1_v13 : Ref sig .tc := ⟨.hbm, 57, rfl⟩
abbrev main_call0_call1_v14 : Ref sig .tc := ⟨.hbm, 58, rfl⟩
abbrev main_call0_v14 : Ref sig .tc := ⟨.hbm, 59, rfl⟩
abbrev main_call0_c_3 : Ref sig .tc := ⟨.hbm, 60, rfl⟩
abbrev main_call0_v15 : Ref sig .tc := ⟨.hbm, 61, rfl⟩
abbrev main_call0_v16 : Ref sig .tc := ⟨.hbm, 62, rfl⟩
abbrev main_call0_v17 : Ref sig .tc := ⟨.hbm, 63, rfl⟩
abbrev main_call0_v18 : Ref sig .tc := ⟨.hbm, 64, rfl⟩
abbrev main_call0_v19 : Ref sig .tc := ⟨.hbm, 65, rfl⟩
abbrev main_call0_v20 : Ref sig .tc := ⟨.hbm, 66, rfl⟩
abbrev main_call0_v21 : Ref sig .tc := ⟨.hbm, 67, rfl⟩
abbrev main_call0_c_4 : Ref sig .tc := ⟨.hbm, 68, rfl⟩
abbrev main_call0_v22 : Ref sig .tc := ⟨.hbm, 69, rfl⟩
abbrev main_call0_v23 : Ref sig .tc := ⟨.hbm, 70, rfl⟩
abbrev main_call0_c_5 : Ref sig .tc := ⟨.hbm, 71, rfl⟩
abbrev main_call0_v24 : Ref sig .tc := ⟨.hbm, 72, rfl⟩
abbrev main_call0_v25 : Ref sig .tc := ⟨.hbm, 73, rfl⟩
abbrev main_call0_v26 : Ref sig .tc := ⟨.hbm, 74, rfl⟩
abbrev main_call0_v27 : Ref sig .tc := ⟨.hbm, 75, rfl⟩
abbrev main_call0_v28 : Ref sig .tc := ⟨.hbm, 76, rfl⟩
abbrev main_call0_v29 : Ref sig .tc := ⟨.hbm, 77, rfl⟩
abbrev main_call0_v30 : Ref sig .tc := ⟨.hbm, 78, rfl⟩
abbrev main_v0 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_18 : BitVec 32) : Fin 3 → Nat :=
  let arg1 : BitVec 32 := BitVec.ofNat 32 (i 1).val
  let c16_i32 : BitVec 32 := 16#32
  let v30 : BitVec 32 := Scalar.muli arg1 c16_i32
  let v31 : BitVec 32 := Scalar.addi v30 c0_i32_18
  let v32 : Index := Scalar.indexCast v31
  let c0_19 : Index := 0#32
  let c0_20 : Index := 0#32
  ![v32.toNat, 0, 0]
def k0_off2 (i : grid0.Coords) (c0_i32_22 : BitVec 32) : Fin 3 → Nat :=
  let arg1 : BitVec 32 := BitVec.ofNat 32 (i 1).val
  let c16_i32_21 : BitVec 32 := 16#32
  let v36 : BitVec 32 := Scalar.muli arg1 c16_i32_21
  let v37 : BitVec 32 := Scalar.addi v36 c0_i32_22
  let v38 : Index := Scalar.indexCast v37
  let c64 : Index := 64#32
  let c0_23 : Index := 0#32
  ![v38.toNat, 64, 0]
def k0_cond3 (i : grid0.Coords) : BitVec 1 :=
  let arg0 : BitVec 32 := BitVec.ofNat 32 (i 0).val
  let c1_i32_3 : BitVec 32 := 1#32
  let v8 : BitVec 1 := Scalar.cmpi .eq arg0 c1_i32_3
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg1 : BitVec 32 := BitVec.ofNat 32 (i 1).val
  let c16_i32 : BitVec 32 := 16#32
  let v13 : BitVec 32 := Scalar.muli arg1 c16_i32
  let v14 : Index := Scalar.indexCast v13
  let c0_7 : Index := 0#32
  let c0_8 : Index := 0#32
  ![v14.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S64x128x32x32_S64x128x1024 : S64x128x32x32.ShapeCasts S64x128x1024
  shapeCasts_S64x128x1x1_S64x128 : S64x128x1x1.ShapeCasts S64x128
  shapeCasts_S128_S128x1 : S128.ShapeCasts S128x1
  bcast_S1024_S1024x1_0 : S1024.BroadcastsInDim S1024x1 (![0] : Fin 1 → Fin S1024x1.rank)
  bcast_S256_S1x256_1 : S256.BroadcastsInDim S1x256 (![1] : Fin 1 → Fin S1x256.rank)
  bcast_S_S1x256 : S_.BroadcastsInDim S1x256 (![] : Fin 0 → Fin S1x256.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  shapeCasts_S64x128x256_S64x128x16x16 : S64x128x256.ShapeCasts S64x128x16x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  concatenates_S64x128_S64x128_S128x128_d0 : Shape.Concatenates [S64x128, S64x128] S128x128 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S16x128x1024_S1x128x1024_0_0_0 : ∀ a, (![0, 0, 0] : Fin 3 → Nat) a + S1x128x1024.size a ≤ S16x128x1024.size a
  h_S1x128x1024 : 0 < S1x128x1024.numel
  shapeCasts_S1x128x1024_S128x1024 : S1x128x1024.ShapeCasts S128x1024
  slices_S128x1024_o0_0_S64x1024 : S128x1024.Slices ![0, 0] S64x1024
  slices_S128x1024_o64_0_S64x1024 : S128x1024.Slices ![64, 0] S64x1024
  h_S1x64x256 : 0 < S1x64x256.numel
  shapeCasts_S1x64x256_S64x256 : S1x64x256.ShapeCasts S64x256
  shapeCasts_S64x256_S1x64x256 : S64x256.ShapeCasts S1x64x256
  inb_S16x128x1024_S1x128x1024_1_0_0 : ∀ a, (![1, 0, 0] : Fin 3 → Nat) a + S1x128x1024.size a ≤ S16x128x1024.size a
  inb_S16x128x1024_S1x128x1024_2_0_0 : ∀ a, (![2, 0, 0] : Fin 3 → Nat) a + S1x128x1024.size a ≤ S16x128x1024.size a
  inb_S16x128x1024_S1x128x1024_3_0_0 : ∀ a, (![3, 0, 0] : Fin 3 → Nat) a + S1x128x1024.size a ≤ S16x128x1024.size a
  inb_S16x128x1024_S1x128x1024_4_0_0 : ∀ a, (![4, 0, 0] : Fin 3 → Nat) a + S1x128x1024.size a ≤ S16x128x1024.size a
  inb_S16x128x1024_S1x128x1024_5_0_0 : ∀ a, (![5, 0, 0] : Fin 3 → Nat) a + S1x128x1024.size a ≤ S16x128x1024.size a
  inb_S16x128x1024_S1x128x1024_6_0_0 : ∀ a, (![6, 0, 0] : Fin 3 → Nat) a + S1x128x1024.size a ≤ S16x128x1024.size a
  inb_S16x128x1024_S1x128x1024_7_0_0 : ∀ a, (![7, 0, 0] : Fin 3 → Nat) a + S1x128x1024.size a ≤ S16x128x1024.size a
  inb_S16x128x1024_S1x128x1024_8_0_0 : ∀ a, (![8, 0, 0] : Fin 3 → Nat) a + S1x128x1024.size a ≤ S16x128x1024.size a
  inb_S16x128x1024_S1x128x1024_9_0_0 : ∀ a, (![9, 0, 0] : Fin 3 → Nat) a + S1x128x1024.size a ≤ S16x128x1024.size a
  inb_S16x128x1024_S1x128x1024_10_0_0 : ∀ a, (![10, 0, 0] : Fin 3 → Nat) a + S1x128x1024.size a ≤ S16x128x1024.size a
  inb_S16x128x1024_S1x128x1024_11_0_0 : ∀ a, (![11, 0, 0] : Fin 3 → Nat) a + S1x128x1024.size a ≤ S16x128x1024.size a
  inb_S16x128x1024_S1x128x1024_12_0_0 : ∀ a, (![12, 0, 0] : Fin 3 → Nat) a + S1x128x1024.size a ≤ S16x128x1024.size a
  inb_S16x128x1024_S1x128x1024_13_0_0 : ∀ a, (![13, 0, 0] : Fin 3 → Nat) a + S1x128x1024.size a ≤ S16x128x1024.size a
  inb_S16x128x1024_S1x128x1024_14_0_0 : ∀ a, (![14, 0, 0] : Fin 3 → Nat) a + S1x128x1024.size a ≤ S16x128x1024.size a
  inb_S16x128x1024_S1x128x1024_15_0_0 : ∀ a, (![15, 0, 0] : Fin 3 → Nat) a + S1x128x1024.size a ≤ S16x128x1024.size a
  inb_S64x128x256_S8x128x256_0_0_0 : ∀ a, (![0, 0, 0] : Fin 3 → Nat) a + S8x128x256.size a ≤ S64x128x256.size a
  h_S8x128x256 : 0 < S8x128x256.numel
  reduces_S8x128x256_S128x256 : S8x128x256.Reduces [0] S128x256
  reduces_S128x256_S128 : S128x256.Reduces [1] S128
  inb_S64x128x256_S8x128x256_8_0_0 : ∀ a, (![8, 0, 0] : Fin 3 → Nat) a + S8x128x256.size a ≤ S64x128x256.size a
  inb_S64x128x256_S8x128x256_16_0_0 : ∀ a, (![16, 0, 0] : Fin 3 → Nat) a + S8x128x256.size a ≤ S64x128x256.size a
  inb_S64x128x256_S8x128x256_24_0_0 : ∀ a, (![24, 0, 0] : Fin 3 → Nat) a + S8x128x256.size a ≤ S64x128x256.size a
  inb_S64x128x256_S8x128x256_32_0_0 : ∀ a, (![32, 0, 0] : Fin 3 → Nat) a + S8x128x256.size a ≤ S64x128x256.size a
  inb_S64x128x256_S8x128x256_40_0_0 : ∀ a, (![40, 0, 0] : Fin 3 → Nat) a + S8x128x256.size a ≤ S64x128x256.size a
  inb_S64x128x256_S8x128x256_48_0_0 : ∀ a, (![48, 0, 0] : Fin 3 → Nat) a + S8x128x256.size a ≤ S64x128x256.size a
  inb_S64x128x256_S8x128x256_56_0_0 : ∀ a, (![56, 0, 0] : Fin 3 → Nat) a + S8x128x256.size a ≤ S64x128x256.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x2_S128x1_0_0 : ∀ a, (![0, 0] : Fin 2 → Nat) a + S128x1.size a ≤ S128x2.size a
  inb_S128x2_S128x1_0_1 : ∀ a, (![0, 1] : Fin 2 → Nat) a + S128x1.size a ≤ S128x2.size a
  h_S16x128x256 : 0 < S16x128x256.numel
  shapeCasts_S128x1_S1x128x1 : S128x1.ShapeCasts S1x128x1
  broadcasts_S1x128x1_S16x128x256 : S1x128x1.Broadcasts S16x128x256
  inb_S16x128x256_S16x128x256_0_0_0 : ∀ a, (![0, 0, 0] : Fin 3 → Nat) a + S16x128x256.size a ≤ S16x128x256.size a
  dot_S128x128_S128x1024_S128x1024_1_0_0_1_n_n_wf : DotDims.WF S128x128 S128x1024 S128x1024 [1] [0] [0] [1] [] []
  dot_S64x1024_S1024x256_S64x256_1_0_0_1_n_n_wf : DotDims.WF S64x1024 S1024x256 S64x256 [1] [0] [0] [1] [] []
  hrank0 : 0 < grid0.rank
  k0_off1_inb : ∀ i : grid0.Coords, ∀ (k0_h1 : k0_cond1 i = 1#1), ∀ (r : Fin 16), ∀ a, (k0_off1 i (BitVec.ofNat 32 r.val)) a + S1x64x256.size a ≤ S64x128x256.size a
  k0_off2_inb : ∀ i : grid0.Coords, ∀ (k0_h1 : k0_cond1 i = 1#1), ∀ (r : Fin 16), ∀ a, (k0_off2 i (BitVec.ofNat 32 r.val)) a + S1x64x256.size a ≤ S64x128x256.size a
  k0_off3_inb : ∀ i : grid0.Coords, ∀ (k0_h3 : k0_cond3 i = 1#1), ∀ a, (k0_off3 i) a + S16x128x256.size a ≤ S64x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S64x128x1024.size a
  hwx0_0 : ∀ i : grid0.Coords, EltTy.bits .f32 = 32 ∨ (Rect.block (s := S64x128x1024) S16x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x256.size a ≤ S64x128x256.size a
  hwx0_7 : ∀ i : grid0.Coords, EltTy.bits .f32 = 32 ∨ (Rect.block (s := S64x128x256) S16x128x256.size (cc0_transform_7 i) (hinb0_7 i)).WholeWords (EltTy.packing .f32)

variable [Facts₀]

def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf

abbrev win0_0 : Pipeline.Window sig grid0 :=
  Pipeline.Window.ofSpec (Memref.whole main_call0_v0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v29) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v30) S16x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond3 i == 1#1) | ⟨_ + 8, h⟩ => absurd h (Nat.not_lt.2 (Nat.le_add_left _ _))

class Facts : Prop extends Facts₀ where

variable [Facts]
-- ==== ReferenceIdeal.lean ====
abbrev S64x128x32x32 : Shape := ⟨4, ![64, 128, 32, 32]⟩
abbrev S64x128x1x1 : Shape := ⟨4, ![64, 128, 1, 1]⟩
abbrev S128 : Shape := ⟨1, ![128]⟩
abbrev S64x128x16x2x16x2 : Shape := ⟨6, ![64, 128, 16, 2, 16, 2]⟩
abbrev S64x128x16x1x16x1 : Shape := ⟨6, ![64, 128, 16, 1, 16, 1]⟩
abbrev S64x128x16x16 : Shape := ⟨4, ![64, 128, 16, 16]⟩
abbrev S64x256x16x16 : Shape := ⟨4, ![64, 256, 16, 16]⟩
abbrev S64x256x256 : Shape := ⟨3, ![64, 256, 256]⟩
abbrev S_ : Shape := ⟨0, ![]⟩
abbrev S64x128 : Shape := ⟨2, ![64, 128]⟩
abbrev S128x256 : Shape := ⟨2, ![128, 256]⟩
abbrev S1 : Shape := ⟨1, ![1]⟩
abbrev S2 : Shape := ⟨1, ![2]⟩
abbrev S32x128x2 : Shape := ⟨3, ![32, 128, 2]⟩
abbrev S32x128x1 : Shape := ⟨3, ![32, 128, 1]⟩
abbrev S32x128 : Shape := ⟨2, ![32, 128]⟩
abbrev S128x1 : Shape := ⟨2, ![128, 1]⟩
abbrev S64x128x256 : Shape := ⟨3, ![64, 128, 256]⟩
abbrev S2x256x256 : Shape := ⟨3, ![2, 256, 256]⟩
abbrev S1x128x2 : Shape := ⟨3, ![1, 128, 2]⟩
abbrev S1x256x256 : Shape := ⟨3, ![1, 256, 256]⟩
abbrev S256x256 : Shape := ⟨2, ![256, 256]⟩
abbrev S1x128x1 : Shape := ⟨3, ![1, 128, 1]⟩
abbrev S2x128x256 : Shape := ⟨3, ![2, 128, 256]⟩
abbrev S1x128x256 : Shape := ⟨3, ![1, 128, 256]⟩

abbrev nBuf : Space → Nat
  | .hbm => 64
  | .vmem => 11
  | .smem => 0
  | _ => 0

abbrev bufTy : (tb : Table) → Fin (tcTables nBuf tb) → BufTy
  | .hbm, ⟨0, _⟩ => ⟨S64x128x32x32, .f32⟩
  | .hbm, ⟨1, _⟩ => ⟨S64x128x1x1, .f32⟩
  | .hbm, ⟨2, _⟩ => ⟨S64x128x1x1, .f32⟩
  | .hbm, ⟨3, _⟩ => ⟨S128, .f32⟩
  | .hbm, ⟨4, _⟩ => ⟨S128, .f32⟩
  | .hbm, ⟨5, _⟩ => ⟨S64x128x16x2x16x2, .f32⟩
  | .hbm, ⟨6, _⟩ => ⟨S64x128x16x1x16x1, .f32⟩
  | .hbm, ⟨7, _⟩ => ⟨S64x128x16x16, .f32⟩
  | .hbm, ⟨8, _⟩ => ⟨S64x128x16x1x16x1, .f32⟩
  | .hbm, ⟨9, _⟩ => ⟨S64x128x16x16, .f32⟩
  | .hbm, ⟨10, _⟩ => ⟨S64x256x16x16, .f32⟩
  | .hbm, ⟨11, _⟩ => ⟨S64x256x256, .f32⟩
  | .hbm, ⟨12, _⟩ => ⟨S_, .i32⟩
  | .hbm, ⟨13, _⟩ => ⟨S_, .f32⟩
  | .hbm, ⟨14, _⟩ => ⟨S64x256x256, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S128x256, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x256, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x256, .f32⟩
  | .hbm, ⟨31, _⟩ => ⟨S32x128x2, .f32⟩
  | .hbm, ⟨32, _⟩ => ⟨S32x128x1, .f32⟩
  | .hbm, ⟨33, _⟩ => ⟨S32x128, .f32⟩
  | .hbm, ⟨34, _⟩ => ⟨S_, .f32⟩
  | .hbm, ⟨35, _⟩ => ⟨S128, .f32⟩
  | .hbm, ⟨36, _⟩ => ⟨S32x128x1, .f32⟩
  | .hbm, ⟨37, _⟩ => ⟨S32x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128x1, .f32⟩
  | .hbm, ⟨59, _⟩ => ⟨S128x1, .f32⟩
  | .hbm, ⟨60, _⟩ => ⟨S128x256, .f32⟩
  | .hbm, ⟨61, _⟩ => ⟨S128x256, .f32⟩
  | .hbm, ⟨62, _⟩ => ⟨S64x128x256, .f32⟩
  | .hbm, ⟨63, _⟩ => ⟨S64x128x16x16, .f32⟩
  | .local _ .vmem, ⟨0, _⟩ => ⟨S2x256x256, .f32⟩
  | .local _ .vmem, ⟨1, _⟩ => ⟨S2x256x256, .f32⟩
  | .local _ .vmem, ⟨2, _⟩ => ⟨S128x256, .f32⟩
  | .local _ .vmem, ⟨3, _⟩ => ⟨S1x128x2, .f32⟩
  | .local _ .vmem, ⟨4, _⟩ => ⟨S1x128x2, .f32⟩
  | .local _ .vmem, ⟨5, _⟩ => ⟨S2x256x256, .f32⟩
  | .local _ .vmem, ⟨6, _⟩ => ⟨S2x256x256, .f32⟩
  | .local _ .vmem, ⟨7, _⟩ => ⟨S128x256, .f32⟩
  | .local _ .vmem, ⟨8, _⟩ => ⟨S128x1, .f32⟩
  | .local _ .vmem, ⟨9, _⟩ => ⟨S2x128x256, .f32⟩
  | .local _ .vmem, ⟨10, _⟩ => ⟨S2x128x256, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c : Ref sig .tc := ⟨.hbm, 12, rfl⟩
abbrev main_call0_call0_v0 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst : Ref sig .tc := ⟨.hbm, 17, rfl⟩
abbrev main_call0_v10 : Ref sig .tc := ⟨.hbm, 18, rfl⟩
abbrev main_call0_c_0 : Ref sig .tc := ⟨.hbm, 19, rfl⟩
abbrev main_call0_v11 : Ref sig .tc := ⟨.hbm, 20, rfl⟩
abbrev main_call0_c_1 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_2 : Ref sig .tc := ⟨.hbm, 25, rfl⟩
abbrev main_call0_v15 : Ref sig .tc := ⟨.hbm, 26, rfl⟩
abbrev main_call0_c_3 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_cst_4 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_cst_5 : Ref sig .tc := ⟨.hbm, 38, rfl⟩
abbrev main_call0_v25 : Ref sig .tc := ⟨.hbm, 39, rfl⟩
abbrev main_call0_cst_6 : Ref sig .tc := ⟨.hbm, 40, rfl⟩
abbrev main_call0_v26 : Ref sig .tc := ⟨.hbm, 41, rfl⟩
abbrev main_call0_v27 : Ref sig .tc := ⟨.hbm, 42, rfl⟩
abbrev main_call0_cst_7 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_cst_8 : Ref sig .tc := ⟨.hbm, 48, rfl⟩
abbrev main_call0_v32 : Ref sig .tc := ⟨.hbm, 49, rfl⟩
abbrev main_call0_v33 : Ref sig .tc := ⟨.hbm, 50, rfl⟩
abbrev main_call0_cst_9 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S2x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64x128x32x32_S64x128x16x2x16x2 : S64x128x32x32.ShapeCasts S64x128x16x2x16x2
  slices_S64x128x16x2x16x2_S64x128x16x1x16x1_0_0_0_0_0_0 : S64x128x16x2x16x2.Slices ![0, 0, 0, 0, 0, 0] S64x128x16x1x16x1
  shapeCasts_S64x128x16x1x16x1_S64x128x16x16 : S64x128x16x1x16x1.ShapeCasts S64x128x16x16
  slices_S64x128x16x2x16x2_S64x128x16x1x16x1_0_0_0_1_0_1 : S64x128x16x2x16x2.Slices ![0, 0, 0, 1, 0, 1] S64x128x16x1x16x1
  concatenates_S64x128x16x16_S64x128x16x16_S64x256x16x16_d1 : Shape.Concatenates [S64x128x16x16, S64x128x16x16] S64x256x16x16 1
  shapeCasts_S64x256x16x16_S64x256x256 : S64x256x16x16.ShapeCasts S64x256x256
  pads_S64x256x256_S64x256x256_000_000_000 : S64x256x256.Pads (![0, 0, 0] : Fin 3 → Nat) ![0, 0, 0] ![0, 0, 0] S64x256x256
  h_S_ : 0 < S_.numel
  shapeCasts_S64x128x1x1_S64x128 : S64x128x1x1.ShapeCasts S64x128
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  slices_S32x128x2_S32x128x1_0_0_0 : S32x128x2.Slices ![0, 0, 0] S32x128x1
  shapeCasts_S32x128x1_S32x128 : S32x128x1.ShapeCasts S32x128
  reducesTo_S32x128_S128_d0 : S32x128.ReducesTo [0] S128
  slices_S32x128x2_S32x128x1_0_0_1 : S32x128x2.Slices ![0, 0, 1] S32x128x1
  bcast_S_S128 : S_.BroadcastsInDim S128 (![] : Fin 0 → Fin S128.rank)
  shapeCasts_S128_S128x1 : S128.ShapeCasts S128x1
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S64x128x256_S64x128x16x16 : S64x128x256.ShapeCasts S64x128x16x16
  inb_S2x256x256_S2x256x256_0_0_0 : ∀ a, (![0, 0, 0] : Fin 3 → Nat) a + S2x256x256.size a ≤ S2x256x256.size a
  h_S2x256x256 : 0 < S2x256x256.numel
  shapeCasts_S2x256x256_S2x256x256 : S2x256x256.ShapeCasts S2x256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2x256x256_o0_0_0_S1x256x256 : S2x256x256.Slices ![0, 0, 0] S1x256x256
  shapeCasts_S1x256x256_S256x256 : S1x256x256.ShapeCasts S256x256
  reduces_S128x256_S128 : S128x256.Reduces [1] S128
  slices_S2x256x256_o1_0_0_S1x256x256 : S2x256x256.Slices ![1, 0, 0] S1x256x256
  inb_S1x128x2_S1x128x1_0_0_0 : ∀ a, (![0, 0, 0] : Fin 3 → Nat) a + S1x128x1.size a ≤ S1x128x2.size a
  h_S1x128x1 : 0 < S1x128x1.numel
  shapeCasts_S1x128x1_S128x1 : S1x128x1.ShapeCasts S128x1
  shapeCasts_S128x1_S1x128x1 : S128x1.ShapeCasts S1x128x1
  inb_S1x128x2_S1x128x1_0_0_1 : ∀ a, (![0, 0, 1] : Fin 3 → Nat) a + S1x128x1.size a ≤ S1x128x2.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  shapeCasts_S128x256_S1x128x256 : S128x256.ShapeCasts S1x128x256
  inb_S2x128x256_S1x128x256_1_0_0 : ∀ a, (![1, 0, 0] : Fin 3 → Nat) a + S1x128x256.size a ≤ S2x128x256.size a
  scatter_S128x256_S2_S64x128_01_n_01_0_wf : ScatterDims.WF S128x256 S2 S64x128 [0, 1] [] [0, 1] 0
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S64x256x256.size a
  hwx0_0 : ∀ i : grid0.Coords, EltTy.bits .f32 = 32 ∨ (Rect.block (s := S64x256x256) S2x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S32x128x2.size a
  hwx0_2 : ∀ i : grid0.Coords, EltTy.bits .f32 = 32 ∨ (Rect.block (s := S32x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x256.size a ≤ S64x256x256.size a
  hwx1_0 : ∀ i : grid1.Coords, EltTy.bits .f32 = 32 ∨ (Rect.block (s := S64x256x256) S2x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128x256.size a ≤ S64x128x256.size a
  hwx1_3 : ∀ i : grid1.Coords, EltTy.bits .f32 = 32 ∨ (Rect.block (s := S64x128x256) S2x128x256.size (cc1_transform_3 i) (hinb1_3 i)).WholeWords (EltTy.packing .f32)

variable [Facts₀]

def scatter_S128x256_S2_S64x128_01_n_01_0 : ScatterDims S128x256 S2 S64x128 where
  updateWindowDims := [0, 1]
  insertedWindowDims := []
  scatterDimsToOperandDims := [0, 1]
  indexVectorDim := 0
  wf := scatter_S128x256_S2_S64x128_01_n_01_0_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_call0_v7) S2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v7) S2x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v43) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v40) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v44) S2x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KCond.lean ====
/-
  The three conditions the kernel body branches on, as propositions over the grid coordinates (p, b):
  "p = 0" (the convolution phase), "p = 1 and b = 0" (the point that folds the batch statistics into a
  scale and a bias), "p = 1" (the normalisation phase); and a whole buffer's contents type and points-to.
-/
import proofs.«114091_g2000004280588758_pallasbulk_1102_22_alg».proof.Proof.Gen.Kernel.Frame
import proofs.«114091_g2000004280588758_pallasbulk_1102_22_alg».proof.Proof.Gen.Kernel.Skeleton
import Idealize.ShloMosaic.Lib.Tactic

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`: its contents type, and the memref's elements held at `f` (for a whole memref: the whole buffer). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- "p = 1 and b = 0": the condition of the branch that folds the statistics, as the body computes it. -/
abbrev condFold (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1

end Cert.Kernel.Body

end
-- ==== Proof.KGrid.lean ====
/-
  The grid is (p, b) with p ∈ {0, 1} and b ∈ {0, 1, 2, 3}, run in the order t = 4·p + b. Decided over its eight
  points: the convolution phase is t < 4, the statistics are folded at t = 4, the normalisation phase is 4 ≤ t;
  the rows of the large scratch the convolution phase writes at point t are 16·t + k (first halves at channel 0,
  second halves at channel 64), and the normalisation phase at point t reads rows 16·(t − 4) … 16·(t − 4) + 15.
-/
import proofs.«114091_g2000004280588758_pallasbulk_1102_22_alg».proof.Proof.KCond

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cond1_iff : ∀ t : Fin cfg0.N, k0_cond1 (grid0.coords t) = 1#1 ↔ t.val < 4 :=
  (by decide +kernel : ∀ t : Fin grid0.N, k0_cond1 (grid0.coords t) = 1#1 ↔ t.val < 4)
theorem condFold_iff : ∀ t : Fin cfg0.N, condFold (grid0.coords t) ↔ t.val = 4 :=
  (by decide +kernel : ∀ t : Fin grid0.N, condFold (grid0.coords t) ↔ t.val = 4)
theorem cond3_iff : ∀ t : Fin cfg0.N, k0_cond3 (grid0.coords t) = 1#1 ↔ 4 ≤ t.val :=
  (by decide +kernel : ∀ t : Fin grid0.N, k0_cond3 (grid0.coords t) = 1#1 ↔ 4 ≤ t.val)

/-- In the convolution phase image k of point t is parked in row 16·t + k: its first half from channel 0, -/
theorem off1_eq : ∀ t : Fin cfg0.N, t.val < 4 → ∀ k : Fin 16, k0_off1 (grid0.coords t) (BitVec.ofNat 32 k.val) = ![16 * t.val + k.val, 0, 0] :=
  (by decide +kernel : ∀ t : Fin grid0.N, t.val < 4 → ∀ k : Fin 16, k0_off1 (grid0.coords t) (BitVec.ofNat 32 k.val) = ![16 * t.val + k.val, 0, 0])
/-- its second half from channel 64. -/
theorem off2_eq : ∀ t : Fin cfg0.N, t.val < 4 → ∀ k : Fin 16, k0_off2 (grid0.coords t) (BitVec.ofNat 32 k.val) = ![16 * t.val + k.val, 64, 0] :=
  (by decide +kernel : ∀ t : Fin grid0.N, t.val < 4 → ∀ k : Fin 16, k0_off2 (grid0.coords t) (BitVec.ofNat 32 k.val) = ![16 * t.val + k.val, 64, 0])
/-- The normalisation phase at point t reads sixteen rows from row 16·(t − 4). -/
theorem off3_eq : ∀ t : Fin cfg0.N, 4 ≤ t.val → k0_off3 (grid0.coords t) = ![16 * (t.val - 4), 0, 0] :=
  (by decide +kernel : ∀ t : Fin grid0.N, 4 ≤ t.val → k0_off3 (grid0.coords t) = ![16 * (t.val - 4), 0, 0])

end Cert.Kernel.Body

end
-- ==== Proof.KRunA.lean ====
/-
  The convolution phase (p = 0): for each of the block's sixteen images the body applies the leaky rectifier
  max(x, 0.01·x), multiplies the stacked 128×128 weight by the 128×1024 image, picks the stride-two lattice points
  of the two halves by the two 1024×256 selection matrices, and parks the two 64×256 results in rows 16·b + k of
  the large scratch. Nothing else is written. What the large scratch holds afterwards is the value the run finds.
-/
import proofs.«114091_g2000004280588758_pallasbulk_1102_22_alg».proof.Proof.KCond

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- With p = 0: from the image block at `f2`, the two weights at `f3`, `f4`, the two selection matrices at `f5`,
    `f6` and the large scratch at `f10`, the body runs to its return leaving the inputs as they were and the large
    scratch at the value found. -/
noncomputable def runConv (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : k0_cond1 i = 1#1) (hc2 : ¬ condFold i) (hc3 : ¬ k0_cond3 i = 1#1)
    (f2 : Bf (F := F) c M2) (f3 : Bf (F := F) c M3) (f4 : Bf (F := F) c M4) (f5 : Bf (F := F) c M5) (f6 : Bf (F := F) c M6)
    (f10 : Bf (F := F) c M10) :
    { W : Bf (F := F) c M10 //
      ∀ (E : Set ℕ) (Q : PUnit → sProp 𝕄),
        iprop(pt c M2 f2 ∗ pt c M3 f3 ∗ pt c M4 f4 ∗ pt c M5 f5 ∗ pt c M6 f6 ∗ pt c M10 f10
          ∗ (iprop(pt c M2 f2 ∗ pt c M3 f3 ∗ pt c M4 f4 ∗ pt c M5 f5 ∗ pt c M6 f6 ∗ pt c M10 W) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨?_, fun E Q => ?run⟩
  case run =>
    iintro ⟨H2, H3, H4, H5, H6, H10, Hk⟩
    sl_unfold [cc0__fused_kernel]
    sl_exec_parts! (disch := first | exact hc1 | exact hc2 | exact hc3)
    sl_step
    iapply Hk
    isplitl [H2]; · iexact H2
    isplitl [H3]; · iexact H3
    isplitl [H4]; · iexact H4
    isplitl [H5]; · iexact H5
    isplitl [H6]; · iexact H6
    iexact H10

end Cert.Kernel.Body

end
-- ==== Proof.KRunB.lean ====
/-
  The first point of the normalisation phase (p = 1, b = 0): the body first folds the batch statistics — it reads
  all sixty-four parked images in eight slabs, sums them and their squares per channel, forms the mean, the clamped
  variance, scale = gamma · rsqrt(var + eps) and bias = beta − mean · scale, and stores the two columns over the
  whole small scratch — and then normalises its sixteen images as every later point does. What the small scratch
  and the output block hold afterwards are the values the run finds.
-/
import proofs.«114091_g2000004280588758_pallasbulk_1102_22_alg».proof.Proof.KCond

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With p = 1 and b = 0: from gamma's and beta's blocks at `f7`, `f8`, the parked activations at `f10`, and the
    output block and the small scratch at anything, the body runs to its return leaving the inputs and the parked
    activations as they were, and the small scratch and the output block at the values found. -/
noncomputable def runFold (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : ¬ k0_cond1 i = 1#1) (hc2 : condFold i) (hc3 : k0_cond3 i = 1#1)
    (f7 : Bf (F := F) c M7) (f8 : Bf (F := F) c M8) (f10 : Bf (F := F) c M10) :
    { W : Bf (F := F) c M9 × Bf (F := F) c M11 //
      ∀ (f9 : Bf (F := F) c M9) (f11 : Bf (F := F) c M11) (E : Set ℕ) (Q : PUnit → sProp 𝕄),
        iprop(pt c M7 f7 ∗ pt c M8 f8 ∗ pt c M9 f9 ∗ pt c M10 f10 ∗ pt c M11 f11
          ∗ (iprop(pt c M7 f7 ∗ pt c M8 f8 ∗ pt c M9 W.1 ∗ pt c M10 f10 ∗ pt c M11 W.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨⟨?_, ?_⟩, fun f9 f11 E Q => ?run⟩
  case run =>
    iintro ⟨H7, H8, H9, H10, H11, Hk⟩
    sl_unfold [cc0__fused_kernel]
    sl_exec_parts! (disch := first | exact hc1 | exact hc2 | exact hc3)
    sl_step
    iapply Hk
    isplitl [H7]; · iexact H7
    isplitl [H8]; · iexact H8
    isplitl [H9]; · iexact H9
    isplitl [H10]; · iexact H10
    iexact H11

end Cert.Kernel.Body

end
-- ==== Proof.KRunC.lean ====
/-
  The normalisation phase at a point other than its first (p = 1, b ≠ 0): the body only reads the scale and the
  bias columns from the small scratch, reads sixteen images of the parked activations, and stores
  y · scale + bias over the whole output block. What the output block holds afterwards is the value the run finds.
-/
import proofs.«114091_g2000004280588758_pallasbulk_1102_22_alg».proof.Proof.KCond

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With p = 1 and b ≠ 0: from the output block's buffer at anything, the parked activations at `f10` and the
    scale/bias scratch at `f11`, the body runs to its return leaving both scratches as they were and the output
    block at the value found (a function of `f10`, `f11` and the point alone). -/
noncomputable def runApply (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : ¬ k0_cond1 i = 1#1) (hc2 : ¬ condFold i) (hc3 : k0_cond3 i = 1#1)
    (f10 : Bf (F := F) c M10) (f11 : Bf (F := F) c M11) :
    { W : Bf (F := F) c M9 //
      ∀ (f9 : Bf (F := F) c M9) (E : Set ℕ) (Q : PUnit → sProp 𝕄),
        iprop(pt c M9 f9 ∗ pt c M10 f10 ∗ pt c M11 f11
          ∗ (iprop(pt c M9 W ∗ pt c M10 f10 ∗ pt c M11 f11) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨?_, fun f9 E Q => ?run⟩
  case run =>
    iintro ⟨H9, H10, H11, Hk⟩
    sl_unfold [cc0__fused_kernel]
    sl_exec! (disch := first | exact hc1 | exact hc2 | exact hc3)
    sl_step
    iapply Hk
    isplitl [H9]; · iexact H9
    isplitl [H10]; · iexact H10
    iexact H11

end Cert.Kernel.Body

end
-- ==== Proof.KData.lean ====
/-
  The proof data of the one region. The kernel keeps two scratch buffers across grid points: the large one, where the
  convolution phase parks the downsampled activations (sixteen rows per point), and the small one, which the first
  point of the normalisation phase fills with the folded scale and bias. Their contents are tracked point by point:
  "before point t, every row below 16·min(t, 4) of the large scratch holds what the convolution phase parks there, and
  from point 5 on the small scratch holds the folded columns". What is parked in a row does not depend on what the
  scratch held before (each row is written whole), so it is named by running the phase's stores over arbitrary contents.
-/
import proofs.«114091_g2000004280588758_pallasbulk_1102_22_alg».proof.Proof.KGrid
import proofs.«114091_g2000004280588758_pallasbulk_1102_22_alg».proof.Proof.KRunA
import proofs.«114091_g2000004280588758_pallasbulk_1102_22_alg».proof.Proof.KRunB
import proofs.«114091_g2000004280588758_pallasbulk_1102_22_alg».proof.Proof.KRunC

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The memrefs the pipeline calls the body with at a point -/

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
/-- The large scratch (64 images × 128 channels × 256 positions) and the small one (128 channels × 2). -/
abbrev Ms0 : Memref sig .tc .vmem S64x128x256 .f32 := Memref.whole cc0_scratch0
abbrev hMs0 : (Ms0).IsWhole := Memref.isWhole_whole _
abbrev Ms1 : Memref sig .tc .vmem S128x2 .f32 := Memref.whole cc0_scratch1
abbrev hMs1 : (Ms1).IsWhole := Memref.isWhole_whole _

/-! ## The input blocks at a point, as contents of their staging buffers -/

abbrev fin0 (t : Fin cfg0.N) : Bf (F := F) c (st0_0 t) := (hs0 t).unread (iblk m c 0 t)
abbrev fin1 (t : Fin cfg0.N) : Bf (F := F) c (st0_1 t) := (hs1 t).unread (iblk m c 1 t)
abbrev fin2 (t : Fin cfg0.N) : Bf (F := F) c (st0_2 t) := (hs2 t).unread (iblk m c 2 t)
abbrev fin3 (t : Fin cfg0.N) : Bf (F := F) c (st0_3 t) := (hs3 t).unread (iblk m c 3 t)
abbrev fin4 (t : Fin cfg0.N) : Bf (F := F) c (st0_4 t) := (hs4 t).unread (iblk m c 4 t)
abbrev fin5 (t : Fin cfg0.N) : Bf (F := F) c (st0_5 t) := (hs5 t).unread (iblk m c 5 t)
abbrev fin6 (t : Fin cfg0.N) : Bf (F := F) c (st0_6 t) := (hs6 t).unread (iblk m c 6 t)

/-! ## The conditions at a point -/

theorem c1_of_lt (t : Fin cfg0.N) (h : t.val < 4) : k0_cond1 (grid0.coords t) = 1#1 := (cond1_iff t).mpr h
theorem nc1_of_le (t : Fin cfg0.N) (h : 4 ≤ t.val) : ¬ k0_cond1 (grid0.coords t) = 1#1 := fun h' => by have := (cond1_iff t).mp h'; omega
theorem c2_of_eq (t : Fin cfg0.N) (h : t.val = 4) : condFold (grid0.coords t) := (condFold_iff t).mpr h
theorem nc2_of_ne (t : Fin cfg0.N) (h : t.val ≠ 4) : ¬ condFold (grid0.coords t) := fun h' => h ((condFold_iff t).mp h')
theorem c3_of_le (t : Fin cfg0.N) (h : 4 ≤ t.val) : k0_cond3 (grid0.coords t) = 1#1 := (cond3_iff t).mpr h
theorem nc3_of_lt (t : Fin cfg0.N) (h : t.val < 4) : ¬ k0_cond3 (grid0.coords t) = 1#1 := fun h' => by have := (cond3_iff t).mp h'; omega

/-! ## What the phases leave -/

/-- The large scratch after the convolution phase's point `t`, from contents `f10`. -/
def convAt (t : Fin cfg0.N) (ht : t.val < 4) (f10 : Bf (F := F) c Ms0) : Bf (F := F) c Ms0 :=
  (runConv c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (c1_of_lt t ht) (nc2_of_ne t (by omega)) (nc3_of_lt t ht) (fin0 m c t) (fin1 m c t) (fin2 m c t) (fin3 m c t) (fin4 m c t) f10).1

theorem N_eq : cfg0.N = 8 := N_0

/-- The same by the point's number (beyond the phase: nothing is written). -/
def convN (n : ℕ) (f10 : Bf (F := F) c Ms0) : Bf (F := F) c Ms0 :=
  if h : n < 4 then convAt m c ⟨n, by rw [N_eq]; omega⟩ h f10 else f10

/-- What the convolution phase parks at each element of the large scratch: the element as its row's point (the row's
    sixteenth) writes it, over anything. -/
def G (y : S64x128x256.Idx) : Elt F .f32 :=
  (Ms0).view.read (Elt F) (convN m c ((y 0).val / 16) (Ms0).view.junk) y

/-- The large scratch once the convolution phase is over. -/
def Ystar : Bf (F := F) c Ms0 := (hMs0).unread (G m c)

/-- The output block and the small scratch after the point that folds the statistics. -/
def foldAt (t : Fin cfg0.N) (ht : t.val = 4) : Bf (F := F) c (st0_7 t) × Bf (F := F) c Ms1 :=
  (runFold c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (nc1_of_le t (by omega)) (c2_of_eq t ht) (c3_of_le t (by omega)) (fin5 m c t) (fin6 m c t) (Ystar m c)).1

/-- The small scratch from then on: the folded scale and bias columns. -/
def Sstar : Bf (F := F) c Ms1 := (foldAt m c t0_4 rfl).2

/-- The output block after a later point of the normalisation phase. -/
def applyAt (t : Fin cfg0.N) (ht : 4 < t.val) : Bf (F := F) c (st0_7 t) :=
  (runApply c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (nc1_of_le t (by omega)) (nc2_of_ne t (by omega)) (c3_of_le t (by omega)) (Ystar m c) (Sstar m c)).1

/-- The output block's staging buffer after the body at point `t` (in the convolution phase the body leaves it alone). -/
def outAt (t : Fin cfg0.N) : Bf (F := F) c (st0_7 t) :=
  if h4 : t.val = 4 then (foldAt m c t h4).1
  else if h5 : 4 < t.val then applyAt m c t h5
  else (st0_7 t).view.junk

/-! ## The invariant and the proof data -/

/-- Before point `t`: the rows below 16·min(t, 4) of the large scratch are parked, and from point 5 on the small
    scratch holds the folded columns. -/
def Inv (t : Fin (cfg0.N + 1)) (f10 : Bf (F := F) c Ms0) (f11 : Bf (F := F) c Ms1) : Prop :=
  (∀ y : S64x128x256.Idx, (y 0).val < 16 * min t.val 4 → (Ms0).view.read (Elt F) f10 y = G m c y) ∧ (5 ≤ t.val → f11 = Sstar m c)

/-- The two scratch buffers at contents satisfying it, and the generator register at anything. -/
def PhiAt (t : Fin (cfg0.N + 1)) : sProp 𝕄 :=
  iprop(∃ (f10 : Bf (F := F) c Ms0) (f11 : Bf (F := F) c Ms1), ⌜Inv m c t f10 f11⌝ ∗ pt c Ms0 f10 ∗ pt c Ms1 f11 ∗ ∃ r, prngReg c r)

/-- The arrays as the region finds them; after the body each input's buffer at its block and the output's at
    `outAt`; the invariant `PhiAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st0_7 t).view.read (Elt F) (outAt m c t)
  Φ t := PhiAt m c t
  q _ := fullShare
  owed _ := 0

theorem A_eq (w : Fin cfg0.W) : (dats m 0 c).A w = V m c (Pipeline.arrRef spec0 w) := rfl
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = (st0_7 t).view.read (Elt F) (outAt m c t) := by dsimp only [dats]

/-- Each input's staging buffer holds its block when the body runs. -/
theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d
theorem before0_6 (t : Fin cfg0.N) (d) : (dats m 0 c).before 6 t d = iblk m c 6 t := before0_6_of m (dats m 0 c) (A_eq m c 6) (after0_6 m c) t d

end Cert.Kernel.Body

end
-- ==== Proof.KStepA.lean ====
/-
  What one point of the convolution phase does to the large scratch, element by element: point t writes exactly the
  rows 16·t … 16·t + 15 — image k's first half over channels 0 … 63 of row 16·t + k and its second half over channels
  64 … 127 — whole, so an element of those rows afterwards does not depend on what the scratch held, and an element of
  any other row is untouched.
-/
import proofs.«114091_g2000004280588758_pallasbulk_1102_22_alg».proof.Proof.KData

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Writes whose rectangles lie in a band and cover it: inside the band an element reads the same whatever was
    underneath, outside it reads what was underneath. -/
theorem read_writes_band {sg : RefSig} {κ : Kind} {sp : Space} {s : Shape} {e : EltTy} {Val : EltTy → Type}
    (v : View sg κ sp s e) (f g : v.ty.Contents Val) (L : List (View.Piece Val s e)) (band : s.Idx → Prop)
    (hin : ∀ p ∈ L, ∀ y, y ∈ p.1.set → band y) (hcov : ∀ y, band y → ∃ p ∈ L, y ∈ p.1.set) (y : s.Idx) :
    (band y → v.read Val (v.writes Val f L) y = v.read Val (v.writes Val g L) y)
      ∧ (¬ band y → v.read Val (v.writes Val f L) y = v.read Val f y) :=
  ⟨fun hb => View.read_writes_apply_eq v f v g y L (hcov y hb),
   fun hb => View.read_writes_apply_of_forall_not_mem v f y L fun p hp hy => hb (hin p hp y hy)⟩

/-- Membership in a unit-stride rectangle of the large scratch, axis by axis. -/
theorem mem_unit3 (off size : Fin 3 → ℕ) (inb : ∀ a, off a + size a ≤ S64x128x256.size a) (y : S64x128x256.Idx) :
    y ∈ (Rect.unit (s := S64x128x256) off size inb).set ↔
      (off 0 ≤ (y 0).val ∧ (y 0).val < off 0 + size 0) ∧ (off 1 ≤ (y 1).val ∧ (y 1).val < off 1 + size 1)
        ∧ (off 2 ≤ (y 2).val ∧ (y 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem off1_fin (t : Fin cfg0.N) (ht : t.val < 4) (K : Fin 16) (k : ℕ) (hk : K.val = k) :
    k0_off1 (grid0.coords t) (BitVec.ofNat 32 K.val) = ![16 * t.val + k, 0, 0] := by subst hk; exact off1_eq t ht K
theorem off2_fin (t : Fin cfg0.N) (ht : t.val < 4) (K : Fin 16) (k : ℕ) (hk : K.val = k) :
    k0_off2 (grid0.coords t) (BitVec.ofNat 32 K.val) = ![16 * t.val + k, 64, 0] := by subst hk; exact off2_eq t ht K

/-- The element at a position of a list is one of its elements. -/
theorem exists_of_getElem {α : Type} (L : List α) (n : ℕ) (h : n < L.length) (P : α → Prop) (hp : P L[n]) : ∃ p ∈ L, P p :=
  ⟨L[n], List.getElem_mem h, hp⟩

theorem off1_lit (t : Fin cfg0.N) (ht : t.val < 4) (k : ℕ) (hk : k < 16) :
    k0_off1 (grid0.coords t) (BitVec.ofNat 32 k) = ![16 * t.val + k, 0, 0] := off1_eq t ht ⟨k, hk⟩
theorem off2_lit (t : Fin cfg0.N) (ht : t.val < 4) (k : ℕ) (hk : k < 16) :
    k0_off2 (grid0.coords t) (BitVec.ofNat 32 k) = ![16 * t.val + k, 64, 0] := off2_eq t ht ⟨k, hk⟩

/-- A piece stored at row 16·t + k lies in point t's band of rows. -/
theorem band1 (t : Fin cfg0.N) (ht : t.val < 4) (k : ℕ) (hk : k < 16) (size : Fin 3 → ℕ) (hs : size 0 = 1)
    (inb : ∀ a, k0_off1 (grid0.coords t) (BitVec.ofNat 32 k) a + size a ≤ S64x128x256.size a) (y : S64x128x256.Idx)
    (hy : y ∈ (Rect.unit (s := S64x128x256) (k0_off1 (grid0.coords t) (BitVec.ofNat 32 k)) size inb).set) :
    16 * t.val ≤ (y 0).val ∧ (y 0).val < 16 * t.val + 16 := by
  have h0 := ((mem_unit3 _ _ _ y).mp hy).1
  rw [off1_lit t ht k hk, hs] at h0
  simp only [Matrix.cons_val_zero] at h0
  omega
theorem band2 (t : Fin cfg0.N) (ht : t.val < 4) (k : ℕ) (hk : k < 16) (size : Fin 3 → ℕ) (hs : size 0 = 1)
    (inb : ∀ a, k0_off2 (grid0.coords t) (BitVec.ofNat 32 k) a + size a ≤ S64x128x256.size a) (y : S64x128x256.Idx)
    (hy : y ∈ (Rect.unit (s := S64x128x256) (k0_off2 (grid0.coords t) (BitVec.ofNat 32 k)) size inb).set) :
    16 * t.val ≤ (y 0).val ∧ (y 0).val < 16 * t.val + 16 := by
  have h0 := ((mem_unit3 _ _ _ y).mp hy).1
  rw [off2_lit t ht k hk, hs] at h0
  simp only [Matrix.cons_val_zero] at h0
  omega

set_option maxHeartbeats 4000000 in
/-- Point t of the convolution phase, element by element. -/
theorem convAt_read (t : Fin cfg0.N) (ht : t.val < 4) (f g : Bf (F := F) c Ms0) (y : S64x128x256.Idx) :
    ((16 * t.val ≤ (y 0).val ∧ (y 0).val < 16 * t.val + 16) →
        (Ms0).view.read (Elt F) (convAt m c t ht f) y = (Ms0).view.read (Elt F) (convAt m c t ht g) y)
      ∧ (¬ (16 * t.val ≤ (y 0).val ∧ (y 0).val < 16 * t.val + 16) →
        (Ms0).view.read (Elt F) (convAt m c t ht f) y = (Ms0).view.read (Elt F) f y) := by
  unfold convAt runConv
  dsimp only
  unfold runConv.sl.H10_26 runConv.sl.H10_23 runConv.sl.H10_20 runConv.sl.H10_17 runConv.sl.H10_14 runConv.sl.H10_11
    runConv.sl.H10_8 runConv.sl.H10_4 runConv.sl.H10_2
  refine read_writes_band (Val := Elt F) (Ms0).view f g _ (fun y => 16 * t.val ≤ (y 0).val ∧ (y 0).val < 16 * t.val + 16) ?_ ?_ y
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · intro y hy; exact band2 t ht 15 (by omega) _ rfl _ y hy
    · intro y hy; exact band1 t ht 15 (by omega) _ rfl _ y hy
    · intro y hy; exact band2 t ht 14 (by omega) _ rfl _ y hy
    · intro y hy; exact band1 t ht 14 (by omega) _ rfl _ y hy
    · intro y hy; exact band2 t ht 13 (by omega) _ rfl _ y hy
    · intro y hy; exact band1 t ht 13 (by omega) _ rfl _ y hy
    · intro y hy; exact band2 t ht 12 (by omega) _ rfl _ y hy
    · intro y hy; exact band1 t ht 12 (by omega) _ rfl _ y hy
    · intro y hy; exact band2 t ht 11 (by omega) _ rfl _ y hy
    · intro y hy; exact band1 t ht 11 (by omega) _ rfl _ y hy
    · intro y hy; exact band2 t ht 10 (by omega) _ rfl _ y hy
    · intro y hy; exact band1 t ht 10 (by omega) _ rfl _ y hy
    · intro y hy; exact band2 t ht 9 (by omega) _ rfl _ y hy
    · intro y hy; exact band1 t ht 9 (by omega) _ rfl _ y hy
    · intro y hy; exact band2 t ht 8 (by omega) _ rfl _ y hy
    · intro y hy; exact band1 t ht 8 (by omega) _ rfl _ y hy
    · intro y hy; exact band2 t ht 7 (by omega) _ rfl _ y hy
    · intro y hy; exact band1 t ht 7 (by omega) _ rfl _ y hy
    · intro y hy; exact band2 t ht 6 (by omega) _ rfl _ y hy
    · intro y hy; exact band1 t ht 6 (by omega) _ rfl _ y hy
    · intro y hy; exact band2 t ht 5 (by omega) _ rfl _ y hy
    · intro y hy; exact band1 t ht 5 (by omega) _ rfl _ y hy
    · intro y hy; exact band2 t ht 4 (by omega) _ rfl _ y hy
    · intro y hy; exact band1 t ht 4 (by omega) _ rfl _ y hy
    · intro y hy; exact band2 t ht 3 (by omega) _ rfl _ y hy
    · intro y hy; exact band1 t ht 3 (by omega) _ rfl _ y hy
    · intro y hy; exact band2 t ht 2 (by omega) _ rfl _ y hy
    · intro y hy; exact band1 t ht 2 (by omega) _ rfl _ y hy
    · intro y hy; exact band2 t ht 1 (by omega) _ rfl _ y hy
    · intro y hy; exact band1 t ht 1 (by omega) _ rfl _ y hy
    · intro y hy; exact band2 t ht 0 (by omega) _ rfl _ y hy
    · intro y hy; exact band1 t ht 0 (by omega) _ rfl _ y hy
  · intro y hy
    have hy1 : (y 1).val < 128 := (y 1).isLt
    have hy2 : (y 2).val < 256 := (y 2).isLt
    have e1 : S1x64x256.size = ![1, 64, 256] := rfl
    have hk : (y 0).val = 16 * t.val + 0 ∨ (y 0).val = 16 * t.val + 1 ∨ (y 0).val = 16 * t.val + 2 ∨ (y 0).val = 16 * t.val + 3 ∨ (y 0).val = 16 * t.val + 4 ∨ (y 0).val = 16 * t.val + 5 ∨ (y 0).val = 16 * t.val + 6 ∨ (y 0).val = 16 * t.val + 7 ∨ (y 0).val = 16 * t.val + 8 ∨ (y 0).val = 16 * t.val + 9 ∨ (y 0).val = 16 * t.val + 10 ∨ (y 0).val = 16 * t.val + 11 ∨ (y 0).val = 16 * t.val + 12 ∨ (y 0).val = 16 * t.val + 13 ∨ (y 0).val = 16 * t.val + 14 ∨ (y 0).val = 16 * t.val + 15 := by omega
    rcases hk with hk | hk | hk | hk | hk | hk | hk | hk | hk | hk | hk | hk | hk | hk | hk | hk
    · by_cases hh : (y 1).val < 64
      · refine exists_of_getElem _ 31 ?_ _ ?_
        · show (31 : ℕ) < 32; decide
        refine (mem_unit3 _ _ (k0_off1_inb (grid0.coords t) (c1_of_lt t ht) 0) y).mpr ?_
        rw [off1_fin t ht 0 0 rfl]
        simp only [Matrix.cons_val_zero, Matrix.cons_val_one, Matrix.cons_val_two, Matrix.head_cons, Matrix.tail_cons, e1]
        omega
      · refine exists_of_getElem _ 30 ?_ _ ?_
        · show (30 : ℕ) < 32; decide
        refine (mem_unit3 _ _ (k0_off2_inb (grid0.coords t) (c1_of_lt t ht) 0) y).mpr ?_
        rw [off2_fin t ht 0 0 rfl]
        simp only [Matrix.cons_val_zero, Matrix.cons_val_one, Matrix.cons_val_two, Matrix.head_cons, Matrix.tail_cons, e1]
        omega
    · by_cases hh : (y 1).val < 64
      · refine exists_of_getElem _ 29 ?_ _ ?_
        · show (29 : ℕ) < 32; decide
        refine (mem_unit3 _ _ (k0_off1_inb (grid0.coords t) (c1_of_lt t ht) 1) y).mpr ?_
        rw [off1_fin t ht 1 1 rfl]
        simp only [Matrix.cons_val_zero, Matrix.cons_val_one, Matrix.cons_val_two, Matrix.head_cons, Matrix.tail_cons, e1]
        omega
      · refine exists_of_getElem _ 28 ?_ _ ?_
        · show (28 : ℕ) < 32; decide
        refine (mem_unit3 _ _ (k0_off2_inb (grid0.coords t) (c1_of_lt t ht) 1) y).mpr ?_
        rw [off2_fin t ht 1 1 rfl]
        simp only [Matrix.cons_val_zero, Matrix.cons_val_one, Matrix.cons_val_two, Matrix.head_cons, Matrix.tail_cons, e1]
        omega
    · by_cases hh : (y 1).val < 64
      · refine exists_of_getElem _ 27 ?_ _ ?_
        · show (27 : ℕ) < 32; decide
        refine (mem_unit3 _ _ (k0_off1_inb (grid0.coords t) (c1_of_lt t ht) 2) y).mpr ?_
        rw [off1_fin t ht 2 2 rfl]
        simp only [Matrix.cons_val_zero, Matrix.cons_val_one, Matrix.cons_val_two, Matrix.head_cons, Matrix.tail_cons, e1]
        omega
      · refine exists_of_getElem _ 26 ?_ _ ?_
        · show (26 : ℕ) < 32; decide
        refine (mem_unit3 _ _ (k0_off2_inb (grid0.coords t) (c1_of_lt t ht) 2) y).mpr ?_
        rw [off2_fin t ht 2 2 rfl]
        simp only [Matrix.cons_val_zero, Matrix.cons_val_one, Matrix.cons_val_two, Matrix.head_cons, Matrix.tail_cons, e1]
        omega
    · by_cases hh : (y 1).val < 64
      · refine exists_of_getElem _ 25 ?_ _ ?_
        · show (25 : ℕ) < 32; decide
        refine (mem_unit3 _ _ (k0_off1_inb (grid0.coords t) (c1_of_lt t ht) 3) y).mpr ?_
        rw [off1_fin t ht 3 3 rfl]
        simp only [Matrix.cons_val_zero, Matrix.cons_val_one, Matrix.cons_val_two, Matrix.head_cons, Matrix.tail_cons, e1]
        omega
      · refine exists_of_getElem _ 24 ?_ _ ?_
        · show (24 : ℕ) < 32; decide
        refine (mem_unit3 _ _ (k0_off2_inb (grid0.coords t) (c1_of_lt t ht) 3) y).mpr ?_
        rw [off2_fin t ht 3 3 rfl]
        simp only [Matrix.cons_val_zero, Matrix.cons_val_one, Matrix.cons_val_two, Matrix.head_cons, Matrix.tail_cons, e1]
        omega
    · by_cases hh : (y 1).val < 64
      · refine exists_of_getElem _ 23 ?_ _ ?_
        · show (23 : ℕ) < 32; decide
        refine (mem_unit3 _ _ (k0_off1_inb (grid0.coords t) (c1_of_lt t ht) 4) y).mpr ?_
        rw [off1_fin t ht 4 4 rfl]
        simp only [Matrix.cons_val_zero, Matrix.cons_val_one, Matrix.cons_val_two, Matrix.head_cons, Matrix.tail_cons, e1]
        omega
      · refine exists_of_getElem _ 22 ?_ _ ?_
        · show (22 : ℕ) < 32; decide
        refine (mem_unit3 _ _ (k0_off2_inb (grid0.coords t) (c1_of_lt t ht) 4) y).mpr ?_
        rw [off2_fin t ht 4 4 rfl]
        simp only [Matrix.cons_val_zero, Matrix.cons_val_one, Matrix.cons_val_two, Matrix.head_cons, Matrix.tail_cons, e1]
        omega
    · by_cases hh : (y 1).val < 64
      · refine exists_of_getElem _ 21 ?_ _ ?_
        · show (21 : ℕ) < 32; decide
        refine (mem_unit3 _ _ (k0_off1_inb (grid0.coords t) (c1_of_lt t ht) 5) y).mpr ?_
        rw [off1_fin t ht 5 5 rfl]
        simp only [Matrix.cons_val_zero, Matrix.cons_val_one, Matrix.cons_val_two, Matrix.head_cons, Matrix.tail_cons, e1]
        omega
      · refine exists_of_getElem _ 20 ?_ _ ?_
        · show (20 : ℕ) < 32; decide
        refine (mem_unit3 _ _ (k0_off2_inb (grid0.coords t) (c1_of_lt t ht) 5) y).mpr ?_
        rw [off2_fin t ht 5 5 rfl]
        simp only [Matrix.cons_val_zero, Matrix.cons_val_one, Matrix.cons_val_two, Matrix.head_cons, Matrix.tail_cons, e1]
        omega
    · by_cases hh : (y 1).val < 64
      · refine exists_of_getElem _ 19 ?_ _ ?_
        · show (19 : ℕ) < 32; decide
        refine (mem_unit3 _ _ (k0_off1_inb (grid0.coords t) (c1_of_lt t ht) 6) y).mpr ?_
        rw [off1_fin t ht 6 6 rfl]
        simp only [Matrix.cons_val_zero, Matrix.cons_val_one, Matrix.cons_val_two, Matrix.head_cons, Matrix.tail_cons, e1]
        omega
      · refine exists_of_getElem _ 18 ?_ _ ?_
        · show (18 : ℕ) < 32; decide
        refine (mem_unit3 _ _ (k0_off2_inb (grid0.coords t) (c1_of_lt t ht) 6) y).mpr ?_
        rw [off2_fin t ht 6 6 rfl]
        simp only [Matrix.cons_val_zero, Matrix.cons_val_one, Matrix.cons_val_two, Matrix.head_cons, Matrix.tail_cons, e1]
        omega
    · by_cases hh : (y 1).val < 64
      · refine exists_of_getElem _ 17 ?_ _ ?_
        · show (17 : ℕ) < 32; decide
        refine (mem_unit3 _ _ (k0_off1_inb (grid0.coords t) (c1_of_lt t ht) 7) y).mpr ?_
        rw [off1_fin t ht 7 7 rfl]
        simp only [Matrix.cons_val_zero, Matrix.cons_val_one, Matrix.cons_val_two, Matrix.head_cons, Matrix.tail_cons, e1]
        omega
      · refine exists_of_getElem _ 16 ?_ _ ?_
        · show (16 : ℕ) < 32; decide
        refine (mem_unit3 _ _ (k0_off2_inb (grid0.coords t) (c1_of_lt t ht) 7) y).mpr ?_
        rw [off2_fin t ht 7 7 rfl]
        simp only [Matrix.cons_val_zero, Matrix.cons_val_one, Matrix.cons_val_two, Matrix.head_cons, Matrix.tail_cons, e1]
        omega
    · by_cases hh : (y 1).val < 64
      · refine exists_of_getElem _ 15 ?_ _ ?_
        · show (15 : ℕ) < 32; decide
        refine (mem_unit3 _ _ (k0_off1_inb (grid0.coords t) (c1_of_lt t ht) 8) y).mpr ?_
        rw [off1_fin t ht 8 8 rfl]
        simp only [Matrix.cons_val_zero, Matrix.cons_val_one, Matrix.cons_val_two, Matrix.head_cons, Matrix.tail_cons, e1]
        omega
      · refine exists_of_getElem _ 14 ?_ _ ?_
        · show (14 : ℕ) < 32; decide
        refine (mem_unit3 _ _ (k0_off2_inb (grid0.coords t) (c1_of_lt t ht) 8) y).mpr ?_
        rw [off2_fin t ht 8 8 rfl]
        simp only [Matrix.cons_val_zero, Matrix.cons_val_one, Matrix.cons_val_two, Matrix.head_cons, Matrix.tail_cons, e1]
        omega
    · by_cases hh : (y 1).val < 64
      · refine exists_of_getElem _ 13 ?_ _ ?_
        · show (13 : ℕ) < 32; decide
        refine (mem_unit3 _ _ (k0_off1_inb (grid0.coords t) (c1_of_lt t ht) 9) y).mpr ?_
        rw [off1_fin t ht 9 9 rfl]
        simp only [Matrix.cons_val_zero, Matrix.cons_val_one, Matrix.cons_val_two, Matrix.head_cons, Matrix.tail_cons, e1]
        omega
      · refine exists_of_getElem _ 12 ?_ _ ?_
        · show (12 : ℕ) < 32; decide
        refine (mem_unit3 _ _ (k0_off2_inb (grid0.coords t) (c1_of_lt t ht) 9) y).mpr ?_
        rw [off2_fin t ht 9 9 rfl]
        simp only [Matrix.cons_val_zero, Matrix.cons_val_one, Matrix.cons_val_two, Matrix.head_cons, Matrix.tail_cons, e1]
        omega
    · by_cases hh : (y 1).val < 64
      · refine exists_of_getElem _ 11 ?_ _ ?_
        · show (11 : ℕ) < 32; decide
        refine (mem_unit3 _ _ (k0_off1_inb (grid0.coords t) (c1_of_lt t ht) 10) y).mpr ?_
        rw [off1_fin t ht 10 10 rfl]
        simp only [Matrix.cons_val_zero, Matrix.cons_val_one, Matrix.cons_val_two, Matrix.head_cons, Matrix.tail_cons, e1]
        omega
      · refine exists_of_getElem _ 10 ?_ _ ?_
        · show (10 : ℕ) < 32; decide
        refine (mem_unit3 _ _ (k0_off2_inb (grid0.coords t) (c1_of_lt t ht) 10) y).mpr ?_
        rw [off2_fin t ht 10 10 rfl]
        simp only [Matrix.cons_val_zero, Matrix.cons_val_one, Matrix.cons_val_two, Matrix.head_cons, Matrix.tail_cons, e1]
        omega
    · by_cases hh : (y 1).val < 64
      · refine exists_of_getElem _ 9 ?_ _ ?_
        · show (9 : ℕ) < 32; decide
        refine (mem_unit3 _ _ (k0_off1_inb (grid0.coords t) (c1_of_lt t ht) 11) y).mpr ?_
        rw [off1_fin t ht 11 11 rfl]
        simp only [Matrix.cons_val_zero, Matrix.cons_val_one, Matrix.cons_val_two, Matrix.head_cons, Matrix.tail_cons, e1]
        omega
      · refine exists_of_getElem _ 8 ?_ _ ?_
        · show (8 : ℕ) < 32; decide
        refine (mem_unit3 _ _ (k0_off2_inb (grid0.coords t) (c1_of_lt t ht) 11) y).mpr ?_
        rw [off2_fin t ht 11 11 rfl]
        simp only [Matrix.cons_val_zero, Matrix.cons_val_one, Matrix.cons_val_two, Matrix.head_cons, Matrix.tail_cons, e1]
        omega
    · by_cases hh : (y 1).val < 64
      · refine exists_of_getElem _ 7 ?_ _ ?_
        · show (7 : ℕ) < 32; decide
        refine (mem_unit3 _ _ (k0_off1_inb (grid0.coords t) (c1_of_lt t ht) 12) y).mpr ?_
        rw [off1_fin t ht 12 12 rfl]
        simp only [Matrix.cons_val_zero, Matrix.cons_val_one, Matrix.cons_val_two, Matrix.head_cons, Matrix.tail_cons, e1]
        omega
      · refine exists_of_getElem _ 6 ?_ _ ?_
        · show (6 : ℕ) < 32; decide
        refine (mem_unit3 _ _ (k0_off2_inb (grid0.coords t) (c1_of_lt t ht) 12) y).mpr ?_
        rw [off2_fin t ht 12 12 rfl]
        simp only [Matrix.cons_val_zero, Matrix.cons_val_one, Matrix.cons_val_two, Matrix.head_cons, Matrix.tail_cons, e1]
        omega
    · by_cases hh : (y 1).val < 64
      · refine exists_of_getElem _ 5 ?_ _ ?_
        · show (5 : ℕ) < 32; decide
        refine (mem_unit3 _ _ (k0_off1_inb (grid0.coords t) (c1_of_lt t ht) 13) y).mpr ?_
        rw [off1_fin t ht 13 13 rfl]
        simp only [Matrix.cons_val_zero, Matrix.cons_val_one, Matrix.cons_val_two, Matrix.head_cons, Matrix.tail_cons, e1]
        omega
      · refine exists_of_getElem _ 4 ?_ _ ?_
        · show (4 : ℕ) < 32; decide
        refine (mem_unit3 _ _ (k0_off2_inb (grid0.coords t) (c1_of_lt t ht) 13) y).mpr ?_
        rw [off2_fin t ht 13 13 rfl]
        simp only [Matrix.cons_val_zero, Matrix.cons_val_one, Matrix.cons_val_two, Matrix.head_cons, Matrix.tail_cons, e1]
        omega
    · by_cases hh : (y 1).val < 64
      · refine exists_of_getElem _ 3 ?_ _ ?_
        · show (3 : ℕ) < 32; decide
        refine (mem_unit3 _ _ (k0_off1_inb (grid0.coords t) (c1_of_lt t ht) 14) y).mpr ?_
        rw [off1_fin t ht 14 14 rfl]
        simp only [Matrix.cons_val_zero, Matrix.cons_val_one, Matrix.cons_val_two, Matrix.head_cons, Matrix.tail_cons, e1]
        omega
      · refine exists_of_getElem _ 2 ?_ _ ?_
        · show (2 : ℕ) < 32; decide
        refine (mem_unit3 _ _ (k0_off2_inb (grid0.coords t) (c1_of_lt t ht) 14) y).mpr ?_
        rw [off2_fin t ht 14 14 rfl]
        simp only [Matrix.cons_val_zero, Matrix.cons_val_one, Matrix.cons_val_two, Matrix.head_cons, Matrix.tail_cons, e1]
        omega
    · by_cases hh : (y 1).val < 64
      · refine exists_of_getElem _ 1 ?_ _ ?_
        · show (1 : ℕ) < 32; decide
        refine (mem_unit3 _ _ (k0_off1_inb (grid0.coords t) (c1_of_lt t ht) 15) y).mpr ?_
        rw [off1_fin t ht 15 15 rfl]
        simp only [Matrix.cons_val_zero, Matrix.cons_val_one, Matrix.cons_val_two, Matrix.head_cons, Matrix.tail_cons, e1]
        omega
      · refine exists_of_getElem _ 0 ?_ _ ?_
        · show (0 : ℕ) < 32; decide
        refine (mem_unit3 _ _ (k0_off2_inb (grid0.coords t) (c1_of_lt t ht) 15) y).mpr ?_
        rw [off2_fin t ht 15 15 rfl]
        simp only [Matrix.cons_val_zero, Matrix.cons_val_one, Matrix.cons_val_two, Matrix.head_cons, Matrix.tail_cons, e1]
        omega

end Cert.Kernel.Body

end
-- ==== Proof.KObl.lean ====
/-
  The body obligation of the region: at every grid point the body, called with the point's staging buffers and the two
  scratch buffers at contents satisfying the invariant, runs and re-establishes the invariant for the next point. In the
  convolution phase (t < 4) sixteen more rows get parked; at t = 4 all sixty-four rows are parked, so the large scratch
  IS the parked contents, and the small scratch becomes the folded columns; from then on neither changes. The output
  block is left alone in the convolution phase and written whole at every point of the normalisation phase.
-/
import proofs.«114091_g2000004280588758_pallasbulk_1102_22_alg».proof.Proof.KStepA

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The schedule's facts the obligation uses, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- In the convolution phase the body stores nothing into the output block, and the block is not written back. -/
theorem idleAt7 : ∀ t : Fin cfg0.N, t.val < 4 → cfg0.idle 7 (grid0.coords t) = true := by decide +kernel
theorem noFlush7 : ∀ t : Fin cfg0.N, t.val < 4 → (cfg0.win 7).flush t = false := by decide +kernel
/-- In the normalisation phase it stores the block. -/
theorem liveAt7 : ∀ t : Fin cfg0.N, 4 ≤ t.val → cfg0.idle 7 (grid0.coords t) = false := by decide +kernel

/-! ## The invariant, point to point -/

/-- The point's writes by the point's number. -/
theorem convN_eq (t : Fin cfg0.N) (ht : t.val < 4) (n : ℕ) (hn : n = t.val) (f : Bf (F := F) c Ms0) :
    convN m c n f = convAt m c t ht f := by
  subst hn; unfold convN; rw [dif_pos ht]

/-- An element of the rows point t parks holds what that point writes there over anything. -/
theorem G_of_row (t : Fin cfg0.N) (ht : t.val < 4) (y : S64x128x256.Idx)
    (hy : 16 * t.val ≤ (y 0).val ∧ (y 0).val < 16 * t.val + 16) :
    G m c y = (Ms0).view.read (Elt F) (convAt m c t ht (Ms0).view.junk) y := by
  unfold G
  rw [convN_eq m c t ht _ (by omega)]

/-- A point of the convolution phase parks its sixteen rows and leaves the earlier ones. -/
theorem inv_conv (t : Fin cfg0.N) (ht : t.val < 4) (f10 : Bf (F := F) c Ms0) (f11 : Bf (F := F) c Ms1)
    (h : Inv m c t.castSucc f10 f11) : Inv m c t.succ (convAt m c t ht f10) f11 := by
  refine ⟨fun y hy => ?_, fun h5 => ?_⟩
  · rw [Fin.val_succ] at hy
    have hmin : min (t.val + 1) 4 = t.val + 1 := by omega
    rw [hmin] at hy
    by_cases hb : 16 * t.val ≤ (y 0).val ∧ (y 0).val < 16 * t.val + 16
    · rw [(convAt_read m c t ht f10 (Ms0).view.junk y).1 hb, G_of_row m c t ht y hb]
    · rw [(convAt_read m c t ht f10 (Ms0).view.junk y).2 hb]
      refine h.1 y ?_
      rw [Fin.coe_castSucc]
      have hmin' : min t.val 4 = t.val := by omega
      rw [hmin']; omega
  · exfalso; rw [Fin.val_succ] at h5; omega

/-- Once the convolution phase is over the large scratch is the parked contents. -/
theorem eq_Ystar (t : Fin (cfg0.N + 1)) (ht : 4 ≤ t.val) (f10 : Bf (F := F) c Ms0) (f11 : Bf (F := F) c Ms1)
    (h : Inv m c t f10 f11) : f10 = Ystar m c := by
  unfold Ystar
  refine (hMs0).eq_unread (funext fun y => h.1 y ?_)
  have hy : (y 0).val < 64 := (y 0).isLt
  have hmin : min t.val 4 = 4 := by omega
  rw [hmin]; omega

/-- The parked contents satisfy the first half of the invariant at every point. -/
theorem inv_Ystar (t : Fin (cfg0.N + 1)) (y : S64x128x256.Idx) : (Ms0).view.read (Elt F) (Ystar m c) y = G m c y := by
  unfold Ystar; rw [(hMs0).read_unread]

/-! ## The body at a generic point -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiAt m c t.succ from rfl, show (dats m 0 c).Φ t.castSucc = PhiAt m c t.castSucc from rfl]
  rw [show (dats m 0 c).leavesExact 0 t = owns (c : Thread nD τ) (st0_0 t) fullShare ((dats m 0 c).after 0 t) from by
    unfold Dat.leavesExact; rw [liveAt0_0 t], after0_0]
  rw [show (dats m 0 c).leavesExact 1 t = owns (c : Thread nD τ) (st0_1 t) fullShare ((dats m 0 c).after 1 t) from by
    unfold Dat.leavesExact; rw [liveAt0_1 t], after0_1]
  rw [show (dats m 0 c).leavesExact 2 t = owns (c : Thread nD τ) (st0_2 t) fullShare ((dats m 0 c).after 2 t) from by
    unfold Dat.leavesExact; rw [liveAt0_2 t], after0_2]
  rw [show (dats m 0 c).leavesExact 3 t = owns (c : Thread nD τ) (st0_3 t) fullShare ((dats m 0 c).after 3 t) from by
    unfold Dat.leavesExact; rw [liveAt0_3 t], after0_3]
  rw [show (dats m 0 c).leavesExact 4 t = owns (c : Thread nD τ) (st0_4 t) fullShare ((dats m 0 c).after 4 t) from by
    unfold Dat.leavesExact; rw [liveAt0_4 t], after0_4]
  rw [show (dats m 0 c).leavesExact 5 t = owns (c : Thread nD τ) (st0_5 t) fullShare ((dats m 0 c).after 5 t) from by
    unfold Dat.leavesExact; rw [liveAt0_5 t], after0_5]
  rw [show (dats m 0 c).leavesExact 6 t = owns (c : Thread nD τ) (st0_6 t) fullShare ((dats m 0 c).after 6 t) from by
    unfold Dat.leavesExact; rw [liveAt0_6 t], after0_6]
  simp only [after0_0, after0_1, after0_2, after0_3, after0_4, after0_5, after0_6]
  have hN : t.val < 8 := lt_of_lt_of_eq t.isLt N_eq
  by_cases h4 : t.val < 4
  · rw [Dat.leavesExact_idle (dats m 0 c) 7 t (idleAt7 t h4) (noFlush7 t h4)]
    unfold PhiAt
    iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, H7⟩
    unfold owns
    icases H0 with ⟨%g0, %hg0, H0⟩
    icases H1 with ⟨%g1, %hg1, H1⟩
    icases H2 with ⟨%g2, %hg2, H2⟩
    icases H3 with ⟨%g3, %hg3, H3⟩
    icases H4 with ⟨%g4, %hg4, H4⟩
    obtain rfl := (hs0 t).eq_unread hg0
    obtain rfl := (hs1 t).eq_unread hg1
    obtain rfl := (hs2 t).eq_unread hg2
    obtain rfl := (hs3 t).eq_unread hg3
    obtain rfl := (hs4 t).eq_unread hg4
    iapply ((runConv c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
      (c1_of_lt t h4) (nc2_of_ne t (by omega)) (nc3_of_lt t h4) (fin0 m c t) (fin1 m c t) (fin2 m c t) (fin3 m c t) (fin4 m c t) f10).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 HS1 Hg]
    · iexists (convAt m c t h4 f10), f11
      isplitr; · ipureintro; exact inv_conv m c t h4 f10 f11 hinv
      isplitl [HS0]; · iexact HS0
      isplitl [HS1]; · iexact HS1
      iexact Hg
    isplitl [Ho]; · iexact Ho
    isplitl [H0]
    · iexists _; isplitr; swap; · iexact H0
      ipureintro; exact (hs0 t).read_unread _
    isplitl [H1]
    · iexists _; isplitr; swap; · iexact H1
      ipureintro; exact (hs1 t).read_unread _
    isplitl [H2]
    · iexists _; isplitr; swap; · iexact H2
      ipureintro; exact (hs2 t).read_unread _
    isplitl [H3]
    · iexists _; isplitr; swap; · iexact H3
      ipureintro; exact (hs3 t).read_unread _
    isplitl [H4]
    · iexists _; isplitr; swap; · iexact H4
      ipureintro; exact (hs4 t).read_unread _
    isplitl [H5]; · iexact H5
    isplitl [H6]; · iexact H6
    iexact H7
  · by_cases h44 : t.val = 4
    · rw [show (dats m 0 c).leavesExact 7 t = owns (c : Thread nD τ) (st0_7 t) fullShare ((dats m 0 c).after 7 t) from by
        unfold Dat.leavesExact; rw [liveAt7 t (by omega)], after0_7]
      unfold PhiAt
      iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold owns
      icases H5 with ⟨%g5, %hg5, H5⟩
      icases H6 with ⟨%g6, %hg6, H6⟩
      icases H7 with ⟨%g7, -, H7⟩
      obtain rfl := (hs5 t).eq_unread hg5
      obtain rfl := (hs6 t).eq_unread hg6
      obtain rfl := eq_Ystar m c t.castSucc (by rw [Fin.coe_castSucc]; omega) f10 f11 hinv
      iapply ((runFold c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
        (nc1_of_le t (by omega)) (c2_of_eq t h44) (c3_of_le t (by omega)) (fin5 m c t) (fin6 m c t) (Ystar m c)).2 g7 f11 Set.univ _)
      isplitl [H5]; · iexact H5
      isplitl [H6]; · iexact H6
      isplitl [H7]; · iexact H7
      isplitl [HS0]; · iexact HS0
      isplitl [HS1]; · iexact HS1
      iintro ⟨H5, H6, H7, HS0, HS1⟩
      isplitl [HS0 HS1 Hg]
      · iexists (Ystar m c), (foldAt m c t h44).2
        isplitr
        · ipureintro
          refine ⟨fun y _ => inv_Ystar m c t.succ y, fun _ => ?_⟩
          have ht : t = t0_4 := Fin.ext h44
          subst ht; rfl
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact (hs5 t).read_unread _
      isplitl [H6]
      · iexists _; isplitr; swap; · iexact H6
        ipureintro; exact (hs6 t).read_unread _
      iexists _; isplitr; swap; · iexact H7
      ipureintro; unfold outAt; rw [dif_pos h44]; rfl
    · have h5 : 4 < t.val := by omega
      rw [show (dats m 0 c).leavesExact 7 t = owns (c : Thread nD τ) (st0_7 t) fullShare ((dats m 0 c).after 7 t) from by
        unfold Dat.leavesExact; rw [liveAt7 t (by omega)], after0_7]
      unfold PhiAt
      iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold owns
      icases H7 with ⟨%g7, -, H7⟩
      obtain rfl := eq_Ystar m c t.castSucc (by rw [Fin.coe_castSucc]; omega) f10 f11 hinv
      obtain rfl := hinv.2 (by rw [Fin.coe_castSucc]; omega)
      iapply ((runApply c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
        (nc1_of_le t (by omega)) (nc2_of_ne t h44) (c3_of_le t (by omega)) (Ystar m c) (Sstar m c)).2 g7 Set.univ _)
      isplitl [H7]; · iexact H7
      isplitl [HS0]; · iexact HS0
      isplitl [HS1]; · iexact HS1
      iintro ⟨H7, HS0, HS1⟩
      isplitl [HS0 HS1 Hg]
      · iexists (Ystar m c), (Sstar m c)
        isplitr
        · ipureintro; exact ⟨fun y _ => inv_Ystar m c t.succ y, fun _ => rfl⟩
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; isplitr; swap; · iexact H7
      ipureintro; unfold outAt; rw [dif_neg h44, dif_pos h5]; rfl

/-- The library's body obligation, at every point. -/
theorem body_obligation : BodyObligation (dats (F := F) m 0 c) (defs₀ (F := F)) Variants.none () Set.univ := fun t => by
  rw [bigSep_W0, bigSep_W0]
  exact sound_body m c t

end Cert.Kernel.Body

end
-- ==== Proof.KRun.lean ====
/-
  The run of @main: the host lines before the region, the region at the proof data of the previous modules, the host
  line after it (the result's reshape). Before the first point the two scratch buffers hold anything, which is the
  invariant at point 0 (no row is parked yet); after the last point their contents are forgotten again.
-/
import proofs.«114091_g2000004280588758_pallasbulk_1102_22_alg».proof.Proof.KObl

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer held through its whole memref is the buffer held. -/
theorem pt_scratch0 (c : Dev nD) (f : Buf (Elt F) ((c : Thread nD τ).loc cc0_scratch0)) :
    (pt c Ms0 f : sProp 𝕄) = (((c : Thread nD τ).loc cc0_scratch0) ↦{fullShare} f) := by
  show (((Memref.whole cc0_scratch0 : Memref sig .tc .vmem S64x128x256 .f32).view.loc (c : Thread nD τ))
    ↦[(Memref.whole cc0_scratch0 : Memref sig .tc .vmem S64x128x256 .f32).view.set]{fullShare} f : sProp 𝕄) = _
  simp only [Memref.view_whole, View.set_whole]
theorem pt_scratch1 (c : Dev nD) (f : Buf (Elt F) ((c : Thread nD τ).loc cc0_scratch1)) :
    (pt c Ms1 f : sProp 𝕄) = (((c : Thread nD τ).loc cc0_scratch1) ↦{fullShare} f) := by
  show (((Memref.whole cc0_scratch1 : Memref sig .tc .vmem S128x2 .f32).view.loc (c : Thread nD τ))
    ↦[(Memref.whole cc0_scratch1 : Memref sig .tc .vmem S128x2 .f32).view.set]{fullShare} f : sProp 𝕄) = _
  simp only [Memref.view_whole, View.set_whole]

/-- What the launch hands the region is the invariant before the first point. -/
theorem hin (c : Dev nD) : Pipeline.ΦA spec0 c ⊢ (dats m 0 c).Φ 0 := by
  rw [show (dats m 0 c).Φ 0 = PhiAt m c 0 from rfl]
  unfold Pipeline.ΦA PhiAt
  rw [scopedRest0_eq]
  simp only [pt_scratch0, pt_scratch1]
  iintro ⟨⟨⟨%f10, H0⟩, ⟨%f11, H1⟩⟩, Hg⟩
  iexists f10, f11
  isplitr
  · ipureintro
    refine ⟨fun y hy => ?_, fun h => ?_⟩
    · rw [show ((0 : Fin (cfg0.N + 1)).val) = 0 from rfl] at hy; omega
    · rw [show ((0 : Fin (cfg0.N + 1)).val) = 0 from rfl] at h; omega
  isplitl [H0]; · iexact H0
  isplitl [H1]; · iexact H1
  iexact Hg

/-- After the last point the invariant gives the class invariant back. -/
theorem hout (c : Dev nD) : (dats m 0 c).Φ (Fin.last cfg0.N) ⊢ Pipeline.ΦA spec0 c := by
  rw [show (dats m 0 c).Φ (Fin.last cfg0.N) = PhiAt m c (Fin.last cfg0.N) from rfl]
  unfold Pipeline.ΦA PhiAt
  rw [scopedRest0_eq]
  simp only [pt_scratch0, pt_scratch1]
  iintro ⟨%f10, %f11, -, H0, H1, Hg⟩
  isplitl [H0 H1]
  · isplitl [H0]
    · iexists f10; iexact H0
    iexists f11; iexact H1
  iexact Hg

set_option backward.isDefEq.respectTransparency.types false in
/-- Every weakly fair execution of @main terminates, and every final state has every array of the region at what the
    proof data says and every other unscoped buffer as the line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KICond.lean ====
/-
  The three conditions the kernel body branches on, as propositions over the grid coordinates (p, b):
  "p = 0" (the convolution phase), "p = 1 and b = 0" (the point that folds the batch statistics into a
  scale and a bias), "p = 1" (the normalisation phase); and a whole buffer's contents type and points-to.
-/
import proofs.«114091_g2000004280588758_pallasbulk_1102_22_alg».proof.Proof.Gen.KernelIdeal.Frame
import proofs.«114091_g2000004280588758_pallasbulk_1102_22_alg».proof.Proof.Gen.KernelIdeal.Skeleton
import Idealize.ShloMosaic.Lib.Tactic

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`: its contents type, and the memref's elements held at `f` (for a whole memref: the whole buffer). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- "p = 1 and b = 0": the condition of the branch that folds the statistics, as the body computes it. -/
abbrev condFold (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1

end Cert.KernelIdeal.Body

end
-- ==== Proof.KIGrid.lean ====
/-
  The grid is (p, b) with p ∈ {0, 1} and b ∈ {0, 1, 2, 3}, run in the order t = 4·p + b. Decided over its eight
  points: the convolution phase is t < 4, the statistics are folded at t = 4, the normalisation phase is 4 ≤ t;
  the rows of the large scratch the convolution phase writes at point t are 16·t + k (first halves at channel 0,
  second halves at channel 64), and the normalisation phase at point t reads rows 16·(t − 4) … 16·(t − 4) + 15.
-/
import proofs.«114091_g2000004280588758_pallasbulk_1102_22_alg».proof.Proof.KICond

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cond1_iff : ∀ t : Fin cfg0.N, k0_cond1 (grid0.coords t) = 1#1 ↔ t.val < 4 :=
  (by decide +kernel : ∀ t : Fin grid0.N, k0_cond1 (grid0.coords t) = 1#1 ↔ t.val < 4)
theorem condFold_iff : ∀ t : Fin cfg0.N, condFold (grid0.coords t) ↔ t.val = 4 :=
  (by decide +kernel : ∀ t : Fin grid0.N, condFold (grid0.coords t) ↔ t.val = 4)
theorem cond3_iff : ∀ t : Fin cfg0.N, k0_cond3 (grid0.coords t) = 1#1 ↔ 4 ≤ t.val :=
  (by decide +kernel : ∀ t : Fin grid0.N, k0_cond3 (grid0.coords t) = 1#1 ↔ 4 ≤ t.val)

/-- In the convolution phase image k of point t is parked in row 16·t + k: its first half from channel 0, -/
theorem off1_eq : ∀ t : Fin cfg0.N, t.val < 4 → ∀ k : Fin 16, k0_off1 (grid0.coords t) (BitVec.ofNat 32 k.val) = ![16 * t.val + k.val, 0, 0] :=
  (by decide +kernel : ∀ t : Fin grid0.N, t.val < 4 → ∀ k : Fin 16, k0_off1 (grid0.coords t) (BitVec.ofNat 32 k.val) = ![16 * t.val + k.val, 0, 0])
/-- its second half from channel 64. -/
theorem off2_eq : ∀ t : Fin cfg0.N, t.val < 4 → ∀ k : Fin 16, k0_off2 (grid0.coords t) (BitVec.ofNat 32 k.val) = ![16 * t.val + k.val, 64, 0] :=
  (by decide +kernel : ∀ t : Fin grid0.N, t.val < 4 → ∀ k : Fin 16, k0_off2 (grid0.coords t) (BitVec.ofNat 32 k.val) = ![16 * t.val + k.val, 64, 0])
/-- The normalisation phase at point t reads sixteen rows from row 16·(t − 4). -/
theorem off3_eq : ∀ t : Fin cfg0.N, 4 ≤ t.val → k0_off3 (grid0.coords t) = ![16 * (t.val - 4), 0, 0] :=
  (by decide +kernel : ∀ t : Fin grid0.N, 4 ≤ t.val → k0_off3 (grid0.coords t) = ![16 * (t.val - 4), 0, 0])

end Cert.KernelIdeal.Body

end
-- ==== Proof.KIRunA.lean ====
/-
  The convolution phase (p = 0): for each of the block's sixteen images the body applies the leaky rectifier
  max(x, 0.01·x), multiplies the stacked 128×128 weight by the 128×1024 image, picks the stride-two lattice points
  of the two halves by the two 1024×256 selection matrices, and parks the two 64×256 results in rows 16·b + k of
  the large scratch. Nothing else is written. What the large scratch holds afterwards is the value the run finds.
-/
import proofs.«114091_g2000004280588758_pallasbulk_1102_22_alg».proof.Proof.KICond

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- With p = 0: from the image block at `f2`, the two weights at `f3`, `f4`, the two selection matrices at `f5`,
    `f6` and the large scratch at `f10`, the body runs to its return leaving the inputs as they were and the large
    scratch at the value found. -/
noncomputable def runConv (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : k0_cond1 i = 1#1) (hc2 : ¬ condFold i) (hc3 : ¬ k0_cond3 i = 1#1)
    (f2 : Bf (F := F) c M2) (f3 : Bf (F := F) c M3) (f4 : Bf (F := F) c M4) (f5 : Bf (F := F) c M5) (f6 : Bf (F := F) c M6)
    (f10 : Bf (F := F) c M10) :
    { W : Bf (F := F) c M10 //
      ∀ (E : Set ℕ) (Q : PUnit → sProp 𝕄),
        iprop(pt c M2 f2 ∗ pt c M3 f3 ∗ pt c M4 f4 ∗ pt c M5 f5 ∗ pt c M6 f6 ∗ pt c M10 f10
          ∗ (iprop(pt c M2 f2 ∗ pt c M3 f3 ∗ pt c M4 f4 ∗ pt c M5 f5 ∗ pt c M6 f6 ∗ pt c M10 W) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨?_, fun E Q => ?run⟩
  case run =>
    iintro ⟨H2, H3, H4, H5, H6, H10, Hk⟩
    sl_unfold [cc0__fused_kernel]
    sl_exec_parts! (disch := first | exact hc1 | exact hc2 | exact hc3)
    sl_step
    iapply Hk
    isplitl [H2]; · iexact H2
    isplitl [H3]; · iexact H3
    isplitl [H4]; · iexact H4
    isplitl [H5]; · iexact H5
    isplitl [H6]; · iexact H6
    iexact H10

end Cert.KernelIdeal.Body

end
-- ==== Proof.KIRunB.lean ====
/-
  The first point of the normalisation phase (p = 1, b = 0): the body first folds the batch statistics — it reads
  all sixty-four parked images in eight slabs, sums them and their squares per channel, forms the mean, the clamped
  variance, scale = gamma · rsqrt(var + eps) and bias = beta − mean · scale, and stores the two columns over the
  whole small scratch — and then normalises its sixteen images as every later point does. What the small scratch
  and the output block hold afterwards are the values the run finds.
-/
import proofs.«114091_g2000004280588758_pallasbulk_1102_22_alg».proof.Proof.KICond

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With p = 1 and b = 0: from gamma's and beta's blocks at `f7`, `f8`, the parked activations at `f10`, and the
    output block and the small scratch at anything, the body runs to its return leaving the inputs and the parked
    activations as they were, and the small scratch and the output block at the values found. -/
noncomputable def runFold (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : ¬ k0_cond1 i = 1#1) (hc2 : condFold i) (hc3 : k0_cond3 i = 1#1)
    (f7 : Bf (F := F) c M7) (f8 : Bf (F := F) c M8) (f10 : Bf (F := F) c M10) :
    { W : Bf (F := F) c M9 × Bf (F := F) c M11 //
      ∀ (f9 : Bf (F := F) c M9) (f11 : Bf (F := F) c M11) (E : Set ℕ) (Q : PUnit → sProp 𝕄),
        iprop(pt c M7 f7 ∗ pt c M8 f8 ∗ pt c M9 f9 ∗ pt c M10 f10 ∗ pt c M11 f11
          ∗ (iprop(pt c M7 f7 ∗ pt c M8 f8 ∗ pt c M9 W.1 ∗ pt c M10 f10 ∗ pt c M11 W.2) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨⟨?_, ?_⟩, fun f9 f11 E Q => ?run⟩
  case run =>
    iintro ⟨H7, H8, H9, H10, H11, Hk⟩
    sl_unfold [cc0__fused_kernel]
    sl_exec_parts! (disch := first | exact hc1 | exact hc2 | exact hc3)
    sl_step
    iapply Hk
    isplitl [H7]; · iexact H7
    isplitl [H8]; · iexact H8
    isplitl [H9]; · iexact H9
    isplitl [H10]; · iexact H10
    iexact H11

end Cert.KernelIdeal.Body

end
-- ==== Proof.KIRunC.lean ====
/-
  The normalisation phase at a point other than its first (p = 1, b ≠ 0): the body only reads the scale and the
  bias columns from the small scratch, reads sixteen images of the parked activations, and stores
  y · scale + bias over the whole output block. What the output block holds afterwards is the value the run finds.
-/
import proofs.«114091_g2000004280588758_pallasbulk_1102_22_alg».proof.Proof.KICond

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With p = 1 and b ≠ 0: from the output block's buffer at anything, the parked activations at `f10` and the
    scale/bias scratch at `f11`, the body runs to its return leaving both scratches as they were and the output
    block at the value found (a function of `f10`, `f11` and the point alone). -/
noncomputable def runApply (c : Dev nD) (i : grid0.Coords)
    (M2 : Memref sig .tc .vmem S16x128x1024 .f32) (h2 : M2.IsWhole) (M3 : Memref sig .tc .vmem S64x128 .f32) (h3 : M3.IsWhole)
    (M4 : Memref sig .tc .vmem S64x128 .f32) (h4 : M4.IsWhole) (M5 : Memref sig .tc .vmem S1024x256 .f32) (h5 : M5.IsWhole)
    (M6 : Memref sig .tc .vmem S1024x256 .f32) (h6 : M6.IsWhole) (M7 : Memref sig .tc .vmem S128x1 .f32) (h7 : M7.IsWhole)
    (M8 : Memref sig .tc .vmem S128x1 .f32) (h8 : M8.IsWhole) (M9 : Memref sig .tc .vmem S16x128x256 .f32) (h9 : M9.IsWhole)
    (M10 : Memref sig .tc .vmem S64x128x256 .f32) (h10 : M10.IsWhole) (M11 : Memref sig .tc .vmem S128x2 .f32) (h11 : M11.IsWhole)
    (hc1 : ¬ k0_cond1 i = 1#1) (hc2 : ¬ condFold i) (hc3 : k0_cond3 i = 1#1)
    (f10 : Bf (F := F) c M10) (f11 : Bf (F := F) c M11) :
    { W : Bf (F := F) c M9 //
      ∀ (f9 : Bf (F := F) c M9) (E : Set ℕ) (Q : PUnit → sProp 𝕄),
        iprop(pt c M9 f9 ∗ pt c M10 f10 ∗ pt c M11 f11
          ∗ (iprop(pt c M9 W ∗ pt c M10 f10 ∗ pt c M11 f11) -∗ Q ⟨⟩))
        ⊢ wp frame (wpE (defs₀ (F := F)) Variants.none c none) E
            (cc0__fused_kernel i M2 h2 M3 h3 M4 h4 M5 h5 M6 h6 M7 h7 M8 h8 M9 h9 M10 h10 M11 h11) Q } := by
  refine ⟨?_, fun f9 E Q => ?run⟩
  case run =>
    iintro ⟨H9, H10, H11, Hk⟩
    sl_unfold [cc0__fused_kernel]
    sl_exec! (disch := first | exact hc1 | exact hc2 | exact hc3)
    sl_step
    iapply Hk
    isplitl [H9]; · iexact H9
    isplitl [H10]; · iexact H10
    iexact H11

end Cert.KernelIdeal.Body

end
-- ==== Proof.KIData.lean ====
/-
  The proof data of the one region. The kernel keeps two scratch buffers across grid points: the large one, where the
  convolution phase parks the downsampled activations (sixteen rows per point), and the small one, which the first
  point of the normalisation phase fills with the folded scale and bias. Their contents are tracked point by point:
  "before point t, every row below 16·min(t, 4) of the large scratch holds what the convolution phase parks there, and
  from point 5 on the small scratch holds the folded columns". What is parked in a row does not depend on what the
  scratch held before (each row is written whole), so it is named by running the phase's stores over arbitrary contents.
-/
import proofs.«114091_g2000004280588758_pallasbulk_1102_22_alg».proof.Proof.KIGrid
import proofs.«114091_g2000004280588758_pallasbulk_1102_22_alg».proof.Proof.KIRunA
import proofs.«114091_g2000004280588758_pallasbulk_1102_22_alg».proof.Proof.KIRunB
import proofs.«114091_g2000004280588758_pallasbulk_1102_22_alg».proof.Proof.KIRunC

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The memrefs the pipeline calls the body with at a point -/

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
/-- The large scratch (64 images × 128 channels × 256 positions) and the small one (128 channels × 2). -/
abbrev Ms0 : Memref sig .tc .vmem S64x128x256 .f32 := Memref.whole cc0_scratch0
abbrev hMs0 : (Ms0).IsWhole := Memref.isWhole_whole _
abbrev Ms1 : Memref sig .tc .vmem S128x2 .f32 := Memref.whole cc0_scratch1
abbrev hMs1 : (Ms1).IsWhole := Memref.isWhole_whole _

/-! ## The input blocks at a point, as contents of their staging buffers -/

abbrev fin0 (t : Fin cfg0.N) : Bf (F := F) c (st0_0 t) := (hs0 t).unread (iblk m c 0 t)
abbrev fin1 (t : Fin cfg0.N) : Bf (F := F) c (st0_1 t) := (hs1 t).unread (iblk m c 1 t)
abbrev fin2 (t : Fin cfg0.N) : Bf (F := F) c (st0_2 t) := (hs2 t).unread (iblk m c 2 t)
abbrev fin3 (t : Fin cfg0.N) : Bf (F := F) c (st0_3 t) := (hs3 t).unread (iblk m c 3 t)
abbrev fin4 (t : Fin cfg0.N) : Bf (F := F) c (st0_4 t) := (hs4 t).unread (iblk m c 4 t)
abbrev fin5 (t : Fin cfg0.N) : Bf (F := F) c (st0_5 t) := (hs5 t).unread (iblk m c 5 t)
abbrev fin6 (t : Fin cfg0.N) : Bf (F := F) c (st0_6 t) := (hs6 t).unread (iblk m c 6 t)

/-! ## The conditions at a point -/

theorem c1_of_lt (t : Fin cfg0.N) (h : t.val < 4) : k0_cond1 (grid0.coords t) = 1#1 := (cond1_iff t).mpr h
theorem nc1_of_le (t : Fin cfg0.N) (h : 4 ≤ t.val) : ¬ k0_cond1 (grid0.coords t) = 1#1 := fun h' => by have := (cond1_iff t).mp h'; omega
theorem c2_of_eq (t : Fin cfg0.N) (h : t.val = 4) : condFold (grid0.coords t) := (condFold_iff t).mpr h
theorem nc2_of_ne (t : Fin cfg0.N) (h : t.val ≠ 4) : ¬ condFold (grid0.coords t) := fun h' => h ((condFold_iff t).mp h')
theorem c3_of_le (t : Fin cfg0.N) (h : 4 ≤ t.val) : k0_cond3 (grid0.coords t) = 1#1 := (cond3_iff t).mpr h
theorem nc3_of_lt (t : Fin cfg0.N) (h : t.val < 4) : ¬ k0_cond3 (grid0.coords t) = 1#1 := fun h' => by have := (cond3_iff t).mp h'; omega

/-! ## What the phases leave -/

/-- The large scratch after the convolution phase's point `t`, from contents `f10`. -/
def convAt (t : Fin cfg0.N) (ht : t.val < 4) (f10 : Bf (F := F) c Ms0) : Bf (F := F) c Ms0 :=
  (runConv c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (c1_of_lt t ht) (nc2_of_ne t (by omega)) (nc3_of_lt t ht) (fin0 m c t) (fin1 m c t) (fin2 m c t) (fin3 m c t) (fin4 m c t) f10).1

theorem N_eq : cfg0.N = 8 := N_0

/-- The same by the point's number (beyond the phase: nothing is written). -/
def convN (n : ℕ) (f10 : Bf (F := F) c Ms0) : Bf (F := F) c Ms0 :=
  if h : n < 4 then convAt m c ⟨n, by rw [N_eq]; omega⟩ h f10 else f10

/-- What the convolution phase parks at each element of the large scratch: the element as its row's point (the row's
    sixteenth) writes it, over anything. -/
def G (y : S64x128x256.Idx) : Elt F .f32 :=
  (Ms0).view.read (Elt F) (convN m c ((y 0).val / 16) (Ms0).view.junk) y

/-- The large scratch once the convolution phase is over. -/
def Ystar : Bf (F := F) c Ms0 := (hMs0).unread (G m c)

/-- The output block and the small scratch after the point that folds the statistics. -/
def foldAt (t : Fin cfg0.N) (ht : t.val = 4) : Bf (F := F) c (st0_7 t) × Bf (F := F) c Ms1 :=
  (runFold c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (nc1_of_le t (by omega)) (c2_of_eq t ht) (c3_of_le t (by omega)) (fin5 m c t) (fin6 m c t) (Ystar m c)).1

/-- The small scratch from then on: the folded scale and bias columns. -/
def Sstar : Bf (F := F) c Ms1 := (foldAt m c t0_4 rfl).2

/-- The output block after a later point of the normalisation phase. -/
def applyAt (t : Fin cfg0.N) (ht : 4 < t.val) : Bf (F := F) c (st0_7 t) :=
  (runApply c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
    (nc1_of_le t (by omega)) (nc2_of_ne t (by omega)) (c3_of_le t (by omega)) (Ystar m c) (Sstar m c)).1

/-- The output block's staging buffer after the body at point `t` (in the convolution phase the body leaves it alone). -/
def outAt (t : Fin cfg0.N) : Bf (F := F) c (st0_7 t) :=
  if h4 : t.val = 4 then (foldAt m c t h4).1
  else if h5 : 4 < t.val then applyAt m c t h5
  else (st0_7 t).view.junk

/-! ## The invariant and the proof data -/

/-- Before point `t`: the rows below 16·min(t, 4) of the large scratch are parked, and from point 5 on the small
    scratch holds the folded columns. -/
def Inv (t : Fin (cfg0.N + 1)) (f10 : Bf (F := F) c Ms0) (f11 : Bf (F := F) c Ms1) : Prop :=
  (∀ y : S64x128x256.Idx, (y 0).val < 16 * min t.val 4 → (Ms0).view.read (Elt F) f10 y = G m c y) ∧ (5 ≤ t.val → f11 = Sstar m c)

/-- The two scratch buffers at contents satisfying it, and the generator register at anything. -/
def PhiAt (t : Fin (cfg0.N + 1)) : sProp 𝕄 :=
  iprop(∃ (f10 : Bf (F := F) c Ms0) (f11 : Bf (F := F) c Ms1), ⌜Inv m c t f10 f11⌝ ∗ pt c Ms0 f10 ∗ pt c Ms1 f11 ∗ ∃ r, prngReg c r)

/-- The arrays as the region finds them; after the body each input's buffer at its block and the output's at
    `outAt`; the invariant `PhiAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st0_7 t).view.read (Elt F) (outAt m c t)
  Φ t := PhiAt m c t
  q _ := fullShare
  owed _ := 0

theorem A_eq (w : Fin cfg0.W) : (dats m 0 c).A w = V m c (Pipeline.arrRef spec0 w) := rfl
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = (st0_7 t).view.read (Elt F) (outAt m c t) := by dsimp only [dats]

/-- Each input's staging buffer holds its block when the body runs. -/
theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d
theorem before0_6 (t : Fin cfg0.N) (d) : (dats m 0 c).before 6 t d = iblk m c 6 t := before0_6_of m (dats m 0 c) (A_eq m c 6) (after0_6 m c) t d

end Cert.KernelIdeal.Body

end
-- ==== Proof.KIStepA.lean ====
/-
  What one point of the convolution phase does to the large scratch, element by element: point t writes exactly the
  rows 16·t … 16·t + 15 — image k's first half over channels 0 … 63 of row 16·t + k and its second half over channels
  64 … 127 — whole, so an element of those rows afterwards does not depend on what the scratch held, and an element of
  any other row is untouched.
-/
import proofs.«114091_g2000004280588758_pallasbulk_1102_22_alg».proof.Proof.KIData

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- Writes whose rectangles lie in a band and cover it: inside the band an element reads the same whatever was
    underneath, outside it reads what was underneath. -/
theorem read_writes_band {sg : RefSig} {κ : Kind} {sp : Space} {s : Shape} {e : EltTy} {Val : EltTy → Type}
    (v : View sg κ sp s e) (f g : v.ty.Contents Val) (L : List (View.Piece Val s e)) (band : s.Idx → Prop)
    (hin : ∀ p ∈ L, ∀ y, y ∈ p.1.set → band y) (hcov : ∀ y, band y → ∃ p ∈ L, y ∈ p.1.set) (y : s.Idx) :
    (band y → v.read Val (v.writes Val f L) y = v.read Val (v.writes Val g L) y)
      ∧ (¬ band y → v.read Val (v.writes Val f L) y = v.read Val f y) :=
  ⟨fun hb => View.read_writes_apply_eq v f v g y L (hcov y hb),
   fun hb => View.read_writes_apply_of_forall_not_mem v f y L fun p hp hy => hb (hin p hp y hy)⟩

/-- Membership in a unit-stride rectangle of the large scratch, axis by axis. -/
theorem mem_unit3 (off size : Fin 3 → ℕ) (inb : ∀ a, off a + size a ≤ S64x128x256.size a) (y : S64x128x256.Idx) :
    y ∈ (Rect.unit (s := S64x128x256) off size inb).set ↔
      (off 0 ≤ (y 0).val ∧ (y 0).val < off 0 + size 0) ∧ (off 1 ≤ (y 1).val ∧ (y 1).val < off 1 + size 1)
        ∧ (off 2 ≤ (y 2).val ∧ (y 2).val < off 2 + size 2) := by
  rw [Rect.mem_set_unit]
  constructor
  · intro h; exact ⟨h 0, h 1, h 2⟩
  · rintro ⟨h0, h1, h2⟩ a
    match a with
    | ⟨0, _⟩ => exact h0
    | ⟨1, _⟩ => exact h1
    | ⟨2, _⟩ => exact h2

theorem off1_fin (t : Fin cfg0.N) (ht : t.val < 4) (K : Fin 16) (k : ℕ) (hk : K.val = k) :
    k0_off1 (grid0.coords t) (BitVec.ofNat 32 K.val) = ![16 * t.val + k, 0, 0] := by subst hk; exact off1_eq t ht K
theorem off2_fin (t : Fin cfg0.N) (ht : t.val < 4) (K : Fin 16) (k : ℕ) (hk : K.val = k) :
    k0_off2 (grid0.coords t) (BitVec.ofNat 32 K.val) = ![16 * t.val + k, 64, 0] := by subst hk; exact off2_eq t ht K

/-- The element at a position of a list is one of its elements. -/
theorem exists_of_getElem {α : Type} (L : List α) (n : ℕ) (h : n < L.length) (P : α → Prop) (hp : P L[n]) : ∃ p ∈ L, P p :=
  ⟨L[n], List.getElem_mem h, hp⟩

theorem off1_lit (t : Fin cfg0.N) (ht : t.val < 4) (k : ℕ) (hk : k < 16) :
    k0_off1 (grid0.coords t) (BitVec.ofNat 32 k) = ![16 * t.val + k, 0, 0] := off1_eq t ht ⟨k, hk⟩
theorem off2_lit (t : Fin cfg0.N) (ht : t.val < 4) (k : ℕ) (hk : k < 16) :
    k0_off2 (grid0.coords t) (BitVec.ofNat 32 k) = ![16 * t.val + k, 64, 0] := off2_eq t ht ⟨k, hk⟩

/-- A piece stored at row 16·t + k lies in point t's band of rows. -/
theorem band1 (t : Fin cfg0.N) (ht : t.val < 4) (k : ℕ) (hk : k < 16) (size : Fin 3 → ℕ) (hs : size 0 = 1)
    (inb : ∀ a, k0_off1 (grid0.coords t) (BitVec.ofNat 32 k) a + size a ≤ S64x128x256.size a) (y : S64x128x256.Idx)
    (hy : y ∈ (Rect.unit (s := S64x128x256) (k0_off1 (grid0.coords t) (BitVec.ofNat 32 k)) size inb).set) :
    16 * t.val ≤ (y 0).val ∧ (y 0).val < 16 * t.val + 16 := by
  have h0 := ((mem_unit3 _ _ _ y).mp hy).1
  rw [off1_lit t ht k hk, hs] at h0
  simp only [Matrix.cons_val_zero] at h0
  omega
theorem band2 (t : Fin cfg0.N) (ht : t.val < 4) (k : ℕ) (hk : k < 16) (size : Fin 3 → ℕ) (hs : size 0 = 1)
    (inb : ∀ a, k0_off2 (grid0.coords t) (BitVec.ofNat 32 k) a + size a ≤ S64x128x256.size a) (y : S64x128x256.Idx)
    (hy : y ∈ (Rect.unit (s := S64x128x256) (k0_off2 (grid0.coords t) (BitVec.ofNat 32 k)) size inb).set) :
    16 * t.val ≤ (y 0).val ∧ (y 0).val < 16 * t.val + 16 := by
  have h0 := ((mem_unit3 _ _ _ y).mp hy).1
  rw [off2_lit t ht k hk, hs] at h0
  simp only [Matrix.cons_val_zero] at h0
  omega

set_option maxHeartbeats 4000000 in
/-- Point t of the convolution phase, element by element. -/
theorem convAt_read (t : Fin cfg0.N) (ht : t.val < 4) (f g : Bf (F := F) c Ms0) (y : S64x128x256.Idx) :
    ((16 * t.val ≤ (y 0).val ∧ (y 0).val < 16 * t.val + 16) →
        (Ms0).view.read (Elt F) (convAt m c t ht f) y = (Ms0).view.read (Elt F) (convAt m c t ht g) y)
      ∧ (¬ (16 * t.val ≤ (y 0).val ∧ (y 0).val < 16 * t.val + 16) →
        (Ms0).view.read (Elt F) (convAt m c t ht f) y = (Ms0).view.read (Elt F) f y) := by
  unfold convAt runConv
  dsimp only
  unfold runConv.sl.H10_26 runConv.sl.H10_23 runConv.sl.H10_20 runConv.sl.H10_17 runConv.sl.H10_14 runConv.sl.H10_11
    runConv.sl.H10_8 runConv.sl.H10_4 runConv.sl.H10_2
  refine read_writes_band (Val := Elt F) (Ms0).view f g _ (fun y => 16 * t.val ≤ (y 0).val ∧ (y 0).val < 16 * t.val + 16) ?_ ?_ y
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · intro y hy; exact band2 t ht 15 (by omega) _ rfl _ y hy
    · intro y hy; exact band1 t ht 15 (by omega) _ rfl _ y hy
    · intro y hy; exact band2 t ht 14 (by omega) _ rfl _ y hy
    · intro y hy; exact band1 t ht 14 (by omega) _ rfl _ y hy
    · intro y hy; exact band2 t ht 13 (by omega) _ rfl _ y hy
    · intro y hy; exact band1 t ht 13 (by omega) _ rfl _ y hy
    · intro y hy; exact band2 t ht 12 (by omega) _ rfl _ y hy
    · intro y hy; exact band1 t ht 12 (by omega) _ rfl _ y hy
    · intro y hy; exact band2 t ht 11 (by omega) _ rfl _ y hy
    · intro y hy; exact band1 t ht 11 (by omega) _ rfl _ y hy
    · intro y hy; exact band2 t ht 10 (by omega) _ rfl _ y hy
    · intro y hy; exact band1 t ht 10 (by omega) _ rfl _ y hy
    · intro y hy; exact band2 t ht 9 (by omega) _ rfl _ y hy
    · intro y hy; exact band1 t ht 9 (by omega) _ rfl _ y hy
    · intro y hy; exact band2 t ht 8 (by omega) _ rfl _ y hy
    · intro y hy; exact band1 t ht 8 (by omega) _ rfl _ y hy
    · intro y hy; exact band2 t ht 7 (by omega) _ rfl _ y hy
    · intro y hy; exact band1 t ht 7 (by omega) _ rfl _ y hy
    · intro y hy; exact band2 t ht 6 (by omega) _ rfl _ y hy
    · intro y hy; exact band1 t ht 6 (by omega) _ rfl _ y hy
    · intro y hy; exact band2 t ht 5 (by omega) _ rfl _ y hy
    · intro y hy; exact band1 t ht 5 (by omega) _ rfl _ y hy
    · intro y hy; exact band2 t ht 4 (by omega) _ rfl _ y hy
    · intro y hy; exact band1 t ht 4 (by omega) _ rfl _ y hy
    · intro y hy; exact band2 t ht 3 (by omega) _ rfl _ y hy
    · intro y hy; exact band1 t ht 3 (by omega) _ rfl _ y hy
    · intro y hy; exact band2 t ht 2 (by omega) _ rfl _ y hy
    · intro y hy; exact band1 t ht 2 (by omega) _ rfl _ y hy
    · intro y hy; exact band2 t ht 1 (by omega) _ rfl _ y hy
    · intro y hy; exact band1 t ht 1 (by omega) _ rfl _ y hy
    · intro y hy; exact band2 t ht 0 (by omega) _ rfl _ y hy
    · intro y hy; exact band1 t ht 0 (by omega) _ rfl _ y hy
  · intro y hy
    have hy1 : (y 1).val < 128 := (y 1).isLt
    have hy2 : (y 2).val < 256 := (y 2).isLt
    have e1 : S1x64x256.size = ![1, 64, 256] := rfl
    have hk : (y 0).val = 16 * t.val + 0 ∨ (y 0).val = 16 * t.val + 1 ∨ (y 0).val = 16 * t.val + 2 ∨ (y 0).val = 16 * t.val + 3 ∨ (y 0).val = 16 * t.val + 4 ∨ (y 0).val = 16 * t.val + 5 ∨ (y 0).val = 16 * t.val + 6 ∨ (y 0).val = 16 * t.val + 7 ∨ (y 0).val = 16 * t.val + 8 ∨ (y 0).val = 16 * t.val + 9 ∨ (y 0).val = 16 * t.val + 10 ∨ (y 0).val = 16 * t.val + 11 ∨ (y 0).val = 16 * t.val + 12 ∨ (y 0).val = 16 * t.val + 13 ∨ (y 0).val = 16 * t.val + 14 ∨ (y 0).val = 16 * t.val + 15 := by omega
    rcases hk with hk | hk | hk | hk | hk | hk | hk | hk | hk | hk | hk | hk | hk | hk | hk | hk
    · by_cases hh : (y 1).val < 64
      · refine exists_of_getElem _ 31 ?_ _ ?_
        · show (31 : ℕ) < 32; decide
        refine (mem_unit3 _ _ (k0_off1_inb (grid0.coords t) (c1_of_lt t ht) 0) y).mpr ?_
        rw [off1_fin t ht 0 0 rfl]
        simp only [Matrix.cons_val_zero, Matrix.cons_val_one, Matrix.cons_val_two, Matrix.head_cons, Matrix.tail_cons, e1]
        omega
      · refine exists_of_getElem _ 30 ?_ _ ?_
        · show (30 : ℕ) < 32; decide
        refine (mem_unit3 _ _ (k0_off2_inb (grid0.coords t) (c1_of_lt t ht) 0) y).mpr ?_
        rw [off2_fin t ht 0 0 rfl]
        simp only [Matrix.cons_val_zero, Matrix.cons_val_one, Matrix.cons_val_two, Matrix.head_cons, Matrix.tail_cons, e1]
        omega
    · by_cases hh : (y 1).val < 64
      · refine exists_of_getElem _ 29 ?_ _ ?_
        · show (29 : ℕ) < 32; decide
        refine (mem_unit3 _ _ (k0_off1_inb (grid0.coords t) (c1_of_lt t ht) 1) y).mpr ?_
        rw [off1_fin t ht 1 1 rfl]
        simp only [Matrix.cons_val_zero, Matrix.cons_val_one, Matrix.cons_val_two, Matrix.head_cons, Matrix.tail_cons, e1]
        omega
      · refine exists_of_getElem _ 28 ?_ _ ?_
        · show (28 : ℕ) < 32; decide
        refine (mem_unit3 _ _ (k0_off2_inb (grid0.coords t) (c1_of_lt t ht) 1) y).mpr ?_
        rw [off2_fin t ht 1 1 rfl]
        simp only [Matrix.cons_val_zero, Matrix.cons_val_one, Matrix.cons_val_two, Matrix.head_cons, Matrix.tail_cons, e1]
        omega
    · by_cases hh : (y 1).val < 64
      · refine exists_of_getElem _ 27 ?_ _ ?_
        · show (27 : ℕ) < 32; decide
        refine (mem_unit3 _ _ (k0_off1_inb (grid0.coords t) (c1_of_lt t ht) 2) y).mpr ?_
        rw [off1_fin t ht 2 2 rfl]
        simp only [Matrix.cons_val_zero, Matrix.cons_val_one, Matrix.cons_val_two, Matrix.head_cons, Matrix.tail_cons, e1]
        omega
      · refine exists_of_getElem _ 26 ?_ _ ?_
        · show (26 : ℕ) < 32; decide
        refine (mem_unit3 _ _ (k0_off2_inb (grid0.coords t) (c1_of_lt t ht) 2) y).mpr ?_
        rw [off2_fin t ht 2 2 rfl]
        simp only [Matrix.cons_val_zero, Matrix.cons_val_one, Matrix.cons_val_two, Matrix.head_cons, Matrix.tail_cons, e1]
        omega
    · by_cases hh : (y 1).val < 64
      · refine exists_of_getElem _ 25 ?_ _ ?_
        · show (25 : ℕ) < 32; decide
        refine (mem_unit3 _ _ (k0_off1_inb (grid0.coords t) (c1_of_lt t ht) 3) y).mpr ?_
        rw [off1_fin t ht 3 3 rfl]
        simp only [Matrix.cons_val_zero, Matrix.cons_val_one, Matrix.cons_val_two, Matrix.head_cons, Matrix.tail_cons, e1]
        omega
      · refine exists_of_getElem _ 24 ?_ _ ?_
        · show (24 : ℕ) < 32; decide
        refine (mem_unit3 _ _ (k0_off2_inb (grid0.coords t) (c1_of_lt t ht) 3) y).mpr ?_
        rw [off2_fin t ht 3 3 rfl]
        simp only [Matrix.cons_val_zero, Matrix.cons_val_one, Matrix.cons_val_two, Matrix.head_cons, Matrix.tail_cons, e1]
        omega
    · by_cases hh : (y 1).val < 64
      · refine exists_of_getElem _ 23 ?_ _ ?_
        · show (23 : ℕ) < 32; decide
        refine (mem_unit3 _ _ (k0_off1_inb (grid0.coords t) (c1_of_lt t ht) 4) y).mpr ?_
        rw [off1_fin t ht 4 4 rfl]
        simp only [Matrix.cons_val_zero, Matrix.cons_val_one, Matrix.cons_val_two, Matrix.head_cons, Matrix.tail_cons, e1]
        omega
      · refine exists_of_getElem _ 22 ?_ _ ?_
        · show (22 : ℕ) < 32; decide
        refine (mem_unit3 _ _ (k0_off2_inb (grid0.coords t) (c1_of_lt t ht) 4) y).mpr ?_
        rw [off2_fin t ht 4 4 rfl]
        simp only [Matrix.cons_val_zero, Matrix.cons_val_one, Matrix.cons_val_two, Matrix.head_cons, Matrix.tail_cons, e1]
        omega
    · by_cases hh : (y 1).val < 64
      · refine exists_of_getElem _ 21 ?_ _ ?_
        · show (21 : ℕ) < 32; decide
        refine (mem_unit3 _ _ (k0_off1_inb (grid0.coords t) (c1_of_lt t ht) 5) y).mpr ?_
        rw [off1_fin t ht 5 5 rfl]
        simp only [Matrix.cons_val_zero, Matrix.cons_val_one, Matrix.cons_val_two, Matrix.head_cons, Matrix.tail_cons, e1]
        omega
      · refine exists_of_getElem _ 20 ?_ _ ?_
        · show (20 : ℕ) < 32; decide
        refine (mem_unit3 _ _ (k0_off2_inb (grid0.coords t) (c1_of_lt t ht) 5) y).mpr ?_
        rw [off2_fin t ht 5 5 rfl]
        simp only [Matrix.cons_val_zero, Matrix.cons_val_one, Matrix.cons_val_two, Matrix.head_cons, Matrix.tail_cons, e1]
        omega
    · by_cases hh : (y 1).val < 64
      · refine exists_of_getElem _ 19 ?_ _ ?_
        · show (19 : ℕ) < 32; decide
        refine (mem_unit3 _ _ (k0_off1_inb (grid0.coords t) (c1_of_lt t ht) 6) y).mpr ?_
        rw [off1_fin t ht 6 6 rfl]
        simp only [Matrix.cons_val_zero, Matrix.cons_val_one, Matrix.cons_val_two, Matrix.head_cons, Matrix.tail_cons, e1]
        omega
      · refine exists_of_getElem _ 18 ?_ _ ?_
        · show (18 : ℕ) < 32; decide
        refine (mem_unit3 _ _ (k0_off2_inb (grid0.coords t) (c1_of_lt t ht) 6) y).mpr ?_
        rw [off2_fin t ht 6 6 rfl]
        simp only [Matrix.cons_val_zero, Matrix.cons_val_one, Matrix.cons_val_two, Matrix.head_cons, Matrix.tail_cons, e1]
        omega
    · by_cases hh : (y 1).val < 64
      · refine exists_of_getElem _ 17 ?_ _ ?_
        · show (17 : ℕ) < 32; decide
        refine (mem_unit3 _ _ (k0_off1_inb (grid0.coords t) (c1_of_lt t ht) 7) y).mpr ?_
        rw [off1_fin t ht 7 7 rfl]
        simp only [Matrix.cons_val_zero, Matrix.cons_val_one, Matrix.cons_val_two, Matrix.head_cons, Matrix.tail_cons, e1]
        omega
      · refine exists_of_getElem _ 16 ?_ _ ?_
        · show (16 : ℕ) < 32; decide
        refine (mem_unit3 _ _ (k0_off2_inb (grid0.coords t) (c1_of_lt t ht) 7) y).mpr ?_
        rw [off2_fin t ht 7 7 rfl]
        simp only [Matrix.cons_val_zero, Matrix.cons_val_one, Matrix.cons_val_two, Matrix.head_cons, Matrix.tail_cons, e1]
        omega
    · by_cases hh : (y 1).val < 64
      · refine exists_of_getElem _ 15 ?_ _ ?_
        · show (15 : ℕ) < 32; decide
        refine (mem_unit3 _ _ (k0_off1_inb (grid0.coords t) (c1_of_lt t ht) 8) y).mpr ?_
        rw [off1_fin t ht 8 8 rfl]
        simp only [Matrix.cons_val_zero, Matrix.cons_val_one, Matrix.cons_val_two, Matrix.head_cons, Matrix.tail_cons, e1]
        omega
      · refine exists_of_getElem _ 14 ?_ _ ?_
        · show (14 : ℕ) < 32; decide
        refine (mem_unit3 _ _ (k0_off2_inb (grid0.coords t) (c1_of_lt t ht) 8) y).mpr ?_
        rw [off2_fin t ht 8 8 rfl]
        simp only [Matrix.cons_val_zero, Matrix.cons_val_one, Matrix.cons_val_two, Matrix.head_cons, Matrix.tail_cons, e1]
        omega
    · by_cases hh : (y 1).val < 64
      · refine exists_of_getElem _ 13 ?_ _ ?_
        · show (13 : ℕ) < 32; decide
        refine (mem_unit3 _ _ (k0_off1_inb (grid0.coords t) (c1_of_lt t ht) 9) y).mpr ?_
        rw [off1_fin t ht 9 9 rfl]
        simp only [Matrix.cons_val_zero, Matrix.cons_val_one, Matrix.cons_val_two, Matrix.head_cons, Matrix.tail_cons, e1]
        omega
      · refine exists_of_getElem _ 12 ?_ _ ?_
        · show (12 : ℕ) < 32; decide
        refine (mem_unit3 _ _ (k0_off2_inb (grid0.coords t) (c1_of_lt t ht) 9) y).mpr ?_
        rw [off2_fin t ht 9 9 rfl]
        simp only [Matrix.cons_val_zero, Matrix.cons_val_one, Matrix.cons_val_two, Matrix.head_cons, Matrix.tail_cons, e1]
        omega
    · by_cases hh : (y 1).val < 64
      · refine exists_of_getElem _ 11 ?_ _ ?_
        · show (11 : ℕ) < 32; decide
        refine (mem_unit3 _ _ (k0_off1_inb (grid0.coords t) (c1_of_lt t ht) 10) y).mpr ?_
        rw [off1_fin t ht 10 10 rfl]
        simp only [Matrix.cons_val_zero, Matrix.cons_val_one, Matrix.cons_val_two, Matrix.head_cons, Matrix.tail_cons, e1]
        omega
      · refine exists_of_getElem _ 10 ?_ _ ?_
        · show (10 : ℕ) < 32; decide
        refine (mem_unit3 _ _ (k0_off2_inb (grid0.coords t) (c1_of_lt t ht) 10) y).mpr ?_
        rw [off2_fin t ht 10 10 rfl]
        simp only [Matrix.cons_val_zero, Matrix.cons_val_one, Matrix.cons_val_two, Matrix.head_cons, Matrix.tail_cons, e1]
        omega
    · by_cases hh : (y 1).val < 64
      · refine exists_of_getElem _ 9 ?_ _ ?_
        · show (9 : ℕ) < 32; decide
        refine (mem_unit3 _ _ (k0_off1_inb (grid0.coords t) (c1_of_lt t ht) 11) y).mpr ?_
        rw [off1_fin t ht 11 11 rfl]
        simp only [Matrix.cons_val_zero, Matrix.cons_val_one, Matrix.cons_val_two, Matrix.head_cons, Matrix.tail_cons, e1]
        omega
      · refine exists_of_getElem _ 8 ?_ _ ?_
        · show (8 : ℕ) < 32; decide
        refine (mem_unit3 _ _ (k0_off2_inb (grid0.coords t) (c1_of_lt t ht) 11) y).mpr ?_
        rw [off2_fin t ht 11 11 rfl]
        simp only [Matrix.cons_val_zero, Matrix.cons_val_one, Matrix.cons_val_two, Matrix.head_cons, Matrix.tail_cons, e1]
        omega
    · by_cases hh : (y 1).val < 64
      · refine exists_of_getElem _ 7 ?_ _ ?_
        · show (7 : ℕ) < 32; decide
        refine (mem_unit3 _ _ (k0_off1_inb (grid0.coords t) (c1_of_lt t ht) 12) y).mpr ?_
        rw [off1_fin t ht 12 12 rfl]
        simp only [Matrix.cons_val_zero, Matrix.cons_val_one, Matrix.cons_val_two, Matrix.head_cons, Matrix.tail_cons, e1]
        omega
      · refine exists_of_getElem _ 6 ?_ _ ?_
        · show (6 : ℕ) < 32; decide
        refine (mem_unit3 _ _ (k0_off2_inb (grid0.coords t) (c1_of_lt t ht) 12) y).mpr ?_
        rw [off2_fin t ht 12 12 rfl]
        simp only [Matrix.cons_val_zero, Matrix.cons_val_one, Matrix.cons_val_two, Matrix.head_cons, Matrix.tail_cons, e1]
        omega
    · by_cases hh : (y 1).val < 64
      · refine exists_of_getElem _ 5 ?_ _ ?_
        · show (5 : ℕ) < 32; decide
        refine (mem_unit3 _ _ (k0_off1_inb (grid0.coords t) (c1_of_lt t ht) 13) y).mpr ?_
        rw [off1_fin t ht 13 13 rfl]
        simp only [Matrix.cons_val_zero, Matrix.cons_val_one, Matrix.cons_val_two, Matrix.head_cons, Matrix.tail_cons, e1]
        omega
      · refine exists_of_getElem _ 4 ?_ _ ?_
        · show (4 : ℕ) < 32; decide
        refine (mem_unit3 _ _ (k0_off2_inb (grid0.coords t) (c1_of_lt t ht) 13) y).mpr ?_
        rw [off2_fin t ht 13 13 rfl]
        simp only [Matrix.cons_val_zero, Matrix.cons_val_one, Matrix.cons_val_two, Matrix.head_cons, Matrix.tail_cons, e1]
        omega
    · by_cases hh : (y 1).val < 64
      · refine exists_of_getElem _ 3 ?_ _ ?_
        · show (3 : ℕ) < 32; decide
        refine (mem_unit3 _ _ (k0_off1_inb (grid0.coords t) (c1_of_lt t ht) 14) y).mpr ?_
        rw [off1_fin t ht 14 14 rfl]
        simp only [Matrix.cons_val_zero, Matrix.cons_val_one, Matrix.cons_val_two, Matrix.head_cons, Matrix.tail_cons, e1]
        omega
      · refine exists_of_getElem _ 2 ?_ _ ?_
        · show (2 : ℕ) < 32; decide
        refine (mem_unit3 _ _ (k0_off2_inb (grid0.coords t) (c1_of_lt t ht) 14) y).mpr ?_
        rw [off2_fin t ht 14 14 rfl]
        simp only [Matrix.cons_val_zero, Matrix.cons_val_one, Matrix.cons_val_two, Matrix.head_cons, Matrix.tail_cons, e1]
        omega
    · by_cases hh : (y 1).val < 64
      · refine exists_of_getElem _ 1 ?_ _ ?_
        · show (1 : ℕ) < 32; decide
        refine (mem_unit3 _ _ (k0_off1_inb (grid0.coords t) (c1_of_lt t ht) 15) y).mpr ?_
        rw [off1_fin t ht 15 15 rfl]
        simp only [Matrix.cons_val_zero, Matrix.cons_val_one, Matrix.cons_val_two, Matrix.head_cons, Matrix.tail_cons, e1]
        omega
      · refine exists_of_getElem _ 0 ?_ _ ?_
        · show (0 : ℕ) < 32; decide
        refine (mem_unit3 _ _ (k0_off2_inb (grid0.coords t) (c1_of_lt t ht) 15) y).mpr ?_
        rw [off2_fin t ht 15 15 rfl]
        simp only [Matrix.cons_val_zero, Matrix.cons_val_one, Matrix.cons_val_two, Matrix.head_cons, Matrix.tail_cons, e1]
        omega

end Cert.KernelIdeal.Body

end
-- ==== Proof.KIObl.lean ====
/-
  The body obligation of the region: at every grid point the body, called with the point's staging buffers and the two
  scratch buffers at contents satisfying the invariant, runs and re-establishes the invariant for the next point. In the
  convolution phase (t < 4) sixteen more rows get parked; at t = 4 all sixty-four rows are parked, so the large scratch
  IS the parked contents, and the small scratch becomes the folded columns; from then on neither changes. The output
  block is left alone in the convolution phase and written whole at every point of the normalisation phase.
-/
import proofs.«114091_g2000004280588758_pallasbulk_1102_22_alg».proof.Proof.KIStepA

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The schedule's facts the obligation uses, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- In the convolution phase the body stores nothing into the output block, and the block is not written back. -/
theorem idleAt7 : ∀ t : Fin cfg0.N, t.val < 4 → cfg0.idle 7 (grid0.coords t) = true := by decide +kernel
theorem noFlush7 : ∀ t : Fin cfg0.N, t.val < 4 → (cfg0.win 7).flush t = false := by decide +kernel
/-- In the normalisation phase it stores the block. -/
theorem liveAt7 : ∀ t : Fin cfg0.N, 4 ≤ t.val → cfg0.idle 7 (grid0.coords t) = false := by decide +kernel

/-! ## The invariant, point to point -/

/-- The point's writes by the point's number. -/
theorem convN_eq (t : Fin cfg0.N) (ht : t.val < 4) (n : ℕ) (hn : n = t.val) (f : Bf (F := F) c Ms0) :
    convN m c n f = convAt m c t ht f := by
  subst hn; unfold convN; rw [dif_pos ht]

/-- An element of the rows point t parks holds what that point writes there over anything. -/
theorem G_of_row (t : Fin cfg0.N) (ht : t.val < 4) (y : S64x128x256.Idx)
    (hy : 16 * t.val ≤ (y 0).val ∧ (y 0).val < 16 * t.val + 16) :
    G m c y = (Ms0).view.read (Elt F) (convAt m c t ht (Ms0).view.junk) y := by
  unfold G
  rw [convN_eq m c t ht _ (by omega)]

/-- A point of the convolution phase parks its sixteen rows and leaves the earlier ones. -/
theorem inv_conv (t : Fin cfg0.N) (ht : t.val < 4) (f10 : Bf (F := F) c Ms0) (f11 : Bf (F := F) c Ms1)
    (h : Inv m c t.castSucc f10 f11) : Inv m c t.succ (convAt m c t ht f10) f11 := by
  refine ⟨fun y hy => ?_, fun h5 => ?_⟩
  · rw [Fin.val_succ] at hy
    have hmin : min (t.val + 1) 4 = t.val + 1 := by omega
    rw [hmin] at hy
    by_cases hb : 16 * t.val ≤ (y 0).val ∧ (y 0).val < 16 * t.val + 16
    · rw [(convAt_read m c t ht f10 (Ms0).view.junk y).1 hb, G_of_row m c t ht y hb]
    · rw [(convAt_read m c t ht f10 (Ms0).view.junk y).2 hb]
      refine h.1 y ?_
      rw [Fin.coe_castSucc]
      have hmin' : min t.val 4 = t.val := by omega
      rw [hmin']; omega
  · exfalso; rw [Fin.val_succ] at h5; omega

/-- Once the convolution phase is over the large scratch is the parked contents. -/
theorem eq_Ystar (t : Fin (cfg0.N + 1)) (ht : 4 ≤ t.val) (f10 : Bf (F := F) c Ms0) (f11 : Bf (F := F) c Ms1)
    (h : Inv m c t f10 f11) : f10 = Ystar m c := by
  unfold Ystar
  refine (hMs0).eq_unread (funext fun y => h.1 y ?_)
  have hy : (y 0).val < 64 := (y 0).isLt
  have hmin : min t.val 4 = 4 := by omega
  rw [hmin]; omega

/-- The parked contents satisfy the first half of the invariant at every point. -/
theorem inv_Ystar (t : Fin (cfg0.N + 1)) (y : S64x128x256.Idx) : (Ms0).view.read (Elt F) (Ystar m c) y = G m c y := by
  unfold Ystar; rw [(hMs0).read_unread]

/-! ## The body at a generic point -/

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4800000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiAt m c t.succ from rfl, show (dats m 0 c).Φ t.castSucc = PhiAt m c t.castSucc from rfl]
  rw [show (dats m 0 c).leavesExact 0 t = owns (c : Thread nD τ) (st0_0 t) fullShare ((dats m 0 c).after 0 t) from by
    unfold Dat.leavesExact; rw [liveAt0_0 t], after0_0]
  rw [show (dats m 0 c).leavesExact 1 t = owns (c : Thread nD τ) (st0_1 t) fullShare ((dats m 0 c).after 1 t) from by
    unfold Dat.leavesExact; rw [liveAt0_1 t], after0_1]
  rw [show (dats m 0 c).leavesExact 2 t = owns (c : Thread nD τ) (st0_2 t) fullShare ((dats m 0 c).after 2 t) from by
    unfold Dat.leavesExact; rw [liveAt0_2 t], after0_2]
  rw [show (dats m 0 c).leavesExact 3 t = owns (c : Thread nD τ) (st0_3 t) fullShare ((dats m 0 c).after 3 t) from by
    unfold Dat.leavesExact; rw [liveAt0_3 t], after0_3]
  rw [show (dats m 0 c).leavesExact 4 t = owns (c : Thread nD τ) (st0_4 t) fullShare ((dats m 0 c).after 4 t) from by
    unfold Dat.leavesExact; rw [liveAt0_4 t], after0_4]
  rw [show (dats m 0 c).leavesExact 5 t = owns (c : Thread nD τ) (st0_5 t) fullShare ((dats m 0 c).after 5 t) from by
    unfold Dat.leavesExact; rw [liveAt0_5 t], after0_5]
  rw [show (dats m 0 c).leavesExact 6 t = owns (c : Thread nD τ) (st0_6 t) fullShare ((dats m 0 c).after 6 t) from by
    unfold Dat.leavesExact; rw [liveAt0_6 t], after0_6]
  simp only [after0_0, after0_1, after0_2, after0_3, after0_4, after0_5, after0_6]
  have hN : t.val < 8 := lt_of_lt_of_eq t.isLt N_eq
  by_cases h4 : t.val < 4
  · rw [Dat.leavesExact_idle (dats m 0 c) 7 t (idleAt7 t h4) (noFlush7 t h4)]
    unfold PhiAt
    iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, H7⟩
    unfold owns
    icases H0 with ⟨%g0, %hg0, H0⟩
    icases H1 with ⟨%g1, %hg1, H1⟩
    icases H2 with ⟨%g2, %hg2, H2⟩
    icases H3 with ⟨%g3, %hg3, H3⟩
    icases H4 with ⟨%g4, %hg4, H4⟩
    obtain rfl := (hs0 t).eq_unread hg0
    obtain rfl := (hs1 t).eq_unread hg1
    obtain rfl := (hs2 t).eq_unread hg2
    obtain rfl := (hs3 t).eq_unread hg3
    obtain rfl := (hs4 t).eq_unread hg4
    iapply ((runConv c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
      (c1_of_lt t h4) (nc2_of_ne t (by omega)) (nc3_of_lt t h4) (fin0 m c t) (fin1 m c t) (fin2 m c t) (fin3 m c t) (fin4 m c t) f10).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 HS1 Hg]
    · iexists (convAt m c t h4 f10), f11
      isplitr; · ipureintro; exact inv_conv m c t h4 f10 f11 hinv
      isplitl [HS0]; · iexact HS0
      isplitl [HS1]; · iexact HS1
      iexact Hg
    isplitl [Ho]; · iexact Ho
    isplitl [H0]
    · iexists _; isplitr; swap; · iexact H0
      ipureintro; exact (hs0 t).read_unread _
    isplitl [H1]
    · iexists _; isplitr; swap; · iexact H1
      ipureintro; exact (hs1 t).read_unread _
    isplitl [H2]
    · iexists _; isplitr; swap; · iexact H2
      ipureintro; exact (hs2 t).read_unread _
    isplitl [H3]
    · iexists _; isplitr; swap; · iexact H3
      ipureintro; exact (hs3 t).read_unread _
    isplitl [H4]
    · iexists _; isplitr; swap; · iexact H4
      ipureintro; exact (hs4 t).read_unread _
    isplitl [H5]; · iexact H5
    isplitl [H6]; · iexact H6
    iexact H7
  · by_cases h44 : t.val = 4
    · rw [show (dats m 0 c).leavesExact 7 t = owns (c : Thread nD τ) (st0_7 t) fullShare ((dats m 0 c).after 7 t) from by
        unfold Dat.leavesExact; rw [liveAt7 t (by omega)], after0_7]
      unfold PhiAt
      iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold owns
      icases H5 with ⟨%g5, %hg5, H5⟩
      icases H6 with ⟨%g6, %hg6, H6⟩
      icases H7 with ⟨%g7, -, H7⟩
      obtain rfl := (hs5 t).eq_unread hg5
      obtain rfl := (hs6 t).eq_unread hg6
      obtain rfl := eq_Ystar m c t.castSucc (by rw [Fin.coe_castSucc]; omega) f10 f11 hinv
      iapply ((runFold c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
        (nc1_of_le t (by omega)) (c2_of_eq t h44) (c3_of_le t (by omega)) (fin5 m c t) (fin6 m c t) (Ystar m c)).2 g7 f11 Set.univ _)
      isplitl [H5]; · iexact H5
      isplitl [H6]; · iexact H6
      isplitl [H7]; · iexact H7
      isplitl [HS0]; · iexact HS0
      isplitl [HS1]; · iexact HS1
      iintro ⟨H5, H6, H7, HS0, HS1⟩
      isplitl [HS0 HS1 Hg]
      · iexists (Ystar m c), (foldAt m c t h44).2
        isplitr
        · ipureintro
          refine ⟨fun y _ => inv_Ystar m c t.succ y, fun _ => ?_⟩
          have ht : t = t0_4 := Fin.ext h44
          subst ht; rfl
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact (hs5 t).read_unread _
      isplitl [H6]
      · iexists _; isplitr; swap; · iexact H6
        ipureintro; exact (hs6 t).read_unread _
      iexists _; isplitr; swap; · iexact H7
      ipureintro; unfold outAt; rw [dif_pos h44]; rfl
    · have h5 : 4 < t.val := by omega
      rw [show (dats m 0 c).leavesExact 7 t = owns (c : Thread nD τ) (st0_7 t) fullShare ((dats m 0 c).after 7 t) from by
        unfold Dat.leavesExact; rw [liveAt7 t (by omega)], after0_7]
      unfold PhiAt
      iintro ⟨⟨%f10, %f11, %hinv, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold owns
      icases H7 with ⟨%g7, -, H7⟩
      obtain rfl := eq_Ystar m c t.castSucc (by rw [Fin.coe_castSucc]; omega) f10 f11 hinv
      obtain rfl := hinv.2 (by rw [Fin.coe_castSucc]; omega)
      iapply ((runApply c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) Ms0 hMs0 Ms1 hMs1
        (nc1_of_le t (by omega)) (nc2_of_ne t h44) (c3_of_le t (by omega)) (Ystar m c) (Sstar m c)).2 g7 Set.univ _)
      isplitl [H7]; · iexact H7
      isplitl [HS0]; · iexact HS0
      isplitl [HS1]; · iexact HS1
      iintro ⟨H7, HS0, HS1⟩
      isplitl [HS0 HS1 Hg]
      · iexists (Ystar m c), (Sstar m c)
        isplitr
        · ipureintro; exact ⟨fun y _ => inv_Ystar m c t.succ y, fun _ => rfl⟩
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; isplitr; swap; · iexact H7
      ipureintro; unfold outAt; rw [dif_neg h44, dif_pos h5]; rfl

/-- The library's body obligation, at every point. -/
theorem body_obligation : BodyObligation (dats (F := F) m 0 c) (defs₀ (F := F)) Variants.none () Set.univ := fun t => by
  rw [bigSep_W0, bigSep_W0]
  exact sound_body m c t

end Cert.KernelIdeal.Body

end
-- ==== Proof.KIRun.lean ====
/-
  The run of @main: the host lines before the region, the region at the proof data of the previous modules, the host
  line after it (the result's reshape). Before the first point the two scratch buffers hold anything, which is the
  invariant at point 0 (no row is parked yet); after the last point their contents are forgotten again.
-/
import proofs.«114091_g2000004280588758_pallasbulk_1102_22_alg».proof.Proof.KIObl

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer held through its whole memref is the buffer held. -/
theorem pt_scratch0 (c : Dev nD) (f : Buf (Elt F) ((c : Thread nD τ).loc cc0_scratch0)) :
    (pt c Ms0 f : sProp 𝕄) = (((c : Thread nD τ).loc cc0_scratch0) ↦{fullShare} f) := by
  show (((Memref.whole cc0_scratch0 : Memref sig .tc .vmem S64x128x256 .f32).view.loc (c : Thread nD τ))
    ↦[(Memref.whole cc0_scratch0 : Memref sig .tc .vmem S64x128x256 .f32).view.set]{fullShare} f : sProp 𝕄) = _
  simp only [Memref.view_whole, View.set_whole]
theorem pt_scratch1 (c : Dev nD) (f : Buf (Elt F) ((c : Thread nD τ).loc cc0_scratch1)) :
    (pt c Ms1 f : sProp 𝕄) = (((c : Thread nD τ).loc cc0_scratch1) ↦{fullShare} f) := by
  show (((Memref.whole cc0_scratch1 : Memref sig .tc .vmem S128x2 .f32).view.loc (c : Thread nD τ))
    ↦[(Memref.whole cc0_scratch1 : Memref sig .tc .vmem S128x2 .f32).view.set]{fullShare} f : sProp 𝕄) = _
  simp only [Memref.view_whole, View.set_whole]

/-- What the launch hands the region is the invariant before the first point. -/
theorem hin (c : Dev nD) : Pipeline.ΦA spec0 c ⊢ (dats m 0 c).Φ 0 := by
  rw [show (dats m 0 c).Φ 0 = PhiAt m c 0 from rfl]
  unfold Pipeline.ΦA PhiAt
  rw [scopedRest0_eq]
  simp only [pt_scratch0, pt_scratch1]
  iintro ⟨⟨⟨%f10, H0⟩, ⟨%f11, H1⟩⟩, Hg⟩
  iexists f10, f11
  isplitr
  · ipureintro
    refine ⟨fun y hy => ?_, fun h => ?_⟩
    · rw [show ((0 : Fin (cfg0.N + 1)).val) = 0 from rfl] at hy; omega
    · rw [show ((0 : Fin (cfg0.N + 1)).val) = 0 from rfl] at h; omega
  isplitl [H0]; · iexact H0
  isplitl [H1]; · iexact H1
  iexact Hg

/-- After the last point the invariant gives the class invariant back. -/
theorem hout (c : Dev nD) : (dats m 0 c).Φ (Fin.last cfg0.N) ⊢ Pipeline.ΦA spec0 c := by
  rw [show (dats m 0 c).Φ (Fin.last cfg0.N) = PhiAt m c (Fin.last cfg0.N) from rfl]
  unfold Pipeline.ΦA PhiAt
  rw [scopedRest0_eq]
  simp only [pt_scratch0, pt_scratch1]
  iintro ⟨%f10, %f11, -, H0, H1, Hg⟩
  isplitl [H0 H1]
  · isplitl [H0]
    · iexists f10; iexact H0
    iexists f11; iexact H1
  iexact Hg

set_option backward.isDefEq.respectTransparency.types false in
/-- Every weakly fair execution of @main terminates, and every final state has every array of the region at what the
    proof data says and every other unscoped buffer as the line after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KIValue.lean ====
/-
  The kernel's run with its result named: the result buffer ends at the reshape (64×128×256 to 64×128×16×16) of the
  region's output array, which ends at what the normalisation phase's four write-backs leave.
-/
import proofs.«114091_g2000004280588758_pallasbulk_1102_22_alg».proof.Proof.KIRun
import Idealize.ShloMosaic.Lib.StableHlo.Run
import Idealize.ShloMosaic.Lib.Pipeline.Value

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, the result buffer read off the line after the region, the arguments as launched. -/
theorem run_v0 : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v0 (Pipeline.mem_restRefs_of main_v0 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Body

end
-- ==== Proof.RefRun.lean ====
/-
  The reference's run with its result kept: every weakly fair execution of the reference's @main terminates, its
  result buffer ends at the last segment boundary's contents — the host lines after the second region applied to
  what that region's write-backs leave — and its argument arrays end as launched.
-/
import proofs.«114091_g2000004280588758_pallasbulk_1102_22_alg».proof.Proof.Gen.ReferenceIdeal.Frame

set_option maxRecDepth 16384

noncomputable section

namespace Cert.ReferenceIdeal.RefRun

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments (the host lines, the statistics region, the host lines, the apply region, the host
    line), the last thread state read against the final state at the result and at each argument. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.ReferenceIdeal.RefRun

end
-- ==== Proof.RefFinal.lean ====
/-
  The reference's result in closed form: its second region writes block t (images 2·t, 2·t + 1) of its output array
  back at every one of its thirty-two points, so image n of the array is row n mod 2 of what point n / 2 left; the last
  line of @main reshapes the array into the result.
-/
import proofs.«114091_g2000004280588758_pallasbulk_1102_22_alg».proof.Proof.RefRun
import Idealize.ShloMosaic.Lib.StableHlo.Run
import Idealize.ShloMosaic.Lib.Pipeline.Value
import Idealize.ShloMosaic.Lib.ValueIdx

set_option maxRecDepth 16384

noncomputable section

namespace Cert.ReferenceIdeal.RefRun

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem N1_eq : cfg1.N = 32 := N_1

/-- Point t of the second region writes block t of the leading axis. -/
theorem index1_3_0 : ∀ t : Fin cfg1.N, win1_3.index t (0 : Fin 3) = t.val :=
  (by decide +kernel : ∀ t : Fin grid1.N, win1_3.index t (0 : Fin 3) = t.val)
theorem index1_3_1 : ∀ t : Fin cfg1.N, win1_3.index t (1 : Fin 3) = 0 :=
  (by decide +kernel : ∀ t : Fin grid1.N, win1_3.index t (1 : Fin 3) = 0)
theorem index1_3_2 : ∀ t : Fin cfg1.N, win1_3.index t (2 : Fin 3) = 0 :=
  (by decide +kernel : ∀ t : Fin grid1.N, win1_3.index t (2 : Fin 3) = 0)

/-- What point number n of the second region leaves in its output block (beyond the grid: anything). -/
def outBlkN (n : ℕ) : S2x128x256.Idx → Elt F .f32 :=
  if h : n < 32 then
    out1_3 (iblk1 (V3 m ρ) c 0 (⟨n, by rw [N1_eq]; exact h⟩ : Fin cfg1.N)) (iblk1 (V3 m ρ) c 1 ⟨n, by rw [N1_eq]; exact h⟩)
      (iblk1 (V3 m ρ) c 2 ⟨n, by rw [N1_eq]; exact h⟩)
  else out1_3 (iblk1 (V3 m ρ) c 0 (⟨0, by rw [N1_eq]; decide⟩ : Fin cfg1.N)) (iblk1 (V3 m ρ) c 1 ⟨0, by rw [N1_eq]; decide⟩)
      (iblk1 (V3 m ρ) c 2 ⟨0, by rw [N1_eq]; decide⟩)

theorem outBlkN_eq (t : Fin cfg1.N) (n : ℕ) (hn : n = t.val) :
    outBlkN m ρ c n = out1_3 (iblk1 (V3 m ρ) c 0 t) (iblk1 (V3 m ρ) c 1 t) (iblk1 (V3 m ρ) c 2 t) := by
  subst hn; unfold outBlkN; rw [dif_pos (lt_of_lt_of_eq t.isLt N1_eq)]

/-- The second region's output array: image n is row n mod 2 of what point n / 2 left. -/
def Rres : Buf (Elt F) ((c : Thread nD τ).loc main_call0_v44) := fun (i : S64x128x256.Idx) =>
  outBlkN m ρ c ((i 0).val / 2) (ix3 (⟨(i 0).val % 2, Nat.mod_lt _ (by decide)⟩ : Fin 2) (i 1) (i 2))

theorem flushed1_eq (t : Fin cfg1.N) (hf : (cfg1.win 3).flush t = true) :
    (dat1 (V3 m ρ) c).flushed 3 t = ((cfg1.win 3).blk t).view.read (Elt F) (Rres m ρ c) := by
  have hN : t.val < 32 := lt_of_lt_of_eq t.isLt N1_eq
  show (cfg1.win 3).cut (grid1.coords t) ((dat1 (V3 m ρ) c).after 3 t) = _
  rw [after1_3]
  funext x
  show out1_3 (iblk1 (V3 m ρ) c 0 t) (iblk1 (V3 m ρ) c 1 t) (iblk1 (V3 m ρ) c 2 t) x = Rres m ρ c (((cfg1.win 3).blk t).view.emb x)
  have hx0 : (x 0).val < 2 := (x 0).isLt
  have e0 : ((((cfg1.win 3).blk t).view.emb x) 0).val = t.val * 2 + (x 0).val := by
    show win1_3.index t (0 : Fin 3) * 2 + 1 * (x 0).val = _
    rw [index1_3_0 t]; omega
  have e1 : ((((cfg1.win 3).blk t).view.emb x) 1).val = (x 1).val := by
    show win1_3.index t (1 : Fin 3) * 128 + 1 * (x 1).val = _
    rw [index1_3_1 t]; omega
  have e2 : ((((cfg1.win 3).blk t).view.emb x) 2).val = (x 2).val := by
    show win1_3.index t (2 : Fin 3) * 256 + 1 * (x 2).val = _
    rw [index1_3_2 t]; omega
  unfold Rres
  rw [outBlkN_eq m ρ c t _ (by rw [e0]; omega)]
  congr 1
  funext a; apply Fin.ext
  match a with
  | ⟨0, _⟩ => show (x 0).val = ((((cfg1.win 3).blk t).view.emb x) 0).val % 2; rw [e0]; omega
  | ⟨1, _⟩ => show (x 1).val = ((((cfg1.win 3).blk t).view.emb x) 1).val; rw [e1]
  | ⟨2, _⟩ => show (x 2).val = ((((cfg1.win 3).blk t).view.emb x) 2).val; rw [e2]

/-- The thirty-two write-backs cover the array. -/
theorem final1 : (dat1 (V3 m ρ) c).arrAt 3 cfg1.N = Rres m ρ c :=
  (dat1 (V3 m ρ) c).arrAt_eq_of_cover 3 (Rres m ρ c) (flushed1_eq m ρ c) fun i => by
    have hi0 : (i 0).val < 64 := (i 0).isLt
    have hi1 : (i 1).val < 128 := (i 1).isLt
    have hi2 : (i 2).val < 256 := (i 2).isLt
    obtain ⟨t, ht⟩ : ∃ t : Fin cfg1.N, t.val = (i 0).val / 2 := ⟨⟨(i 0).val / 2, by rw [N1_eq]; omega⟩, rfl⟩
    refine ⟨t, flush1_3 t, ?_⟩
    show i ∈ ((View.whole main_call0_v44).slice (win1_3.rect t)).set
    rw [View.set_slice_whole, Rect.mem_set_unit]
    intro a
    match a with
    | ⟨0, _⟩ =>
      show win1_3.index t (0 : Fin 3) * 2 ≤ (i 0).val ∧ (i 0).val < win1_3.index t (0 : Fin 3) * 2 + 2
      rw [index1_3_0 t]; omega
    | ⟨1, _⟩ =>
      show win1_3.index t (1 : Fin 3) * 128 ≤ (i 1).val ∧ (i 1).val < win1_3.index t (1 : Fin 3) * 128 + 128
      rw [index1_3_1 t]; omega
    | ⟨2, _⟩ =>
      show win1_3.index t (2 : Fin 3) * 256 ≤ (i 2).val ∧ (i 2).val < win1_3.index t (2 : Fin 3) * 256 + 256
      rw [index1_3_2 t]; omega

/-- The last line of @main reshapes that array into the result. -/
theorem W5_v0 :
    W5 m ρ c (Proc.devRef .tc main_v0)
      = (shapeCast S64x128x16x16 (Rres m ρ c : S64x128x256.Idx → Elt F .f32) shapeCasts_S64x128x256_S64x128x16x16 : S64x128x16x16.Idx → Elt F .f32) := by
  show StableHlo.after hostOps2 (W4 m ρ c) (Proc.devRef .tc main_v0) = _
  after_results
  rw [show W4 m ρ c (Proc.devRef .tc main_call0_v44) = (dat1 (V3 m ρ) c).arrAt 3 cfg1.N from W4_arr m ρ c 3, final1]
  rfl

end Cert.ReferenceIdeal.RefRun

end
-- ==== Proof.Consts.lean ====
import Mathlib
import Idealize.ShloMosaic.PureOps.Ideal

noncomputable section
namespace Cert.Consts
open Idealize.ShloMosaic

/-! The float constants the programs spell, as the extended reals their patterns denote. -/

/-- The pattern 0x38800000 denotes 2⁻¹⁴ = 1/16384. -/
theorem ofBits_inv16384 : Ideal.ofBits .f32 0x38800000#32 = ((1 / 16384 : ℝ) : EReal) := by
  simp [Ideal.ofBits, Ideal.ieee, -EReal.coe_mul]; norm_num

/-- The pattern 0x46800000 denotes 2¹⁴ = 16384. -/
theorem ofBits_16384 : Ideal.ofBits .f32 0x46800000#32 = ((16384 : ℝ) : EReal) := by
  simp [Ideal.ofBits, Ideal.ieee, -EReal.coe_mul]; norm_num

/-- The all-zero pattern denotes 0. -/
theorem ofBits_zero : Ideal.ofBits .f32 0x00000000#32 = 0 := by
  simp [Ideal.ofBits, Ideal.ieee]

/-- The pattern 0x3727C5AC denotes a positive real. -/
theorem ofBits_eps : ∃ εr : ℝ, 0 < εr ∧ Ideal.ofBits .f32 0x3727C5AC#32 = (εr : EReal) := by
  refine ⟨_, ?_, by simp [Ideal.ofBits, Ideal.ieee, -EReal.coe_mul]; rfl⟩
  positivity

/-- The pattern 0x3C23D70A denotes a real strictly between 0 and 1. -/
theorem ofBits_c : ∃ cr : ℝ, 0 < cr ∧ cr < 1 ∧ Ideal.ofBits .f32 0x3C23D70A#32 = (cr : EReal) := by
  refine ⟨_, ?_, ?_, by simp [Ideal.ofBits, Ideal.ieee, -EReal.coe_mul]; rfl⟩
  · positivity
  · norm_num

/-! The two spellings of the leaky rectifier on a real, with a slope strictly between 0 and 1. -/

theorem coe_max (a b : ℝ) : ((max a b : ℝ) : EReal) = max (a : EReal) (b : EReal) :=
  EReal.coe_strictMono.monotone.map_max

/-- The maximum spelling. -/
theorem leaky_max (z c : ℝ) : max (z : EReal) ((c : EReal) * (z : EReal)) = ((max z (c * z) : ℝ) : EReal) := by
  rw [← EReal.coe_mul, ← coe_max]

/-- The comparison spelling. -/
theorem leaky_ite (z c : ℝ) (hc0 : 0 < c) (hc1 : c < 1) :
    (if (0 : EReal) ≤ (z : EReal) then (z : EReal) else (c : EReal) * (z : EReal)) = ((max z (c * z) : ℝ) : EReal) := by
  by_cases hz : 0 ≤ z
  · have h0 : (0 : EReal) ≤ (z : EReal) := by exact_mod_cast hz
    rw [if_pos h0, max_eq_left]
    nlinarith
  · have h0 : ¬ (0 : EReal) ≤ (z : EReal) := by
      intro h
      exact hz (by exact_mod_cast h)
    rw [if_neg h0, ← EReal.coe_mul, max_eq_right]
    have : z < 0 := not_le.mp hz
    nlinarith

end Cert.Consts
end
-- ==== Proof.RefRegions.lean ====
/-
  The reference's two regions at the exact reals, element by element: a block of the second region is the scaled
  weight times the rectified input plus the bias column; a block of the first region is the two images' sums over the
  positions accumulated from zero, for the values and for their squares.
-/
import proofs.«114091_g2000004280588758_pallasbulk_1102_22_alg».proof.Proof.RefFinal
import proofs.«114091_g2000004280588758_pallasbulk_1102_22_alg».proof.Proof.Consts
import Idealize.ShloMosaic.PureOps.Ideal.Laws
import Idealize.ShloMosaic.Lib.ValueLayout

set_option maxRecDepth 16384

noncomputable section

namespace Cert.ReferenceIdeal.RefRun

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The leaky rectifier as the bodies print it, at one extended real: the value where it is at least zero, else the
    slope constant times the value. -/
def lrR (z : EReal) : EReal :=
  Scalar.select (Ideal.cmp .oge z (Ideal.ofBits .f32 0x00000000#32)) z (Ideal.ofBits .f32 0x3C23D70A#32 * z)

/-- On a real, with the slope constant a real, it is the comparison spelling. -/
theorem lrR_coe (r cr : ℝ) (hc : Ideal.ofBits .f32 0x3C23D70A#32 = (cr : EReal)) :
    lrR (r : EReal) = if (0 : EReal) ≤ (r : EReal) then (r : EReal) else (cr : EReal) * (r : EReal) := by
  unfold lrR
  rw [hc, Ideal.ofBits_zero_f32]
  unfold Ideal.cmp Scalar.select
  by_cases h : (0 : EReal) ≤ (r : EReal)
  · simp [h]
  · simp [h]

theorem pay1_apply (v0 : Vec Ideal S2x256x256 .f32) (i : S2x256x256.Idx) : k1_pay1 (F := Ideal) v0 i = lrR (v0 i) := by
  unfold k1_pay1 lrR
  rw [shapeCast_self]
  rfl

theorem pay2_0_apply (v0 : Vec Ideal S2x256x256 .f32) (i : S2x256x256.Idx) : k0_pay2 (F := Ideal) v0 i = lrR (v0 i) := by
  unfold k0_pay2 lrR
  rw [shapeCast_self]
  rfl

/-! The matrix product's index maps, coordinate by coordinate. -/

abbrev D := dot_S128x256_S256x256_S128x256_1_0_0_1_n_n

theorem lhs_0 (j : S128x256.Idx) (k : D.contr.Idx) : (D.lhsIdx j k 0 : ℕ) = j 0 := by
  simp [DotDims.lhsIdx, D, dot_S128x256_S256x256_S128x256_1_0_0_1_n_n]; rfl
theorem lhs_1 (j : S128x256.Idx) (k : D.contr.Idx) : (D.lhsIdx j k 1 : ℕ) = k ⟨0, by decide⟩ := by
  simp [DotDims.lhsIdx, D, dot_S128x256_S256x256_S128x256_1_0_0_1_n_n]; rfl
theorem rhs_0 (j : S128x256.Idx) (k : D.contr.Idx) : (D.rhsIdx j k 0 : ℕ) = k ⟨0, by decide⟩ := by
  simp [DotDims.rhsIdx, D, dot_S128x256_S256x256_S128x256_1_0_0_1_n_n]; rfl
theorem rhs_1 (j : S128x256.Idx) (k : D.contr.Idx) : (D.rhsIdx j k 1 : ℕ) = j 1 := by
  simp [DotDims.rhsIdx, D, dot_S128x256_S256x256_S128x256_1_0_0_1_n_n]; rfl

/-- The product into a zero accumulator at (ch, q): the sum over the 256 contracted coordinates. -/
theorem mm_apply (W : FVec Ideal S128x256 .f32) (X : FVec Ideal S256x256 .f32) (ch : Fin 128) (q : Fin 256) :
    (matmul D none W X (constant S128x256 .f32 0x00000000#32) : S128x256.Idx → EReal) (ix2 ch q)
      = ∑ k : Fin 256, W (ix2 ch k) * X (ix2 k q) := by
  refine (Ideal.matmul_constant_zero_apply D none W X (ix2 ch q)).trans ?_
  rw [← Equiv.sum_comp (contrEquiv1 D 256 rfl rfl).symm]
  refine Finset.sum_congr rfl fun k _ => ?_
  congr 2
  · funext a; apply Fin.ext
    match a with
    | ⟨0, _⟩ => exact lhs_0 _ _
    | ⟨1, _⟩ => exact (lhs_1 _ _).trans (contrEquiv1_symm_val D 256 rfl rfl k)
  · funext a; apply Fin.ext
    match a with
    | ⟨0, _⟩ => exact (rhs_0 _ _).trans (contrEquiv1_symm_val D 256 rfl rfl k)
    | ⟨1, _⟩ => exact rhs_1 _ _

/-! Region 1: the stored payloads at an index. -/

/-- The rectified input of image b (0 or 1) of the block, as the 256×256 operand of the product, at (k, q). -/
theorem rhs0_apply (v0 : Vec Ideal S2x256x256 .f32) (k q : Fin 256) :
    (shapeCast S256x256 (extractStridedSlice S1x256x256 ![0, 0, 0] (k1_pay1 (F := Ideal) v0) slices_S2x256x256_o0_0_0_S1x256x256)
      shapeCasts_S1x256x256_S256x256 : S256x256.Idx → EReal) (ix2 k q) = lrR (v0 (ix3 (0 : Fin 2) k q)) := by
  refine (shapeCast_1ab_ab_apply _ shapeCasts_S1x256x256_S256x256 k q).trans ?_
  refine (extractStridedSlice_apply _ _ slices_S2x256x256_o0_0_0_S1x256x256 _ (ix3 (0 : Fin 2) k q) fun a => ?_).trans (pay1_apply v0 _)
  match a with
  | ⟨0, _⟩ => rfl
  | ⟨1, _⟩ => show k.val = 0 + k.val; omega
  | ⟨2, _⟩ => show q.val = 0 + q.val; omega

theorem rhs1_apply (v0 : Vec Ideal S2x256x256 .f32) (k q : Fin 256) :
    (shapeCast S256x256 (extractStridedSlice S1x256x256 ![1, 0, 0] (k1_pay1 (F := Ideal) v0) slices_S2x256x256_o1_0_0_S1x256x256)
      shapeCasts_S1x256x256_S256x256 : S256x256.Idx → EReal) (ix2 k q) = lrR (v0 (ix3 (1 : Fin 2) k q)) := by
  refine (shapeCast_1ab_ab_apply _ shapeCasts_S1x256x256_S256x256 k q).trans ?_
  refine (extractStridedSlice_apply _ _ slices_S2x256x256_o1_0_0_S1x256x256 _ (ix3 (1 : Fin 2) k q) fun a => ?_).trans (pay1_apply v0 _)
  match a with
  | ⟨0, _⟩ => rfl
  | ⟨1, _⟩ => show k.val = 0 + k.val; omega
  | ⟨2, _⟩ => show q.val = 0 + q.val; omega

/-- The bias column broadcast over the positions reads the column's entry of the channel. -/
theorem bias_apply (v7 : Vec Ideal S128x1 .f32) (ch : Fin 128) (q : Fin 256) :
    (broadcastTo S128x256 (k1_pay2 (F := Ideal) v7) broadcasts_S128x1_S128x256 : S128x256.Idx → EReal) (ix2 ch q) = v7 (ix2 ch 0) := by
  refine (broadcastTo_apply _ broadcasts_S128x1_S128x256 (ix2 ch q) (ix2 ch (0 : Fin 1)) fun a => ?_).trans ?_
  · match a with
    | ⟨0, _⟩ => rfl
    | ⟨1, _⟩ => rfl
  · unfold k1_pay2
    exact congrFun (shapeCast_self v7 _) _

theorem pay3_apply (v0 : Vec Ideal S2x256x256 .f32) (v7 : Vec Ideal S128x1 .f32) (v9 : Vec Ideal S128x256 .f32)
    (u : Fin 1) (ch : Fin 128) (q : Fin 256) :
    k1_pay3 (F := Ideal) v0 v7 v9 (ix3 u ch q)
      = (∑ k : Fin 256, v9 (ix2 ch k) * lrR (v0 (ix3 (0 : Fin 2) k q))) + v7 (ix2 ch 0) := by
  unfold k1_pay3
  refine (shapeCast_ab_1ab_apply _ shapeCasts_S128x256_S1x128x256 u ch q).trans ?_
  refine (addf_apply _ _ _).trans ?_
  refine congrArg₂ (· + ·) ?_ (bias_apply v7 ch q)
  refine (mm_apply _ _ ch q).trans ?_
  refine Finset.sum_congr rfl fun k _ => ?_
  exact congrArg₂ (· * ·) (congrFun (shapeCast_self v9 _) _) (rhs0_apply v0 k q)

theorem pay4_apply (v0 : Vec Ideal S2x256x256 .f32) (v7 : Vec Ideal S128x1 .f32) (v19 : Vec Ideal S128x256 .f32)
    (u : Fin 1) (ch : Fin 128) (q : Fin 256) :
    k1_pay4 (F := Ideal) v0 v7 v19 (ix3 u ch q)
      = (∑ k : Fin 256, v19 (ix2 ch k) * lrR (v0 (ix3 (1 : Fin 2) k q))) + v7 (ix2 ch 0) := by
  unfold k1_pay4
  refine (shapeCast_ab_1ab_apply _ shapeCasts_S128x256_S1x128x256 u ch q).trans ?_
  refine (addf_apply _ _ _).trans ?_
  refine congrArg₂ (· + ·) ?_ (bias_apply v7 ch q)
  refine (mm_apply _ _ ch q).trans ?_
  refine Finset.sum_congr rfl fun k _ => ?_
  exact congrArg₂ (· * ·) (congrFun (shapeCast_self v19 _) _) (rhs1_apply v0 k q)

theorem hz3 : (![0, 0, 0] : Fin 3 → Nat) = fun _ => 0 := by funext a; fin_cases a <;> rfl
theorem hz2 : (![0, 0] : Fin 2 → Nat) = fun _ => 0 := by funext a; fin_cases a <;> rfl

/-- An element of the second region's output block: image b of the block, channel ch, position q. -/
theorem out1_3_apply (x0 : Vec Ideal S2x256x256 .f32) (x1 : Vec Ideal S128x256 .f32) (x2 : Vec Ideal S128x1 .f32)
    (b : Fin 2) (ch : Fin 128) (q : Fin 256) :
    out1_3 (F := Ideal) x0 x1 x2 (ix3 b ch q)
      = (∑ k : Fin 256, x1 (ix2 ch k) * lrR (x0 (ix3 b k q))) + x2 (ix2 ch 0) := by
  unfold out1_3
  rw [View.ld_unit_zero (S := S2x256x256) hz3, View.ld_unit_zero (S := S128x1) hz2, View.ld_unit_zero (S := S128x256) hz2]
  match b with
  | ⟨1, _⟩ =>
    have e : (ix3 (⟨1, by decide⟩ : Fin 2) ch q : S2x128x256.Idx) = r1_4.emb (ix3 (0 : Fin 1) ch q) := by
      funext a; apply Fin.ext
      match a with
      | ⟨0, _⟩ => rfl
      | ⟨1, _⟩ => show ch.val = 0 + 1 * ch.val; omega
      | ⟨2, _⟩ => show q.val = 0 + 1 * q.val; omega
    rw [e, View.canon_cons_emb]
    exact pay4_apply x0 x2 x1 0 ch q
  | ⟨0, _⟩ =>
    have hn : (ix3 (⟨0, by decide⟩ : Fin 2) ch q : S2x128x256.Idx) ∉ r1_4.set := by
      rw [Rect.mem_set_unit]
      intro h
      have h0 : (1 : ℕ) ≤ 0 := (h 0).1
      omega
    have e : (ix3 (⟨0, by decide⟩ : Fin 2) ch q : S2x128x256.Idx) = r1_3.emb (ix3 (0 : Fin 1) ch q) := by
      funext a; apply Fin.ext
      match a with
      | ⟨0, _⟩ => rfl
      | ⟨1, _⟩ => show ch.val = 0 + 1 * ch.val; omega
      | ⟨2, _⟩ => show q.val = 0 + 1 * q.val; omega
    refine (View.canon_cons_of_not_mem (⟨r1_4, _⟩ : View.Piece (Elt Ideal) S2x128x256 .f32) _ hn).trans ?_
    rw [e, View.canon_cons_emb]
    exact pay3_apply x0 x2 x1 0 ch q

/-! Region 1: the input blocks, read off the arrays the region finds. -/

section Blocks1

variable (m : (ℓ : Loc nD τ sig) → Buf (Elt Ideal) ℓ) (ρ : Dev nD → PrngReg) (c : Dev nD)

theorem index1_0_0 : ∀ t : Fin cfg1.N, win1_0.index t (0 : Fin 3) = t.val :=
  (by decide +kernel : ∀ t : Fin grid1.N, win1_0.index t (0 : Fin 3) = t.val)
theorem index1_0_1 : ∀ t : Fin cfg1.N, win1_0.index t (1 : Fin 3) = 0 :=
  (by decide +kernel : ∀ t : Fin grid1.N, win1_0.index t (1 : Fin 3) = 0)
theorem index1_0_2 : ∀ t : Fin cfg1.N, win1_0.index t (2 : Fin 3) = 0 :=
  (by decide +kernel : ∀ t : Fin grid1.N, win1_0.index t (2 : Fin 3) = 0)
theorem index1_1_0 : ∀ t : Fin cfg1.N, win1_1.index t (0 : Fin 2) = 0 :=
  (by decide +kernel : ∀ t : Fin grid1.N, win1_1.index t (0 : Fin 2) = 0)
theorem index1_1_1 : ∀ t : Fin cfg1.N, win1_1.index t (1 : Fin 2) = 0 :=
  (by decide +kernel : ∀ t : Fin grid1.N, win1_1.index t (1 : Fin 2) = 0)
theorem index1_2_0 : ∀ t : Fin cfg1.N, win1_2.index t (0 : Fin 2) = 0 :=
  (by decide +kernel : ∀ t : Fin grid1.N, win1_2.index t (0 : Fin 2) = 0)
theorem index1_2_1 : ∀ t : Fin cfg1.N, win1_2.index t (1 : Fin 2) = 0 :=
  (by decide +kernel : ∀ t : Fin grid1.N, win1_2.index t (1 : Fin 2) = 0)

/-- Point t's input block of the activations: images 2·t and 2·t + 1. -/
theorem iblk1_0_apply (t : Fin cfg1.N) (b : Fin 2) (k q : Fin 256) :
    (iblk1 (V3 m ρ) c 0 t : S2x256x256.Idx → EReal) (ix3 b k q)
      = (V3 m ρ c main_call0_v7 : S64x256x256.Idx → EReal)
          (ix3 (⟨2 * t.val + b.val, by have := lt_of_lt_of_eq t.isLt N1_eq; have := b.isLt; omega⟩ : Fin 64) k q) := by
  show (V3 m ρ c main_call0_v7 : S64x256x256.Idx → EReal) (((cfg1.win 0).blk t).view.emb (ix3 b k q)) = _
  congr 1
  funext a; apply Fin.ext
  match a with
  | ⟨0, _⟩ => show win1_0.index t (0 : Fin 3) * 2 + 1 * b.val = 2 * t.val + b.val; rw [index1_0_0 t]; omega
  | ⟨1, _⟩ => show win1_0.index t (1 : Fin 3) * 256 + 1 * k.val = k.val; rw [index1_0_1 t]; omega
  | ⟨2, _⟩ => show win1_0.index t (2 : Fin 3) * 256 + 1 * q.val = q.val; rw [index1_0_2 t]; omega

/-- The weight window is the whole weight array at every point. -/
theorem iblk1_1_eq (t : Fin cfg1.N) :
    (iblk1 (V3 m ρ) c 1 t : S128x256.Idx → EReal) = (V3 m ρ c main_call0_v43 : S128x256.Idx → EReal) := by
  funext x
  show (V3 m ρ c main_call0_v43 : S128x256.Idx → EReal) (((cfg1.win 1).blk t).view.emb x) = _
  congr 1
  funext a; apply Fin.ext
  match a with
  | ⟨0, _⟩ => show win1_1.index t (0 : Fin 2) * 128 + 1 * (x 0).val = (x 0).val; rw [index1_1_0 t]; omega
  | ⟨1, _⟩ => show win1_1.index t (1 : Fin 2) * 256 + 1 * (x 1).val = (x 1).val; rw [index1_1_1 t]; omega

/-- The bias window is the whole bias column at every point. -/
theorem iblk1_2_eq (t : Fin cfg1.N) :
    (iblk1 (V3 m ρ) c 2 t : S128x1.Idx → EReal) = (V3 m ρ c main_call0_v40 : S128x1.Idx → EReal) := by
  funext x
  show (V3 m ρ c main_call0_v40 : S128x1.Idx → EReal) (((cfg1.win 2).blk t).view.emb x) = _
  congr 1
  funext a; apply Fin.ext
  match a with
  | ⟨0, _⟩ => show win1_2.index t (0 : Fin 2) * 128 + 1 * (x 0).val = (x 0).val; rw [index1_2_0 t]; omega
  | ⟨1, _⟩ => show win1_2.index t (1 : Fin 2) * 1 + 1 * (x 1).val = (x 1).val; rw [index1_2_1 t]; omega

end Blocks1

/-! Region 0: the stored payloads at an index. -/

/-- Image 0 of a two-image array, as a 256×256 matrix, at (k, q). -/
theorem slice0_apply (P : FVec Ideal S2x256x256 .f32) (k q : Fin 256) :
    (shapeCast S256x256 (extractStridedSlice S1x256x256 ![0, 0, 0] P slices_S2x256x256_o0_0_0_S1x256x256)
      shapeCasts_S1x256x256_S256x256 : S256x256.Idx → EReal) (ix2 k q) = P (ix3 (0 : Fin 2) k q) := by
  refine (shapeCast_1ab_ab_apply _ shapeCasts_S1x256x256_S256x256 k q).trans ?_
  refine extractStridedSlice_apply _ _ slices_S2x256x256_o0_0_0_S1x256x256 _ (ix3 (0 : Fin 2) k q) fun a => ?_
  match a with
  | ⟨0, _⟩ => rfl
  | ⟨1, _⟩ => show k.val = 0 + k.val; omega
  | ⟨2, _⟩ => show q.val = 0 + q.val; omega

/-- Image 1 of a two-image array, as a 256×256 matrix, at (k, q). -/
theorem slice1_apply (P : FVec Ideal S2x256x256 .f32) (k q : Fin 256) :
    (shapeCast S256x256 (extractStridedSlice S1x256x256 ![1, 0, 0] P slices_S2x256x256_o1_0_0_S1x256x256)
      shapeCasts_S1x256x256_S256x256 : S256x256.Idx → EReal) (ix2 k q) = P (ix3 (1 : Fin 2) k q) := by
  refine (shapeCast_1ab_ab_apply _ shapeCasts_S1x256x256_S256x256 k q).trans ?_
  refine extractStridedSlice_apply _ _ slices_S2x256x256_o1_0_0_S1x256x256 _ (ix3 (1 : Fin 2) k q) fun a => ?_
  match a with
  | ⟨0, _⟩ => rfl
  | ⟨1, _⟩ => show k.val = 0 + k.val; omega
  | ⟨2, _⟩ => show q.val = 0 + q.val; omega

/-- A 128×256 array summed over the positions, as a column, at channel ch. -/
theorem laneSum_apply (v : FVec Ideal S128x256 .f32) (ch : Fin 128) (hφ1 : FKind.Formats .f32)
    (ha1 : (0x00000000#32 : BitVec 32) = FKind.add.neutral .f32 hφ1) :
    (shapeCast S128x1 (multiReduction (F := Ideal) .add [1] S128 v 0x00000000#32 reduces_S128x256_S128 hφ1 ha1)
      shapeCasts_S128_S128x1 : S128x1.Idx → EReal) (ix2 ch 0) = ∑ q : Fin 256, v (ix2 ch q) := by
  refine (shapeCast_apply _ shapeCasts_S128_S128x1 (ix2 ch 0) (ix1 ch) rfl).trans ?_
  refine (Ideal.multiReduction_add_single v 0x00000000#32 reduces_S128x256_S128 hφ1 ha1 (ix1 ch)).trans ?_
  refine Finset.sum_congr rfl fun q _ => ?_
  exact congrArg v (funext fun c => Fin.ext (by fin_cases c <;> rfl))

/-- The convolution of image b of a block: the weight row of the channel times the rectified input column of the
    position. -/
def yv (x0 : Vec Ideal S2x256x256 .f32) (x1 : Vec Ideal S128x256 .f32) (b : Fin 2) (ch : Fin 128) (q : Fin 256) : EReal :=
  ∑ k : Fin 256, x1 (ix2 ch k) * lrR (x0 (ix3 b k q))

theorem k0_pay3_apply (v0 : Vec Ideal S2x256x256 .f32) (v9 : Vec Ideal S128x256 .f32) (ch : Fin 128) (q : Fin 256) :
    k0_pay3 (F := Ideal) v0 v9 (ix2 ch q) = yv v0 v9 0 ch q := by
  unfold k0_pay3 yv
  refine (mm_apply _ _ ch q).trans ?_
  refine Finset.sum_congr rfl fun k _ => ?_
  exact congrArg₂ (· * ·) (congrFun (shapeCast_self v9 _) _) ((slice0_apply _ k q).trans (pay2_0_apply v0 _))

theorem k0_pay4_apply (v0 : Vec Ideal S2x256x256 .f32) (v21 : Vec Ideal S128x256 .f32) (ch : Fin 128) (q : Fin 256) :
    k0_pay4 (F := Ideal) v0 v21 (ix2 ch q) = yv v0 v21 1 ch q := by
  unfold k0_pay4 yv
  refine (mm_apply _ _ ch q).trans ?_
  refine Finset.sum_congr rfl fun k _ => ?_
  exact congrArg₂ (· * ·) (congrFun (shapeCast_self v21 _) _) ((slice1_apply _ k q).trans (pay2_0_apply v0 _))

/-- The sums of the two images' values over the positions, accumulated from zero in order. -/
theorem k0_pay6_apply (v0 : Vec Ideal S2x256x256 .f32) (v9 v21 : Vec Ideal S128x256 .f32) (u : Fin 1) (ch : Fin 128) :
    k0_pay6 (F := Ideal) v0 v9 v21 (ix3 u ch (0 : Fin 1))
      = (Ideal.ofBits .f32 0x00000000#32 + ∑ q : Fin 256, yv v0 v9 0 ch q) + ∑ q : Fin 256, yv v0 v21 1 ch q := by
  unfold k0_pay6
  refine (shapeCast_ab_1ab_apply _ shapeCasts_S128x1_S1x128x1 u ch 0).trans ?_
  exact congrArg₂ (· + ·)
    (congrArg₂ (· + ·) rfl ((laneSum_apply _ ch _ _).trans (Finset.sum_congr rfl fun q _ => k0_pay3_apply v0 v9 ch q)))
    ((laneSum_apply _ ch _ _).trans (Finset.sum_congr rfl fun q _ => k0_pay4_apply v0 v21 ch q))

/-- The sums of the two images' squares over the positions, accumulated from zero in order. -/
theorem k0_pay5_apply (v0 : Vec Ideal S2x256x256 .f32) (v9 v21 : Vec Ideal S128x256 .f32) (ch : Fin 128) :
    k0_pay5 (F := Ideal) v0 v9 v21 (ix2 ch (0 : Fin 1))
      = (Ideal.ofBits .f32 0x00000000#32 + ∑ q : Fin 256, yv v0 v9 0 ch q * yv v0 v9 0 ch q)
        + ∑ q : Fin 256, yv v0 v21 1 ch q * yv v0 v21 1 ch q := by
  unfold k0_pay5
  exact congrArg₂ (· + ·)
    (congrArg₂ (· + ·) rfl ((laneSum_apply _ ch _ _).trans
      (Finset.sum_congr rfl fun q _ => congrArg₂ (· * ·) (k0_pay3_apply v0 v9 ch q) (k0_pay3_apply v0 v9 ch q))))
    ((laneSum_apply _ ch _ _).trans
      (Finset.sum_congr rfl fun q _ => congrArg₂ (· * ·) (k0_pay4_apply v0 v21 ch q) (k0_pay4_apply v0 v21 ch q)))

theorem k0_pay1_apply (v32 : FVec Ideal S128x1 .f32) (u : Fin 1) (ch : Fin 128) :
    k0_pay1 (F := Ideal) v32 (ix3 u ch (0 : Fin 1)) = v32 (ix2 ch 0) := by
  unfold k0_pay1
  exact shapeCast_ab_1ab_apply _ shapeCasts_S128x1_S1x128x1 u ch 0

/-- The first region's output block, column 0: the two images' sums. -/
theorem out0_2_apply_0 (x0 : Vec Ideal S2x256x256 .f32) (x1 : Vec Ideal S128x256 .f32) (ch : Fin 128) :
    out0_2 (F := Ideal) x0 x1 (ix3 (0 : Fin 1) ch (0 : Fin 2))
      = (Ideal.ofBits .f32 0x00000000#32 + ∑ q : Fin 256, yv x0 x1 0 ch q) + ∑ q : Fin 256, yv x0 x1 1 ch q := by
  unfold out0_2
  rw [View.ld_unit_zero (S := S2x256x256) hz3, View.ld_unit_zero (S := S128x256) hz2]
  have hn : (ix3 (0 : Fin 1) ch (0 : Fin 2) : S1x128x2.Idx) ∉ r0_3.set := by
    rw [Rect.mem_set_unit]
    intro h
    have h2 : (1 : ℕ) ≤ 0 := (h 2).1
    omega
  have e : (ix3 (0 : Fin 1) ch (0 : Fin 2) : S1x128x2.Idx) = r0_2.emb (ix3 (0 : Fin 1) ch (0 : Fin 1)) := by
    funext a; apply Fin.ext
    match a with
    | ⟨0, _⟩ => rfl
    | ⟨1, _⟩ => show ch.val = 0 + 1 * ch.val; omega
    | ⟨2, _⟩ => rfl
  refine (View.canon_cons_of_not_mem (⟨r0_3, _⟩ : View.Piece (Elt Ideal) S1x128x2 .f32) _ hn).trans ?_
  rw [e, View.canon_cons_emb]
  exact k0_pay6_apply x0 x1 x1 0 ch

/-- The first region's output block, column 1: the two images' sums of squares. -/
theorem out0_2_apply_1 (x0 : Vec Ideal S2x256x256 .f32) (x1 : Vec Ideal S128x256 .f32) (ch : Fin 128) :
    out0_2 (F := Ideal) x0 x1 (ix3 (0 : Fin 1) ch (1 : Fin 2))
      = (Ideal.ofBits .f32 0x00000000#32 + ∑ q : Fin 256, yv x0 x1 0 ch q * yv x0 x1 0 ch q)
        + ∑ q : Fin 256, yv x0 x1 1 ch q * yv x0 x1 1 ch q := by
  unfold out0_2
  rw [View.ld_unit_zero (S := S2x256x256) hz3, View.ld_unit_zero (S := S128x256) hz2]
  have e : (ix3 (0 : Fin 1) ch (1 : Fin 2) : S1x128x2.Idx) = r0_3.emb (ix3 (0 : Fin 1) ch (0 : Fin 1)) := by
    funext a; apply Fin.ext
    match a with
    | ⟨0, _⟩ => rfl
    | ⟨1, _⟩ => show ch.val = 0 + 1 * ch.val; omega
    | ⟨2, _⟩ => rfl
  rw [e, View.canon_cons_emb]
  exact (k0_pay1_apply _ 0 ch).trans (k0_pay5_apply x0 x1 x1 ch)

/-! Region 0: the input blocks, and the output array in closed form. -/

section Blocks0

variable (m : (ℓ : Loc nD τ sig) → Buf (Elt Ideal) ℓ) (ρ : Dev nD → PrngReg) (c : Dev nD)

theorem N0_eq : cfg0.N = 32 := N_0

theorem index0_0_0 : ∀ t : Fin cfg0.N, win0_0.index t (0 : Fin 3) = t.val :=
  (by decide +kernel : ∀ t : Fin grid0.N, win0_0.index t (0 : Fin 3) = t.val)
theorem index0_0_1 : ∀ t : Fin cfg0.N, win0_0.index t (1 : Fin 3) = 0 :=
  (by decide +kernel : ∀ t : Fin grid0.N, win0_0.index t (1 : Fin 3) = 0)
theorem index0_0_2 : ∀ t : Fin cfg0.N, win0_0.index t (2 : Fin 3) = 0 :=
  (by decide +kernel : ∀ t : Fin grid0.N, win0_0.index t (2 : Fin 3) = 0)
theorem index0_1_0 : ∀ t : Fin cfg0.N, win0_1.index t (0 : Fin 2) = 0 :=
  (by decide +kernel : ∀ t : Fin grid0.N, win0_1.index t (0 : Fin 2) = 0)
theorem index0_1_1 : ∀ t : Fin cfg0.N, win0_1.index t (1 : Fin 2) = 0 :=
  (by decide +kernel : ∀ t : Fin grid0.N, win0_1.index t (1 : Fin 2) = 0)
theorem index0_2_0 : ∀ t : Fin cfg0.N, win0_2.index t (0 : Fin 3) = t.val :=
  (by decide +kernel : ∀ t : Fin grid0.N, win0_2.index t (0 : Fin 3) = t.val)
theorem index0_2_1 : ∀ t : Fin cfg0.N, win0_2.index t (1 : Fin 3) = 0 :=
  (by decide +kernel : ∀ t : Fin grid0.N, win0_2.index t (1 : Fin 3) = 0)
theorem index0_2_2 : ∀ t : Fin cfg0.N, win0_2.index t (2 : Fin 3) = 0 :=
  (by decide +kernel : ∀ t : Fin grid0.N, win0_2.index t (2 : Fin 3) = 0)

/-- Point t's input block of the activations: images 2·t and 2·t + 1. -/
theorem iblk0_0_apply (t : Fin cfg0.N) (b : Fin 2) (k q : Fin 256) :
    (iblk0 (V1 m ρ) c 0 t : S2x256x256.Idx → EReal) (ix3 b k q)
      = (V1 m ρ c main_call0_v7 : S64x256x256.Idx → EReal)
          (ix3 (⟨2 * t.val + b.val, by have := lt_of_lt_of_eq t.isLt N0_eq; have := b.isLt; omega⟩ : Fin 64) k q) := by
  show (V1 m ρ c main_call0_v7 : S64x256x256.Idx → EReal) (((cfg0.win 0).blk t).view.emb (ix3 b k q)) = _
  congr 1
  funext a; apply Fin.ext
  match a with
  | ⟨0, _⟩ => show win0_0.index t (0 : Fin 3) * 2 + 1 * b.val = 2 * t.val + b.val; rw [index0_0_0 t]; omega
  | ⟨1, _⟩ => show win0_0.index t (1 : Fin 3) * 256 + 1 * k.val = k.val; rw [index0_0_1 t]; omega
  | ⟨2, _⟩ => show win0_0.index t (2 : Fin 3) * 256 + 1 * q.val = q.val; rw [index0_0_2 t]; omega

/-- The weight window is the whole weight array at every point. -/
theorem iblk0_1_eq (t : Fin cfg0.N) :
    (iblk0 (V1 m ρ) c 1 t : S128x256.Idx → EReal) = (V1 m ρ c main_call0_v18 : S128x256.Idx → EReal) := by
  funext x
  show (V1 m ρ c main_call0_v18 : S128x256.Idx → EReal) (((cfg0.win 1).blk t).view.emb x) = _
  congr 1
  funext a; apply Fin.ext
  match a with
  | ⟨0, _⟩ => show win0_1.index t (0 : Fin 2) * 128 + 1 * (x 0).val = (x 0).val; rw [index0_1_0 t]; omega
  | ⟨1, _⟩ => show win0_1.index t (1 : Fin 2) * 256 + 1 * (x 1).val = (x 1).val; rw [index0_1_1 t]; omega

/-- What point number n of the first region leaves in its output block (beyond the grid: anything). -/
def statBlkN (n : ℕ) : S1x128x2.Idx → EReal :=
  if h : n < 32 then
    out0_2 (iblk0 (V1 m ρ) c 0 (⟨n, by rw [N0_eq]; exact h⟩ : Fin cfg0.N)) (iblk0 (V1 m ρ) c 1 ⟨n, by rw [N0_eq]; exact h⟩)
  else out0_2 (iblk0 (V1 m ρ) c 0 (⟨0, by rw [N0_eq]; decide⟩ : Fin cfg0.N)) (iblk0 (V1 m ρ) c 1 ⟨0, by rw [N0_eq]; decide⟩)

theorem statBlkN_eq (t : Fin cfg0.N) (n : ℕ) (hn : n = t.val) :
    statBlkN m ρ c n = out0_2 (iblk0 (V1 m ρ) c 0 t) (iblk0 (V1 m ρ) c 1 t) := by
  subst hn; unfold statBlkN; rw [dif_pos (lt_of_lt_of_eq t.isLt N0_eq)]

/-- The first region's output array: row G is what point G left. -/
def Sres : Buf (Elt Ideal) ((c : Thread nD τ).loc main_call0_v19) := fun (i : S32x128x2.Idx) =>
  statBlkN m ρ c (i 0).val (ix3 (0 : Fin 1) (i 1) (i 2))

theorem Sres_apply (G : Fin 32) (ch : Fin 128) (col : Fin 2) :
    (Sres m ρ c : S32x128x2.Idx → EReal) (ix3 G ch col)
      = out0_2 (iblk0 (V1 m ρ) c 0 (⟨G.val, by rw [N0_eq]; exact G.isLt⟩ : Fin cfg0.N))
          (iblk0 (V1 m ρ) c 1 ⟨G.val, by rw [N0_eq]; exact G.isLt⟩) (ix3 (0 : Fin 1) ch col) := by
  show statBlkN m ρ c G.val (ix3 (0 : Fin 1) ch col) = _
  rw [statBlkN_eq m ρ c ⟨G.val, by rw [N0_eq]; exact G.isLt⟩ G.val rfl]

theorem flushed0_eq (t : Fin cfg0.N) (hf : (cfg0.win 2).flush t = true) :
    (dat0 (V1 m ρ) c).flushed 2 t = ((cfg0.win 2).blk t).view.read (Elt Ideal) (Sres m ρ c) := by
  have hN : t.val < 32 := lt_of_lt_of_eq t.isLt N0_eq
  show (cfg0.win 2).cut (grid0.coords t) ((dat0 (V1 m ρ) c).after 2 t) = _
  rw [after0_2]
  funext x
  show out0_2 (iblk0 (V1 m ρ) c 0 t) (iblk0 (V1 m ρ) c 1 t) x = Sres m ρ c (((cfg0.win 2).blk t).view.emb x)
  have hx0 : (x 0).val < 1 := (x 0).isLt
  have e0 : ((((cfg0.win 2).blk t).view.emb x) 0).val = t.val * 1 + (x 0).val := by
    show win0_2.index t (0 : Fin 3) * 1 + 1 * (x 0).val = _
    rw [index0_2_0 t]; omega
  have e1 : ((((cfg0.win 2).blk t).view.emb x) 1).val = (x 1).val := by
    show win0_2.index t (1 : Fin 3) * 128 + 1 * (x 1).val = _
    rw [index0_2_1 t]; omega
  have e2 : ((((cfg0.win 2).blk t).view.emb x) 2).val = (x 2).val := by
    show win0_2.index t (2 : Fin 3) * 2 + 1 * (x 2).val = _
    rw [index0_2_2 t]; omega
  unfold Sres
  rw [statBlkN_eq m ρ c t _ (by rw [e0]; omega)]
  congr 1
  funext a; apply Fin.ext
  match a with
  | ⟨0, _⟩ => show (x 0).val = 0; omega
  | ⟨1, _⟩ => show (x 1).val = ((((cfg0.win 2).blk t).view.emb x) 1).val; rw [e1]
  | ⟨2, _⟩ => show (x 2).val = ((((cfg0.win 2).blk t).view.emb x) 2).val; rw [e2]

/-- The thirty-two write-backs cover the array. -/
theorem final0 : (dat0 (V1 m ρ) c).arrAt 2 cfg0.N = Sres m ρ c :=
  (dat0 (V1 m ρ) c).arrAt_eq_of_cover 2 (Sres m ρ c) (flushed0_eq m ρ c) fun i => by
    have hi0 : (i 0).val < 32 := (i 0).isLt
    have hi1 : (i 1).val < 128 := (i 1).isLt
    have hi2 : (i 2).val < 2 := (i 2).isLt
    obtain ⟨t, ht⟩ : ∃ t : Fin cfg0.N, t.val = (i 0).val := ⟨⟨(i 0).val, by rw [N0_eq]; omega⟩, rfl⟩
    refine ⟨t, flush0_2 t, ?_⟩
    show i ∈ ((View.whole main_call0_v19).slice (win0_2.rect t)).set
    rw [View.set_slice_whole, Rect.mem_set_unit]
    intro a
    match a with
    | ⟨0, _⟩ =>
      show win0_2.index t (0 : Fin 3) * 1 ≤ (i 0).val ∧ (i 0).val < win0_2.index t (0 : Fin 3) * 1 + 1
      rw [index0_2_0 t]; omega
    | ⟨1, _⟩ =>
      show win0_2.index t (1 : Fin 3) * 128 ≤ (i 1).val ∧ (i 1).val < win0_2.index t (1 : Fin 3) * 128 + 128
      rw [index0_2_1 t]; omega
    | ⟨2, _⟩ =>
      show win0_2.index t (2 : Fin 3) * 2 ≤ (i 2).val ∧ (i 2).val < win0_2.index t (2 : Fin 3) * 2 + 2
      rw [index0_2_2 t]; omega

/-- At the first region's exit its output array holds the closed form. -/
theorem W2_v19 : W2 m ρ c (Proc.devRef .tc main_call0_v19) = Sres m ρ c := by
  rw [show W2 m ρ c (Proc.devRef .tc main_call0_v19) = (dat0 (V1 m ρ) c).arrAt 2 cfg0.N from W2_arr m ρ c 2, final0]

end Blocks0

end Cert.ReferenceIdeal.RefRun

end
-- ==== Proof.Algebra.lean ====
import Mathlib
import Idealize.ShloMosaic.PureOps.Ideal

noncomputable section
namespace Cert.Alg
open Idealize.ShloMosaic

variable (Wr : Fin 128 → Fin 256 → ℝ) (Lr : Fin 64 → Fin 256 → Fin 256 → ℝ) (γr βr : Fin 128 → ℝ) (εr : ℝ)

/-- The 1×1 convolutions: channel ch of image n at position q. -/
def y (n : Fin 64) (ch : Fin 128) (q : Fin 256) : EReal := ∑ k : Fin 256, (Wr ch k : EReal) * (Lr n k q : EReal)

/-- Image 8·g + j, and image 2·G + b. -/
def im8 (g : Fin 8) (j : Fin 8) : Fin 64 := ⟨8 * g.val + j.val, by have := g.isLt; have := j.isLt; omega⟩
def im2 (G : Fin 32) (b : Fin 2) : Fin 64 := ⟨2 * G.val + b.val, by have := G.isLt; have := b.isLt; omega⟩

/-! The fused program's statistics: eight slabs of eight images, each summed over its images and then over the
    positions, accumulated from zero in order. -/
def slab (f : Fin 64 → Fin 128 → Fin 256 → EReal) (g : Fin 8) (ch : Fin 128) : EReal := ∑ q : Fin 256, ∑ j : Fin 8, f (im8 g j) ch q
def acc8 (f : Fin 64 → Fin 128 → Fin 256 → EReal) (ch : Fin 128) : EReal :=
  (((((((0 + slab f 0 ch) + slab f 1 ch) + slab f 2 ch) + slab f 3 ch) + slab f 4 ch) + slab f 5 ch) + slab f 6 ch) + slab f 7 ch
def sK (ch : Fin 128) : EReal := acc8 (y Wr Lr) ch
def qK (ch : Fin 128) : EReal := acc8 (fun n ch q => y Wr Lr n ch q * y Wr Lr n ch q) ch
def meanK (ch : Fin 128) : EReal := sK Wr Lr ch * ((1 / 16384 : ℝ) : EReal)
def varK (ch : Fin 128) : EReal := max (qK Wr Lr ch * ((1 / 16384 : ℝ) : EReal) - meanK Wr Lr ch * meanK Wr Lr ch) 0
def scaleK (ch : Fin 128) : EReal := (γr ch : EReal) * Ideal.rsqrt (varK Wr Lr ch + (εr : EReal))
def biasK (ch : Fin 128) : EReal := (βr ch : EReal) - meanK Wr Lr ch * scaleK Wr Lr γr εr ch
def outK (n : Fin 64) (ch : Fin 128) (q : Fin 256) : EReal := y Wr Lr n ch q * scaleK Wr Lr γr εr ch + biasK Wr Lr γr βr εr ch

/-! The two-pass program's statistics: thirty-two tiles of two images, each image summed over the positions, the two
    added from zero in order, the tiles summed by a host sum from zero. -/
def tile (f : Fin 64 → Fin 128 → Fin 256 → EReal) (G : Fin 32) (ch : Fin 128) : EReal :=
  (0 + ∑ q : Fin 256, f (im2 G 0) ch q) + ∑ q : Fin 256, f (im2 G 1) ch q
def sR (ch : Fin 128) : EReal := 0 + ∑ G : Fin 32, tile (y Wr Lr) G ch
def qR (ch : Fin 128) : EReal := 0 + ∑ G : Fin 32, tile (fun n ch q => y Wr Lr n ch q * y Wr Lr n ch q) G ch
def meanR (ch : Fin 128) : EReal := Ideal.div (sR Wr Lr ch) ((16384 : ℝ) : EReal)
def varR (ch : Fin 128) : EReal := max (Ideal.div (qR Wr Lr ch) ((16384 : ℝ) : EReal) - meanR Wr Lr ch * meanR Wr Lr ch) 0
def scaleR (ch : Fin 128) : EReal := (γr ch : EReal) * Ideal.rsqrt (varR Wr Lr ch + (εr : EReal))
def biasR (ch : Fin 128) : EReal := (βr ch : EReal) - meanR Wr Lr ch * scaleR Wr Lr γr εr ch
def outR (n : Fin 64) (ch : Fin 128) (q : Fin 256) : EReal :=
  (∑ k : Fin 256, ((Wr ch k : EReal) * scaleR Wr Lr γr εr ch) * (Lr n k q : EReal)) + biasR Wr Lr γr βr εr ch

/-! Coercion of a finite real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- The convolution over the reals. -/
def yr (n : Fin 64) (ch : Fin 128) (q : Fin 256) : ℝ := ∑ k : Fin 256, Wr ch k * Lr n k q

theorem y_eq (n : Fin 64) (ch : Fin 128) (q : Fin 256) : y Wr Lr n ch q = ((yr Wr Lr n ch q : ℝ) : EReal) := by
  unfold y yr
  rw [coe_sum]
  simp only [EReal.coe_mul]

/-- Sixty-four images are eight slabs of eight. -/
def e8 : Fin 8 × Fin 8 ≃ Fin 64 where
  toFun p := im8 p.1 p.2
  invFun n := (⟨n.val / 8, by have := n.isLt; omega⟩, ⟨n.val % 8, by omega⟩)
  left_inv := by
    rintro ⟨g, j⟩
    have := g.isLt
    have := j.isLt
    ext <;> simp only [im8] <;> omega
  right_inv := by
    intro n
    have := n.isLt
    ext
    simp only [im8]
    omega

/-- Sixty-four images are thirty-two tiles of two. -/
def e2 : Fin 32 × Fin 2 ≃ Fin 64 where
  toFun p := im2 p.1 p.2
  invFun n := (⟨n.val / 2, by have := n.isLt; omega⟩, ⟨n.val % 2, by omega⟩)
  left_inv := by
    rintro ⟨g, j⟩
    have := g.isLt
    have := j.isLt
    ext <;> simp only [im2] <;> omega
  right_inv := by
    intro n
    have := n.isLt
    ext
    simp only [im2]
    omega

theorem sum64_8 (h : Fin 64 → ℝ) : ∑ n, h n = ∑ g : Fin 8, ∑ j : Fin 8, h (im8 g j) := by
  calc ∑ n, h n = ∑ p : Fin 8 × Fin 8, h (e8 p) := (Equiv.sum_comp e8 h).symm
    _ = ∑ g : Fin 8, ∑ j : Fin 8, h (im8 g j) := Fintype.sum_prod_type _

theorem sum64_2 (h : Fin 64 → ℝ) : ∑ n, h n = ∑ G : Fin 32, ∑ b : Fin 2, h (im2 G b) := by
  calc ∑ n, h n = ∑ p : Fin 32 × Fin 2, h (e2 p) := (Equiv.sum_comp e2 h).symm
    _ = ∑ G : Fin 32, ∑ b : Fin 2, h (im2 G b) := Fintype.sum_prod_type _

/-- The eight-slab accumulation of a real-valued family is the coercion of the sum over all images and positions. -/
theorem acc8_coe (f : Fin 64 → Fin 128 → Fin 256 → ℝ) (ch : Fin 128) :
    acc8 (fun n c q => (f n c q : EReal)) ch = ((∑ n, ∑ q, f n ch q : ℝ) : EReal) := by
  have hs : ∀ g, slab (fun n c q => (f n c q : EReal)) g ch
      = ((∑ j : Fin 8, ∑ q, f (im8 g j) ch q : ℝ) : EReal) := by
    intro g
    unfold slab
    rw [Finset.sum_comm, coe_sum]
    refine Finset.sum_congr rfl (fun j _ => ?_)
    rw [coe_sum]
  unfold acc8
  simp only [hs, zero_add, ← EReal.coe_add]
  rw [sum64_8]
  congr 1
  exact (Fin.sum_univ_eight (fun g : Fin 8 => ∑ j : Fin 8, ∑ q, f (im8 g j) ch q)).symm

/-- The thirty-two-tile sum of a real-valued family is the coercion of the same sum. -/
theorem tiles_coe (f : Fin 64 → Fin 128 → Fin 256 → ℝ) (ch : Fin 128) :
    (0 : EReal) + ∑ G : Fin 32, tile (fun n c q => (f n c q : EReal)) G ch
      = ((∑ n, ∑ q, f n ch q : ℝ) : EReal) := by
  have ht : ∀ G, tile (fun n c q => (f n c q : EReal)) G ch
      = ((∑ b : Fin 2, ∑ q, f (im2 G b) ch q : ℝ) : EReal) := by
    intro G
    unfold tile
    rw [zero_add, Fin.sum_univ_two, EReal.coe_add, coe_sum, coe_sum]
  simp only [ht, zero_add]
  rw [← coe_sum, sum64_2]

theorem y_fun : y Wr Lr = fun n c q => ((yr Wr Lr n c q : ℝ) : EReal) := by
  funext n c q
  exact y_eq Wr Lr n c q

theorem ysq_fun : (fun n ch q => y Wr Lr n ch q * y Wr Lr n ch q)
    = fun n c q => ((yr Wr Lr n c q * yr Wr Lr n c q : ℝ) : EReal) := by
  funext n c q
  rw [y_eq, ← EReal.coe_mul]

theorem sK_eq (ch : Fin 128) : sK Wr Lr ch = ((∑ n, ∑ q, yr Wr Lr n ch q : ℝ) : EReal) := by
  unfold sK
  rw [y_fun, acc8_coe]

theorem sR_eq (ch : Fin 128) : sR Wr Lr ch = ((∑ n, ∑ q, yr Wr Lr n ch q : ℝ) : EReal) := by
  unfold sR
  rw [y_fun, tiles_coe]

theorem qK_eq (ch : Fin 128) :
    qK Wr Lr ch = ((∑ n, ∑ q, yr Wr Lr n ch q * yr Wr Lr n ch q : ℝ) : EReal) := by
  unfold qK
  rw [ysq_fun, acc8_coe]

theorem qR_eq (ch : Fin 128) :
    qR Wr Lr ch = ((∑ n, ∑ q, yr Wr Lr n ch q * yr Wr Lr n ch q : ℝ) : EReal) := by
  unfold qR
  rw [ysq_fun, tiles_coe]

theorem meanK_eq_meanR (ch : Fin 128) : meanK Wr Lr ch = meanR Wr Lr ch := by
  unfold meanK meanR
  rw [Ideal.div_coe (by norm_num), sK_eq, sR_eq]

theorem varK_eq_varR (ch : Fin 128) : varK Wr Lr ch = varR Wr Lr ch := by
  unfold varK varR
  rw [Ideal.div_coe (by norm_num), qK_eq, qR_eq, meanK_eq_meanR]

theorem scaleK_eq_scaleR (ch : Fin 128) : scaleK Wr Lr γr εr ch = scaleR Wr Lr γr εr ch := by
  unfold scaleK scaleR
  rw [varK_eq_varR]

theorem biasK_eq_biasR (ch : Fin 128) : biasK Wr Lr γr βr εr ch = biasR Wr Lr γr βr εr ch := by
  unfold biasK biasR
  rw [meanK_eq_meanR, scaleK_eq_scaleR]

/-- With a positive epsilon the scale is the coercion of a real. -/
theorem scaleR_real (hε : 0 < εr) (ch : Fin 128) : ∃ s : ℝ, scaleR Wr Lr γr εr ch = (s : EReal) := by
  unfold scaleR varR meanR
  rw [Ideal.div_coe (by norm_num), Ideal.div_coe (by norm_num), sR_eq, qR_eq]
  simp only [← EReal.coe_mul, ← EReal.coe_sub]
  rw [← EReal.coe_zero, ← coe_max, ← EReal.coe_add, Ideal.rsqrt_coe]
  have hpos : 0 < max ((∑ n, ∑ q, yr Wr Lr n ch q * yr Wr Lr n ch q) * (1 / 16384)
      - (∑ n, ∑ q, yr Wr Lr n ch q) * (1 / 16384) * ((∑ n, ∑ q, yr Wr Lr n ch q) * (1 / 16384))) 0 + εr :=
    add_pos_of_nonneg_of_pos (le_max_right _ _) hε
  rw [if_neg (not_lt.mpr hpos.le), if_neg hpos.ne', ← EReal.coe_mul]
  exact ⟨_, rfl⟩

/-- THE CORE: with real weights, real rectified inputs, real gamma and beta and a positive epsilon, the two programs'
    results agree. -/
theorem core (hε : 0 < εr) (n : Fin 64) (ch : Fin 128) (q : Fin 256) :
    outK Wr Lr γr βr εr n ch q = outR Wr Lr γr βr εr n ch q := by
  obtain ⟨s, hs⟩ := scaleR_real Wr Lr γr εr hε ch
  unfold outK outR
  rw [biasK_eq_biasR, scaleK_eq_scaleR, hs, y_eq]
  congr 1
  unfold yr
  rw [← EReal.coe_mul, Finset.sum_mul, coe_sum]
  refine Finset.sum_congr rfl (fun k _ => ?_)
  rw [← EReal.coe_mul, ← EReal.coe_mul, mul_right_comm]

end Cert.Alg
end
-- ==== Proof.RefLink.lean ====
/-
  The reference's output array is the algebraic core's two-pass form: image n of the array is row n mod 2 of point
  n / 2's block, whose element is the product of the scaled weight with the rectified gathered input plus the bias.
-/
import proofs.«114091_g2000004280588758_pallasbulk_1102_22_alg».proof.Proof.RefRegions
import proofs.«114091_g2000004280588758_pallasbulk_1102_22_alg».proof.Proof.Algebra

noncomputable section

namespace Cert.ReferenceIdeal.RefRun

open Cert.ReferenceIdeal Cert.ReferenceIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

set_option maxHeartbeats 1600000 in
theorem Rres_core (Wr : Fin 128 → Fin 256 → ℝ) (Lr : Fin 64 → Fin 256 → Fin 256 → ℝ) (γr βr : Fin 128 → ℝ) (εr : ℝ)
    (scl bia : Fin 128 → EReal)
    (hx : ∀ n k q, lrR ((V3 m ρ c main_call0_v7 : S64x256x256.Idx → EReal) (ix3 n k q)) = (Lr n k q : EReal))
    (hw : ∀ ch k, (V3 m ρ c main_call0_v43 : S128x256.Idx → EReal) (ix2 ch k) = (Wr ch k : EReal) * scl ch)
    (hb : ∀ ch, (V3 m ρ c main_call0_v40 : S128x1.Idx → EReal) (ix2 ch 0) = bia ch)
    (hs : ∀ ch, scl ch = Cert.Alg.scaleR Wr Lr γr εr ch) (hbi : ∀ ch, bia ch = Cert.Alg.biasR Wr Lr γr βr εr ch)
    (n : Fin 64) (ch : Fin 128) (q : Fin 256) :
    (Rres m ρ c : S64x128x256.Idx → EReal) (ix3 n ch q) = Cert.Alg.outR Wr Lr γr βr εr n ch q := by
  have hn : n.val < 64 := n.isLt
  obtain ⟨t, ht⟩ : ∃ t : Fin cfg1.N, t.val = n.val / 2 := ⟨⟨n.val / 2, by rw [N1_eq]; omega⟩, rfl⟩
  have hm : n.val % 2 < 2 := Nat.mod_lt _ (by decide)
  show outBlkN m ρ c (n.val / 2) (ix3 (⟨n.val % 2, hm⟩ : Fin 2) ch q) = _
  rw [outBlkN_eq m ρ c t _ ht.symm, out1_3_apply]
  unfold Cert.Alg.outR
  rw [iblk1_1_eq, iblk1_2_eq, hb, hbi]
  congr 1
  refine Finset.sum_congr rfl fun k _ => ?_
  rw [hw, hs, iblk1_0_apply]
  have hlt : 2 * t.val + (⟨n.val % 2, hm⟩ : Fin 2).val < 64 := by show 2 * t.val + n.val % 2 < 64; omega
  have e : (⟨2 * t.val + (⟨n.val % 2, hm⟩ : Fin 2).val, hlt⟩ : Fin 64) = n := Fin.ext (by show 2 * t.val + n.val % 2 = n.val; omega)
  have hx' : lrR ((V3 m ρ c main_call0_v7 : S64x256x256.Idx → EReal) (ix3 (⟨2 * t.val + (⟨n.val % 2, hm⟩ : Fin 2).val, hlt⟩ : Fin 64) k q)) = (Lr n k q : EReal) := by
    rw [e]; exact hx n k q
  rw [hx']

end Cert.ReferenceIdeal.RefRun
end
-- ==== Proof.RefHost.lean ====
/-
  The reference's host lines read at an index: the de-interleaved and channel-concatenated input, the
  block-diagonal weight, and the batch-norm scale and bias folded from the statistics the first region leaves.
-/
import proofs.«114091_g2000004280588758_pallasbulk_1102_22_alg».proof.Proof.Gen.ReferenceIdeal.Frame
import Idealize.ShloMosaic.Lib.StableHlo.Run
import Idealize.ShloMosaic.Lib.ValueIdx
import Idealize.ShloMosaic.Lib.ValueIdxRank6
import Idealize.ShloMosaic.Lib.ValueLayout
import Idealize.ShloMosaic.Lib.IdealHost
import Idealize.ShloMosaic.Lib.KernelVsHost
import Idealize.ShloMosaic.Lib.Pipeline.Value

set_option maxRecDepth 16384

noncomputable section

namespace Cert.ReferenceIdeal.RefHost

open Cert.ReferenceIdeal Cert.ReferenceIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- Contents carried to a buffer's type and back are the contents. -/
theorem ofBuf_toBuf {Val : EltTy → Type} {T : BufTy} (x : StableHlo.TRef sig T) (v : T.Contents Val) :
    x.ofBuf (x.toBuf v) = v := by
  obtain ⟨r, h, a, b⟩ := x
  subst h
  rfl

/-- The input as an array of extended reals. -/
abbrev xin (c : Dev nD) : S64x128x32x32.Idx → EReal := m ((c : Thread nD τ).loc main_arg0)

/-- The strided selection of rows and columns of parity `(p, p)` as the host lines spell it. -/
abbrev xsel (c : Dev nD) (off : Fin 6 → Nat) (h : S64x128x16x2x16x2.Slices off S64x128x16x1x16x1) : S64x128x16x16.Idx → EReal :=
  shapeCast S64x128x16x16
    (extractStridedSlice S64x128x16x1x16x1 off
      (shapeCast S64x128x16x2x16x2 (xin m c) shapeCasts_S64x128x32x32_S64x128x16x2x16x2) h)
    shapeCasts_S64x128x16x1x16x1_S64x128x16x16

/-- The operations' term of the concatenated input. -/
abbrev xcatTerm (c : Dev nD) : S64x256x256.Idx → EReal :=
  pad S64x256x256 ![0, 0, 0] ![0, 0, 0] ![0, 0, 0]
    (shapeCast S64x256x256
      (concatenate S64x256x16x16 1
        [⟨S64x128x16x16, xsel m c ![0, 0, 0, 0, 0, 0] slices_S64x128x16x2x16x2_S64x128x16x1x16x1_0_0_0_0_0_0⟩,
         ⟨S64x128x16x16, xsel m c ![0, 0, 0, 1, 0, 1] slices_S64x128x16x2x16x2_S64x128x16x1x16x1_0_0_0_1_0_1⟩]
        concatenates_S64x128x16x16_S64x128x16x16_S64x256x16x16_d1)
      shapeCasts_S64x256x16x16_S64x256x256)
    (sitofp (F := Ideal) .f32 (constantI S_ 32 0#32)) pads_S64x256x256_S64x256x256_000_000_000 h_S_

theorem v7_term (c : Dev nD) : (V1 (F := Ideal) m ρ c main_call0_v7 : S64x256x256.Idx → EReal) = xcatTerm m c := by
  dsimp only [Gen.V1, Gen.W1, Gen.W0]
  simp only [Gen.hostOps0]
  after_results
  rfl

section Layout
variable {α : Type}

/-- One parity class of rows and columns: the reshape to `64x128x16x2x16x2`, the slice at offsets `(p, p)` on the two
    unit axes and the reshape to `64x128x16x16`, read at `(n, k, a, b)`, is the input at `(n, k, 2a+p, 2b+p)`. -/
theorem sel_apply (x : S64x128x32x32.Idx → α) (off : Fin 6 → Nat) (h : S64x128x16x2x16x2.Slices off S64x128x16x1x16x1)
    (p : Nat) (hp : p < 2) (h0 : off 0 = 0) (h1 : off 1 = 0) (h2 : off 2 = 0) (h3 : off 3 = p) (h4 : off 4 = 0) (h5 : off 5 = p)
    (n : Fin 64) (k : Fin 128) (a b : Fin 16) :
    shapeCast S64x128x16x16
        (extractStridedSlice S64x128x16x1x16x1 off
          (shapeCast S64x128x16x2x16x2 x shapeCasts_S64x128x32x32_S64x128x16x2x16x2) h)
        shapeCasts_S64x128x16x1x16x1_S64x128x16x16 (ix4 n k a b)
      = x (ix4 n k ⟨2 * a.val + p, by omega⟩ ⟨2 * b.val + p, by omega⟩) := by
  refine (shapeCast_apply _ _ (ix4 n k a b) (ix6 n k a (0 : Fin 1) b (0 : Fin 1)) ?_).trans ?_
  · rw [Shape.rowMajor_val_six, Shape.rowMajor_val_four]
    show ((((n.val * 128 + k.val) * 16 + a.val) * 1 + 0) * 16 + b.val) * 1 + 0 = ((n.val * 128 + k.val) * 16 + a.val) * 16 + b.val
    omega
  refine (extractStridedSlice_apply off _ h _ (ix6 n k a (⟨p, hp⟩ : Fin 2) b (⟨p, hp⟩ : Fin 2)) ?_).trans ?_
  · intro d
    match d with
    | ⟨0, _⟩ => show n.val = off 0 + n.val; omega
    | ⟨1, _⟩ => show k.val = off 1 + k.val; omega
    | ⟨2, _⟩ => show a.val = off 2 + a.val; omega
    | ⟨3, _⟩ => show p = off 3 + 0; omega
    | ⟨4, _⟩ => show b.val = off 4 + b.val; omega
    | ⟨5, _⟩ => show p = off 5 + 0; omega
  refine shapeCast_apply _ _ _ (ix4 n k ⟨2 * a.val + p, by omega⟩ ⟨2 * b.val + p, by omega⟩) ?_
  rw [Shape.rowMajor_val_six, Shape.rowMajor_val_four]
  show ((n.val * 128 + k.val) * 32 + (2 * a.val + p)) * 32 + (2 * b.val + p)
    = ((((n.val * 128 + k.val) * 16 + a.val) * 2 + p) * 16 + b.val) * 2 + p
  omega

end Layout

section Layout2
variable {α : Type}

/-- The concatenated array read at `(n, k, q)`: channel `k &lt; 128` is the even rows and columns of input channel `k`,
    channel `k ≥ 128` the odd rows and columns of input channel `k − 128`, position `q` row `q / 16` and column `q % 16`. -/
theorem cat_apply (x : S64x128x32x32.Idx → α) {u : Shape} (v : u.Idx → α) (hu : 0 < u.numel)
    (h₀ : S64x128x16x2x16x2.Slices ![0, 0, 0, 0, 0, 0] S64x128x16x1x16x1)
    (h₁ : S64x128x16x2x16x2.Slices ![0, 0, 0, 1, 0, 1] S64x128x16x1x16x1)
    (hp : S64x256x256.Pads (![0, 0, 0] : Fin 3 → Nat) ![0, 0, 0] ![0, 0, 0] S64x256x256)
    (n : Fin 64) (k : Fin 256) (q : Fin 256) :
    pad S64x256x256 ![0, 0, 0] ![0, 0, 0] ![0, 0, 0]
        (shapeCast S64x256x256
          (concatenate S64x256x16x16 1
            [⟨S64x128x16x16, shapeCast S64x128x16x16 (extractStridedSlice S64x128x16x1x16x1 ![0, 0, 0, 0, 0, 0]
                (shapeCast S64x128x16x2x16x2 x shapeCasts_S64x128x32x32_S64x128x16x2x16x2) h₀) shapeCasts_S64x128x16x1x16x1_S64x128x16x16⟩,
             ⟨S64x128x16x16, shapeCast S64x128x16x16 (extractStridedSlice S64x128x16x1x16x1 ![0, 0, 0, 1, 0, 1]
                (shapeCast S64x128x16x2x16x2 x shapeCasts_S64x128x32x32_S64x128x16x2x16x2) h₁) shapeCasts_S64x128x16x1x16x1_S64x128x16x16⟩]
            concatenates_S64x128x16x16_S64x128x16x16_S64x256x16x16_d1)
          shapeCasts_S64x256x16x16_S64x256x256)
        v hp hu (ix3 n k q)
      = if hk : k.val < 128 then
          x (ix4 n ⟨k.val, hk⟩ ⟨2 * (q.val / 16), by omega⟩ ⟨2 * (q.val % 16), by omega⟩)
        else
          x (ix4 n ⟨k.val - 128, by omega⟩ ⟨2 * (q.val / 16) + 1, by omega⟩ ⟨2 * (q.val % 16) + 1, by omega⟩) := by
  refine (pad_apply_of_inside _ _ _ _ v hp hu (ix3 n k q) (ix3 n k q) ?_).trans ?_
  · intro d
    match d with
    | ⟨0, _⟩ => show n.val = 0 + n.val * (0 + 1); omega
    | ⟨1, _⟩ => show k.val = 0 + k.val * (0 + 1); omega
    | ⟨2, _⟩ => show q.val = 0 + q.val * (0 + 1); omega
  refine (shapeCast_apply _ _ (ix3 n k q) (ix4 n k (⟨q.val / 16, by omega⟩ : Fin 16) (⟨q.val % 16, by omega⟩ : Fin 16)) ?_).trans ?_
  · rw [Shape.rowMajor_val_four, Shape.rowMajor_val_three]
    show ((n.val * 256 + k.val) * 16 + q.val / 16) * 16 + q.val % 16 = (n.val * 256 + k.val) * 256 + q.val
    omega
  by_cases hk : k.val < 128
  · rw [dif_pos hk]
    refine (concatenate_pair_apply_left (t := S64x256x16x16) (s₁ := S64x128x16x16) (s₂ := S64x128x16x16) (1 : Fin 4) _ _ _ _ rfl
      (ix4 n (⟨k.val, hk⟩ : Fin 128) (⟨q.val / 16, by omega⟩ : Fin 16) (⟨q.val % 16, by omega⟩ : Fin 16)) ?_).trans ?_
    · intro d
      match d with
      | ⟨0, _⟩ => rfl
      | ⟨1, _⟩ => rfl
      | ⟨2, _⟩ => rfl
      | ⟨3, _⟩ => rfl
    exact sel_apply x _ h₀ 0 (by omega) rfl rfl rfl rfl rfl rfl n ⟨k.val, hk⟩ _ _
  · rw [dif_neg hk]
    refine (concatenate_pair_apply_right (t := S64x256x16x16) (s₁ := S64x128x16x16) (s₂ := S64x128x16x16) (1 : Fin 4) _ _ _ _ rfl rfl
      (ix4 n (⟨k.val - 128, by omega⟩ : Fin 128) (⟨q.val / 16, by omega⟩ : Fin 16) (⟨q.val % 16, by omega⟩ : Fin 16)) ?_ ?_).trans ?_
    · intro d hd
      match d with
      | ⟨0, _⟩ => rfl
      | ⟨1, _⟩ => exact absurd rfl hd
      | ⟨2, _⟩ => rfl
      | ⟨3, _⟩ => rfl
    · show k.val - 128 + 128 = k.val; omega
    exact sel_apply x _ h₁ 1 (by omega) rfl rfl rfl rfl rfl rfl n ⟨k.val - 128, by omega⟩ _ _

end Layout2

/-- The concatenated input the first region reads, at `(n, k, q)`. -/
theorem xcat (c : Dev nD) (n : Fin 64) (k : Fin 256) (q : Fin 256) :
    (V1 (F := Ideal) m ρ c main_call0_v7 : S64x256x256.Idx → EReal) (ix3 n k q)
      = if hk : k.val < 128 then
          xin m c (ix4 n ⟨k.val, hk⟩ ⟨2 * (q.val / 16), by omega⟩ ⟨2 * (q.val % 16), by omega⟩)
        else
          xin m c (ix4 n ⟨k.val - 128, by omega⟩ ⟨2 * (q.val / 16) + 1, by omega⟩ ⟨2 * (q.val % 16) + 1, by omega⟩) := by
  rw [v7_term]
  exact cat_apply (xin m c) _ h_S_ _ _ _ n k q

section ScatterSet
variable {α : Type} {s si u : Shape} {w : Nat}

/-- A fold of point assignments: each `n` of the list either names a place `g n` and a value `v n`, or nothing;
    the places named are pairwise distinct. -/
theorem foldl_set_apply {ι β : Type} [DecidableEq β] (g : ι → Option β) (v : ι → α)
    (step : (β → α) → ι → (β → α))
    (hsome : ∀ r n i, g n = some i → step r n = fun i' => if i' = i then v n else r i')
    (hnone : ∀ r n, g n = none → step r n = r)
    (hinj : ∀ n n' i, g n = some i → g n' = some i → n = n') (x : β → α) (l : List ι) (i' : β) :
    (∀ n ∈ l, g n = some i' → l.foldl step x i' = v n)
      ∧ ((∀ n ∈ l, g n ≠ some i') → l.foldl step x i' = x i') := by
  induction l using List.reverseRecOn with
  | nil => exact ⟨fun n hn => absurd hn (List.not_mem_nil), fun _ => rfl⟩
  | append_singleton l a ih =>
    rw [List.foldl_append, List.foldl_cons, List.foldl_nil]
    cases hga : g a with
    | none =>
      rw [hnone _ _ hga]
      refine ⟨fun n hn hgn => ?_, fun hmiss => ?_⟩
      · rcases List.mem_append.1 hn with hl | ha
        · exact ih.1 n hl hgn
        · rw [List.mem_singleton.1 ha, hga] at hgn; exact absurd hgn (by simp)
      · exact ih.2 fun n hn => hmiss n (List.mem_append_left _ hn)
    | some i =>
      rw [hsome _ _ _ hga]
      refine ⟨fun n hn hgn => ?_, fun hmiss => ?_⟩
      · show (if i' = i then v a else _) = v n
        by_cases hi : i' = i
        · rw [if_pos hi]
          have : n = a := hinj n a i' hgn (by rw [hga, hi])
          rw [this]
        · rw [if_neg hi]
          rcases List.mem_append.1 hn with hl | ha
          · exact ih.1 n hl hgn
          · rw [List.mem_singleton.1 ha, hga] at hgn
            exact absurd (Option.some.inj hgn).symm hi
      · show (if i' = i then v a else _) = x i'
        have hi : i' ≠ i := fun hi => hmiss a (List.mem_append_right _ (List.mem_singleton.2 rfl)) (by rw [hga, hi])
        rw [if_neg hi]
        exact ih.2 fun n hn => hmiss n (List.mem_append_left _ hn)

/-- A scatter whose body returns the update, its landing places pairwise distinct: at a place update `j` lands on it
    reads that update, at a place no update lands on the operand. -/
theorem scatter_set_apply (d : ScatterDims s si u) (x : s.Idx → α) (idx : IVec si w) (upd : u.Idx → α)
    (hinj : ∀ j j' i, d.resultIdx? j idx = some i → d.resultIdx? j' idx = some i → j = j') (i : s.Idx) :
    (∀ j, d.resultIdx? j idx = some i → Host.scatter d (fun _ b => b) x idx upd i = upd j)
      ∧ ((∀ j, d.resultIdx? j idx ≠ some i) → Host.scatter d (fun _ b => b) x idx upd i = x i) := by
  unfold Host.scatter
  have H := foldl_set_apply (fun n => d.resultIdx? (u.rowMajor.symm n) idx) (fun n => upd (u.rowMajor.symm n)) _
    (fun r n i₀ h => by
      show (match d.resultIdx? (u.rowMajor.symm n) idx with
        | some i => fun i' => if i' = i then (fun _ b => b) (r i) (upd (u.rowMajor.symm n)) else r i'
        | none => r) = _
      rw [h])
    (fun r n h => by
      show (match d.resultIdx? (u.rowMajor.symm n) idx with
        | some i => fun i' => if i' = i then (fun _ b => b) (r i) (upd (u.rowMajor.symm n)) else r i'
        | none => r) = _
      rw [h])
    (fun n n' i hn hn' => u.rowMajor.symm.injective (hinj _ _ i hn hn')) x (List.finRange u.numel) i
  refine ⟨fun j hj => ?_, fun hmiss => ?_⟩
  · have := H.1 (u.rowMajor j) (List.mem_finRange _) (by rw [Equiv.symm_apply_apply]; exact hj)
    rw [Equiv.symm_apply_apply] at this
    exact this
  · exact H.2 fun n _ => hmiss _

end ScatterSet

/-- The two pointwise-convolution weights as arrays of extended reals. -/
abbrev w1in (c : Dev nD) : S64x128x1x1.Idx → EReal := m ((c : Thread nD τ).loc main_arg1)
abbrev w2in (c : Dev nD) : S64x128x1x1.Idx → EReal := m ((c : Thread nD τ).loc main_arg2)

/-- A start index of two constant components, as the host lines spell it. -/
abbrev idxPair (a b : BitVec 32) : IVec S2 32 :=
  concatenate S2 0
    [⟨S1, broadcastInDim S1 ![] bcast_S_S1 (constantI S_ 32 a)⟩,
     ⟨S1, broadcastInDim S1 ![] bcast_S_S1 (constantI S_ 32 b)⟩]
    concatenates_S1_S1_S2_d0

/-- The operations' term of the block-diagonal weight. -/
abbrev wbdTerm (c : Dev nD) : S128x256.Idx → EReal :=
  Host.scatter scatter_S128x256_S2_S64x128_01_n_01_0 (fun _ b => b)
    (Host.scatter scatter_S128x256_S2_S64x128_01_n_01_0 (fun _ b => b)
      (broadcastInDim S128x256 ![] bcast_S_S128x256 (constant (F := Ideal) S_ .f32 0x00000000#32))
      (idxPair 0#32 0#32)
      (shapeCast S64x128 (w1in m c) shapeCasts_S64x128x1x1_S64x128))
    (idxPair 64#32 128#32)
    (shapeCast S64x128 (w2in m c) shapeCasts_S64x128x1x1_S64x128)

/-- The block-diagonal weight's buffer holds the operations' term, the scatter abstracted. -/
theorem v18_term_gen (c : Dev nD) (G : (S128x256.Idx → EReal) → IVec S2 32 → (S64x128.Idx → EReal) → (S128x256.Idx → EReal))
    (hG : Host.scatter scatter_S128x256_S2_S64x128_01_n_01_0 (fun _ b => b) = G) :
    (V1 (F := Ideal) m ρ c main_call0_v18 : S128x256.Idx → EReal)
      = G (G (broadcastInDim S128x256 ![] bcast_S_S128x256 (constant (F := Ideal) S_ .f32 0x00000000#32))
            (idxPair 0#32 0#32) (shapeCast S64x128 (w1in m c) shapeCasts_S64x128x1x1_S64x128))
          (idxPair 64#32 128#32) (shapeCast S64x128 (w2in m c) shapeCasts_S64x128x1x1_S64x128) := by
  dsimp only [Gen.V1, Gen.W1, Gen.W0]
  simp only [Gen.hostOps0]
  rw [hG]
  after_results
  simp only [ofBuf_toBuf]
  rfl

theorem v18_term (c : Dev nD) : (V1 (F := Ideal) m ρ c main_call0_v18 : S128x256.Idx → EReal) = wbdTerm m c :=
  v18_term_gen m ρ c _ rfl

section WbdIdx

theorem idxPair_zero (a b : BitVec 32) : idxPair a b (ix1 (0 : Fin 2)) = a := by
  refine (concatenate_pair_apply_left (t := S2) (s₁ := S1) (s₂ := S1) (0 : Fin 1) _ _ _ _ rfl (ix1 (0 : Fin 1)) ?_).trans ?_
  · intro d
    match d with
    | ⟨0, _⟩ => rfl
  exact broadcastInDim_scalar_apply _ _ _

theorem idxPair_one (a b : BitVec 32) : idxPair a b (ix1 (1 : Fin 2)) = b := by
  refine (concatenate_pair_apply_right (t := S2) (s₁ := S1) (s₂ := S1) (0 : Fin 1) _ _ _ _ rfl rfl (ix1 (0 : Fin 1)) ?_ ?_).trans ?_
  · intro d hd
    match d with
    | ⟨0, _⟩ => exact absurd rfl hd
  · rfl
  exact broadcastInDim_scalar_apply _ _ _

/-- Where update `j` of a `64x128` block lands in the `128x256` operand when the start index is the constant `(A, B)`. -/
theorem resultIdx_pair (A B : Nat) (a b : BitVec 32) (ha : a.toInt = A) (hb : b.toInt = B) (hA : A + 64 ≤ 128) (hB : B + 128 ≤ 256)
    (j : S64x128.Idx) :
    scatter_S128x256_S2_S64x128_01_n_01_0.resultIdx? j (idxPair a b)
      = some (ix2 (⟨A + (j 0).val, by have : (j 0).val < 64 := (j 0).isLt; omega⟩ : Fin 128) (⟨B + (j 1).val, by have : (j 1).val < 128 := (j 1).isLt; omega⟩ : Fin 256)) := by
  have hs0 : scatter_S128x256_S2_S64x128_01_n_01_0.start j (idxPair a b) 0 = (A : Int) := by
    unfold ScatterDims.start
    rw [dif_pos (by decide)]
    rw [show scatter_S128x256_S2_S64x128_01_n_01_0.siIdx j ⟨List.idxOf (0 : Fin 2) scatter_S128x256_S2_S64x128_01_n_01_0.scatterDimsToOperandDims, _⟩ = ix1 (0 : Fin 2) from
      funext fun d => match d with | ⟨0, _⟩ => rfl]
    rw [idxPair_zero, ha]
  have hs1 : scatter_S128x256_S2_S64x128_01_n_01_0.start j (idxPair a b) 1 = (B : Int) := by
    unfold ScatterDims.start
    rw [dif_pos (by decide)]
    rw [show scatter_S128x256_S2_S64x128_01_n_01_0.siIdx j ⟨List.idxOf (1 : Fin 2) scatter_S128x256_S2_S64x128_01_n_01_0.scatterDimsToOperandDims, _⟩ = ix1 (1 : Fin 2) from
      funext fun d => match d with | ⟨0, _⟩ => rfl]
    rw [idxPair_one, hb]
  have hw0 : scatter_S128x256_S2_S64x128_01_n_01_0.window j 0 = (j 0).val := by
    unfold ScatterDims.window
    rw [dif_pos (by decide)]
    rfl
  have hw1 : scatter_S128x256_S2_S64x128_01_n_01_0.window j 1 = (j 1).val := by
    unfold ScatterDims.window
    rw [dif_pos (by decide)]
    rfl
  have h0 : (j 0).val < 64 := (j 0).isLt
  have h1 : (j 1).val < 128 := (j 1).isLt
  unfold ScatterDims.resultIdx?
  rw [dif_pos (fun ax => match ax with
    | ⟨0, _⟩ => by
      show (0 : Int) ≤ scatter_S128x256_S2_S64x128_01_n_01_0.start j (idxPair a b) 0 + ((scatter_S128x256_S2_S64x128_01_n_01_0.window j 0 : Nat) : Int)
        ∧ scatter_S128x256_S2_S64x128_01_n_01_0.start j (idxPair a b) 0 + ((scatter_S128x256_S2_S64x128_01_n_01_0.window j 0 : Nat) : Int) < ((128 : Nat) : Int)
      rw [hs0, hw0]; omega
    | ⟨1, _⟩ => by
      show (0 : Int) ≤ scatter_S128x256_S2_S64x128_01_n_01_0.start j (idxPair a b) 1 + ((scatter_S128x256_S2_S64x128_01_n_01_0.window j 1 : Nat) : Int)
        ∧ scatter_S128x256_S2_S64x128_01_n_01_0.start j (idxPair a b) 1 + ((scatter_S128x256_S2_S64x128_01_n_01_0.window j 1 : Nat) : Int) < ((256 : Nat) : Int)
      rw [hs1, hw1]; omega)]
  refine congrArg some (funext fun ax => ?_)
  match ax with
  | ⟨0, _⟩ => exact Fin.ext (by
      show (scatter_S128x256_S2_S64x128_01_n_01_0.start j (idxPair a b) 0 + ((scatter_S128x256_S2_S64x128_01_n_01_0.window j 0 : Nat) : Int)).toNat = A + (j 0).val
      rw [hs0, hw0]; omega)
  | ⟨1, _⟩ => exact Fin.ext (by
      show (scatter_S128x256_S2_S64x128_01_n_01_0.start j (idxPair a b) 1 + ((scatter_S128x256_S2_S64x128_01_n_01_0.window j 1 : Nat) : Int)).toNat = B + (j 1).val
      rw [hs1, hw1]; omega)

end WbdIdx

section Wbd
variable {α : Type}

/-- The update index landing on `(ch, k)` is unique: the start index is constant, so landing places differ where updates do. -/
theorem resultIdx_pair_inj (A B : Nat) (a b : BitVec 32) (ha : a.toInt = A) (hb : b.toInt = B) (hA : A + 64 ≤ 128) (hB : B + 128 ≤ 256)
    (j j' : S64x128.Idx) (i : S128x256.Idx)
    (h : scatter_S128x256_S2_S64x128_01_n_01_0.resultIdx? j (idxPair a b) = some i)
    (h' : scatter_S128x256_S2_S64x128_01_n_01_0.resultIdx? j' (idxPair a b) = some i) : j = j' := by
  rw [resultIdx_pair A B a b ha hb hA hB] at h h'
  have e := (Option.some.inj h).trans (Option.some.inj h').symm
  have e0 : A + (j 0).val = A + (j' 0).val := congrArg (fun i : S128x256.Idx => (i 0).val) e
  have e1 : B + (j 1).val = B + (j' 1).val := congrArg (fun i : S128x256.Idx => (i 1).val) e
  rw [eq_ix2 j, eq_ix2 j']
  congr 1
  · exact Fin.ext (by omega)
  · exact Fin.ext (by omega)

/-- A `64x128` block written at the constant start `(A, B)` into a `128x256` array, read at `(ch, k)`. -/
theorem scatter_block_apply (A B : Nat) (a b : BitVec 32) (ha : a.toInt = A) (hb : b.toInt = B) (hA : A + 64 ≤ 128) (hB : B + 128 ≤ 256)
    (x : S128x256.Idx → α) (upd : S64x128.Idx → α) (ch : Fin 128) (k : Fin 256) :
    Host.scatter scatter_S128x256_S2_S64x128_01_n_01_0 (fun _ b => b) x (idxPair a b) upd (ix2 ch k)
      = if h : (A ≤ ch.val ∧ ch.val < A + 64) ∧ (B ≤ k.val ∧ k.val < B + 128) then
          upd (ix2 (⟨ch.val - A, by omega⟩ : Fin 64) (⟨k.val - B, by omega⟩ : Fin 128))
        else x (ix2 ch k) := by
  have H := scatter_set_apply scatter_S128x256_S2_S64x128_01_n_01_0 x (idxPair a b) upd
    (resultIdx_pair_inj A B a b ha hb hA hB) (ix2 ch k)
  by_cases h : (A ≤ ch.val ∧ ch.val < A + 64) ∧ (B ≤ k.val ∧ k.val < B + 128)
  · rw [dif_pos h]
    refine H.1 _ ?_
    rw [resultIdx_pair A B a b ha hb hA hB]
    refine congrArg some ?_
    congr 1
    · exact Fin.ext (by show A + (ch.val - A) = ch.val; omega)
    · exact Fin.ext (by show B + (k.val - B) = k.val; omega)
  · rw [dif_neg h]
    refine H.2 fun j hj => h ?_
    rw [resultIdx_pair A B a b ha hb hA hB] at hj
    have e := Option.some.inj hj
    have e0 : A + (j 0).val = ch.val := congrArg (fun i : S128x256.Idx => (i 0).val) e
    have e1 : B + (j 1).val = k.val := congrArg (fun i : S128x256.Idx => (i 1).val) e
    have h0 : (j 0).val < 64 := (j 0).isLt
    have h1 : (j 1).val < 128 := (j 1).isLt
    omega

end Wbd

/-- The block-diagonal weight the first region reads, at `(ch, k)`. -/
theorem w_bd (c : Dev nD) (ch : Fin 128) (k : Fin 256) :
    (V1 (F := Ideal) m ρ c main_call0_v18 : S128x256.Idx → EReal) (ix2 ch k)
      = if hc : ch.val < 64 then
          (if hk : k.val < 128 then w1in m c (ix4 (⟨ch.val, hc⟩ : Fin 64) (⟨k.val, hk⟩ : Fin 128) (0 : Fin 1) (0 : Fin 1)) else 0)
        else
          (if hk : 128 ≤ k.val then
            w2in m c (ix4 (⟨ch.val - 64, by omega⟩ : Fin 64) (⟨k.val - 128, by omega⟩ : Fin 128) (0 : Fin 1) (0 : Fin 1)) else 0) := by
  rw [v18_term]
  have hcast : ∀ (w : S64x128x1x1.Idx → EReal) (p : Fin 64) (q : Fin 128),
      shapeCast S64x128 w shapeCasts_S64x128x1x1_S64x128 (ix2 p q) = w (ix4 p q (0 : Fin 1) (0 : Fin 1)) := fun w p q => by
    refine shapeCast_apply _ _ _ _ ?_
    rw [Shape.rowMajor_val_four, Shape.rowMajor_val_two]
    show ((p.val * 128 + q.val) * 1 + 0) * 1 + 0 = p.val * 128 + q.val
    omega
  refine (scatter_block_apply 64 128 64#32 128#32 (by decide) (by decide) (by omega) (by omega) _ _ ch k).trans ?_
  by_cases h2 : (64 ≤ ch.val ∧ ch.val < 64 + 64) ∧ (128 ≤ k.val ∧ k.val < 128 + 128)
  · rw [dif_pos h2, dif_neg (by omega), dif_pos h2.2.1, hcast]
  · rw [dif_neg h2]
    refine (scatter_block_apply 0 0 0#32 0#32 (by decide) (by decide) (by omega) (by omega) _ _ ch k).trans ?_
    by_cases h1 : (0 ≤ ch.val ∧ ch.val < 0 + 64) ∧ (0 ≤ k.val ∧ k.val < 0 + 128)
    · rw [dif_pos h1, dif_pos (by omega), dif_pos (by omega), hcast]
      rfl
    · rw [dif_neg h1]
      have hz : broadcastInDim S128x256 ![] bcast_S_S128x256 (constant (F := Ideal) S_ .f32 0x00000000#32) (ix2 ch k) = (0 : EReal) := by
        rw [broadcastInDim_scalar_apply]
        exact Ideal.ofBits_zero_f32
      rw [hz]
      have hch := ch.isLt
      have hkk := k.isLt
      by_cases hc : ch.val < 64
      · rw [dif_pos hc, dif_neg (by omega)]
      · rw [dif_neg hc, dif_neg (by omega)]

section Kept

/-- The first region leaves an input array as it finds it. -/
theorem W2_in (c : Dev nD) (w : Fin cfg0.W) (hin : (cfg0.win w).isOut = false) :
    W2 (F := Ideal) m ρ c (Proc.devRef .tc (Pipeline.arrRef spec0 w)) = V1 m ρ c (Pipeline.arrRef spec0 w) := by
  rw [W2_arr, Pipeline.Dat.arrAt_in _ w hin, A_eq0]

/-- No line between the two regions writes buffer `b`. -/
theorem W3_of_not_written (c : Dev nD) (b : Ref sig .tc)
    (hb : ∀ op ∈ (hostOps1 : List (HloOp τ sig (Elt Ideal))), (Proc.devRef .tc b : DevRef τ sig) ∉ op.writes) :
    W3 (F := Ideal) m ρ c (Proc.devRef .tc b) = W2 m ρ c (Proc.devRef .tc b) :=
  StableHlo.after_of_forall_not_mem (b := Proc.devRef .tc b) _ _ hb

theorem hostOps1_keeps_v7 : ∀ op ∈ (hostOps1 : List (HloOp τ sig (Elt Ideal))), (Proc.devRef .tc main_call0_v7 : DevRef τ sig) ∉ op.writes :=
  List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

theorem hostOps1_keeps_v18 : ∀ op ∈ (hostOps1 : List (HloOp τ sig (Elt Ideal))), (Proc.devRef .tc main_call0_v18 : DevRef τ sig) ∉ op.writes :=
  List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))

/-- The second region finds the concatenated input and the block-diagonal weight as the first region did. -/
theorem V3_v7 (c : Dev nD) : V3 (F := Ideal) m ρ c main_call0_v7 = V1 m ρ c main_call0_v7 :=
  (W3_of_not_written m ρ c main_call0_v7 hostOps1_keeps_v7).trans (W2_in m ρ c 0 rfl)

theorem V3_v18 (c : Dev nD) : V3 (F := Ideal) m ρ c main_call0_v18 = V1 m ρ c main_call0_v18 :=
  (W3_of_not_written m ρ c main_call0_v18 hostOps1_keeps_v18).trans (W2_in m ρ c 1 rfl)

end Kept

section Norm

/-- The per-channel sum over the 32 row groups of one component of the statistics, as the host lines spell it. -/
abbrev sumT (S : FVec Ideal S32x128x2 .f32) (off : Fin 3 → Nat) (h : S32x128x2.Slices off S32x128x1) : FVec Ideal S128 .f32 :=
  Host.reduceAdd (shapeCast S32x128 (extractStridedSlice S32x128x1 off S h) shapeCasts_S32x128x1_S32x128)
    (constant (F := Ideal) S_ .f32 0x00000000#32) reducesTo_S32x128_S128_d0 h_S_

/-- A constant on every channel. -/
abbrev chanConst (b : BitVec 32) : FVec Ideal S128 .f32 :=
  broadcastInDim S128 ![] bcast_S_S128 (constant (F := Ideal) S_ .f32 b)

abbrev meanT (S : FVec Ideal S32x128x2 .f32) : FVec Ideal S128 .f32 :=
  Host.divf (sumT S ![0, 0, 0] slices_S32x128x2_S32x128x1_0_0_0) (chanConst 0x46800000#32)

abbrev varT (S : FVec Ideal S32x128x2 .f32) : FVec Ideal S128 .f32 :=
  maximumf
    (subf (Host.divf (sumT S ![0, 0, 1] slices_S32x128x2_S32x128x1_0_0_1) (chanConst 0x46800000#32)) (mulf (meanT S) (meanT S)))
    (chanConst 0x00000000#32)

abbrev scaleT (S : FVec Ideal S32x128x2 .f32) (g : FVec Ideal S128 .f32) : FVec Ideal S128 .f32 :=
  mulf g (Host.rsqrt (addf (varT S) (chanConst 0x3727C5AC#32)))

abbrev biasT (S : FVec Ideal S32x128x2 .f32) (g b : FVec Ideal S128 .f32) : FVec Ideal S128 .f32 :=
  subf b (mulf (meanT S) (scaleT S g))

/-- The scaled weight and the bias column the second region reads, as the host lines spell them. -/
abbrev wscaledT (S : FVec Ideal S32x128x2 .f32) (g : FVec Ideal S128 .f32) (W : FVec Ideal S128x256 .f32) : FVec Ideal S128x256 .f32 :=
  mulf W (broadcastInDim S128x256 ![0, 1] bcast_S128x1_S128x256_0_1 (broadcastInDim S128x1 ![0] bcast_S128_S128x1_0 (scaleT S g)))

abbrev biasColT (S : FVec Ideal S32x128x2 .f32) (g b : FVec Ideal S128 .f32) : FVec Ideal S128x1 .f32 :=
  shapeCast S128x1 (biasT S g b) shapeCasts_S128_S128x1

theorem v43_term (c : Dev nD) : (V3 (F := Ideal) m ρ c main_call0_v43 : FVec Ideal S128x256 .f32)
    = wscaledT (W2 (F := Ideal) m ρ c (Proc.devRef .tc main_call0_v19)) (W2 (F := Ideal) m ρ c (Proc.devRef .tc main_arg3))
        (W2 (F := Ideal) m ρ c (Proc.devRef .tc main_call0_v18)) := by
  dsimp only [Gen.V3, Gen.W3]
  simp only [Gen.hostOps1]
  after_results_simp
  simp only [ofBuf_toBuf]
  rfl

/-- The sum over the 32 row groups of component `p` of the statistics at channel `ch`. -/
def statSum (S : S32x128x2.Idx → EReal) (p : Fin 2) (ch : Fin 128) : EReal := ∑ G : Fin 32, S (ix3 G ch p)

/-- The batch mean of channel `ch`: the sum of the values over the `64·16·16` positions. -/
def chMean (S : S32x128x2.Idx → EReal) (ch : Fin 128) : EReal :=
  Ideal.div (statSum S 0 ch) (Ideal.ofBits .f32 0x46800000#32)

/-- The batch variance of channel `ch`, clamped at zero. -/
def chVar (S : S32x128x2.Idx → EReal) (ch : Fin 128) : EReal :=
  max (Ideal.div (statSum S 1 ch) (Ideal.ofBits .f32 0x46800000#32) - chMean S ch * chMean S ch) 0

/-- The batch-norm scale of channel `ch`. -/
def chScale (S : S32x128x2.Idx → EReal) (g : S128.Idx → EReal) (ch : Fin 128) : EReal :=
  g (ix1 ch) * Ideal.rsqrt (chVar S ch + Ideal.ofBits .f32 0x3727C5AC#32)

/-- The batch-norm bias of channel `ch`. -/
def chBias (S : S32x128x2.Idx → EReal) (g b : S128.Idx → EReal) (ch : Fin 128) : EReal :=
  b (ix1 ch) - chMean S ch * chScale S g ch

theorem hostRsqrt_apply {s : Shape} {φ : FTy} (a : FVec Ideal s φ) (i : s.Idx) : Host.rsqrt a i = Ideal.rsqrt (a i) := rfl

theorem chanConst_apply (b : BitVec 32) (j : S128.Idx) : chanConst b j = Ideal.ofBits .f32 b :=
  broadcastInDim_scalar_apply _ _ _

theorem sumT_apply (S : FVec Ideal S32x128x2 .f32) (off : Fin 3 → Nat) (h : S32x128x2.Slices off S32x128x1) (p : Fin 2)
    (h0 : off 0 = 0) (h1 : off 1 = 0) (h2 : off 2 = p.val) (ch : Fin 128) :
    sumT S off h (ix1 ch) = statSum S p ch := by
  have hred : S32x128.Reduces [0] S128 := by decide
  show Ideal.hostReduceAdd reducesTo_S32x128_S128_d0 _ _ (ix1 ch) = _
  rw [Ideal.hostReduceAdd_single reducesTo_S32x128_S128_d0 hred]
  rw [show (constant (F := Ideal) S_ .f32 0x00000000#32) (Shape.Idx.first h_S_) = (0 : EReal) from Ideal.ofBits_zero_f32, zero_add]
  unfold statSum
  have key : ∀ G : Fin 32,
      shapeCast S32x128 (extractStridedSlice S32x128x1 off S h) shapeCasts_S32x128x1_S32x128 (hred.lift (ix1 ch) G)
        = S (ix3 G ch p) := by
    intro G
    have e : hred.lift (ix1 ch) G = ix2 G ch := by
      funext a
      match a with
      | ⟨0, _⟩ => exact Fin.ext rfl
      | ⟨1, _⟩ => exact Fin.ext rfl
    rw [e]
    refine (shapeCast_apply _ _ _ (ix3 G ch (0 : Fin 1)) ?_).trans ?_
    · rw [Shape.rowMajor_val_three, Shape.rowMajor_val_two]
      show (G.val * 128 + ch.val) * 1 + 0 = G.val * 128 + ch.val
      omega
    refine extractStridedSlice_apply off _ h _ (ix3 G ch p) ?_
    intro a
    match a with
    | ⟨0, _⟩ => show G.val = off 0 + G.val; omega
    | ⟨1, _⟩ => show ch.val = off 1 + ch.val; omega
    | ⟨2, _⟩ => show p.val = off 2 + 0; omega
  exact Finset.sum_congr rfl fun G _ => key G

theorem meanT_apply (S : FVec Ideal S32x128x2 .f32) (ch : Fin 128) : meanT S (ix1 ch) = chMean S ch := by
  show Ideal.div (sumT S _ _ (ix1 ch)) (chanConst _ (ix1 ch)) = _
  rw [sumT_apply S _ _ 0 rfl rfl rfl, chanConst_apply]
  rfl

theorem varT_apply (S : FVec Ideal S32x128x2 .f32) (ch : Fin 128) : varT S (ix1 ch) = chVar S ch := by
  show max (Ideal.div (sumT S _ _ (ix1 ch)) (chanConst _ (ix1 ch)) - meanT S (ix1 ch) * meanT S (ix1 ch)) (chanConst _ (ix1 ch)) = _
  rw [sumT_apply S _ _ 1 rfl rfl rfl, chanConst_apply, chanConst_apply, meanT_apply, Ideal.ofBits_zero_f32]
  rfl

theorem scaleT_apply (S : FVec Ideal S32x128x2 .f32) (g : FVec Ideal S128 .f32) (ch : Fin 128) :
    scaleT S g (ix1 ch) = chScale S g ch := by
  show g (ix1 ch) * Ideal.rsqrt (varT S (ix1 ch) + chanConst _ (ix1 ch)) = _
  rw [varT_apply, chanConst_apply]
  rfl

theorem biasT_apply (S : FVec Ideal S32x128x2 .f32) (g b : FVec Ideal S128 .f32) (ch : Fin 128) :
    biasT S g b (ix1 ch) = chBias S g b ch := by
  show b (ix1 ch) - meanT S (ix1 ch) * scaleT S g (ix1 ch) = _
  rw [meanT_apply, scaleT_apply]
  rfl

theorem wscaledT_apply (S : FVec Ideal S32x128x2 .f32) (g : FVec Ideal S128 .f32) (W : FVec Ideal S128x256 .f32)
    (ch : Fin 128) (k : Fin 256) : wscaledT S g W (ix2 ch k) = W (ix2 ch k) * chScale S g ch := by
  show W (ix2 ch k) * _ = _
  congr 1
  refine (broadcastInDim_apply _ _ _ (ix2 ch k) (ix2 ch (0 : Fin 1)) ?_).trans ?_
  · intro a
    match a with
    | ⟨0, _⟩ => rfl
    | ⟨1, _⟩ => rfl
  refine (broadcastInDim_apply _ _ _ (ix2 ch (0 : Fin 1)) (ix1 ch) ?_).trans ?_
  · intro a
    match a with
    | ⟨0, _⟩ => rfl
  exact scaleT_apply S g ch

theorem biasColT_apply (S : FVec Ideal S32x128x2 .f32) (g b : FVec Ideal S128 .f32) (ch : Fin 128) :
    biasColT S g b (ix2 ch (0 : Fin 1)) = chBias S g b ch := by
  refine (shapeCast_apply _ _ _ (ix1 ch) ?_).trans (biasT_apply S g b ch)
  rw [Shape.rowMajor_val_one, Shape.rowMajor_val_two]
  show ch.val = ch.val * 1 + 0
  omega

theorem v40_term (c : Dev nD) : (V3 (F := Ideal) m ρ c main_call0_v40 : FVec Ideal S128x1 .f32)
    = biasColT (W2 (F := Ideal) m ρ c (Proc.devRef .tc main_call0_v19)) (W2 (F := Ideal) m ρ c (Proc.devRef .tc main_arg3))
        (W2 (F := Ideal) m ρ c (Proc.devRef .tc main_arg4)) := by
  dsimp only [Gen.V3, Gen.W3]
  simp only [Gen.hostOps1]
  after_results_simp
  simp only [ofBuf_toBuf]
  rfl

/-- The first region and the lines before it leave the affine parameters as launched. -/
theorem W2_arg3 (c : Dev nD) : W2 (F := Ideal) m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))

theorem W2_arg4 (c : Dev nD) : W2 (F := Ideal) m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))

theorem W2_v18 (c : Dev nD) : W2 (F := Ideal) m ρ c (Proc.devRef .tc main_call0_v18) = V1 m ρ c main_call0_v18 :=
  W2_in m ρ c 1 rfl

/-- The statistics the first region leaves and the affine parameters, as arrays of extended reals. -/
abbrev statsAt (c : Dev nD) : S32x128x2.Idx → EReal := W2 (F := Ideal) m ρ c (Proc.devRef .tc main_call0_v19)
abbrev gammaIn (c : Dev nD) : S128.Idx → EReal := m ((c : Thread nD τ).loc main_arg3)
abbrev betaIn (c : Dev nD) : S128.Idx → EReal := m ((c : Thread nD τ).loc main_arg4)

/-- The block-diagonal weight as an array of extended reals. -/
abbrev wbdAt (c : Dev nD) : S128x256.Idx → EReal := V1 (F := Ideal) m ρ c main_call0_v18

/-- The weight the second region reads is the block-diagonal weight with row `ch` scaled by the channel's scale, -/
theorem wscaled (c : Dev nD) (ch : Fin 128) (k : Fin 256) :
    (V3 (F := Ideal) m ρ c main_call0_v43 : S128x256.Idx → EReal) (ix2 ch k)
      = wbdAt m ρ c (ix2 ch k) * chScale (statsAt m ρ c) (gammaIn m c) ch := by
  rw [v43_term, wscaledT_apply, W2_v18, W2_arg3]

/-- and the bias column it reads is the channel's bias. -/
theorem biasCol (c : Dev nD) (ch : Fin 128) :
    (V3 (F := Ideal) m ρ c main_call0_v40 : S128x1.Idx → EReal) (ix2 ch (0 : Fin 1))
      = chBias (statsAt m ρ c) (gammaIn m c) (betaIn m c) ch := by
  rw [v40_term, biasColT_apply, W2_arg3, W2_arg4]

end Norm

end Cert.ReferenceIdeal.RefHost
-- ==== Proof.Finite.lean ====
import proofs.«114091_g2000004280588758_pallasbulk_1102_22_alg».proof.Defs
import proofs.«114091_g2000004280588758_pallasbulk_1102_22_alg».proof.Proof.Gen.Pre_finite_inputs
import Idealize.ShloMosaic.Lib.ReduceAll
import Idealize.ShloMosaic.Lib.ValueIdx

noncomputable section
namespace Cert.Fin
open Idealize.ShloMosaic Idealize.SL.Sem

/-- The rank-0 shape has one index. -/
instance : Subsingleton Cert.Pre_finite_inputs.S_.Idx := ⟨fun a b => funext fun d => d.elim0⟩

/-- An extended real whose absolute value max x (-x) is strictly below +∞ is a real. -/
theorem real_of_abs_lt_top (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

open Cert.Pre_finite_inputs in
/-- The predicate all ones: every entry of every argument is a real. -/
theorem real_of_fn (a0 : FVec Ideal S64x128x32x32 .f32) (a1 a2 : FVec Ideal S64x128x1x1 .f32)
    (a3 a4 : FVec Ideal S128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact real_of_abs_lt_top _ (Host.reduce_andi_all _ _ _ _ _ e0 i)
  · exact real_of_abs_lt_top _ (Host.reduce_andi_all _ _ _ _ _ e1 i)
  · exact real_of_abs_lt_top _ (Host.reduce_andi_all _ _ _ _ _ e2 i)
  · exact real_of_abs_lt_top _ (Host.reduce_andi_all _ _ _ _ _ e3 i)
  · exact real_of_abs_lt_top _ (Host.reduce_andi_all _ _ _ _ _ e4 i)

/-- From the precondition to real entries, on every device. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, (m ((c.tc : Thread Cert.KernelIdeal.nD Cert.KernelIdeal.τ).loc Cert.KernelIdeal.main_arg0) :
        Cert.KernelIdeal.S64x128x32x32.Idx → EReal) i = (r : EReal))
    ∧ (∀ i, ∃ r : ℝ, (m ((c.tc : Thread Cert.KernelIdeal.nD Cert.KernelIdeal.τ).loc Cert.KernelIdeal.main_arg1) :
        Cert.KernelIdeal.S64x128x1x1.Idx → EReal) i = (r : EReal))
    ∧ (∀ i, ∃ r : ℝ, (m ((c.tc : Thread Cert.KernelIdeal.nD Cert.KernelIdeal.τ).loc Cert.KernelIdeal.main_arg2) :
        Cert.KernelIdeal.S64x128x1x1.Idx → EReal) i = (r : EReal))
    ∧ (∀ i, ∃ r : ℝ, (m ((c.tc : Thread Cert.KernelIdeal.nD Cert.KernelIdeal.τ).loc Cert.KernelIdeal.main_arg3) :
        Cert.KernelIdeal.S128.Idx → EReal) i = (r : EReal))
    ∧ (∀ i, ∃ r : ℝ, (m ((c.tc : Thread Cert.KernelIdeal.nD Cert.KernelIdeal.τ).loc Cert.KernelIdeal.main_arg4) :
        Cert.KernelIdeal.S128.Idx → EReal) i = (r : EReal)) :=
  real_of_fn _ _ _ _ _ (h c)

end Cert.Fin
end
-- ==== Proof.Algebra2.lean ====
import proofs.«114091_g2000004280588758_pallasbulk_1102_22_alg».proof.Proof.Algebra

noncomputable section
namespace Cert.Alg
open Idealize.ShloMosaic

variable (xr : Fin 64 → Fin 128 → Fin 32 → Fin 32 → ℝ) (w1r w2r : Fin 64 → Fin 128 → ℝ) (cr : ℝ)

/-- The leaky rectifier on the reals. -/
def lrr (z : ℝ) : ℝ := max z (cr * z)
/-- The stacked weight: rows 0…63 the first convolution's, rows 64…127 the second's. -/
def wstr (ch : Fin 128) (k : Fin 128) : ℝ := if h : ch.val < 64 then w1r ⟨ch.val, h⟩ k else w2r ⟨ch.val - 64, by have := ch.isLt; omega⟩ k
/-- The flat position (row-major over 32×32) the lattice point q of a half picks: offset (0,0) for the first half,
    (1,1) for the second. -/
def selPos (ch : Fin 128) (q : Fin 256) : ℕ := if ch.val < 64 then 64 * (q.val / 16) + 2 * (q.val % 16) else 64 * (q.val / 16) + 2 * (q.val % 16) + 33
/-- The block-diagonal weight over the 256 gathered input channels. -/
def Wbd (ch : Fin 128) (k : Fin 256) : ℝ :=
  if h : ch.val < 64 then (if hk : k.val < 128 then w1r ⟨ch.val, h⟩ ⟨k.val, hk⟩ else 0)
  else (if hk : 128 ≤ k.val then w2r ⟨ch.val - 64, by have := ch.isLt; omega⟩ ⟨k.val - 128, by have := k.isLt; omega⟩ else 0)
/-- The gathered input: channels 0…127 the lattice points of offset (0,0), channels 128…255 those of offset (1,1). -/
def xcatr (n : Fin 64) (k : Fin 256) (q : Fin 256) : ℝ :=
  if hk : k.val < 128 then xr n ⟨k.val, hk⟩ ⟨2 * (q.val / 16), by have := q.isLt; omega⟩ ⟨2 * (q.val % 16), by omega⟩
  else xr n ⟨k.val - 128, by have := k.isLt; omega⟩ ⟨2 * (q.val / 16) + 1, by have := q.isLt; omega⟩ ⟨2 * (q.val % 16) + 1, by omega⟩
def Lrr (n : Fin 64) (k : Fin 256) (q : Fin 256) : ℝ := lrr cr (xcatr xr n k q)

/-- A sum over 256 splits into the first 128 and the last 128. -/
theorem sum256 (F : Fin 256 → ℝ) :
    ∑ k, F k = ∑ i : Fin 128, F ⟨i.val, by have := i.isLt; omega⟩
      + ∑ i : Fin 128, F ⟨i.val + 128, by have := i.isLt; omega⟩ := by
  refine (Fin.sum_univ_add (a := 128) (b := 128) F).trans (congrArg₂ (· + ·) ?_ ?_)
  · exact Finset.sum_congr rfl (fun i _ => congrArg F (Fin.ext rfl))
  · exact Finset.sum_congr rfl (fun i _ => congrArg F (Fin.ext (by show 128 + i.val = i.val + 128; omega)))

theorem selPos_lt (ch : Fin 128) (q : Fin 256) : selPos ch q < 1024 := by
  have := q.isLt
  unfold selPos
  split <;> omega

/-- Over the reals: the stacked product at the selected position is the block-diagonal product over the gathered
    input. -/
theorem conv_real (n : Fin 64) (ch : Fin 128) (q : Fin 256) (r c : Fin 32)
    (hr : r.val = selPos ch q / 32) (hc : c.val = selPos ch q % 32) :
    ∑ k : Fin 128, wstr w1r w2r ch k * lrr cr (xr n k r c) = yr (Wbd w1r w2r) (Lrr xr cr) n ch q := by
  unfold yr
  rw [sum256]
  have hq := q.isLt
  by_cases h : ch.val < 64
  · have hr' : r = ⟨2 * (q.val / 16), by omega⟩ := Fin.ext (by show r.val = 2 * (q.val / 16); rw [hr]; unfold selPos; rw [if_pos h]; omega)
    have hc' : c = ⟨2 * (q.val % 16), by omega⟩ := Fin.ext (by show c.val = 2 * (q.val % 16); rw [hc]; unfold selPos; rw [if_pos h]; omega)
    have h2 : ∑ i : Fin 128, Wbd w1r w2r ch ⟨i.val + 128, by have := i.isLt; omega⟩
        * Lrr xr cr n ⟨i.val + 128, by have := i.isLt; omega⟩ q = 0 :=
      Finset.sum_eq_zero (fun i _ => by
        unfold Wbd
        rw [dif_pos h, dif_neg (show ¬ (i.val + 128 < 128) by omega), zero_mul])
    rw [h2, add_zero]
    refine Finset.sum_congr rfl (fun i _ => ?_)
    unfold wstr Wbd Lrr xcatr
    rw [dif_pos h, dif_pos h, dif_pos i.isLt, dif_pos i.isLt, hr', hc']
  · have hr' : r = ⟨2 * (q.val / 16) + 1, by omega⟩ := Fin.ext (by show r.val = 2 * (q.val / 16) + 1; rw [hr]; unfold selPos; rw [if_neg h]; omega)
    have hc' : c = ⟨2 * (q.val % 16) + 1, by omega⟩ := Fin.ext (by show c.val = 2 * (q.val % 16) + 1; rw [hc]; unfold selPos; rw [if_neg h]; omega)
    have h1 : ∑ i : Fin 128, Wbd w1r w2r ch ⟨i.val, by have := i.isLt; omega⟩
        * Lrr xr cr n ⟨i.val, by have := i.isLt; omega⟩ q = 0 :=
      Finset.sum_eq_zero (fun i _ => by
        have := i.isLt
        unfold Wbd
        rw [dif_neg h, dif_neg (show ¬ (128 ≤ i.val) by omega), zero_mul])
    rw [h1, zero_add]
    refine Finset.sum_congr rfl (fun i _ => ?_)
    have hk : (⟨i.val + 128 - 128, by have := i.isLt; omega⟩ : Fin 128) = i := Fin.ext (by simp)
    unfold wstr Wbd Lrr xcatr
    rw [dif_neg h, dif_neg h, dif_pos (show 128 ≤ i.val + 128 by omega),
      dif_neg (show ¬ (i.val + 128 < 128) by omega), hk, hr', hc']

/-- The fused program's convolution — the full-resolution product, then the 0/1 selection of the lattice point — is the
    two-pass program's block-diagonal product over the gathered input. -/
theorem conv_eq (n : Fin 64) (ch : Fin 128) (q : Fin 256) :
    (∑ l : Fin 1024, (∑ k : Fin 128, (wstr w1r w2r ch k : EReal) * ((lrr cr (xr n k ⟨l.val / 32, by have := l.isLt; omega⟩ ⟨l.val % 32, Nat.mod_lt _ (by decide)⟩) : ℝ) : EReal))
        * (if l.val = selPos ch q then (1 : EReal) else 0))
      = y (Wbd w1r w2r) (Lrr xr cr) n ch q := by
  rw [Finset.sum_eq_single (⟨selPos ch q, selPos_lt ch q⟩ : Fin 1024)]
  · rw [if_pos rfl, mul_one, y_eq]
    have hreal := conv_real xr w1r w2r cr n ch q
      ⟨selPos ch q / 32, by have := selPos_lt ch q; omega⟩ ⟨selPos ch q % 32, Nat.mod_lt _ (by decide)⟩ rfl rfl
    rw [← hreal, coe_sum]
    refine Finset.sum_congr rfl (fun k _ => ?_)
    rw [EReal.coe_mul]
  · intro l _ hl
    rw [if_neg (fun e => hl (Fin.ext e)), mul_zero]
  · intro hn
    exact absurd (Finset.mem_univ _) hn

end Cert.Alg
end
-- ==== Proof.Wit.lean ====
/-
  The real data behind finite inputs: under the precondition every entry of the five argument arrays is a real number;
  these reals, with the two float literals' values, are the inputs of the algebraic core.
-/
import proofs.«114091_g2000004280588758_pallasbulk_1102_22_alg».proof.Proof.Finite
import proofs.«114091_g2000004280588758_pallasbulk_1102_22_alg».proof.Proof.Consts
import proofs.«114091_g2000004280588758_pallasbulk_1102_22_alg».proof.Proof.Algebra2
import Idealize.ShloMosaic.Lib.ValueIdx

noncomputable section

namespace Cert.Wit

open Idealize.ShloMosaic Idealize.ShloMosaic.TcCoe Idealize.SL.Sem Idealize.ShloMosaic.ValueIdx
open Cert.KernelIdeal

variable (m : (ℓ : Loc nD τ sig) → Buf (Elt Ideal) ℓ)
  (hpre : Cert.Pre_KernelIdeal (hPre_finite_inputs := Cert.Pre_finite_inputs.Gen.facts) m) (c : Dev nD)

/-- The input, the two weights, gamma and beta as real arrays. -/
def xR (n : Fin 64) (k : Fin 128) (a b : Fin 32) : ℝ := Classical.choose ((Cert.Fin.real_of_pre m hpre c).1 (ix4 n k a b))
theorem xR_spec (n : Fin 64) (k : Fin 128) (a b : Fin 32) :
    (m ((c.tc : Thread nD τ).loc main_arg0) : S64x128x32x32.Idx → EReal) (ix4 n k a b) = (xR m hpre c n k a b : EReal) :=
  Classical.choose_spec ((Cert.Fin.real_of_pre m hpre c).1 (ix4 n k a b))
def w1R (ch : Fin 64) (k : Fin 128) : ℝ := Classical.choose ((Cert.Fin.real_of_pre m hpre c).2.1 (ix4 ch k (0 : Fin 1) (0 : Fin 1)))
theorem w1R_spec (ch : Fin 64) (k : Fin 128) :
    (m ((c.tc : Thread nD τ).loc main_arg1) : S64x128x1x1.Idx → EReal) (ix4 ch k (0 : Fin 1) (0 : Fin 1)) = (w1R m hpre c ch k : EReal) :=
  Classical.choose_spec ((Cert.Fin.real_of_pre m hpre c).2.1 (ix4 ch k (0 : Fin 1) (0 : Fin 1)))
def w2R (ch : Fin 64) (k : Fin 128) : ℝ := Classical.choose ((Cert.Fin.real_of_pre m hpre c).2.2.1 (ix4 ch k (0 : Fin 1) (0 : Fin 1)))
theorem w2R_spec (ch : Fin 64) (k : Fin 128) :
    (m ((c.tc : Thread nD τ).loc main_arg2) : S64x128x1x1.Idx → EReal) (ix4 ch k (0 : Fin 1) (0 : Fin 1)) = (w2R m hpre c ch k : EReal) :=
  Classical.choose_spec ((Cert.Fin.real_of_pre m hpre c).2.2.1 (ix4 ch k (0 : Fin 1) (0 : Fin 1)))
def gR (ch : Fin 128) : ℝ := Classical.choose ((Cert.Fin.real_of_pre m hpre c).2.2.2.1 (ix1 ch))
theorem gR_spec (ch : Fin 128) :
    (m ((c.tc : Thread nD τ).loc main_arg3) : S128.Idx → EReal) (ix1 ch) = (gR m hpre c ch : EReal) :=
  Classical.choose_spec ((Cert.Fin.real_of_pre m hpre c).2.2.2.1 (ix1 ch))
def bR (ch : Fin 128) : ℝ := Classical.choose ((Cert.Fin.real_of_pre m hpre c).2.2.2.2 (ix1 ch))
theorem bR_spec (ch : Fin 128) :
    (m ((c.tc : Thread nD τ).loc main_arg4) : S128.Idx → EReal) (ix1 ch) = (bR m hpre c ch : EReal) :=
  Classical.choose_spec ((Cert.Fin.real_of_pre m hpre c).2.2.2.2 (ix1 ch))

/-- The leaky slope and the epsilon as reals. -/
def cR : ℝ := Classical.choose Cert.Consts.ofBits_c
theorem cR_pos : 0 < cR := (Classical.choose_spec Cert.Consts.ofBits_c).1
theorem cR_lt : cR < 1 := (Classical.choose_spec Cert.Consts.ofBits_c).2.1
theorem cR_spec : Ideal.ofBits .f32 0x3C23D70A#32 = (cR : EReal) := (Classical.choose_spec Cert.Consts.ofBits_c).2.2
def eR : ℝ := Classical.choose Cert.Consts.ofBits_eps
theorem eR_pos : 0 < eR := (Classical.choose_spec Cert.Consts.ofBits_eps).1
theorem eR_spec : Ideal.ofBits .f32 0x3727C5AC#32 = (eR : EReal) := (Classical.choose_spec Cert.Consts.ofBits_eps).2

/-- The core's inputs: the block-diagonal weight and the rectified gathered input. -/
abbrev Wr : Fin 128 → Fin 256 → ℝ := Cert.Alg.Wbd (w1R m hpre c) (w2R m hpre c)
abbrev Lr : Fin 64 → Fin 256 → Fin 256 → ℝ := Cert.Alg.Lrr (xR m hpre c) cR

end Cert.Wit
end
-- ==== Proof.RefLink2.lean ====
/-
  The reference's inputs at the real data: from argument arrays that agree with the kernel's, the rectified gathered
  input and the block-diagonal weight the reference builds are the coercions of the core's real inputs.
-/
import proofs.«114091_g2000004280588758_pallasbulk_1102_22_alg».proof.Proof.RefLink
import proofs.«114091_g2000004280588758_pallasbulk_1102_22_alg».proof.Proof.RefHost
import proofs.«114091_g2000004280588758_pallasbulk_1102_22_alg».proof.Proof.Wit

noncomputable section

namespace Cert.Final

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (hpre : Cert.Pre_KernelIdeal (hPre_finite_inputs := Cert.Pre_finite_inputs.Gen.facts) m)
  (m' : (ℓ : Loc Cert.ReferenceIdeal.nD Cert.ReferenceIdeal.τ Cert.ReferenceIdeal.sig) → Buf (Elt Ideal) ℓ)
  (ρ' : Dev Cert.ReferenceIdeal.nD → PrngReg)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (c : Dev Cert.KernelIdeal.nD)

include hagree in
theorem ref_x (n : Fin 64) (k : Fin 128) (a b : Fin 32) :
    Cert.ReferenceIdeal.RefHost.xin m' c (ix4 n k a b) = (Cert.Wit.xR m hpre c n k a b : EReal) := by
  show (m' ((c.tc : Thread Cert.ReferenceIdeal.nD Cert.ReferenceIdeal.τ).loc Cert.ReferenceIdeal.main_arg0) : Cert.ReferenceIdeal.S64x128x32x32.Idx → EReal) (ix4 n k a b) = _
  rw [(hagree c).1]
  exact Cert.Wit.xR_spec m hpre c n k a b

include hagree in
theorem ref_w1 (ch : Fin 64) (k : Fin 128) :
    Cert.ReferenceIdeal.RefHost.w1in m' c (ix4 ch k (0 : Fin 1) (0 : Fin 1)) = (Cert.Wit.w1R m hpre c ch k : EReal) := by
  show (m' ((c.tc : Thread Cert.ReferenceIdeal.nD Cert.ReferenceIdeal.τ).loc Cert.ReferenceIdeal.main_arg1) : Cert.ReferenceIdeal.S64x128x1x1.Idx → EReal) (ix4 ch k 0 0) = _
  rw [(hagree c).2.1]
  exact Cert.Wit.w1R_spec m hpre c ch k

include hagree in
theorem ref_w2 (ch : Fin 64) (k : Fin 128) :
    Cert.ReferenceIdeal.RefHost.w2in m' c (ix4 ch k (0 : Fin 1) (0 : Fin 1)) = (Cert.Wit.w2R m hpre c ch k : EReal) := by
  show (m' ((c.tc : Thread Cert.ReferenceIdeal.nD Cert.ReferenceIdeal.τ).loc Cert.ReferenceIdeal.main_arg2) : Cert.ReferenceIdeal.S64x128x1x1.Idx → EReal) (ix4 ch k 0 0) = _
  rw [(hagree c).2.2.1]
  exact Cert.Wit.w2R_spec m hpre c ch k

/-- The reference's rectifier on a real is the core's. -/
theorem lrR_real (z : ℝ) : Cert.ReferenceIdeal.RefRun.lrR (z : EReal) = ((Cert.Alg.lrr Cert.Wit.cR z : ℝ) : EReal) := by
  rw [Cert.ReferenceIdeal.RefRun.lrR_coe z Cert.Wit.cR Cert.Wit.cR_spec, Cert.Consts.leaky_ite z Cert.Wit.cR Cert.Wit.cR_pos Cert.Wit.cR_lt]
  rfl

include hagree in
/-- The rectified gathered input, as the region that folds the statistics finds it. -/
theorem ref_L1 (n : Fin 64) (k q : Fin 256) :
    Cert.ReferenceIdeal.RefRun.lrR ((Cert.ReferenceIdeal.Gen.V1 (F := Ideal) m' ρ' c Cert.ReferenceIdeal.main_call0_v7 : Cert.ReferenceIdeal.S64x256x256.Idx → EReal) (ix3 n k q))
      = (Cert.Wit.Lr m hpre c n k q : EReal) := by
  rw [Cert.ReferenceIdeal.RefHost.xcat]
  unfold Cert.Wit.Lr Cert.Alg.Lrr Cert.Alg.xcatr
  by_cases hk : k.val < 128
  · rw [dif_pos hk, dif_pos hk, ref_x m hpre m' hagree c, lrR_real]
  · rw [dif_neg hk, dif_neg hk, ref_x m hpre m' hagree c, lrR_real]

include hagree in
/-- The block-diagonal weight. -/
theorem ref_W1 (ch : Fin 128) (k : Fin 256) :
    (Cert.ReferenceIdeal.Gen.V1 (F := Ideal) m' ρ' c Cert.ReferenceIdeal.main_call0_v18 : Cert.ReferenceIdeal.S128x256.Idx → EReal) (ix2 ch k)
      = (Cert.Wit.Wr m hpre c ch k : EReal) := by
  rw [Cert.ReferenceIdeal.RefHost.w_bd]
  unfold Cert.Wit.Wr Cert.Alg.Wbd
  by_cases hc : ch.val < 64
  · rw [dif_pos hc, dif_pos hc]
    by_cases hk : k.val < 128
    · rw [dif_pos hk, dif_pos hk, ref_w1 m hpre m' hagree c]
    · rw [dif_neg hk, dif_neg hk, EReal.coe_zero]
  · rw [dif_neg hc, dif_neg hc]
    by_cases hk : 128 ≤ k.val
    · rw [dif_pos hk, dif_pos hk, ref_w2 m hpre m' hagree c]
    · rw [dif_neg hk, dif_neg hk, EReal.coe_zero]

end Cert.Final
end
-- ==== Proof.RefStats.lean ====
/-
  The first region's output array is the algebraic core's per-tile statistics: row G holds, for each channel, the two
  images' sums over the positions accumulated from zero, of the convolutions and of their squares.
-/
import proofs.«114091_g2000004280588758_pallasbulk_1102_22_alg».proof.Proof.RefRegions
import proofs.«114091_g2000004280588758_pallasbulk_1102_22_alg».proof.Proof.Algebra

noncomputable section

namespace Cert.ReferenceIdeal.RefRun

open Cert.ReferenceIdeal Cert.ReferenceIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The convolution of image b of point G's block is the core's convolution of image 2·G + b. -/
theorem yv_eq (Wr : Fin 128 → Fin 256 → ℝ) (Lr : Fin 64 → Fin 256 → Fin 256 → ℝ)
    (hW : ∀ ch k, (V1 m ρ c main_call0_v18 : S128x256.Idx → EReal) (ix2 ch k) = (Wr ch k : EReal))
    (hx : ∀ n k q, lrR ((V1 m ρ c main_call0_v7 : S64x256x256.Idx → EReal) (ix3 n k q)) = (Lr n k q : EReal))
    (G : Fin 32) (b : Fin 2) (ch : Fin 128) (q : Fin 256) :
    yv (iblk0 (V1 m ρ) c 0 (⟨G.val, by rw [N0_eq]; exact G.isLt⟩ : Fin cfg0.N))
        (iblk0 (V1 m ρ) c 1 ⟨G.val, by rw [N0_eq]; exact G.isLt⟩) b ch q
      = Cert.Alg.y Wr Lr (Cert.Alg.im2 G b) ch q := by
  unfold yv Cert.Alg.y
  refine Finset.sum_congr rfl fun k _ => ?_
  rw [iblk0_1_eq, hW, iblk0_0_apply]
  exact congrArg (fun z => (Wr ch k : EReal) * z) (hx (Cert.Alg.im2 G b) k q)

/-- Row G of the first region's output array is the core's tile G, for the values and for their squares. -/
theorem Sres_tile (Wr : Fin 128 → Fin 256 → ℝ) (Lr : Fin 64 → Fin 256 → Fin 256 → ℝ)
    (hW : ∀ ch k, (V1 m ρ c main_call0_v18 : S128x256.Idx → EReal) (ix2 ch k) = (Wr ch k : EReal))
    (hx : ∀ n k q, lrR ((V1 m ρ c main_call0_v7 : S64x256x256.Idx → EReal) (ix3 n k q)) = (Lr n k q : EReal))
    (G : Fin 32) (ch : Fin 128) :
    (Sres m ρ c : S32x128x2.Idx → EReal) (ix3 G ch 0) = Cert.Alg.tile (Cert.Alg.y Wr Lr) G ch
      ∧ (Sres m ρ c : S32x128x2.Idx → EReal) (ix3 G ch 1)
          = Cert.Alg.tile (fun n ch q => Cert.Alg.y Wr Lr n ch q * Cert.Alg.y Wr Lr n ch q) G ch := by
  constructor
  · rw [Sres_apply, out0_2_apply_0, Cert.Consts.ofBits_zero]
    unfold Cert.Alg.tile
    simp only [yv_eq m ρ c Wr Lr hW hx]
  · rw [Sres_apply, out0_2_apply_1, Cert.Consts.ofBits_zero]
    unfold Cert.Alg.tile
    simp only [yv_eq m ρ c Wr Lr hW hx]

end Cert.ReferenceIdeal.RefRun
end
-- ==== Proof.KIFinal.lean ====
/-
  The kernel's output array after the run: the normalisation phase writes block t − 4 (images 16·(t − 4) … + 15) back at
  each of its points t = 4 … 7, and these four blocks are the whole array; so image n of the array is row n mod 16 of
  what point 4 + n / 16 left in the output block.
-/
import proofs.«114091_g2000004280588758_pallasbulk_1102_22_alg».proof.Proof.KIValue
import Idealize.ShloMosaic.Lib.ValueIdx

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg) (c : Dev nD)

/-- The output block is written back exactly at the normalisation phase's points, -/
theorem flush7_iff : ∀ t : Fin cfg0.N, (cfg0.win 7).flush t = true ↔ 4 ≤ t.val :=
  (by decide +kernel : ∀ t : Fin grid0.N, win0_7.flush t = true ↔ 4 ≤ t.val)
/-- as block t − 4 of the array's leading axis. -/
theorem index7 : ∀ t : Fin cfg0.N, 4 ≤ t.val → win0_7.index t = ![t.val - 4, 0, 0] :=
  (by decide +kernel : ∀ t : Fin grid0.N, 4 ≤ t.val → win0_7.index t = ![t.val - 4, 0, 0])

theorem index7_0 : ∀ t : Fin cfg0.N, 4 ≤ t.val → win0_7.index t (0 : Fin 3) = t.val - 4 :=
  (by decide +kernel : ∀ t : Fin grid0.N, 4 ≤ t.val → win0_7.index t (0 : Fin 3) = t.val - 4)
theorem index7_1 : ∀ t : Fin cfg0.N, 4 ≤ t.val → win0_7.index t (1 : Fin 3) = 0 :=
  (by decide +kernel : ∀ t : Fin grid0.N, 4 ≤ t.val → win0_7.index t (1 : Fin 3) = 0)
theorem index7_2 : ∀ t : Fin cfg0.N, 4 ≤ t.val → win0_7.index t (2 : Fin 3) = 0 :=
  (by decide +kernel : ∀ t : Fin grid0.N, 4 ≤ t.val → win0_7.index t (2 : Fin 3) = 0)

/-- What point number n left in the output block (for n beyond the grid: anything). -/
def outRowN (n : ℕ) : S16x128x256.Idx → Elt F .f32 :=
  if h : n < 8 then (st0_7 (⟨n, by rw [N_eq]; exact h⟩ : Fin cfg0.N)).view.read (Elt F) (outAt m c ⟨n, by rw [N_eq]; exact h⟩)
  else (st0_7 t0_4).view.read (Elt F) (outAt m c t0_4)

theorem outRowN_eq (t : Fin cfg0.N) (n : ℕ) (hn : n = t.val) :
    outRowN m c n = (st0_7 t).view.read (Elt F) (outAt m c t) := by
  subst hn; unfold outRowN; rw [dif_pos (lt_of_lt_of_eq t.isLt N_eq)]

/-- The output array: image n is row n mod 16 of what point 4 + n / 16 left. -/
def Kres : Buf (Elt F) ((c : Thread nD τ).loc main_call0_v30) := fun (i : S64x128x256.Idx) =>
  outRowN m c (4 + (i 0).val / 16) (ix3 (⟨(i 0).val % 16, Nat.mod_lt _ (by decide)⟩ : Fin 16) (i 1) (i 2))

theorem flushed_eq (t : Fin cfg0.N) (hf : (cfg0.win 7).flush t = true) :
    (dats m 0 c).flushed 7 t = ((cfg0.win 7).blk t).view.read (Elt F) (Kres m c) := by
  have h4 : 4 ≤ t.val := (flush7_iff t).mp hf
  have hN : t.val < 8 := lt_of_lt_of_eq t.isLt N_eq
  show (cfg0.win 7).cut (grid0.coords t) ((dats m 0 c).after 7 t) = _
  rw [after0_7]
  funext x
  show (st0_7 t).view.read (Elt F) (outAt m c t) x = Kres m c (((cfg0.win 7).blk t).view.emb x)
  have hx0 : (x 0).val < 16 := (x 0).isLt
  have e0 : ((((cfg0.win 7).blk t).view.emb x) 0).val = (t.val - 4) * 16 + (x 0).val := by
    show win0_7.index t (0 : Fin 3) * 16 + 1 * (x 0).val = _
    rw [index7_0 t h4]; omega
  have e1 : ((((cfg0.win 7).blk t).view.emb x) 1).val = (x 1).val := by
    show win0_7.index t (1 : Fin 3) * 128 + 1 * (x 1).val = _
    rw [index7_1 t h4]; omega
  have e2 : ((((cfg0.win 7).blk t).view.emb x) 2).val = (x 2).val := by
    show win0_7.index t (2 : Fin 3) * 256 + 1 * (x 2).val = _
    rw [index7_2 t h4]; omega
  unfold Kres
  rw [outRowN_eq m c t _ (by rw [e0]; omega)]
  congr 1
  funext a; apply Fin.ext
  match a with
  | ⟨0, _⟩ => show (x 0).val = ((((cfg0.win 7).blk t).view.emb x) 0).val % 16; rw [e0]; omega
  | ⟨1, _⟩ => show (x 1).val = ((((cfg0.win 7).blk t).view.emb x) 1).val; rw [e1]
  | ⟨2, _⟩ => show (x 2).val = ((((cfg0.win 7).blk t).view.emb x) 2).val; rw [e2]

/-- The four write-backs cover the array: image n lies in the block of point 4 + n / 16. -/
theorem final7 : (dats m 0 c).arrAt 7 cfg0.N = Kres m c :=
  (dats m 0 c).arrAt_eq_of_cover 7 (Kres m c) (flushed_eq m c) fun i => by
    have hi0 : (i 0).val < 64 := (i 0).isLt
    have hi1 : (i 1).val < 128 := (i 1).isLt
    have hi2 : (i 2).val < 256 := (i 2).isLt
    obtain ⟨t, ht⟩ : ∃ t : Fin cfg0.N, t.val = 4 + (i 0).val / 16 := ⟨⟨4 + (i 0).val / 16, by rw [N_eq]; omega⟩, rfl⟩
    have h4 : 4 ≤ t.val := by omega
    refine ⟨t, (flush7_iff t).mpr h4, ?_⟩
    show i ∈ ((View.whole main_call0_v30).slice (win0_7.rect t)).set
    rw [View.set_slice_whole, Rect.mem_set_unit]
    intro a
    match a with
    | ⟨0, _⟩ =>
      show win0_7.index t (0 : Fin 3) * 16 ≤ (i 0).val ∧ (i 0).val < win0_7.index t (0 : Fin 3) * 16 + 16
      rw [index7_0 t h4]; omega
    | ⟨1, _⟩ =>
      show win0_7.index t (1 : Fin 3) * 128 ≤ (i 1).val ∧ (i 1).val < win0_7.index t (1 : Fin 3) * 128 + 128
      rw [index7_1 t h4]; omega
    | ⟨2, _⟩ =>
      show win0_7.index t (2 : Fin 3) * 256 ≤ (i 2).val ∧ (i 2).val < win0_7.index t (2 : Fin 3) * 256 + 256
      rw [index7_2 t h4]; omega

/-- The line after the region reshapes the output array into the result. -/
theorem tail_eq :
    Pipeline.afterTail₀ cfgs (dats m) 0 (V0 m) [hostOps1] c main_v0
      = (shapeCast S64x128x16x16 (Kres m c : S64x128x256.Idx → Elt F .f32) shapeCasts_S64x128x256_S64x128x16x16 : S64x128x16x16.Idx → Elt F .f32) := by
  unfold Pipeline.afterTail₀
  show StableHlo.after hostOps1 _ (Proc.devRef .tc main_v0) = _
  after_results
  rw [show Pipeline.withArrays (cfgs 0).spec c (V0 m c) (fun w => (dats m 0 c).arrAt w (cfgs 0).N)
      (Proc.devRef .tc main_call0_v30) = (dats m 0 c).arrAt 7 cfg0.N from
    Pipeline.withArrays_arr spec0 launch0.win.arr_inj c _ _ 7, final7]
  rfl

end Cert.KernelIdeal.Body

end
-- ==== Proof.KIOut.lean ====
/-
  What a point of the normalisation phase leaves in the output block: y · scale + bias, where y is the sixteen rows of
  the parked activations the point reads, and scale and bias are the two columns the first point of the phase stored
  into the small scratch (the same columns whether the point is that first one, which reads them back, or a later one).
-/
import proofs.«114091_g2000004280588758_pallasbulk_1102_22_alg».proof.Proof.KIFinal
import Idealize.ShloMosaic.Lib.WholeRead

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg) (c : Dev nD)

theorem hz3 : (![0, 0, 0] : Fin 3 → Nat) = fun _ => 0 := funext fun a => by fin_cases a <;> rfl

/-- The small scratch as the fold point leaves it: its two column stores, element by element. -/
def Scan : S128x2.Idx → Elt F .f32 :=
  View.canon (runFold.sl.H11_2 c (st0_5 t0_4) (st0_6 t0_4) Ms0 (fin5 m c t0_4) (fin6 m c t0_4) (Ystar m c))
abbrev rc0 : Rect S128x2 := Rect.unit (s := S128x2) ![0, 0] S128x1.size inb_S128x2_S128x1_0_0
abbrev rc1 : Rect S128x2 := Rect.unit (s := S128x2) ![0, 1] S128x1.size inb_S128x2_S128x1_0_1
/-- The scale column and the bias column. -/
def col0 : Vec F S128x1 .f32 := fun j => Scan m c (rc0.toLoadRect.idx j)
def col1 : Vec F S128x1 .f32 := fun j => Scan m c (rc1.toLoadRect.idx j)
/-- The sixteen parked images point t reads. -/
def yRows (t : Fin cfg0.N) (h4 : 4 ≤ t.val) : Vec F S16x128x256 .f32 := fun x =>
  G m c ((Rect.unit (s := S64x128x256) (k0_off3 (grid0.coords t)) S16x128x256.size (k0_off3_inb (grid0.coords t) (c3_of_le t h4))).toLoadRect.idx x)

set_option maxHeartbeats 2000000 in
theorem outRow_eq (t : Fin cfg0.N) (h4 : 4 ≤ t.val) :
    (st0_7 t).view.read (Elt F) (outAt m c t) = k0_pay5 (col0 m c) (col1 m c) (yRows m c t h4) := by
  by_cases h44 : t.val = 4
  · obtain rfl : t = t0_4 := Fin.ext h44
    unfold outAt; rw [dif_pos h44]
    unfold foldAt runFold; dsimp only
    rw [View.read_writes_junk_eq_canon]
    unfold runFold.sl.H9_1
    rw [View.canon_unit_zero hz3]
    congr 1
    · unfold runFold.sl.v11 col0 Scan; rw [View.readCov_eq_canon']; rfl
    · unfold runFold.sl.v12 col1 Scan; rw [View.readCov_eq_canon']; rfl
    · unfold yRows Ystar; funext x; exact Memref.IsWhole.readAt_unread (hMs0) _ _ x
  · have h5 : 4 < t.val := by omega
    unfold outAt; rw [dif_neg h44, dif_pos h5]
    unfold applyAt runApply; dsimp only
    rw [View.read_writes_junk_eq_canon]
    unfold runApply.sl.H9_1
    rw [View.canon_unit_zero hz3]
    congr 1
    · unfold col0 Scan Sstar foldAt runFold; dsimp only; rw [View.readAt_writes_junk_eq_canon]; rfl
    · unfold col1 Scan Sstar foldAt runFold; dsimp only; rw [View.readAt_writes_junk_eq_canon]; rfl
    · unfold yRows Ystar; funext x; exact Memref.IsWhole.readAt_unread (hMs0) _ _ x

end Cert.KernelIdeal.Body

end
-- ==== Proof.KISpec.lean ====
/-
  At the exact reals: an element of the kernel's output array is the parked activation times the scale column plus
  the bias column.
-/
import proofs.«114091_g2000004280588758_pallasbulk_1102_22_alg».proof.Proof.KIOut
import Idealize.ShloMosaic.PureOps.Ideal.Laws
import Idealize.ShloMosaic.Lib.ValueLayout

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (c : Dev nD)

/-- A column of 128 values cast to 1×128×1 and broadcast over sixteen images and 256 positions reads the column's
    entry of the channel. -/
theorem bc_col (v : Vec Ideal S128x1 .f32) (j : Fin 16) (ch : Fin 128) (q : Fin 256) :
    broadcastTo S16x128x256 (shapeCast S1x128x1 v shapeCasts_S128x1_S1x128x1) broadcasts_S1x128x1_S16x128x256 (ix3 j ch q)
      = v (ix2 ch 0) := by
  rw [broadcastTo_apply _ broadcasts_S1x128x1_S16x128x256 (ix3 j ch q) (ix3 (0 : Fin 1) ch (0 : Fin 1)) (fun ax => by
    match ax with
    | ⟨0, _⟩ => rfl
    | ⟨1, _⟩ => rfl
    | ⟨2, _⟩ => rfl)]
  exact shapeCast_ab_1ab_apply v shapeCasts_S128x1_S1x128x1 (0 : Fin 1) ch (0 : Fin 1)

/-- y · scale + bias, element by element. -/
theorem pay5_apply (v11 v12 : Vec Ideal S128x1 .f32) (v15 : Vec Ideal S16x128x256 .f32) (j : Fin 16) (ch : Fin 128) (q : Fin 256) :
    k0_pay5 (F := Ideal) v11 v12 v15 (ix3 j ch q) = v15 (ix3 j ch q) * v11 (ix2 ch 0) + v12 (ix2 ch 0) := by
  unfold k0_pay5
  rw [addf_apply, mulf_apply, bc_col, bc_col]

/-- An element of the output array. -/
theorem Kres_apply (n : Fin 64) (ch : Fin 128) (q : Fin 256) :
    (Kres m c : S64x128x256.Idx → EReal) (ix3 n ch q) = G m c (ix3 n ch q) * Scan m c (ix2 ch 0) + Scan m c (ix2 ch 1) := by
  have hn : n.val < 64 := n.isLt
  obtain ⟨t, ht⟩ : ∃ t : Fin cfg0.N, t.val = 4 + n.val / 16 := ⟨⟨4 + n.val / 16, by rw [N_eq]; omega⟩, rfl⟩
  have h4 : 4 ≤ t.val := by omega
  show outRowN m c (4 + n.val / 16) (ix3 (⟨n.val % 16, Nat.mod_lt _ (by decide)⟩ : Fin 16) ch q) = _
  rw [outRowN_eq m c t _ ht.symm, outRow_eq m c t h4, pay5_apply]
  have e1 : yRows m c t h4 (ix3 (⟨n.val % 16, Nat.mod_lt _ (by decide)⟩ : Fin 16) ch q) = G m c (ix3 n ch q) := by
    unfold yRows
    congr 1
    funext a; apply Fin.ext
    simp only [LoadRect.idx_apply, Rect.emb_apply, Rect.off_unit, Rect.stride_unit, Nat.one_mul]
    have o0 : k0_off3 (grid0.coords t) 0 = 16 * (t.val - 4) := congrFun (off3_eq t h4) 0
    have o1 : k0_off3 (grid0.coords t) 1 = 0 := congrFun (off3_eq t h4) 1
    have o2 : k0_off3 (grid0.coords t) 2 = 0 := congrFun (off3_eq t h4) 2
    match a with
    | ⟨0, _⟩ => show k0_off3 (grid0.coords t) 0 + n.val % 16 = n.val; rw [o0]; omega
    | ⟨1, _⟩ => show k0_off3 (grid0.coords t) 1 + ch.val = ch.val; rw [o1]; omega
    | ⟨2, _⟩ => show k0_off3 (grid0.coords t) 2 + q.val = q.val; rw [o2]; omega
  have e2 : col0 m c (ix2 ch 0) = Scan m c (ix2 ch 0) := by
    unfold col0
    congr 1
    funext a; apply Fin.ext
    simp only [LoadRect.idx_apply, Rect.emb_apply, Rect.off_unit, Rect.stride_unit, Nat.one_mul]
    match a with
    | ⟨0, _⟩ => show 0 + ch.val = ch.val; omega
    | ⟨1, _⟩ => rfl
  have e3 : col1 m c (ix2 ch 0) = Scan m c (ix2 ch 1) := by
    unfold col1
    congr 1
    funext a; apply Fin.ext
    simp only [LoadRect.idx_apply, Rect.emb_apply, Rect.off_unit, Rect.stride_unit, Nat.one_mul]
    match a with
    | ⟨0, _⟩ => show 0 + ch.val = ch.val; omega
    | ⟨1, _⟩ => rfl
  rw [e1, e2, e3]

end Cert.KernelIdeal.Body

end
-- ==== Proof.KIStats.lean ====
/-
  The statistics payloads at the exact reals, element by element: a slab of eight parked images contributes the sum over
  its images and then over the 256 positions; the eight slabs are accumulated from zero in order, for the values and for
  their squares; the mean is the sum times 2⁻¹⁴, the variance the clamped difference, the scale gamma times the
  reciprocal square root of variance plus epsilon, the bias beta minus mean times scale.
-/
import proofs.«114091_g2000004280588758_pallasbulk_1102_22_alg».proof.Proof.KISpec

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

abbrev z0 : EReal := Ideal.ofBits .f32 0x00000000#32
abbrev c14 : EReal := Ideal.ofBits .f32 0x38800000#32
abbrev eps : EReal := Ideal.ofBits .f32 0x3727C5AC#32

/-- A slab's contribution to channel ch: summed over its eight images, then over the positions. -/
def L (v : Vec Ideal S8x128x256 .f32) (ch : Fin 128) : EReal := ∑ q : Fin 256, ∑ j : Fin 8, v (ix3 j ch q)
/-- The squares of a slab, element by element. -/
def sq (v : Vec Ideal S8x128x256 .f32) : Vec Ideal S8x128x256 .f32 := fun i => v i * v i
/-- A 128×256 array summed over the positions. -/
def L1 (v : Vec Ideal S128x256 .f32) (ch : Fin 128) : EReal := ∑ q : Fin 256, v (ix2 ch q)

theorem slabSum_apply (v : Vec Ideal S8x128x256 .f32) (ch : Fin 128) (hφ0 hφ1 : FKind.Formats .f32)
    (ha0 : (0x00000000#32 : BitVec 32) = FKind.add.neutral .f32 hφ0) (ha1 : (0x00000000#32 : BitVec 32) = FKind.add.neutral .f32 hφ1) :
    (shapeCast S128x1 (multiReduction (F := Ideal) .add [1] S128 (multiReduction (F := Ideal) .add [0] S128x256 v 0x00000000#32 reduces_S8x128x256_S128x256 hφ0 ha0) 0x00000000#32 reduces_S128x256_S128 hφ1 ha1) shapeCasts_S128_S128x1 : S128x1.Idx → EReal) (ix2 ch 0)
      = L v ch := by
  refine (shapeCast_apply _ shapeCasts_S128_S128x1 (ix2 ch 0) (ix1 ch) rfl).trans ?_
  refine (Ideal.multiReduction_add_single _ 0x00000000#32 reduces_S128x256_S128 hφ1 ha1 (ix1 ch)).trans ?_
  refine Finset.sum_congr rfl fun q _ => ?_
  refine (Ideal.multiReduction_add_single v 0x00000000#32 reduces_S8x128x256_S128x256 hφ0 ha0 _).trans ?_
  refine Finset.sum_congr rfl fun j _ => ?_
  exact congrArg v (funext fun c => Fin.ext (by fin_cases c <;> rfl))

theorem laneSum_apply (v : Vec Ideal S128x256 .f32) (ch : Fin 128) (hφ1 : FKind.Formats .f32)
    (ha1 : (0x00000000#32 : BitVec 32) = FKind.add.neutral .f32 hφ1) :
    (shapeCast S128x1 (multiReduction (F := Ideal) .add [1] S128 v 0x00000000#32 reduces_S128x256_S128 hφ1 ha1) shapeCasts_S128_S128x1 : S128x1.Idx → EReal) (ix2 ch 0)
      = L1 v ch := by
  refine (shapeCast_apply _ shapeCasts_S128_S128x1 (ix2 ch 0) (ix1 ch) rfl).trans ?_
  refine (Ideal.multiReduction_add_single v 0x00000000#32 reduces_S128x256_S128 hφ1 ha1 (ix1 ch)).trans ?_
  refine Finset.sum_congr rfl fun q _ => ?_
  exact congrArg v (funext fun c => Fin.ext (by fin_cases c <;> rfl))

theorem pay65_apply (v13 v23 v33 : Vec Ideal S8x128x256 .f32) (ch : Fin 128) :
    k0_pay65 (F := Ideal) v13 v23 v33 (ix2 ch 0) = ((z0 + L v13 ch) + L v23 ch) + L v33 ch := by
  unfold k0_pay65
  exact congrArg₂ (· + ·) (congrArg₂ (· + ·) (congrArg₂ (· + ·) rfl (slabSum_apply v13 ch _ _ _ _)) (slabSum_apply v23 ch _ _ _ _)) (slabSum_apply v33 ch _ _ _ _)

theorem pay66_apply (v13 v23 v33 : Vec Ideal S8x128x256 .f32) (ch : Fin 128) :
    k0_pay66 (F := Ideal) v13 v23 v33 (ix2 ch 0) = ((z0 + L (sq v13) ch) + L (sq v23) ch) + L (sq v33) ch := by
  unfold k0_pay66
  exact congrArg₂ (· + ·) (congrArg₂ (· + ·) (congrArg₂ (· + ·) rfl (slabSum_apply _ ch _ _ _ _)) (slabSum_apply _ ch _ _ _ _)) (slabSum_apply _ ch _ _ _ _)

theorem pay67_apply (v42 : Vec Ideal S128x1 .f32) (v43 v53 v63 : Vec Ideal S8x128x256 .f32) (ch : Fin 128) :
    k0_pay67 (F := Ideal) v42 v43 v53 v63 (ix2 ch 0) = ((v42 (ix2 ch 0) + L (sq v43) ch) + L (sq v53) ch) + L (sq v63) ch := by
  unfold k0_pay67
  exact congrArg₂ (· + ·) (congrArg₂ (· + ·) (congrArg₂ (· + ·) rfl (slabSum_apply _ ch _ _ _ _)) (slabSum_apply _ ch _ _ _ _)) (slabSum_apply _ ch _ _ _ _)

theorem pay69_apply (v39 : Vec Ideal S128x1 .f32) (v43 v53 v63 v73 : Vec Ideal S8x128x256 .f32) (ch : Fin 128) :
    k0_pay69 (F := Ideal) v39 v43 v53 v63 v73 (ix2 ch 0) = (((v39 (ix2 ch 0) + L v43 ch) + L v53 ch) + L v63 ch) + L v73 ch := by
  unfold k0_pay69
  exact congrArg₂ (· + ·) (congrArg₂ (· + ·) (congrArg₂ (· + ·) (congrArg₂ (· + ·) rfl (slabSum_apply _ ch _ _ _ _)) (slabSum_apply _ ch _ _ _ _)) (slabSum_apply _ ch _ _ _ _)) (slabSum_apply _ ch _ _ _ _)

theorem pay70_apply (v79 : Vec Ideal S128x1 .f32) (v83 : Vec Ideal S8x128x256 .f32) (ch : Fin 128) :
    k0_pay70 (F := Ideal) v79 v83 (ix2 ch 0) = (v79 (ix2 ch 0) + L v83 ch) * c14 := by
  unfold k0_pay70
  exact congrArg₂ (· * ·) (congrArg₂ (· + ·) rfl (slabSum_apply _ ch _ _ _ _)) rfl

/-- The sum of the squares of a slab over its images, as a 128×256 array, summed over the positions. -/
theorem pay68_lane (v73 : Vec Ideal S8x128x256 .f32) (ch : Fin 128) (hφ1 : FKind.Formats .f32)
    (ha1 : (0x00000000#32 : BitVec 32) = FKind.add.neutral .f32 hφ1) :
    (shapeCast S128x1 (multiReduction (F := Ideal) .add [1] S128 (k0_pay68 (F := Ideal) v73) 0x00000000#32 reduces_S128x256_S128 hφ1 ha1) shapeCasts_S128_S128x1 : S128x1.Idx → EReal) (ix2 ch 0)
      = L (sq v73) ch := by
  unfold k0_pay68
  exact slabSum_apply (sq v73) ch _ _ _ _

/-- The scale column: gamma times the reciprocal square root of the clamped variance plus epsilon. -/
theorem pay71_apply (v72 : Vec Ideal S128x1 .f32) (v73 : Vec Ideal S8x128x256 .f32) (v79 : Vec Ideal S128x1 .f32) (v83 : Vec Ideal S8x128x256 .f32)
    (v101 : Vec Ideal S128x1 .f32) (ch : Fin 128) :
    k0_pay71 (F := Ideal) v72 (k0_pay68 (F := Ideal) v73) v79 v83 v101 (ix2 ch 0)
      = v101 (ix2 ch 0) * Ideal.rsqrt (max (((v72 (ix2 ch 0) + L (sq v73) ch) + L (sq v83) ch) * c14
          - k0_pay70 (F := Ideal) v79 v83 (ix2 ch 0) * k0_pay70 (F := Ideal) v79 v83 (ix2 ch 0)) z0 + eps) := by
  unfold k0_pay71
  exact congrArg₂ (· * ·) (congrFun (shapeCast_self v101 _) _)
    (congrArg Ideal.rsqrt (congrArg₂ (· + ·) (congrArg₂ max (congrArg₂ (· - ·)
      (congrArg₂ (· * ·) (congrArg₂ (· + ·) (congrArg₂ (· + ·) rfl (pay68_lane v73 ch _ _)) (slabSum_apply (sq v83) ch _ _ _ _)) rfl) rfl) rfl) rfl))

theorem pay72_apply (v72 : Vec Ideal S128x1 .f32) (v76 : Vec Ideal S128x256 .f32) (v79 : Vec Ideal S128x1 .f32) (v83 : Vec Ideal S8x128x256 .f32)
    (v101 : Vec Ideal S128x1 .f32) (ch : Fin 128) :
    k0_pay72 (F := Ideal) v72 v76 v79 v83 v101 (ix2 ch 0) = k0_pay71 (F := Ideal) v72 v76 v79 v83 v101 (ix2 ch 0) := by
  unfold k0_pay72
  exact congrFun (shapeCast_self _ _) _

/-- The bias column: beta minus mean times scale. -/
theorem pay73_apply (v72 : Vec Ideal S128x1 .f32) (v76 : Vec Ideal S128x256 .f32) (v79 : Vec Ideal S128x1 .f32) (v83 : Vec Ideal S8x128x256 .f32)
    (v101 v107 : Vec Ideal S128x1 .f32) (ch : Fin 128) :
    k0_pay73 (F := Ideal) v72 v76 v79 v83 v101 v107 (ix2 ch 0)
      = v107 (ix2 ch 0) - k0_pay70 (F := Ideal) v79 v83 (ix2 ch 0) * k0_pay71 (F := Ideal) v72 v76 v79 v83 v101 (ix2 ch 0) := by
  unfold k0_pay73
  refine (congrFun (shapeCast_self _ _) _).trans ?_
  exact congrArg₂ (· - ·) (congrFun (shapeCast_self v107 _) _) rfl

end Cert.KernelIdeal.Body

end
-- ==== Proof.KIScan.lean ====
/-
  The two columns the fold point stores, element by element, over the parked activations: with S and Q the sums of the
  activations and of their squares over all sixty-four images and 256 positions (accumulated slab by slab),
  mean = S · 2⁻¹⁴, var = max(Q · 2⁻¹⁴ − mean², 0), scale = gamma · rsqrt(var + eps), bias = beta − mean · scale.
-/
import proofs.«114091_g2000004280588758_pallasbulk_1102_22_alg».proof.Proof.KIStats
import proofs.«114091_g2000004280588758_pallasbulk_1102_22_alg».proof.Proof.Algebra

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (c : Dev nD)

/-- The parked activations by image, channel and position. -/
def Gf (n : Fin 64) (ch : Fin 128) (q : Fin 256) : EReal := G m c (ix3 n ch q)

abbrev sl0 : Vec Ideal S8x128x256 .f32 :=
  View.readAt (Elt Ideal) (Ms0).view (Rect.unit (s := S64x128x256) ![0, 0, 0] S8x128x256.size inb_S64x128x256_S8x128x256_0_0_0).toLoadRect (Ystar m c)
theorem sl0_apply (j : Fin 8) (ch : Fin 128) (q : Fin 256) : sl0 m c (ix3 j ch q) = Gf m c (Cert.Alg.im8 0 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 0 + j.val = 8 * 0 + j.val; omega
  | ⟨1, _⟩ => show 0 + ch.val = ch.val; omega
  | ⟨2, _⟩ => show 0 + q.val = q.val; omega
theorem L_sl0 (ch : Fin 128) : L (sl0 m c) ch = Cert.Alg.slab (Gf m c) 0 ch :=
  Finset.sum_congr rfl fun q _ => Finset.sum_congr rfl fun j _ => sl0_apply m c j ch q
theorem Lsq_sl0 (ch : Fin 128) : L (sq (sl0 m c)) ch = Cert.Alg.slab (fun n ch q => Gf m c n ch q * Gf m c n ch q) 0 ch :=
  Finset.sum_congr rfl fun q _ => Finset.sum_congr rfl fun j _ => by
    show sl0 m c (ix3 j ch q) * sl0 m c (ix3 j ch q) = _
    rw [sl0_apply]

abbrev sl1 : Vec Ideal S8x128x256 .f32 :=
  View.readAt (Elt Ideal) (Ms0).view (Rect.unit (s := S64x128x256) ![8, 0, 0] S8x128x256.size inb_S64x128x256_S8x128x256_8_0_0).toLoadRect (Ystar m c)
theorem sl1_apply (j : Fin 8) (ch : Fin 128) (q : Fin 256) : sl1 m c (ix3 j ch q) = Gf m c (Cert.Alg.im8 1 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 8 + j.val = 8 * 1 + j.val; omega
  | ⟨1, _⟩ => show 0 + ch.val = ch.val; omega
  | ⟨2, _⟩ => show 0 + q.val = q.val; omega
theorem L_sl1 (ch : Fin 128) : L (sl1 m c) ch = Cert.Alg.slab (Gf m c) 1 ch :=
  Finset.sum_congr rfl fun q _ => Finset.sum_congr rfl fun j _ => sl1_apply m c j ch q
theorem Lsq_sl1 (ch : Fin 128) : L (sq (sl1 m c)) ch = Cert.Alg.slab (fun n ch q => Gf m c n ch q * Gf m c n ch q) 1 ch :=
  Finset.sum_congr rfl fun q _ => Finset.sum_congr rfl fun j _ => by
    show sl1 m c (ix3 j ch q) * sl1 m c (ix3 j ch q) = _
    rw [sl1_apply]

abbrev sl2 : Vec Ideal S8x128x256 .f32 :=
  View.readAt (Elt Ideal) (Ms0).view (Rect.unit (s := S64x128x256) ![16, 0, 0] S8x128x256.size inb_S64x128x256_S8x128x256_16_0_0).toLoadRect (Ystar m c)
theorem sl2_apply (j : Fin 8) (ch : Fin 128) (q : Fin 256) : sl2 m c (ix3 j ch q) = Gf m c (Cert.Alg.im8 2 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 16 + j.val = 8 * 2 + j.val; omega
  | ⟨1, _⟩ => show 0 + ch.val = ch.val; omega
  | ⟨2, _⟩ => show 0 + q.val = q.val; omega
theorem L_sl2 (ch : Fin 128) : L (sl2 m c) ch = Cert.Alg.slab (Gf m c) 2 ch :=
  Finset.sum_congr rfl fun q _ => Finset.sum_congr rfl fun j _ => sl2_apply m c j ch q
theorem Lsq_sl2 (ch : Fin 128) : L (sq (sl2 m c)) ch = Cert.Alg.slab (fun n ch q => Gf m c n ch q * Gf m c n ch q) 2 ch :=
  Finset.sum_congr rfl fun q _ => Finset.sum_congr rfl fun j _ => by
    show sl2 m c (ix3 j ch q) * sl2 m c (ix3 j ch q) = _
    rw [sl2_apply]

abbrev sl3 : Vec Ideal S8x128x256 .f32 :=
  View.readAt (Elt Ideal) (Ms0).view (Rect.unit (s := S64x128x256) ![24, 0, 0] S8x128x256.size inb_S64x128x256_S8x128x256_24_0_0).toLoadRect (Ystar m c)
theorem sl3_apply (j : Fin 8) (ch : Fin 128) (q : Fin 256) : sl3 m c (ix3 j ch q) = Gf m c (Cert.Alg.im8 3 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 24 + j.val = 8 * 3 + j.val; omega
  | ⟨1, _⟩ => show 0 + ch.val = ch.val; omega
  | ⟨2, _⟩ => show 0 + q.val = q.val; omega
theorem L_sl3 (ch : Fin 128) : L (sl3 m c) ch = Cert.Alg.slab (Gf m c) 3 ch :=
  Finset.sum_congr rfl fun q _ => Finset.sum_congr rfl fun j _ => sl3_apply m c j ch q
theorem Lsq_sl3 (ch : Fin 128) : L (sq (sl3 m c)) ch = Cert.Alg.slab (fun n ch q => Gf m c n ch q * Gf m c n ch q) 3 ch :=
  Finset.sum_congr rfl fun q _ => Finset.sum_congr rfl fun j _ => by
    show sl3 m c (ix3 j ch q) * sl3 m c (ix3 j ch q) = _
    rw [sl3_apply]

abbrev sl4 : Vec Ideal S8x128x256 .f32 :=
  View.readAt (Elt Ideal) (Ms0).view (Rect.unit (s := S64x128x256) ![32, 0, 0] S8x128x256.size inb_S64x128x256_S8x128x256_32_0_0).toLoadRect (Ystar m c)
theorem sl4_apply (j : Fin 8) (ch : Fin 128) (q : Fin 256) : sl4 m c (ix3 j ch q) = Gf m c (Cert.Alg.im8 4 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 32 + j.val = 8 * 4 + j.val; omega
  | ⟨1, _⟩ => show 0 + ch.val = ch.val; omega
  | ⟨2, _⟩ => show 0 + q.val = q.val; omega
theorem L_sl4 (ch : Fin 128) : L (sl4 m c) ch = Cert.Alg.slab (Gf m c) 4 ch :=
  Finset.sum_congr rfl fun q _ => Finset.sum_congr rfl fun j _ => sl4_apply m c j ch q
theorem Lsq_sl4 (ch : Fin 128) : L (sq (sl4 m c)) ch = Cert.Alg.slab (fun n ch q => Gf m c n ch q * Gf m c n ch q) 4 ch :=
  Finset.sum_congr rfl fun q _ => Finset.sum_congr rfl fun j _ => by
    show sl4 m c (ix3 j ch q) * sl4 m c (ix3 j ch q) = _
    rw [sl4_apply]

abbrev sl5 : Vec Ideal S8x128x256 .f32 :=
  View.readAt (Elt Ideal) (Ms0).view (Rect.unit (s := S64x128x256) ![40, 0, 0] S8x128x256.size inb_S64x128x256_S8x128x256_40_0_0).toLoadRect (Ystar m c)
theorem sl5_apply (j : Fin 8) (ch : Fin 128) (q : Fin 256) : sl5 m c (ix3 j ch q) = Gf m c (Cert.Alg.im8 5 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 40 + j.val = 8 * 5 + j.val; omega
  | ⟨1, _⟩ => show 0 + ch.val = ch.val; omega
  | ⟨2, _⟩ => show 0 + q.val = q.val; omega
theorem L_sl5 (ch : Fin 128) : L (sl5 m c) ch = Cert.Alg.slab (Gf m c) 5 ch :=
  Finset.sum_congr rfl fun q _ => Finset.sum_congr rfl fun j _ => sl5_apply m c j ch q
theorem Lsq_sl5 (ch : Fin 128) : L (sq (sl5 m c)) ch = Cert.Alg.slab (fun n ch q => Gf m c n ch q * Gf m c n ch q) 5 ch :=
  Finset.sum_congr rfl fun q _ => Finset.sum_congr rfl fun j _ => by
    show sl5 m c (ix3 j ch q) * sl5 m c (ix3 j ch q) = _
    rw [sl5_apply]

abbrev sl6 : Vec Ideal S8x128x256 .f32 :=
  View.readAt (Elt Ideal) (Ms0).view (Rect.unit (s := S64x128x256) ![48, 0, 0] S8x128x256.size inb_S64x128x256_S8x128x256_48_0_0).toLoadRect (Ystar m c)
theorem sl6_apply (j : Fin 8) (ch : Fin 128) (q : Fin 256) : sl6 m c (ix3 j ch q) = Gf m c (Cert.Alg.im8 6 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 48 + j.val = 8 * 6 + j.val; omega
  | ⟨1, _⟩ => show 0 + ch.val = ch.val; omega
  | ⟨2, _⟩ => show 0 + q.val = q.val; omega
theorem L_sl6 (ch : Fin 128) : L (sl6 m c) ch = Cert.Alg.slab (Gf m c) 6 ch :=
  Finset.sum_congr rfl fun q _ => Finset.sum_congr rfl fun j _ => sl6_apply m c j ch q
theorem Lsq_sl6 (ch : Fin 128) : L (sq (sl6 m c)) ch = Cert.Alg.slab (fun n ch q => Gf m c n ch q * Gf m c n ch q) 6 ch :=
  Finset.sum_congr rfl fun q _ => Finset.sum_congr rfl fun j _ => by
    show sl6 m c (ix3 j ch q) * sl6 m c (ix3 j ch q) = _
    rw [sl6_apply]

abbrev sl7 : Vec Ideal S8x128x256 .f32 :=
  View.readAt (Elt Ideal) (Ms0).view (Rect.unit (s := S64x128x256) ![56, 0, 0] S8x128x256.size inb_S64x128x256_S8x128x256_56_0_0).toLoadRect (Ystar m c)
theorem sl7_apply (j : Fin 8) (ch : Fin 128) (q : Fin 256) : sl7 m c (ix3 j ch q) = Gf m c (Cert.Alg.im8 7 j) ch q := by
  refine (Memref.IsWhole.readAt_unread (hMs0) (G m c) _ _).trans ?_
  show G m c _ = G m c _
  congr 1
  funext a; apply Fin.ext
  simp only [LoadRect.idx_apply, Rect.emb_apply, Rect.off_unit, Rect.stride_unit, Nat.one_mul]
  match a with
  | ⟨0, _⟩ => show 56 + j.val = 8 * 7 + j.val; omega
  | ⟨1, _⟩ => show 0 + ch.val = ch.val; omega
  | ⟨2, _⟩ => show 0 + q.val = q.val; omega
theorem L_sl7 (ch : Fin 128) : L (sl7 m c) ch = Cert.Alg.slab (Gf m c) 7 ch :=
  Finset.sum_congr rfl fun q _ => Finset.sum_congr rfl fun j _ => sl7_apply m c j ch q
theorem Lsq_sl7 (ch : Fin 128) : L (sq (sl7 m c)) ch = Cert.Alg.slab (fun n ch q => Gf m c n ch q * Gf m c n ch q) 7 ch :=
  Finset.sum_congr rfl fun q _ => Finset.sum_congr rfl fun j _ => by
    show sl7 m c (ix3 j ch q) * sl7 m c (ix3 j ch q) = _
    rw [sl7_apply]

/-- Gamma's and beta's blocks at the fold point, by channel. -/
def gam (ch : Fin 128) : EReal :=
  View.readAt (Elt Ideal) (st0_5 t0_4).view (Rect.unit (s := S128x1) ![0, 0] S128x1.size inb_S128x1_S128x1_0_0).toLoadRect (fin5 m c t0_4) (ix2 ch 0)
def bet (ch : Fin 128) : EReal :=
  View.readAt (Elt Ideal) (st0_6 t0_4).view (Rect.unit (s := S128x1) ![0, 0] S128x1.size inb_S128x1_S128x1_0_0).toLoadRect (fin6 m c t0_4) (ix2 ch 0)

/-- The sums as the body accumulates them. -/
def Ssum (ch : Fin 128) : EReal := Cert.Alg.acc8 (Gf m c) ch
def Qsum (ch : Fin 128) : EReal := Cert.Alg.acc8 (fun n ch q => Gf m c n ch q * Gf m c n ch q) ch
def meanS (ch : Fin 128) : EReal := Ssum m c ch * c14
def scaleS (ch : Fin 128) : EReal := gam m c ch * Ideal.rsqrt (max (Qsum m c ch * c14 - meanS m c ch * meanS m c ch) 0 + eps)
def biasS (ch : Fin 128) : EReal := bet m c ch - meanS m c ch * scaleS m c ch

set_option maxHeartbeats 2000000 in
theorem Scan_col (ch : Fin 128) : Scan m c (ix2 ch 0) = scaleS m c ch ∧ Scan m c (ix2 ch 1) = biasS m c ch := by
  unfold Scan runFold.sl.H11_2
  have hcol0 : ix2 ch (0 : Fin 2) = (rc0).emb (ix2 ch (0 : Fin 1)) := funext fun a => Fin.ext (by
    match a with
    | ⟨0, _⟩ => show ch.val = 0 + 1 * ch.val; omega
    | ⟨1, _⟩ => rfl)
  have hcol1 : ix2 ch (1 : Fin 2) = (rc1).emb (ix2 ch (0 : Fin 1)) := funext fun a => Fin.ext (by
    match a with
    | ⟨0, _⟩ => show ch.val = 0 + 1 * ch.val; omega
    | ⟨1, _⟩ => rfl)
  have hnot : ix2 ch (0 : Fin 2) ∉ (rc1).set := by
    rw [Rect.mem_set_unit]; intro h
    have h1 : 1 ≤ 0 := (h 1).1
    omega
  have key : k0_pay71 (F := Ideal) (runFold.sl.r_3 c Ms0 (Ystar m c)) (runFold.sl.r_4 c Ms0 (Ystar m c)) (runFold.sl.r_5 c Ms0 (Ystar m c))
      (sl7 m c) (View.readAt (Elt Ideal) (st0_5 t0_4).view (Rect.unit (s := S128x1) ![0, 0] S128x1.size inb_S128x1_S128x1_0_0).toLoadRect (fin5 m c t0_4)) (ix2 ch 0)
        = scaleS m c ch ∧
      k0_pay70 (F := Ideal) (runFold.sl.r_5 c Ms0 (Ystar m c)) (sl7 m c) (ix2 ch 0) = meanS m c ch := by
    have hm : k0_pay70 (F := Ideal) (runFold.sl.r_5 c Ms0 (Ystar m c)) (sl7 m c) (ix2 ch 0) = meanS m c ch := by
      rw [pay70_apply]
      unfold runFold.sl.r_5 runFold.sl.r_2 runFold.sl.r
      rw [pay69_apply, pay65_apply]
      rw [L_sl0 m c ch, L_sl1 m c ch, L_sl2 m c ch, L_sl3 m c ch, L_sl4 m c ch, L_sl5 m c ch, L_sl6 m c ch, L_sl7 m c ch]
      unfold meanS Ssum Cert.Alg.acc8
      rw [show (z0 : EReal) = 0 from Ideal.ofBits_zero_f32]
    refine ⟨?_, hm⟩
    unfold runFold.sl.r_4
    rw [pay71_apply, hm]
    unfold runFold.sl.r_3 runFold.sl.r_2 runFold.sl.r_1
    rw [pay67_apply, pay66_apply]
    rw [Lsq_sl0 m c ch, Lsq_sl1 m c ch, Lsq_sl2 m c ch, Lsq_sl3 m c ch, Lsq_sl4 m c ch, Lsq_sl5 m c ch, Lsq_sl6 m c ch, Lsq_sl7 m c ch]
    unfold scaleS Qsum Cert.Alg.acc8 gam
    rw [show (z0 : EReal) = 0 from Ideal.ofBits_zero_f32]
  constructor
  · rw [View.canon_cons_of_not_mem _ _ hnot, hcol0, View.canon_cons_emb, pay72_apply]
    exact key.1
  · rw [hcol1, View.canon_cons_emb, pay73_apply, key.1, key.2]
    rfl

end Cert.KernelIdeal.Body

end
-- ==== Proof.KILink.lean ====
/-
  The kernel's output array is the algebraic core's fused form: with the parked activations equal to the core's
  convolution and gamma, beta the real arrays, the scale and bias columns are the core's, and so is every element.
-/
import proofs.«114091_g2000004280588758_pallasbulk_1102_22_alg».proof.Proof.KIScan
import proofs.«114091_g2000004280588758_pallasbulk_1102_22_alg».proof.Proof.Wit

noncomputable section

namespace Cert.KernelIdeal.Body

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)
  (hpre : Cert.Pre_KernelIdeal (hPre_finite_inputs := Cert.Pre_finite_inputs.Gen.facts) m) (c : Dev nD)

/-- Once the parked activations are the core's convolution and gamma, beta its real arrays, every element of the output
    array is the core's fused result. -/
theorem Kres_core (Wr : Fin 128 → Fin 256 → ℝ) (Lr : Fin 64 → Fin 256 → Fin 256 → ℝ) (γr βr : Fin 128 → ℝ) (εr : ℝ)
    (hG : ∀ n ch q, Gf m c n ch q = Cert.Alg.y Wr Lr n ch q)
    (hg : ∀ ch, gam m c ch = (γr ch : EReal)) (hb : ∀ ch, bet m c ch = (βr ch : EReal))
    (he : Ideal.ofBits .f32 0x3727C5AC#32 = (εr : EReal))
    (n : Fin 64) (ch : Fin 128) (q : Fin 256) :
    (Kres m c : S64x128x256.Idx → EReal) (ix3 n ch q) = Cert.Alg.outK Wr Lr γr βr εr n ch q := by
  have hGf : Gf m c = Cert.Alg.y Wr Lr := funext fun n => funext fun ch => funext fun q => hG n ch q
  have hsc : scaleS m c ch = Cert.Alg.scaleK Wr Lr γr εr ch := by
    unfold scaleS meanS Qsum Ssum Cert.Alg.scaleK Cert.Alg.varK Cert.Alg.meanK Cert.Alg.qK Cert.Alg.sK
    rw [hGf, hg ch, show (c14 : EReal) = ((1 / 16384 : ℝ) : EReal) from Cert.Consts.ofBits_inv16384, show (eps : EReal) = (εr : EReal) from he]
  have hbi : biasS m c ch = Cert.Alg.biasK Wr Lr γr βr εr ch := by
    unfold biasS Cert.Alg.biasK
    rw [hsc, hb ch]
    unfold meanS Ssum Cert.Alg.meanK Cert.Alg.sK
    rw [hGf, show (c14 : EReal) = ((1 / 16384 : ℝ) : EReal) from Cert.Consts.ofBits_inv16384]
  rw [Kres_apply, (Scan_col m c ch).1, (Scan_col m c ch).2, hsc, hbi]
  show Gf m c n ch q * _ + _ = _
  rw [hG]
  rfl

end Cert.KernelIdeal.Body
end
-- ==== Proof.KIHost.lean ====
/-
  The arrays the kernel's one region finds, read index by index: the five arguments as the host's reshapes leave them,
  and the two selection matrices the host builds from iotas — column q of the first has its one at row
  64·(q / 16) + 2·(q mod 16), column q of the second at that row plus 33.
-/
import proofs.«114091_g2000004280588758_pallasbulk_1102_22_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KHost

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-! ## The reshaped arguments -/

/-- The kernel's first operand is the input array, each 32×32 image laid out as one row of 1024. -/
theorem V_v0_eq (c : Dev nD) :
    (V m c main_call0_v0 : S64x128x1024.Idx → EReal)
      = shapeCast S64x128x1024 (m ((c : Thread nD τ).loc main_arg0) : S64x128x32x32.Idx → EReal) shapeCasts_S64x128x32x32_S64x128x1024 := by
  dsimp only [Gen.V, Gen.V0]
  simp only [Gen.hostOps0, List.flatten_cons, List.flatten_nil, List.append_nil, List.cons_append, List.nil_append]
  after_results
  rfl

theorem V_v0_apply (c : Dev nD) (n : Fin 64) (k : Fin 128) (l : Fin 1024) :
    (V m c main_call0_v0 : S64x128x1024.Idx → EReal) (ix3 n k l)
      = (m ((c : Thread nD τ).loc main_arg0) : S64x128x32x32.Idx → EReal)
          (ix4 n k ⟨l.val / 32, by have := l.isLt; omega⟩ ⟨l.val % 32, by omega⟩) := by
  rw [V_v0_eq]
  refine shapeCast_apply (s := S64x128x32x32) (t := S64x128x1024) _ _ _ _ ?_
  rw [Shape.rowMajor_val_four, Shape.rowMajor_val_three]
  show ((n.val * 128 + k.val) * 32 + l.val / 32) * 32 + l.val % 32 = (n.val * 128 + k.val) * 1024 + l.val
  omega

/-- The first 1×1 convolution's weights, the two unit axes dropped. -/
theorem V_v1_eq (c : Dev nD) :
    (V m c main_call0_v1 : S64x128.Idx → EReal)
      = shapeCast S64x128 (m ((c : Thread nD τ).loc main_arg1) : S64x128x1x1.Idx → EReal) shapeCasts_S64x128x1x1_S64x128 := by
  dsimp only [Gen.V, Gen.V0]
  simp only [Gen.hostOps0, List.flatten_cons, List.flatten_nil, List.append_nil, List.cons_append, List.nil_append]
  after_results
  rfl

theorem V_v1_apply (c : Dev nD) (ch : Fin 64) (k : Fin 128) :
    (V m c main_call0_v1 : S64x128.Idx → EReal) (ix2 ch k)
      = (m ((c : Thread nD τ).loc main_arg1) : S64x128x1x1.Idx → EReal) (ix4 ch k 0 0) := by
  rw [V_v1_eq]
  refine shapeCast_apply (s := S64x128x1x1) (t := S64x128) _ _ _ _ ?_
  rw [Shape.rowMajor_val_four, Shape.rowMajor_val_two]
  show ((ch.val * 128 + k.val) * 1 + 0) * 1 + 0 = ch.val * 128 + k.val
  omega

/-- The second 1×1 convolution's weights, the two unit axes dropped. -/
theorem V_v2_eq (c : Dev nD) :
    (V m c main_call0_v2 : S64x128.Idx → EReal)
      = shapeCast S64x128 (m ((c : Thread nD τ).loc main_arg2) : S64x128x1x1.Idx → EReal) shapeCasts_S64x128x1x1_S64x128 := by
  dsimp only [Gen.V, Gen.V0]
  simp only [Gen.hostOps0, List.flatten_cons, List.flatten_nil, List.append_nil, List.cons_append, List.nil_append]
  after_results
  rfl

theorem V_v2_apply (c : Dev nD) (ch : Fin 64) (k : Fin 128) :
    (V m c main_call0_v2 : S64x128.Idx → EReal) (ix2 ch k)
      = (m ((c : Thread nD τ).loc main_arg2) : S64x128x1x1.Idx → EReal) (ix4 ch k 0 0) := by
  rw [V_v2_eq]
  refine shapeCast_apply (s := S64x128x1x1) (t := S64x128) _ _ _ _ ?_
  rw [Shape.rowMajor_val_four, Shape.rowMajor_val_two]
  show ((ch.val * 128 + k.val) * 1 + 0) * 1 + 0 = ch.val * 128 + k.val
  omega

/-- The scale, as one column. -/
theorem V_v3_eq (c : Dev nD) :
    (V m c main_call0_v3 : S128x1.Idx → EReal)
      = shapeCast S128x1 (m ((c : Thread nD τ).loc main_arg3) : S128.Idx → EReal) shapeCasts_S128_S128x1 := by
  dsimp only [Gen.V, Gen.V0]
  simp only [Gen.hostOps0, List.flatten_cons, List.flatten_nil, List.append_nil, List.cons_append, List.nil_append]
  after_results
  rfl

theorem V_v3_apply (c : Dev nD) (ch : Fin 128) :
    (V m c main_call0_v3 : S128x1.Idx → EReal) (ix2 ch 0)
      = (m ((c : Thread nD τ).loc main_arg3) : S128.Idx → EReal) (ix1 ch) := by
  rw [V_v3_eq]
  refine shapeCast_apply (s := S128) (t := S128x1) _ _ _ _ ?_
  rw [Shape.rowMajor_val_one, Shape.rowMajor_val_two]
  show ch.val = ch.val * 1 + 0
  omega

/-- The shift, as one column. -/
theorem V_v4_eq (c : Dev nD) :
    (V m c main_call0_v4 : S128x1.Idx → EReal)
      = shapeCast S128x1 (m ((c : Thread nD τ).loc main_arg4) : S128.Idx → EReal) shapeCasts_S128_S128x1 := by
  dsimp only [Gen.V, Gen.V0]
  simp only [Gen.hostOps0, List.flatten_cons, List.flatten_nil, List.append_nil, List.cons_append, List.nil_append]
  after_results
  rfl

theorem V_v4_apply (c : Dev nD) (ch : Fin 128) :
    (V m c main_call0_v4 : S128x1.Idx → EReal) (ix2 ch 0)
      = (m ((c : Thread nD τ).loc main_arg4) : S128.Idx → EReal) (ix1 ch) := by
  rw [V_v4_eq]
  refine shapeCast_apply (s := S128) (t := S128x1) _ _ _ _ ?_
  rw [Shape.rowMajor_val_one, Shape.rowMajor_val_two]
  show ch.val = ch.val * 1 + 0
  omega

/-! ## The selection matrices' rows -/

/-- The column number q, as a row of 256 words. -/
def hq : IVec S1x256 32 := broadcastInDim S1x256 ![1] bcast_S256_S1x256_1 (iotaInDim S256 32 0)
/-- A word in every column. -/
def hk (b : BitVec 32) : IVec S1x256 32 := broadcastInDim S1x256 ![] bcast_S_S1x256 (constantI S_ 32 b)

/-- q / 16 rounded down, the host's way: the quotient toward zero, one less where the signs differ and the division
    is not exact. -/
def hfloordiv : IVec S1x256 32 :=
  select
    (andi (cmpi .ne (signi hq) (broadcastInDim S1x256 ![] bcast_S_S1x256 (signi (constantI S_ 32 16#32))))
      (cmpi .ne (Host.remsi hq (hk 16#32)) (hk 0#32)))
    (subi (Host.divsi hq (hk 16#32)) (hk 1#32))
    (Host.divsi hq (hk 16#32))

/-- The divisor of the remainder: 16, or 1 were it zero. -/
def hdiv : IVec S_ 32 :=
  select (cmpi .eq (constantI S_ 32 16#32) (constantI S_ 32 0#32)) (constantI S_ 32 1#32) (constantI S_ 32 16#32)

/-- q mod 16 with the divisor's sign, the host's way. -/
def hmod : IVec S1x256 32 :=
  select
    (andi
      (cmpi .ne (cmpi .slt (Host.remsi hq (broadcastInDim S1x256 ![] bcast_S_S1x256 hdiv)) (hk 0#32))
        (broadcastInDim S1x256 ![] bcast_S_S1x256 (cmpi .slt hdiv (constantI S_ 32 0#32))))
      (cmpi .ne (Host.remsi hq (broadcastInDim S1x256 ![] bcast_S_S1x256 hdiv)) (hk 0#32)))
    (addi (Host.remsi hq (broadcastInDim S1x256 ![] bcast_S_S1x256 hdiv)) (broadcastInDim S1x256 ![] bcast_S_S1x256 hdiv))
    (Host.remsi hq (broadcastInDim S1x256 ![] bcast_S_S1x256 hdiv))

/-- The row of the first matrix's one in each column: 2 · (q / 16) · 32 + 2 · (q mod 16). -/
def hrow : IVec S1x256 32 :=
  addi (muli (muli (hk 2#32) hfloordiv) (hk 32#32)) (muli (hk 2#32) hmod)

theorem V_v17_eq (c : Dev nD) : (V m c main_call0_v17 : S1x256.Idx → BitVec 32) = hrow := by
  dsimp only [Gen.V, Gen.V0]
  simp only [Gen.hostOps0, List.flatten_cons, List.flatten_nil, List.append_nil, List.cons_append, List.nil_append]
  after_results_simp
  rfl

/-- The row, column by column: 64 · (q / 16) + 2 · (q mod 16). No memory is involved: every operand is an iota or a
    constant, and the 256 columns are computed. -/
theorem hrow_apply : ∀ q : Fin 256, hrow (ix2 0 q) = BitVec.ofNat 32 (64 * (q.val / 16) + 2 * (q.val % 16)) := by
  decide +kernel

/-- The row number l, in every column of a 1024×256 array. -/
def hl : IVec S1024x256 32 :=
  broadcastInDim S1024x256 ![0, 1] bcast_S1024x1_S1024x256_0_1
    (broadcastInDim S1024x1 ![0] bcast_S1024_S1024x1_0 (iotaInDim S1024 32 0))

/-- The selection matrix of a row of row numbers `r`: the bit of "l is column q's row number", as a float. -/
def hsel (r : IVec S1x256 32) : FVec Ideal S1024x256 .f32 :=
  uitofp .f32 (cmpi .eq hl (broadcastInDim S1024x256 ![0, 1] bcast_S1x256_S1024x256_0_1 r))

theorem hl_apply (l : Fin 1024) (q : Fin 256) : hl (ix2 l q) = BitVec.ofNat 32 l.val := rfl

/-- Entry (l, q) of the selection matrix is one where l is the row number column q names, zero elsewhere. -/
theorem hsel_apply (r : IVec S1x256 32) (l : Fin 1024) (q : Fin 256) (n : Nat) (hn : n < 2 ^ 32)
    (hr : r (ix2 0 q) = BitVec.ofNat 32 n) :
    hsel r (ix2 l q) = if l.val = n then (1 : EReal) else 0 := by
  show (((IntOp.cmpi .eq (hl (ix2 l q))
      (broadcastInDim S1024x256 ![0, 1] bcast_S1x256_S1024x256_0_1 r (ix2 l q))).toNat : ℝ) : EReal) = _
  rw [broadcastInDim_apply _ _ r (ix2 l q) (ix2 0 q) (fun a => match a with | ⟨0, _⟩ => rfl | ⟨1, _⟩ => rfl), hr, hl_apply]
  by_cases h : l.val = n
  · rw [if_pos h, h]
    simp [IntOp.cmpi]
  · rw [if_neg h]
    have hne : (BitVec.ofNat 32 l.val == BitVec.ofNat 32 n) = false := by
      rw [beq_eq_false_iff_ne]
      intro e
      apply h
      have e' := congrArg BitVec.toNat e
      rw [BitVec.toNat_ofNat, BitVec.toNat_ofNat, Nat.mod_eq_of_lt hn,
        Nat.mod_eq_of_lt (lt_trans l.isLt (by norm_num))] at e'
      exact e'
    simp [IntOp.cmpi, hne]

/-- The first selection matrix is the selection matrix of the rows 64 · (q / 16) + 2 · (q mod 16). -/
theorem V_v21_eq (c : Dev nD) : (V m c main_call0_v21 : S1024x256.Idx → EReal) = hsel hrow := by
  dsimp only [Gen.V, Gen.V0]
  simp only [Gen.hostOps0, List.flatten_cons, List.flatten_nil, List.append_nil, List.cons_append, List.nil_append]
  after_results_simp
  rfl

theorem V_v21_apply (c : Dev nD) (l : Fin 1024) (q : Fin 256) :
    (V m c main_call0_v21 : S1024x256.Idx → EReal) (ix2 l q)
      = if l.val = 64 * (q.val / 16) + 2 * (q.val % 16) then (1 : EReal) else 0 := by
  rw [V_v21_eq]
  exact hsel_apply hrow l q _ (by have := q.isLt; omega) (hrow_apply q)

/-- The row of the second matrix's one in each column: 32 and 1 further down. -/
def hrow2 : IVec S1x256 32 := addi (addi hrow (hk 32#32)) (hk 1#32)

/-- That row, column by column: 64 · (q / 16) + 2 · (q mod 16) + 33 (computed, as `hrow_apply`). -/
theorem hrow2_apply : ∀ q : Fin 256, hrow2 (ix2 0 q) = BitVec.ofNat 32 (64 * (q.val / 16) + 2 * (q.val % 16) + 33) := by
  decide +kernel

/-- The second selection matrix is the selection matrix of the rows 64 · (q / 16) + 2 · (q mod 16) + 33. -/
theorem V_v29_eq (c : Dev nD) : (V m c main_call0_v29 : S1024x256.Idx → EReal) = hsel hrow2 := by
  dsimp only [Gen.V, Gen.V0]
  simp only [Gen.hostOps0, List.flatten_cons, List.flatten_nil, List.append_nil, List.cons_append, List.nil_append]
  after_results_simp
  rfl

theorem V_v29_apply (c : Dev nD) (l : Fin 1024) (q : Fin 256) :
    (V m c main_call0_v29 : S1024x256.Idx → EReal) (ix2 l q)
      = if l.val = 64 * (q.val / 16) + 2 * (q.val % 16) + 33 then (1 : EReal) else 0 := by
  rw [V_v29_eq]
  exact hsel_apply hrow2 l q _ (by have := q.isLt; omega) (hrow2_apply q)

end Cert.KernelIdeal.KHost

end
-- ==== Proof.KIConv.lean ====
/-
  The parked activation in closed form, at the exact reals: element (n, ch, q) of the large scratch after the
  convolution phase is the sum over the 1024 positions l of (the stacked 1×1 convolution of the rectified image n at
  channel ch and position l) times the entry (l, q) of the selection matrix of ch's half.
-/
import proofs.«114091_g2000004280588758_pallasbulk_1102_22_alg».proof.Proof.KISpec
import proofs.«114091_g2000004280588758_pallasbulk_1102_22_alg».proof.Proof.KIHost
import Idealize.ShloMosaic.PureOps.Ideal.Laws
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.Lib.WholeRead

set_option maxRecDepth 16384

noncomputable section

namespace Cert.KernelIdeal.KConv

open Cert.KernelIdeal Cert.KernelIdeal.Gen Cert.KernelIdeal.Body
open Idealize.ShloMosaic Idealize.ShloMosaic.TcCoe Idealize.SL.Sem
open Idealize.ShloMosaic.Pipeline (Dat Cfg Window BodyObligation cellOf)
open Idealize.ShloMosaic.ValueIdx

/-! ## The payload at an index, at the exact reals -/

/-- The leaky rectifier: max(z, 0.01·z), 0.01 as the f32 the kernel's constant denotes. -/
def lr (z : EReal) : EReal := max z (Ideal.ofBits .f32 0x3C23D70A#32 * z)

/-- A 128×128 by 128×1024 product into zero, entry by entry. -/
theorem mm1_apply (A : FVec Ideal S128x128 .f32) (B : FVec Ideal S128x1024 .f32) (r : Fin 128) (l : Fin 1024) :
    matmul (F := Ideal) dot_S128x128_S128x1024_S128x1024_1_0_0_1_n_n none A B (constant S128x1024 .f32 0x00000000#32) (ix2 r l)
      = ∑ k : Fin 128, A (ix2 r k) * B (ix2 k l) := by
  simp only [matmul]
  rw [Ideal.matmul_constant_zero_apply,
    ← Equiv.sum_comp (contrEquiv1 dot_S128x128_S128x1024_S128x1024_1_0_0_1_n_n 128 rfl rfl).symm]
  refine Finset.sum_congr rfl fun k _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- A 64×1024 by 1024×256 product into zero, entry by entry. -/
theorem mm2_apply (A : FVec Ideal S64x1024 .f32) (B : FVec Ideal S1024x256 .f32) (r : Fin 64) (q : Fin 256) :
    matmul (F := Ideal) dot_S64x1024_S1024x256_S64x256_1_0_0_1_n_n none A B (constant S64x256 .f32 0x00000000#32) (ix2 r q)
      = ∑ l : Fin 1024, A (ix2 r l) * B (ix2 l q) := by
  simp only [matmul]
  rw [Ideal.matmul_constant_zero_apply,
    ← Equiv.sum_comp (contrEquiv1 dot_S64x1024_S1024x256_S64x256_1_0_0_1_n_n 1024 rfl rfl).symm]
  refine Finset.sum_congr rfl fun k _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- The stacked weight times the rectified image, entry by entry. -/
theorem pay2_apply (W : FVec Ideal S128x128 .f32) (xs : Vec Ideal S1x128x1024 .f32) (r : Fin 128) (l : Fin 1024) :
    k0_pay2 (F := Ideal) W xs (ix2 r l) = ∑ k : Fin 128, W (ix2 r k) * lr (xs (ix3 (0 : Fin 1) k l)) := by
  unfold k0_pay2
  rw [mm1_apply]
  refine Finset.sum_congr rfl fun k _ => ?_
  rw [maximumf_apply, mulf_apply, broadcast_apply, shapeCast_1ab_ab_apply]
  rfl

/-- The first half's downsampled activation, entry by entry. -/
theorem pay3_apply (W : FVec Ideal S128x128 .f32) (P : FVec Ideal S1024x256 .f32) (xs : Vec Ideal S1x128x1024 .f32)
    (ch : Fin 64) (q : Fin 256) :
    k0_pay3 (F := Ideal) W P xs (ix3 (0 : Fin 1) ch q)
      = ∑ l : Fin 1024, (∑ k : Fin 128, W (ix2 ⟨ch.val, by omega⟩ k) * lr (xs (ix3 (0 : Fin 1) k l))) * P (ix2 l q) := by
  unfold k0_pay3
  rw [shapeCast_ab_1ab_apply, mm2_apply]
  refine Finset.sum_congr rfl fun l _ => ?_
  rw [slice2_axis0_apply 0 _ slices_S128x1024_o0_0_S64x1024 ch l ⟨ch.val, by omega⟩ (by simp), pay2_apply]

/-- The second half's. -/
theorem pay4_apply (W : FVec Ideal S128x128 .f32) (P : FVec Ideal S1024x256 .f32) (xs : Vec Ideal S1x128x1024 .f32)
    (ch : Fin 64) (q : Fin 256) :
    k0_pay4 (F := Ideal) W P xs (ix3 (0 : Fin 1) ch q)
      = ∑ l : Fin 1024, (∑ k : Fin 128, W (ix2 ⟨64 + ch.val, by omega⟩ k) * lr (xs (ix3 (0 : Fin 1) k l))) * P (ix2 l q) := by
  unfold k0_pay4
  rw [shapeCast_ab_1ab_apply, mm2_apply]
  refine Finset.sum_congr rfl fun l _ => ?_
  rw [slice2_axis0_apply 64 _ slices_S128x1024_o64_0_S64x1024 ch l ⟨64 + ch.val, by omega⟩ rfl, pay2_apply]

variable (m : (ℓ : Loc nD τ sig) → Buf (Elt Ideal) ℓ) (c : Dev nD)

/-! ## The closed form's ingredients -/

/-- The input, each image one row of 1024 positions. -/
def xf (n : Fin 64) (k : Fin 128) (l : Fin 1024) : EReal := (V m c main_call0_v0 : S64x128x1024.Idx → EReal) (ix3 n k l)
/-- The two 64×128 weights stacked: output channels 0 … 63 from the first, 64 … 127 from the second. -/
def wst (ch : Fin 128) (k : Fin 128) : EReal :=
  if h : ch.val < 64 then (V m c main_call0_v1 : S64x128.Idx → EReal) (ix2 ⟨ch.val, h⟩ k)
  else (V m c main_call0_v2 : S64x128.Idx → EReal) (ix2 ⟨ch.val - 64, by have := ch.isLt; omega⟩ k)
/-- The selection matrix of an output channel's half. -/
def psel (ch : Fin 128) (l : Fin 1024) (q : Fin 256) : EReal :=
  if ch.val < 64 then (V m c main_call0_v21 : S1024x256.Idx → EReal) (ix2 l q)
  else (V m c main_call0_v29 : S1024x256.Idx → EReal) (ix2 l q)

/-! ## The windows' blocks in the convolution phase -/

theorem index0_0 : ∀ t : Fin cfg0.N, t.val < 4 → win0_0.index t (0 : Fin 3) = t.val :=
  (by decide +kernel : ∀ t : Fin grid0.N, t.val < 4 → win0_0.index t (0 : Fin 3) = t.val)
theorem index0_1 : ∀ t : Fin cfg0.N, t.val < 4 → win0_0.index t (1 : Fin 3) = 0 :=
  (by decide +kernel : ∀ t : Fin grid0.N, t.val < 4 → win0_0.index t (1 : Fin 3) = 0)
theorem index0_2 : ∀ t : Fin cfg0.N, t.val < 4 → win0_0.index t (2 : Fin 3) = 0 :=
  (by decide +kernel : ∀ t : Fin grid0.N, t.val < 4 → win0_0.index t (2 : Fin 3) = 0)
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

/-- Point t's block of the input is images 16·t … 16·t + 15. -/
theorem iblk0_apply (t : Fin cfg0.N) (ht : t.val < 4) (j : Fin 16) (k : Fin 128) (l : Fin 1024) :
    (iblk m c 0 t : S16x128x1024.Idx → EReal) (ix3 j k l) = xf m c ⟨16 * t.val + j.val, by omega⟩ k l := by
  show (V m c main_call0_v0 : S64x128x1024.Idx → EReal) (((cfg0.win 0).blk t).view.emb (ix3 j k l)) = _
  unfold xf
  congr 1
  funext a; apply Fin.ext
  match a with
  | ⟨0, _⟩ => show win0_0.index t (0 : Fin 3) * 16 + 1 * j.val = 16 * t.val + j.val; rw [index0_0 t ht]; omega
  | ⟨1, _⟩ => show win0_0.index t (1 : Fin 3) * 128 + 1 * k.val = k.val; rw [index0_1 t ht]; omega
  | ⟨2, _⟩ => show win0_0.index t (2 : Fin 3) * 1024 + 1 * l.val = l.val; rw [index0_2 t ht]; omega

/-- The weights' and the selection matrices' blocks are the whole arrays. -/
theorem iblk1_apply (t : Fin cfg0.N) (ch : Fin 64) (k : Fin 128) :
    (iblk m c 1 t : S64x128.Idx → EReal) (ix2 ch k) = (V m c main_call0_v1 : S64x128.Idx → EReal) (ix2 ch k) := by
  show (V m c main_call0_v1 : S64x128.Idx → EReal) (((cfg0.win 1).blk t).view.emb (ix2 ch k)) = _
  congr 1
  funext a; apply Fin.ext
  match a with
  | ⟨0, _⟩ => show win0_1.index t (0 : Fin 2) * 64 + 1 * ch.val = ch.val; rw [index1 t]; simp
  | ⟨1, _⟩ => show win0_1.index t (1 : Fin 2) * 128 + 1 * k.val = k.val; rw [index1 t]; simp
theorem iblk2_apply (t : Fin cfg0.N) (ch : Fin 64) (k : Fin 128) :
    (iblk m c 2 t : S64x128.Idx → EReal) (ix2 ch k) = (V m c main_call0_v2 : S64x128.Idx → EReal) (ix2 ch k) := by
  show (V m c main_call0_v2 : S64x128.Idx → EReal) (((cfg0.win 2).blk t).view.emb (ix2 ch k)) = _
  congr 1
  funext a; apply Fin.ext
  match a with
  | ⟨0, _⟩ => show win0_2.index t (0 : Fin 2) * 64 + 1 * ch.val = ch.val; rw [index2 t]; simp
  | ⟨1, _⟩ => show win0_2.index t (1 : Fin 2) * 128 + 1 * k.val = k.val; rw [index2 t]; simp
theorem iblk3_apply (t : Fin cfg0.N) (l : Fin 1024) (q : Fin 256) :
    (iblk m c 3 t : S1024x256.Idx → EReal) (ix2 l q) = (V m c main_call0_v21 : S1024x256.Idx → EReal) (ix2 l q) := by
  show (V m c main_call0_v21 : S1024x256.Idx → EReal) (((cfg0.win 3).blk t).view.emb (ix2 l q)) = _
  congr 1
  funext a; apply Fin.ext
  match a with
  | ⟨0, _⟩ => show win0_3.index t (0 : Fin 2) * 1024 + 1 * l.val = l.val; rw [index3 t]; simp
  | ⟨1, _⟩ => show win0_3.index t (1 : Fin 2) * 256 + 1 * q.val = q.val; rw [index3 t]; simp
theorem iblk4_apply (t : Fin cfg0.N) (l : Fin 1024) (q : Fin 256) :
    (iblk m c 4 t : S1024x256.Idx → EReal) (ix2 l q) = (V m c main_call0_v29 : S1024x256.Idx → EReal) (ix2 l q) := by
  show (V m c main_call0_v29 : S1024x256.Idx → EReal) (((cfg0.win 4).blk t).view.emb (ix2 l q)) = _
  congr 1
  funext a; apply Fin.ext
  match a with
  | ⟨0, _⟩ => show win0_4.index t (0 : Fin 2) * 1024 + 1 * l.val = l.val; rw [index4 t]; simp
  | ⟨1, _⟩ => show win0_4.index t (1 : Fin 2) * 256 + 1 * q.val = q.val; rw [index4 t]; simp

/-! ## What the body reads at a point of the convolution phase -/

/-- The stacked weight, the two selection matrices and image k of the block, as the body reads them at point t. -/
abbrev Wt (t : Fin cfg0.N) : FVec Ideal S128x128 .f32 := runConv.sl.r c (st0_1 t) (st0_2 t) (fin1 m c t) (fin2 m c t)
abbrev P1t (t : Fin cfg0.N) : FVec Ideal S1024x256 .f32 := runConv.sl.r_1 c (st0_3 t) (fin3 m c t)
abbrev P2t (t : Fin cfg0.N) : FVec Ideal S1024x256 .f32 := runConv.sl.r_2 c (st0_4 t) (fin4 m c t)
theorem inbX (k : Fin 16) : ∀ a, (![k.val, 0, 0] : Fin 3 → ℕ) a + S1x128x1024.size a ≤ S16x128x1024.size a := by
  intro a
  match a with
  | ⟨0, _⟩ => show k.val + 1 ≤ 16; omega
  | ⟨1, _⟩ => show 0 + 128 ≤ 128; omega
  | ⟨2, _⟩ => show 0 + 1024 ≤ 1024; omega
abbrev Xt (t : Fin cfg0.N) (k : Fin 16) : Vec Ideal S1x128x1024 .f32 :=
  View.readAt (Elt Ideal) (st0_0 t).view (Rect.unit (s := S16x128x1024) ![k.val, 0, 0] S1x128x1024.size (inbX k)).toLoadRect (fin0 m c t)

theorem Xt_apply (t : Fin cfg0.N) (ht : t.val < 4) (k : Fin 16) (k' : Fin 128) (l : Fin 1024) :
    Xt m c t k (ix3 (0 : Fin 1) k' l) = xf m c ⟨16 * t.val + k.val, by omega⟩ k' l := by
  show View.readAt (Elt Ideal) (st0_0 t).view _ ((hs0 t).unread (iblk m c 0 t)) _ = _
  rw [Memref.IsWhole.readAt_unread]
  rw [← iblk0_apply m c t ht k k' l]
  congr 1
  funext a; apply Fin.ext
  simp only [LoadRect.idx_apply, Rect.emb_apply, Rect.off_unit, Rect.stride_unit, Nat.one_mul]
  match a with
  | ⟨0, _⟩ => show k.val + 0 = k.val; omega
  | ⟨1, _⟩ => show 0 + k'.val = k'.val; omega
  | ⟨2, _⟩ => show 0 + l.val = l.val; omega

theorem P1t_apply (t : Fin cfg0.N) (l : Fin 1024) (q : Fin 256) :
    P1t m c t (ix2 l q) = (V m c main_call0_v21 : S1024x256.Idx → EReal) (ix2 l q) := by
  unfold P1t runConv.sl.r_1 k0_pay7
  rw [shapeCast_self, Memref.IsWhole.readAt_unread, ← iblk3_apply m c t l q]
  congr 1
  funext a; apply Fin.ext
  simp only [LoadRect.idx_apply, Rect.emb_apply, Rect.off_unit, Rect.stride_unit, Nat.one_mul]
  match a with
  | ⟨0, _⟩ => show 0 + l.val = l.val; omega
  | ⟨1, _⟩ => show 0 + q.val = q.val; omega

theorem P2t_apply (t : Fin cfg0.N) (l : Fin 1024) (q : Fin 256) :
    P2t m c t (ix2 l q) = (V m c main_call0_v29 : S1024x256.Idx → EReal) (ix2 l q) := by
  unfold P2t runConv.sl.r_2 k0_pay8
  rw [shapeCast_self, Memref.IsWhole.readAt_unread, ← iblk4_apply m c t l q]
  congr 1
  funext a; apply Fin.ext
  simp only [LoadRect.idx_apply, Rect.emb_apply, Rect.off_unit, Rect.stride_unit, Nat.one_mul]
  match a with
  | ⟨0, _⟩ => show 0 + l.val = l.val; omega
  | ⟨1, _⟩ => show 0 + q.val = q.val; omega

/-- A whole 64×128 staging buffer read at an entry. -/
theorem whole64_idx (ch : Fin 64) (k : Fin 128) :
    (Rect.unit (s := S64x128) ![0, 0] S64x128.size inb_S64x128_S64x128_0_0).toLoadRect.idx (ix2 ch k) = ix2 ch k := by
  funext a; apply Fin.ext
  simp only [LoadRect.idx_apply, Rect.emb_apply, Rect.off_unit, Rect.stride_unit, Nat.one_mul]
  match a with
  | ⟨0, _⟩ => show 0 + ch.val = ch.val; omega
  | ⟨1, _⟩ => show 0 + k.val = k.val; omega

theorem Wt_apply (t : Fin cfg0.N) (ch : Fin 128) (k : Fin 128) : Wt m c t (ix2 ch k) = wst m c ch k := by
  unfold Wt runConv.sl.r k0_pay6 wst
  by_cases h : ch.val < 64
  · rw [dif_pos h, concatenate_pair_apply_left (t := S128x128) (s₁ := S64x128) (s₂ := S64x128) 0 _ _ _ (ix2 ch k) rfl (ix2 (⟨ch.val, h⟩ : Fin 64) k : S64x128.Idx)
      (fun b => match b with | ⟨0, _⟩ => rfl | ⟨1, _⟩ => rfl),
      shapeCast_self, Memref.IsWhole.readAt_unread, whole64_idx, iblk1_apply]
  · rw [dif_neg h, concatenate_pair_apply_right (t := S128x128) (s₁ := S64x128) (s₂ := S64x128) 0 _ _ _ (ix2 ch k) rfl rfl (ix2 (⟨ch.val - 64, by have := ch.isLt; omega⟩ : Fin 64) k : S64x128.Idx)
      (fun b hb => match b with | ⟨0, _⟩ => absurd rfl hb | ⟨1, _⟩ => rfl)
      (by show ch.val - 64 + 64 = ch.val; omega),
      shapeCast_self, Memref.IsWhole.readAt_unread, whole64_idx, iblk2_apply]

/-! ## The parked activation in closed form -/

/-- The closed form: the rectified image through the stacked 1×1 convolution, then the half's stride-two lattice. -/
def Gcl (y : S64x128x256.Idx) : EReal :=
  ∑ l : Fin 1024, (∑ k : Fin 128, wst m c (y 1) k * lr (xf m c (y 0) k l)) * psel m c (y 1) l (y 2)

/-- Image k's first half at point t, entry by entry. -/
theorem half1_apply (t : Fin cfg0.N) (ht : t.val < 4) (k : Fin 16) (x : S1x64x256.Idx) :
    k0_pay3 (F := Ideal) (Wt m c t) (P1t m c t) (Xt m c t k) x
      = Gcl m c (ix3 ⟨16 * t.val + k.val, by omega⟩ ⟨(x 1).val, by have : (x 1).val < 64 := (x 1).isLt; omega⟩ (x 2)) := by
  obtain ⟨u, ch, q, rfl⟩ : ∃ (u : Fin 1) (ch : Fin 64) (q : Fin 256), x = ix3 u ch q := ⟨x 0, x 1, x 2, eq_ix3 x⟩
  obtain rfl : u = 0 := Subsingleton.elim _ _
  rw [pay3_apply]
  show _ = ∑ l : Fin 1024, (∑ k' : Fin 128, wst m c ⟨ch.val, _⟩ k' * lr (xf m c ⟨16 * t.val + k.val, _⟩ k' l)) * psel m c ⟨ch.val, _⟩ l q
  refine Finset.sum_congr rfl fun l _ => ?_
  have hp : psel m c ⟨ch.val, by omega⟩ l q = P1t m c t (ix2 l q) := by
    rw [P1t_apply]; unfold psel; rw [if_pos (show ch.val < 64 from ch.isLt)]
  rw [hp]
  congr 1
  refine Finset.sum_congr rfl fun k' _ => ?_
  rw [Wt_apply, Xt_apply m c t ht]

/-- Image k's second half at point t, entry by entry. -/
theorem half2_apply (t : Fin cfg0.N) (ht : t.val < 4) (k : Fin 16) (x : S1x64x256.Idx) :
    k0_pay4 (F := Ideal) (Wt m c t) (P2t m c t) (Xt m c t k) x
      = Gcl m c (ix3 ⟨16 * t.val + k.val, by omega⟩ ⟨64 + (x 1).val, by have : (x 1).val < 64 := (x 1).isLt; omega⟩ (x 2)) := by
  obtain ⟨u, ch, q, rfl⟩ : ∃ (u : Fin 1) (ch : Fin 64) (q : Fin 256), x = ix3 u ch q := ⟨x 0, x 1, x 2, eq_ix3 x⟩
  obtain rfl : u = 0 := Subsingleton.elim _ _
  rw [pay4_apply]
  show _ = ∑ l : Fin 1024, (∑ k' : Fin 128, wst m c ⟨64 + ch.val, _⟩ k' * lr (xf m c ⟨16 * t.val + k.val, _⟩ k' l)) * psel m c ⟨64 + ch.val, _⟩ l q
  refine Finset.sum_congr rfl fun l _ => ?_
  have hp : psel m c ⟨64 + ch.val, by omega⟩ l q = P2t m c t (ix2 l q) := by
    rw [P2t_apply]; unfold psel; rw [if_neg (show ¬ 64 + ch.val < 64 by omega)]
  rw [hp]
  congr 1
  refine Finset.sum_congr rfl fun k' _ => ?_
  rw [Wt_apply, Xt_apply m c t ht]

/-! ## The stores of a point, as a list -/

/-- Image k's two stores at point t: the first half over channels 0 … 63 of row 16·t + k, the second over 64 … 127. -/
def pieceLo (t : Fin cfg0.N) (ht : t.val < 4) (k : Fin 16) : View.Piece (Elt Ideal) S64x128x256 .f32 :=
  ⟨Rect.unit (s := S64x128x256) (k0_off1 (grid0.coords t) (BitVec.ofNat 32 k.val)) S1x64x256.size
      (k0_off1_inb (grid0.coords t) (c1_of_lt t ht) k),
    k0_pay3 (F := Ideal) (Wt m c t) (P1t m c t) (Xt m c t k)⟩
def pieceHi (t : Fin cfg0.N) (ht : t.val < 4) (k : Fin 16) : View.Piece (Elt Ideal) S64x128x256 .f32 :=
  ⟨Rect.unit (s := S64x128x256) (k0_off2 (grid0.coords t) (BitVec.ofNat 32 k.val)) S1x64x256.size
      (k0_off2_inb (grid0.coords t) (c1_of_lt t ht) k),
    k0_pay4 (F := Ideal) (Wt m c t) (P2t m c t) (Xt m c t k)⟩

/-- The point's thirty-two stores, the last first. -/
def Lconv (t : Fin cfg0.N) (ht : t.val < 4) : List (View.Piece (Elt Ideal) S64x128x256 .f32) :=
  ([15, 14, 13, 12, 11, 10, 9, 8, 7, 6, 5, 4, 3, 2, 1, 0] : List (Fin 16)).flatMap fun k =>
    [pieceHi m c t ht k, pieceLo m c t ht k]

set_option maxHeartbeats 4000000 in
/-- What point t leaves in the large scratch is those stores over what was there. -/
theorem convAt_eq (t : Fin cfg0.N) (ht : t.val < 4) (f : Bf (F := Ideal) c Ms0) :
    convAt m c t ht f = (Ms0).view.writes (Elt Ideal) f (Lconv m c t ht) := by
  unfold convAt runConv
  dsimp only
  unfold runConv.sl.H10_26 runConv.sl.H10_23 runConv.sl.H10_20 runConv.sl.H10_17 runConv.sl.H10_14 runConv.sl.H10_11
    runConv.sl.H10_8 runConv.sl.H10_4 runConv.sl.H10_2
  rfl

/-- Where a store's rectangle puts its entries. -/
theorem embLo (t : Fin cfg0.N) (ht : t.val < 4) (k : Fin 16) (x : S1x64x256.Idx) :
    (pieceLo m c t ht k).1.emb x
      = ix3 ⟨16 * t.val + k.val, by omega⟩ ⟨(x 1).val, by have : (x 1).val < 64 := (x 1).isLt; omega⟩ (x 2) := by
  have h0 : (x 0).val < 1 := (x 0).isLt
  have o0 : k0_off1 (grid0.coords t) (BitVec.ofNat 32 k.val) 0 = 16 * t.val + k.val := congrFun (off1_eq t ht k) 0
  have o1 : k0_off1 (grid0.coords t) (BitVec.ofNat 32 k.val) 1 = 0 := congrFun (off1_eq t ht k) 1
  have o2 : k0_off1 (grid0.coords t) (BitVec.ofNat 32 k.val) 2 = 0 := congrFun (off1_eq t ht k) 2
  funext a; apply Fin.ext
  unfold pieceLo
  simp only [Rect.emb_apply, Rect.off_unit, Rect.stride_unit, Nat.one_mul]
  match a with
  | ⟨0, _⟩ => show k0_off1 (grid0.coords t) (BitVec.ofNat 32 k.val) 0 + (x 0).val = 16 * t.val + k.val; rw [o0]; omega
  | ⟨1, _⟩ => show k0_off1 (grid0.coords t) (BitVec.ofNat 32 k.val) 1 + (x 1).val = (x 1).val; rw [o1]; omega
  | ⟨2, _⟩ => show k0_off1 (grid0.coords t) (BitVec.ofNat 32 k.val) 2 + (x 2).val = (x 2).val; rw [o2]; omega
theorem embHi (t : Fin cfg0.N) (ht : t.val < 4) (k : Fin 16) (x : S1x64x256.Idx) :
    (pieceHi m c t ht k).1.emb x
      = ix3 ⟨16 * t.val + k.val, by omega⟩ ⟨64 + (x 1).val, by have : (x 1).val < 64 := (x 1).isLt; omega⟩ (x 2) := by
  have h0 : (x 0).val < 1 := (x 0).isLt
  have o0 : k0_off2 (grid0.coords t) (BitVec.ofNat 32 k.val) 0 = 16 * t.val + k.val := congrFun (off2_eq t ht k) 0
  have o1 : k0_off2 (grid0.coords t) (BitVec.ofNat 32 k.val) 1 = 64 := congrFun (off2_eq t ht k) 1
  have o2 : k0_off2 (grid0.coords t) (BitVec.ofNat 32 k.val) 2 = 0 := congrFun (off2_eq t ht k) 2
  funext a; apply Fin.ext
  unfold pieceHi
  simp only [Rect.emb_apply, Rect.off_unit, Rect.stride_unit, Nat.one_mul]
  match a with
  | ⟨0, _⟩ => show k0_off2 (grid0.coords t) (BitVec.ofNat 32 k.val) 0 + (x 0).val = 16 * t.val + k.val; rw [o0]; omega
  | ⟨1, _⟩ => show k0_off2 (grid0.coords t) (BitVec.ofNat 32 k.val) 1 + (x 1).val = 64 + (x 1).val; rw [o1]
  | ⟨2, _⟩ => show k0_off2 (grid0.coords t) (BitVec.ofNat 32 k.val) 2 + (x 2).val = (x 2).val; rw [o2]; omega

/-- Every store's payload is the closed form at the entries it covers. -/
theorem Lconv_pieces (t : Fin cfg0.N) (ht : t.val < 4) :
    ∀ p ∈ Lconv m c t ht, ∀ x : p.1.shape.Idx, p.2 x = Gcl m c (p.1.emb x) := by
  intro p hp
  unfold Lconv at hp
  rw [List.mem_flatMap] at hp
  obtain ⟨k, -, hk⟩ := hp
  simp only [List.mem_cons, List.not_mem_nil, or_false] at hk
  rcases hk with rfl | rfl
  · intro x
    exact (half2_apply m c t ht k x).trans (congrArg (Gcl m c) (embHi m c t ht k x).symm)
  · intro x
    exact (half1_apply m c t ht k x).trans (congrArg (Gcl m c) (embLo m c t ht k x).symm)

/-- The stores cover point t's sixteen rows. -/
theorem Lconv_cover (t : Fin cfg0.N) (ht : t.val < 4) (y : S64x128x256.Idx)
    (hy : 16 * t.val ≤ (y 0).val ∧ (y 0).val < 16 * t.val + 16) : ∃ p ∈ Lconv m c t ht, y ∈ p.1.set := by
  have h1 : (y 1).val < 128 := (y 1).isLt
  have h2 : (y 2).val < 256 := (y 2).isLt
  have e1 : S1x64x256.size = ![1, 64, 256] := rfl
  have hk16 : ∀ k : Fin 16, k ∈ ([15, 14, 13, 12, 11, 10, 9, 8, 7, 6, 5, 4, 3, 2, 1, 0] : List (Fin 16)) := by decide
  obtain ⟨K, hK⟩ : ∃ K : Fin 16, K.val = (y 0).val - 16 * t.val := ⟨⟨(y 0).val - 16 * t.val, by omega⟩, rfl⟩
  by_cases hh : (y 1).val < 64
  · refine ⟨pieceLo m c t ht K, ?_, ?_⟩
    · unfold Lconv
      rw [List.mem_flatMap]
      exact ⟨K, hk16 K, by simp⟩
    · unfold pieceLo
      refine (mem_unit3 _ _ (k0_off1_inb (grid0.coords t) (c1_of_lt t ht) K) y).mpr ?_
      rw [off1_eq t ht K]
      simp only [Matrix.cons_val_zero, Matrix.cons_val_one, Matrix.cons_val_two, Matrix.head_cons, Matrix.tail_cons, e1]
      omega
  · refine ⟨pieceHi m c t ht K, ?_, ?_⟩
    · unfold Lconv
      rw [List.mem_flatMap]
      exact ⟨K, hk16 K, by simp⟩
    · unfold pieceHi
      refine (mem_unit3 _ _ (k0_off2_inb (grid0.coords t) (c1_of_lt t ht) K) y).mpr ?_
      rw [off2_eq t ht K]
      simp only [Matrix.cons_val_zero, Matrix.cons_val_one, Matrix.cons_val_two, Matrix.head_cons, Matrix.tail_cons, e1]
      omega

/-- The parked activation, element by element. -/
theorem G_apply (n : Fin 64) (ch : Fin 128) (q : Fin 256) :
    Cert.KernelIdeal.Body.G m c (ix3 n ch q)
      = ∑ l : Fin 1024, (∑ k : Fin 128, wst m c ch k * lr (xf m c n k l)) * psel m c ch l q := by
  have hn : n.val < 64 := n.isLt
  have h4 : n.val / 16 < 4 := by omega
  show (Ms0).view.read (Elt Ideal) (convN m c (n.val / 16) (Ms0).view.junk) (ix3 n ch q) = Gcl m c (ix3 n ch q)
  unfold convN
  rw [dif_pos h4, convAt_eq, View.read_writes_junk_eq_canon]
  exact View.canon_apply_of_pieces (Gcl m c) _ (Lconv_pieces m c ⟨n.val / 16, by rw [N_eq]; omega⟩ h4) (ix3 n ch q)
    (Lconv_cover m c ⟨n.val / 16, by rw [N_eq]; omega⟩ h4 (ix3 n ch q)
      (by show 16 * (n.val / 16) ≤ n.val ∧ n.val < 16 * (n.val / 16) + 16; omega))

/-! ## The scale and the shift at the fold point -/

theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])

/-- The scale's and the shift's blocks are the whole columns. -/
theorem iblk5_apply (t : Fin cfg0.N) (ch : Fin 128) :
    (iblk m c 5 t : S128x1.Idx → EReal) (ix2 ch (0 : Fin 1)) = (V m c main_call0_v3 : S128x1.Idx → EReal) (ix2 ch (0 : Fin 1)) := by
  show (V m c main_call0_v3 : S128x1.Idx → EReal) (((cfg0.win 5).blk t).view.emb (ix2 ch (0 : Fin 1))) = _
  congr 1
  funext a; apply Fin.ext
  match a with
  | ⟨0, _⟩ => show win0_5.index t (0 : Fin 2) * 128 + 1 * ch.val = ch.val; rw [index5 t]; simp
  | ⟨1, _⟩ => show win0_5.index t (1 : Fin 2) * 1 + 1 * 0 = 0; rw [index5 t]; simp
theorem iblk6_apply (t : Fin cfg0.N) (ch : Fin 128) :
    (iblk m c 6 t : S128x1.Idx → EReal) (ix2 ch (0 : Fin 1)) = (V m c main_call0_v4 : S128x1.Idx → EReal) (ix2 ch (0 : Fin 1)) := by
  show (V m c main_call0_v4 : S128x1.Idx → EReal) (((cfg0.win 6).blk t).view.emb (ix2 ch (0 : Fin 1))) = _
  congr 1
  funext a; apply Fin.ext
  match a with
  | ⟨0, _⟩ => show win0_6.index t (0 : Fin 2) * 128 + 1 * ch.val = ch.val; rw [index6 t]; simp
  | ⟨1, _⟩ => show win0_6.index t (1 : Fin 2) * 1 + 1 * 0 = 0; rw [index6 t]; simp

/-- A whole 128×1 staging buffer read at an entry. -/
theorem whole128_idx (ch : Fin 128) :
    (Rect.unit (s := S128x1) ![0, 0] S128x1.size inb_S128x1_S128x1_0_0).toLoadRect.idx (ix2 ch (0 : Fin 1)) = ix2 ch (0 : Fin 1) := by
  funext a; apply Fin.ext
  simp only [LoadRect.idx_apply, Rect.emb_apply, Rect.off_unit, Rect.stride_unit, Nat.one_mul]
  match a with
  | ⟨0, _⟩ => show 0 + ch.val = ch.val; omega
  | ⟨1, _⟩ => rfl

/-- The scale the fold point loads is the scale argument's entry. -/
theorem gamRead_apply (ch : Fin 128) :
    View.readAt (Elt Ideal) (st0_5 t0_4).view (Rect.unit (s := S128x1) ![0, 0] S128x1.size inb_S128x1_S128x1_0_0).toLoadRect
        (fin5 m c t0_4) (ix2 ch (0 : Fin 1))
      = (m ((c : Thread nD τ).loc main_arg3) : S128.Idx → EReal) (ix1 ch) := by
  rw [Memref.IsWhole.readAt_unread, whole128_idx, iblk5_apply]
  exact KHost.V_v3_apply m c ch

/-- The shift the fold point loads is the shift argument's entry. -/
theorem betRead_apply (ch : Fin 128) :
    View.readAt (Elt Ideal) (st0_6 t0_4).view (Rect.unit (s := S128x1) ![0, 0] S128x1.size inb_S128x1_S128x1_0_0).toLoadRect
        (fin6 m c t0_4) (ix2 ch (0 : Fin 1))
      = (m ((c : Thread nD τ).loc main_arg4) : S128.Idx → EReal) (ix1 ch) := by
  rw [Memref.IsWhole.readAt_unread, whole128_idx, iblk6_apply]
  exact KHost.V_v4_apply m c ch

end Cert.KernelIdeal.KConv

end
-- ==== Proof.KILink2.lean ====
/-
  The kernel's side of the identity, closed: the parked activations are the core's convolution (the full-resolution
  product followed by the 0/1 selection is the block-diagonal product over the gathered input), gamma and beta are the
  real arrays, so every element of the kernel's output array is the core's fused result.
-/
import proofs.«114091_g2000004280588758_pallasbulk_1102_22_alg».proof.Proof.KILink
import proofs.«114091_g2000004280588758_pallasbulk_1102_22_alg».proof.Proof.KIConv

noncomputable section

namespace Cert.KernelIdeal.Body

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)
  (hpre : Cert.Pre_KernelIdeal (hPre_finite_inputs := Cert.Pre_finite_inputs.Gen.facts) m) (c : Dev nD)

theorem Gf_core (n : Fin 64) (ch : Fin 128) (q : Fin 256) :
    Gf m c n ch q = Cert.Alg.y (Cert.Wit.Wr m hpre c) (Cert.Wit.Lr m hpre c) n ch q := by
  show G m c (ix3 n ch q) = _
  rw [Cert.KernelIdeal.KConv.G_apply]
  rw [← Cert.Alg.conv_eq (Cert.Wit.xR m hpre c) (Cert.Wit.w1R m hpre c) (Cert.Wit.w2R m hpre c) Cert.Wit.cR n ch q]
  refine Finset.sum_congr rfl fun l _ => ?_
  congr 1
  · refine Finset.sum_congr rfl fun k _ => ?_
    congr 1
    · unfold Cert.KernelIdeal.KConv.wst Cert.Alg.wstr
      split_ifs with h
      · rw [Cert.KernelIdeal.KHost.V_v1_apply, Cert.Wit.w1R_spec m hpre c]
      · rw [Cert.KernelIdeal.KHost.V_v2_apply, Cert.Wit.w2R_spec m hpre c]
    · unfold Cert.KernelIdeal.KConv.lr Cert.KernelIdeal.KConv.xf Cert.Alg.lrr
      rw [Cert.KernelIdeal.KHost.V_v0_apply, Cert.Wit.xR_spec m hpre c, Cert.Wit.cR_spec, Cert.Consts.leaky_max]
  · unfold Cert.KernelIdeal.KConv.psel Cert.Alg.selPos
    by_cases h : ch.val < 64
    · rw [if_pos h, if_pos h, Cert.KernelIdeal.KHost.V_v21_apply]
    · rw [if_neg h, if_neg h, Cert.KernelIdeal.KHost.V_v29_apply]

/-- Every element of the kernel's output array is the core's fused result at the real data. -/
theorem Kres_final (n : Fin 64) (ch : Fin 128) (q : Fin 256) :
    (Kres m c : S64x128x256.Idx → EReal) (ix3 n ch q)
      = Cert.Alg.outK (Cert.Wit.Wr m hpre c) (Cert.Wit.Lr m hpre c) (Cert.Wit.gR m hpre c) (Cert.Wit.bR m hpre c) Cert.Wit.eR n ch q :=
  Kres_core m c _ _ _ _ _ (Gf_core m hpre c)
    (fun ch => (Cert.KernelIdeal.KConv.gamRead_apply m c ch).trans (Cert.Wit.gR_spec m hpre c ch))
    (fun ch => (Cert.KernelIdeal.KConv.betRead_apply m c ch).trans (Cert.Wit.bR_spec m hpre c ch))
    Cert.Wit.eR_spec n ch q

end Cert.KernelIdeal.Body
end
-- ==== Proof.RefLink3.lean ====
/-
  The identity of the two output arrays. The reference's statistics are the core's two-pass sums (each tile of two
  images, the tiles summed), its scale and bias the core's, so every element of its output array is the core's two-pass
  result; the kernel's is the core's fused result; the core says these agree.
-/
import proofs.«114091_g2000004280588758_pallasbulk_1102_22_alg».proof.Proof.RefLink2
import proofs.«114091_g2000004280588758_pallasbulk_1102_22_alg».proof.Proof.RefStats
import proofs.«114091_g2000004280588758_pallasbulk_1102_22_alg».proof.Proof.KILink2

noncomputable section

namespace Cert.Final

open Idealize.ShloMosaic Idealize.ShloMosaic.TcCoe Idealize.SL.Sem Idealize.ShloMosaic.ValueIdx
open Cert.ReferenceIdeal.RefHost

variable (m : (ℓ : Loc Cert.KernelIdeal.nD Cert.KernelIdeal.τ Cert.KernelIdeal.sig) → Buf (Elt Ideal) ℓ)
  (hpre : Cert.Pre_KernelIdeal (hPre_finite_inputs := Cert.Pre_finite_inputs.Gen.facts) m)
  (m' : (ℓ : Loc Cert.ReferenceIdeal.nD Cert.ReferenceIdeal.τ Cert.ReferenceIdeal.sig) → Buf (Elt Ideal) ℓ)
  (ρ' : Dev Cert.ReferenceIdeal.nD → PrngReg)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (c : Dev Cert.KernelIdeal.nD)

include hagree in
theorem ref_g (ch : Fin 128) : gammaIn m' c (ix1 ch) = (Cert.Wit.gR m hpre c ch : EReal) := by
  show (m' ((c.tc : Thread Cert.ReferenceIdeal.nD Cert.ReferenceIdeal.τ).loc Cert.ReferenceIdeal.main_arg3) : Cert.ReferenceIdeal.S128.Idx → EReal) (ix1 ch) = _
  rw [(hagree c).2.2.2.1]
  exact Cert.Wit.gR_spec m hpre c ch

include hagree in
theorem ref_b (ch : Fin 128) : betaIn m' c (ix1 ch) = (Cert.Wit.bR m hpre c ch : EReal) := by
  show (m' ((c.tc : Thread Cert.ReferenceIdeal.nD Cert.ReferenceIdeal.τ).loc Cert.ReferenceIdeal.main_arg4) : Cert.ReferenceIdeal.S128.Idx → EReal) (ix1 ch) = _
  rw [(hagree c).2.2.2.2]
  exact Cert.Wit.bR_spec m hpre c ch

include hagree in
/-- The sums of the activations and of their squares, as the reference accumulates them. -/
theorem stat0 (ch : Fin 128) : statSum (statsAt m' ρ' c) 0 ch = Cert.Alg.sR (Cert.Wit.Wr m hpre c) (Cert.Wit.Lr m hpre c) ch := by
  unfold statSum Cert.Alg.sR
  rw [zero_add]
  refine Finset.sum_congr rfl fun G _ => ?_
  show (Cert.ReferenceIdeal.Gen.W2 (F := Ideal) m' ρ' c (Proc.devRef .tc Cert.ReferenceIdeal.main_call0_v19) : Cert.ReferenceIdeal.S32x128x2.Idx → EReal) (ix3 G ch 0) = _
  rw [Cert.ReferenceIdeal.RefRun.W2_v19]
  exact (Cert.ReferenceIdeal.RefRun.Sres_tile m' ρ' c _ _ (ref_W1 m hpre m' ρ' hagree c) (ref_L1 m hpre m' ρ' hagree c) G ch).1

include hagree in
theorem stat1 (ch : Fin 128) : statSum (statsAt m' ρ' c) 1 ch = Cert.Alg.qR (Cert.Wit.Wr m hpre c) (Cert.Wit.Lr m hpre c) ch := by
  unfold statSum Cert.Alg.qR
  rw [zero_add]
  refine Finset.sum_congr rfl fun G _ => ?_
  show (Cert.ReferenceIdeal.Gen.W2 (F := Ideal) m' ρ' c (Proc.devRef .tc Cert.ReferenceIdeal.main_call0_v19) : Cert.ReferenceIdeal.S32x128x2.Idx → EReal) (ix3 G ch 1) = _
  rw [Cert.ReferenceIdeal.RefRun.W2_v19]
  exact (Cert.ReferenceIdeal.RefRun.Sres_tile m' ρ' c _ _ (ref_W1 m hpre m' ρ' hagree c) (ref_L1 m hpre m' ρ' hagree c) G ch).2

include hagree in
theorem ref_scale (ch : Fin 128) :
    chScale (statsAt m' ρ' c) (gammaIn m' c) ch
      = Cert.Alg.scaleR (Cert.Wit.Wr m hpre c) (Cert.Wit.Lr m hpre c) (Cert.Wit.gR m hpre c) Cert.Wit.eR ch := by
  unfold chScale chVar chMean Cert.Alg.scaleR Cert.Alg.varR Cert.Alg.meanR
  rw [stat0 m hpre m' ρ' hagree c, stat1 m hpre m' ρ' hagree c, ref_g m hpre m' hagree c, Cert.Consts.ofBits_16384, Cert.Wit.eR_spec]

include hagree in
theorem ref_bias (ch : Fin 128) :
    chBias (statsAt m' ρ' c) (gammaIn m' c) (betaIn m' c) ch
      = Cert.Alg.biasR (Cert.Wit.Wr m hpre c) (Cert.Wit.Lr m hpre c) (Cert.Wit.gR m hpre c) (Cert.Wit.bR m hpre c) Cert.Wit.eR ch := by
  unfold chBias Cert.Alg.biasR
  rw [ref_scale m hpre m' ρ' hagree c, ref_b m hpre m' hagree c]
  unfold chMean Cert.Alg.meanR
  rw [stat0 m hpre m' ρ' hagree c, Cert.Consts.ofBits_16384]

include hagree in
/-- Every element of the reference's output array is the core's two-pass result at the real data. -/
theorem Rres_final (n : Fin 64) (ch : Fin 128) (q : Fin 256) :
    (Cert.ReferenceIdeal.RefRun.Rres (F := Ideal) m' ρ' c : Cert.ReferenceIdeal.S64x128x256.Idx → EReal) (ix3 n ch q)
      = Cert.Alg.outR (Cert.Wit.Wr m hpre c) (Cert.Wit.Lr m hpre c) (Cert.Wit.gR m hpre c) (Cert.Wit.bR m hpre c) Cert.Wit.eR n ch q :=
  Cert.ReferenceIdeal.RefRun.Rres_core m' ρ' c _ _ _ _ _
    (chScale (statsAt m' ρ' c) (gammaIn m' c)) (chBias (statsAt m' ρ' c) (gammaIn m' c) (betaIn m' c))
    (fun n k q => by rw [V3_v7]; exact ref_L1 m hpre m' ρ' hagree c n k q)
    (fun ch k => by rw [wscaled]; congr 1; exact ref_W1 m hpre m' ρ' hagree c ch k)
    (fun ch => biasCol m' ρ' c ch)
    (ref_scale m hpre m' ρ' hagree c) (ref_bias m hpre m' ρ' hagree c) n ch q

include hpre hagree in
/-- THE TWO OUTPUT ARRAYS AGREE. -/
theorem result_arr :
    (Cert.ReferenceIdeal.RefRun.Rres (F := Ideal) m' ρ' c : Cert.ReferenceIdeal.S64x128x256.Idx → EReal)
      = (Cert.KernelIdeal.Body.Kres (F := Ideal) m c : Cert.KernelIdeal.S64x128x256.Idx → EReal) := by
  funext i
  obtain ⟨n, ch, q, rfl⟩ : ∃ (n : Fin 64) (ch : Fin 128) (q : Fin 256), i = ix3 n ch q := ⟨i 0, i 1, i 2, eq_ix3 i⟩
  rw [Rres_final m hpre m' ρ' hagree c]
  refine Eq.trans ?_ (Cert.KernelIdeal.Body.Kres_final m hpre c n ch q).symm
  exact (Cert.Alg.core _ _ _ _ _ Cert.Wit.eR_pos n ch q).symm

end Cert.Final
end
-- ==== Proof.lean ====
/-
  The certificate of the fused factorized-reduce kernel (leaky rectifier, two stride-two 1×1 convolutions picked off
  the full-resolution product by 0/1 selection matrices, channel concatenation, training-mode batch normalisation)
  against its two-pass reference.

  The three frames: the kernel's body is run case by case — the convolution phase p = 0, the point p = 1, b = 0 that
  folds the batch statistics, the rest of the normalisation phase — at both instances, with the two scratch buffers
  tracked from point to point (Proof/K*.lean at the word level, Proof/KI*.lean at the exact reals); the reference's
  frame is its generated run. No operation was rewritten by the idealisation, so `preserves` is trivial.

  The value identity: the kernel's result is the reshape of its output array, whose element (n, ch, q) is
  y · scale + bias with y the parked activation — the stacked 128×128 weight times the rectified image, then the 0/1
  selection of the stride-two lattice point, which is the block-diagonal product over the gathered input — and scale,
  bias folded from the sums of y and y² over all images and positions; the reference's result is the reshape of its
  second region's output array, whose element is the scaled block-diagonal weight times the rectified gathered input
  plus the bias, its statistics summed tile by tile. With finite inputs everything is a real number, the sums regroup,
  x / 16384 is x · 2⁻¹⁴, and (∑ w·l)·s = ∑ (w·s)·l (Proof/Algebra.lean); so the two arrays agree.
-/
import proofs.«114091_g2000004280588758_pallasbulk_1102_22_alg».proof.Defs
import proofs.«114091_g2000004280588758_pallasbulk_1102_22_alg».proof.Proof.Gen.Kernel
import proofs.«114091_g2000004280588758_pallasbulk_1102_22_alg».proof.Proof.Gen.KernelIdeal
import proofs.«114091_g2000004280588758_pallasbulk_1102_22_alg».proof.Proof.Gen.ReferenceIdeal
import proofs.«114091_g2000004280588758_pallasbulk_1102_22_alg».proof.Proof.Gen.ReferenceIdeal.Frame
import proofs.«114091_g2000004280588758_pallasbulk_1102_22_alg».proof.Proof.Gen.Pre_finite_inputs
import proofs.«114091_g2000004280588758_pallasbulk_1102_22_alg».proof.Proof.KRun
import proofs.«114091_g2000004280588758_pallasbulk_1102_22_alg».proof.Proof.KIValue
import proofs.«114091_g2000004280588758_pallasbulk_1102_22_alg».proof.Proof.RefLink3
import proofs.«114091_g2000004280588758_pallasbulk_1102_22_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame m ρ
theorem frame_ki : Cert.frame_KernelIdeal (hKernelIdeal := Cert.KernelIdeal.Gen.facts) (hPre_finite_inputs := Cert.Pre_finite_inputs.Gen.facts) :=
  fun m ρ _ => Cert.KernelIdeal.Body.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ
theorem preserves : Cert.preserves_Kernel_KernelIdeal := trivial

/-- THE VALUE IDENTITY: from argument arrays that agree and are finite, the reference's result — the last line of its
    @main applied to what its second region's write-backs leave — is the kernel's result, the reshape of what the
    normalisation phase's write-backs leave. -/
theorem result_eq (m : (ℓ : Loc Cert.KernelIdeal.nD Cert.KernelIdeal.τ Cert.KernelIdeal.sig) → Buf (Elt Ideal) ℓ)
    (ρ' : Dev Cert.ReferenceIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.Gen.W5 (F := Ideal) m' ρ' c (Proc.devRef .tc Cert.ReferenceIdeal.main_v0)
      = Pipeline.afterTail₀ Cert.KernelIdeal.cfgs (Cert.KernelIdeal.Body.dats (F := Ideal) m) 0 (Cert.KernelIdeal.Gen.V0 m) [Cert.KernelIdeal.Gen.hostOps1] c Cert.KernelIdeal.main_v0 := by
  refine (Cert.ReferenceIdeal.RefRun.W5_v0 (F := Ideal) m' ρ' c).trans ?_
  refine Eq.trans ?_ (Cert.KernelIdeal.Body.tail_eq (F := Ideal) m c).symm
  exact congrArg (fun f => shapeCast _ f _) (Cert.Final.result_arr m hpre m' ρ' hagree c)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ Cert.KernelIdeal.cfgs (Cert.KernelIdeal.Body.dats (F := Ideal) m) 0 (Cert.KernelIdeal.Gen.V0 m) [Cert.KernelIdeal.Gen.hostOps1] c Cert.KernelIdeal.main_v0,
    Cert.KernelIdeal.Body.run_v0 (F := Ideal) m ρ, ?_⟩
  refine (θ_run Cert.ReferenceIdeal.defs _ _).mono (fun _ h c => ⟨(h c).1.trans (result_eq m ρ' m' hpre hagree c), (h c).2⟩)
    (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
